-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v93)) (v2 : (c : Dev Cert.KernelIdeal.nD) → Buf (Elt Ideal) ((c.tc : Thread Cert.KernelIdeal.nD Cert.KernelIdeal.τ).loc Cert.KernelIdeal.main_v71_0)) (v3 : (c : Dev Cert.KernelIdeal.nD) → Buf (Elt Ideal) ((c.tc : Thread Cert.KernelIdeal.nD Cert.KernelIdeal.τ).loc Cert.KernelIdeal.main_v71_1)) (v4 : (c : Dev Cert.KernelIdeal.nD) → Buf (Elt Ideal) ((c.tc : Thread Cert.KernelIdeal.nD Cert.KernelIdeal.τ).loc Cert.KernelIdeal.main_v71_2)) (v5 : (c : Dev Cert.KernelIdeal.nD) → Buf (Elt Ideal) ((c.tc : Thread Cert.KernelIdeal.nD Cert.KernelIdeal.τ).loc Cert.KernelIdeal.main_v71_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_v71_0) = v2 c
          ∧ r.2.mem ((c.tc : Thread Cert.KernelIdeal.nD Cert.KernelIdeal.τ).loc Cert.KernelIdeal.main_v71_1) = v3 c
          ∧ r.2.mem ((c.tc : Thread Cert.KernelIdeal.nD Cert.KernelIdeal.τ).loc Cert.KernelIdeal.main_v71_2) = v4 c
          ∧ r.2.mem ((c.tc : Thread Cert.KernelIdeal.nD Cert.KernelIdeal.τ).loc Cert.KernelIdeal.main_v71_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v117) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000x64 : Shape := ⟨2, ![100000, 64]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg19 : FVec F S32 .f32) (main_arg20 : FVec F S32x10 .f32) (main_arg21 : FVec F S10 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x10 .f32 := Host.absf main_arg20
  let main_cst_36 : FVec F S_ .f32 := constant S_ .f32 0x7F800000#32
  let main_v95 : FVec F S32x10 .f32 := broadcastInDim S32x10 ![] bcast_S_S32x10 main_cst_36
  let main_v96 : IVec S32x10 1 := cmpf .olt main_v94 main_v95
  let main_c_37 : IVec S_ 1 := constantI S_ 1 1#1
  let main_v97 : IVec S_ 1 := (fun x v => Host.reduce IntOp.andi x v reducesTo_S32x10_S_d0_1 h_S_) main_v96 main_c_37
  let main_v98 : IVec S_ 1 := andi main_v93 main_v97
  let main_v99 : FVec F S10 .f32 := Host.absf main_arg21
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg15 : FVec F S32 .f32) (main_arg16 : FVec F S32x10 .f32) (main_arg17 : FVec F S10 .f32) (main_arg18 : FVec F S64x32 .f32) (main_arg19 : FVec F S32 .f32) (main_arg20 : FVec F S32x10 .f32) (main_arg21 : FVec F S10 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x10 .f32 := Host.absf main_arg16
  let main_cst_28 : FVec F S_ .f32 := constant S_ .f32 0x7F800000#32
  let main_v75 : FVec F S32x10 .f32 := broadcastInDim S32x10 ![] bcast_S_S32x10 main_cst_28
  let main_v76 : IVec S32x10 1 := cmpf .olt main_v74 main_v75
  let main_c_29 : IVec S_ 1 := constantI S_ 1 1#1
  let main_v77 : IVec S_ 1 := (fun x v => Host.reduce IntOp.andi x v reducesTo_S32x10_S_d0_1 h_S_) main_v76 main_c_29
  let main_v78 : IVec S_ 1 := andi main_v73 main_v77
  let main_v79 : FVec F S10 .f32 := Host.absf main_arg17
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S64x32 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S32x64 .f32) (main_arg13 : FVec F S64 .f32) (main_arg14 : FVec F S64x32 .f32) (main_arg15 : FVec F S32 .f32) (main_arg16 : FVec F S32x10 .f32) (main_arg17 : FVec F S10 .f32) (main_arg18 : FVec F S64x32 .f32) (main_arg19 : FVec F S32 .f32) (main_arg20 : FVec F S32x10 .f32) (main_arg21 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S32x64 .f32 := Host.absf main_arg12
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S32x64 .f32) (main_arg9 : FVec F S64 .f32) (main_arg10 : FVec F S32x64 .f32) (main_arg11 : FVec F S64 .f32) (main_arg12 : FVec F S32x64 .f32) (main_arg13 : FVec F S64 .f32) (main_arg14 : FVec F S64x32 .f32) (main_arg15 : FVec F S32 .f32) (main_arg16 : FVec F S32x10 .f32) (main_arg17 : FVec F S10 .f32) (main_arg18 : FVec F S64x32 .f32) (main_arg19 : FVec F S32 .f32) (main_arg20 : FVec F S32x10 .f32) (main_arg21 : FVec F S10 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S32 .f32) (main_arg6 : FVec F S32x64 .f32) (main_arg7 : FVec F S64 .f32) (main_arg8 : FVec F S32x64 .f32) (main_arg9 : FVec F S64 .f32) (main_arg10 : FVec F S32x64 .f32) (main_arg11 : FVec F S64 .f32) (main_arg12 : FVec F S32x64 .f32) (main_arg13 : FVec F S64 .f32) (main_arg14 : FVec F S64x32 .f32) (main_arg15 : FVec F S32 .f32) (main_arg16 : FVec F S32x10 .f32) (main_arg17 : FVec F S10 .f32) (main_arg18 : FVec F S64x32 .f32) (main_arg19 : FVec F S32 .f32) (main_arg20 : FVec F S32x10 .f32) (main_arg21 : FVec F S10 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x3200000 32) (main_arg2 : FVec F S100000x64 .f32) (main_arg3 : FVec F S100000x64 .f32) (main_arg4 : FVec F S128x32 .f32) (main_arg5 : FVec F S32 .f32) (main_arg6 : FVec F S32x64 .f32) (main_arg7 : FVec F S64 .f32) (main_arg8 : FVec F S32x64 .f32) (main_arg9 : FVec F S64 .f32) (main_arg10 : FVec F S32x64 .f32) (main_arg11 : FVec F S64 .f32) (main_arg12 : FVec F S32x64 .f32) (main_arg13 : FVec F S64 .f32) (main_arg14 : FVec F S64x32 .f32) (main_arg15 : FVec F S32 .f32) (main_arg16 : FVec F S32x10 .f32) (main_arg17 : FVec F S10 .f32) (main_arg18 : FVec F S64x32 .f32) (main_arg19 : FVec F S32 .f32) (main_arg20 : FVec F S32x10 .f32) (main_arg21 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x3200000 : Shape := ⟨2, ![2, 3200000]⟩
abbrev S100000x64 : Shape := ⟨2, ![100000, 64]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S2000x128 : Shape := ⟨2, ![2000, 128]⟩
abbrev S2000x32 : Shape := ⟨2, ![2000, 32]⟩
abbrev S3300000x32 : Shape := ⟨2, ![3300000, 32]⟩
abbrev S1x32 : Shape := ⟨2, ![1, 32]⟩
abbrev S32x256 : Shape := ⟨2, ![32, 256]⟩
abbrev S100000x256 : Shape := ⟨2, ![100000, 256]⟩
abbrev S2000x256 : Shape := ⟨2, ![2000, 256]⟩
abbrev S1x64 : Shape := ⟨2, ![1, 64]⟩
abbrev S1x10 : Shape := ⟨2, ![1, 10]⟩
abbrev S100000x10 : Shape := ⟨2, ![100000, 10]⟩
abbrev S2000x64 : Shape := ⟨2, ![2000, 64]⟩
abbrev S2000x10 : Shape := ⟨2, ![2000, 10]⟩
abbrev S100000x20 : Shape := ⟨2, ![100000, 20]⟩
abbrev S3200000x1 : Shape := ⟨2, ![3200000, 1]⟩
abbrev S3200000x20 : Shape := ⟨2, ![3200000, 20]⟩
abbrev S3200x20 : Shape := ⟨2, ![3200, 20]⟩
abbrev S3200x1 : Shape := ⟨2, ![3200, 1]⟩
abbrev S3200x10 : Shape := ⟨2, ![3200, 10]⟩
abbrev S3200 : Shape := ⟨1, ![3200]⟩

abbrev nBuf : Space → Nat
  | .hbm => 143
  | .vmem => 53
  | .smem => 0
  | _ => 0

abbrev hbmTy0_0 (i : Nat) : BufTy := match i % 128 with
  | 0 => ⟨S100000x128, .f32⟩
  | 1 => ⟨S2x3200000, .i32⟩
  | 2 => ⟨S100000x64, .f32⟩
  | 3 => ⟨S100000x64, .f32⟩
  | 4 => ⟨S128x32, .f32⟩
  | 5 => ⟨S32, .f32⟩
  | 6 => ⟨S32x64, .f32⟩
  | 7 => ⟨S64, .f32⟩
  | 8 => ⟨S32x64, .f32⟩
  | 9 => ⟨S64, .f32⟩
  | 10 => ⟨S32x64, .f32⟩
  | 11 => ⟨S64, .f32⟩
  | 12 => ⟨S32x64, .f32⟩
  | 13 => ⟨S64, .f32⟩
  | 14 => ⟨S64x32, .f32⟩
  | 15 => ⟨S32, .f32⟩
  | 16 => ⟨S32x10, .f32⟩
  | 17 => ⟨S10, .f32⟩
  | 18 => ⟨S64x32, .f32⟩
  | 19 => ⟨S32, .f32⟩
  | 20 => ⟨S32x10, .f32⟩
  | 21 => ⟨S10, .f32⟩
  | 22 => ⟨S100000, .i32⟩
  | 23 => ⟨S1x3200000, .i32⟩
  | 24 => ⟨S3200000, .i32⟩
  | 25 => ⟨S3300000, .i32⟩
  | 26 => ⟨S1x3200000, .i32⟩
  | 27 => ⟨S3200000, .i32⟩
  | 28 => ⟨S3300000, .i32⟩
  | 29 => ⟨S_, .f32⟩
  | 30 => ⟨S3300000, .f32⟩
  | 31 => ⟨S_, .f32⟩
  | 32 => ⟨S100000, .f32⟩
  | 33 => ⟨S3300000x1, .i32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000, .f32⟩
  | 64 => ⟨S3300000, .f32⟩
  | 65 => ⟨S100000x32, .f32⟩
  | 66 => ⟨S_, .i32⟩
  | 67 => ⟨S3300000, .i32⟩
  | 68 => ⟨S3300000, .i1⟩
  | 69 => ⟨S_, .i32⟩
  | 70 => ⟨S3300000, .i32⟩
  | 71 => ⟨S3300000, .i32⟩
  | 72 => ⟨S3300000, .i32⟩
  | 73 => ⟨S3300000x1, .i32⟩
  | 74 => ⟨S3300000x32, .f32⟩
  | 75 => ⟨S3300000x1, .f32⟩
  | 76 => ⟨S3300000x32, .f32⟩
  | 77 => ⟨S3300000x32, .f32⟩
  | 78 => ⟨S_, .f32⟩
  | 79 => ⟨S100000x32, .f32⟩
  | 80 => ⟨S3300000x1, .i32⟩
  | 81 => ⟨S100000x32, .f32⟩
  | 82 => ⟨S1x32, .f32⟩
  | 83 => ⟨S100000x32, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000x32, .f32⟩
  | 93 => ⟨S3300000x1, .f32⟩
  | 94 => ⟨S3300000x32, .f32⟩
  | 95 => ⟨S3300000x32, .f32⟩
  | 96 => ⟨S_, .f32⟩
  | 97 => ⟨S100000x32, .f32⟩
  | 98 => ⟨S3300000x1, .i32⟩
  | 99 => ⟨S100000x32, .f32⟩
  | 100 => ⟨S32x256, .f32⟩
  | 101 => ⟨S100000x256, .f32⟩
  | 102 => ⟨S1x64, .f32⟩
  | 103 => ⟨S1x64, .f32⟩
  | 104 => ⟨S1x64, .f32⟩
  | 105 => ⟨S1x64, .f32⟩
  | 106 => ⟨S1x32, .f32⟩
  | 107 => ⟨S1x10, .f32⟩
  | 108 => ⟨S1x32, .f32⟩
  | 109 => ⟨S1x10, .f32⟩
  | 110 => ⟨S100000x64, .f32⟩
  | 111 => ⟨S100000x64, .f32⟩
  | 112 => ⟨S100000x64, .f32⟩
  | 113 => ⟨S100000x64, .f32⟩
  | 114 => ⟨S100000x10, .f32⟩
  | 115 => ⟨S100000x10, .f32⟩
  | 116 => ⟨S1x3200000, .i32⟩
  | 117 => ⟨S3200000, .i32⟩
  | 118 => ⟨S1x3200000, .i32⟩
  | 119 => ⟨S3200000, .i32⟩
  | 120 => ⟨S100000x20, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x128, .f32⟩

abbrev hbmTy0_1 (i : Nat) : BufTy := match i % 128 with
  | 0 => ⟨S3200000x1, .i32⟩
  | 1 => ⟨S3200000x20, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S3200000x20, .f32⟩
  | 11 => ⟨S3200000x1, .f32⟩
  | 12 => ⟨S3200000x1, .f32⟩
  | 13 => ⟨S3200000, .f32⟩
  | 14 => ⟨S3200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S1x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S32x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S64x32, .f32⟩
  | .local _ .vmem, ⟨26, _⟩ => ⟨S1x32, .f32⟩
  | .local _ .vmem, ⟨27, _⟩ => ⟨S32x10, .f32⟩
  | .local _ .vmem, ⟨28, _⟩ => ⟨S1x10, .f32⟩
  | .local _ .vmem, ⟨29, _⟩ => ⟨S64x32, .f32⟩
  | .local _ .vmem, ⟨30, _⟩ => ⟨S1x32, .f32⟩
  | .local _ .vmem, ⟨31, _⟩ => ⟨S32x10, .f32⟩
  | .local _ .vmem, ⟨32, _⟩ => ⟨S1x10, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x10, .f32⟩
  | .local _ .vmem, ⟨42, _⟩ => ⟨S2000x10, .f32⟩
  | .local _ .vmem, ⟨43, _⟩ => ⟨S2000x10, .f32⟩
  | .local _ .vmem, ⟨44, _⟩ => ⟨S2000x10, .f32⟩
  | .local _ .vmem, ⟨45, _⟩ => ⟨S3200x20, .f32⟩
  | .local _ .vmem, ⟨46, _⟩ => ⟨S3200x20, .f32⟩
  | .local _ .vmem, ⟨47, _⟩ => ⟨S3200x20, .f32⟩
  | .local _ .vmem, ⟨48, _⟩ => ⟨S3200x20, .f32⟩
  | .local _ .vmem, ⟨49, _⟩ => ⟨S3200x1, .f32⟩
  | .local _ .vmem, ⟨50, _⟩ => ⟨S3200x1, .f32⟩
  | .local _ .vmem, ⟨51, _⟩ => ⟨S3200x1, .f32⟩
  | .local _ .vmem, ⟨52, _⟩ => ⟨S3200x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_9 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_10 : Ref sig .tc := ⟨.hbm, 84, rfl⟩
abbrev main_v48 : Ref sig .tc := ⟨.hbm, 85, rfl⟩
abbrev main_v49 : Ref sig .tc := ⟨.hbm, 86, rfl⟩
abbrev main_c_11 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71_0 : Ref sig .tc := ⟨.hbm, 110, rfl⟩
abbrev main_v71_1 : Ref sig .tc := ⟨.hbm, 111, rfl⟩
abbrev main_v71_2 : Ref sig .tc := ⟨.hbm, 112, rfl⟩
abbrev main_v71_3 : Ref sig .tc := ⟨.hbm, 113, rfl⟩
abbrev main_v71_4 : Ref sig .tc := ⟨.hbm, 114, rfl⟩
abbrev main_v71_5 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_13 : Ref sig .tc := ⟨.hbm, 121, rfl⟩
abbrev main_v77 : Ref sig .tc := ⟨.hbm, 122, rfl⟩
abbrev main_v78 : Ref sig .tc := ⟨.hbm, 123, rfl⟩
abbrev main_c_14 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_15 : Ref sig .tc := ⟨.hbm, 130, rfl⟩
abbrev main_v84 : Ref sig .tc := ⟨.hbm, 131, rfl⟩
abbrev main_v85 : Ref sig .tc := ⟨.hbm, 132, rfl⟩
abbrev main_c_16 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91_0 : Ref sig .tc := ⟨.hbm, 139, rfl⟩
abbrev main_v91_1 : Ref sig .tc := ⟨.hbm, 140, rfl⟩
abbrev main_v92 : Ref sig .tc := ⟨.hbm, 141, rfl⟩
abbrev main_v93 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg5_1 : Ref sig .tc := ⟨.vmem, 22, rfl⟩
abbrev cc3_stg6_0 : Ref sig .tc := ⟨.vmem, 23, rfl⟩
abbrev cc3_stg6_1 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg9_0 : Ref sig .tc := ⟨.vmem, 27, rfl⟩
abbrev cc3_stg10_0 : Ref sig .tc := ⟨.vmem, 28, rfl⟩
abbrev cc3_stg11_0 : Ref sig .tc := ⟨.vmem, 29, rfl⟩
abbrev cc3_stg12_0 : Ref sig .tc := ⟨.vmem, 30, rfl⟩
abbrev cc3_stg13_0 : Ref sig .tc := ⟨.vmem, 31, rfl⟩
abbrev cc3_stg14_0 : Ref sig .tc := ⟨.vmem, 32, rfl⟩
abbrev cc3_stg15_0 : Ref sig .tc := ⟨.vmem, 33, rfl⟩
abbrev cc3_stg15_1 : Ref sig .tc := ⟨.vmem, 34, rfl⟩
abbrev cc3_stg16_0 : Ref sig .tc := ⟨.vmem, 35, rfl⟩
abbrev cc3_stg16_1 : Ref sig .tc := ⟨.vmem, 36, rfl⟩
abbrev cc3_stg17_0 : Ref sig .tc := ⟨.vmem, 37, rfl⟩
abbrev cc3_stg17_1 : Ref sig .tc := ⟨.vmem, 38, rfl⟩
abbrev cc3_stg18_0 : Ref sig .tc := ⟨.vmem, 39, rfl⟩
abbrev cc3_stg18_1 : Ref sig .tc := ⟨.vmem, 40, rfl⟩
abbrev cc3_stg19_0 : Ref sig .tc := ⟨.vmem, 41, rfl⟩
abbrev cc3_stg19_1 : Ref sig .tc := ⟨.vmem, 42, rfl⟩
abbrev cc3_stg20_0 : Ref sig .tc := ⟨.vmem, 43, rfl⟩
abbrev cc3_stg20_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg3_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem5_1 : DmaSem sig := 22
abbrev cc3_sem6_0 : DmaSem sig := 23
abbrev cc3_sem6_1 : DmaSem sig := 24
abbrev cc3_sem7_0 : DmaSem sig := 25
abbrev cc3_sem8_0 : DmaSem sig := 26
abbrev cc3_sem9_0 : DmaSem sig := 27
abbrev cc3_sem10_0 : DmaSem sig := 28
abbrev cc3_sem11_0 : DmaSem sig := 29
abbrev cc3_sem12_0 : DmaSem sig := 30
abbrev cc3_sem13_0 : DmaSem sig := 31
abbrev cc3_sem14_0 : DmaSem sig := 32
abbrev cc3_sem15_0 : DmaSem sig := 33
abbrev cc3_sem15_1 : DmaSem sig := 34
abbrev cc3_sem16_0 : DmaSem sig := 35
abbrev cc3_sem16_1 : DmaSem sig := 36
abbrev cc3_sem17_0 : DmaSem sig := 37
abbrev cc3_sem17_1 : DmaSem sig := 38
abbrev cc3_sem18_0 : DmaSem sig := 39
abbrev cc3_sem18_1 : DmaSem sig := 40
abbrev cc3_sem19_0 : DmaSem sig := 41
abbrev cc3_sem19_1 : DmaSem sig := 42
abbrev cc3_sem20_0 : DmaSem sig := 43
abbrev cc3_sem20_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem3_1 : DmaSem sig := 52

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_16 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_17 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_18 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_19 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_20 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S64x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S32x10 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x10 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x32 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x32 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S32x10 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x10 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S2000x64 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 2 → Memref sig .tc .vmem S2000x64 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev stage3_17 : Fin 2 → Memref sig .tc .vmem S2000x64 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev stage3_18 : Fin 2 → Memref sig .tc .vmem S2000x64 .f32 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev stage3_19 : Fin 2 → Memref sig .tc .vmem S2000x10 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev stage3_20 : Fin 2 → Memref sig .tc .vmem S2000x10 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

abbrev grid4 : Pipeline.Grid := ⟨1, ![1000], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3200x20 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3200x20 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3200x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S3200x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S2000x32_S2000x32_0_0 : ∀ a, (![0, 0] : Fin 2 → Nat) a + S2000x32.size a ≤ S2000x32.size a
  h_S2000x32 : 0 < S2000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  concatenates_S32x64_S32x64_S32x64_S32x64_S32x256_d1 : Shape.Concatenates [S32x64, S32x64, S32x64, S32x64] S32x256 1
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S2000x256_S2000x256_0_0 : ∀ a, (![0, 0] : Fin 2 → Nat) a + S2000x256.size a ≤ S2000x256.size a
  h_S2000x256 : 0 < S2000x256.numel
  shapeCasts_S64_S1x64 : S64.ShapeCasts S1x64
  shapeCasts_S10_S1x10 : S10.ShapeCasts S1x10
  shapeCasts_S2000x256_S2000x256 : S2000x256.ShapeCasts S2000x256
  slices_S2000x256_o0_0_S2000x64 : S2000x256.Slices ![0, 0] S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  inb_S2000x64_S2000x64_0_0 : ∀ a, (![0, 0] : Fin 2 → Nat) a + S2000x64.size a ≤ S2000x64.size a
  h_S2000x64 : 0 < S2000x64.numel
  inb_S64x32_S64x32_0_0 : ∀ a, (![0, 0] : Fin 2 → Nat) a + S64x32.size a ≤ S64x32.size a
  h_S64x32 : 0 < S64x32.numel
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  concatenates_S100000x10_S100000x10_S100000x20_d1 : Shape.Concatenates [S100000x10, S100000x10] S100000x20 1
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S3200x20_S3200x20_0_0 : ∀ a, (![0, 0] : Fin 2 → Nat) a + S3200x20.size a ≤ S3200x20.size a
  h_S3200x20 : 0 < S3200x20.numel
  shapeCasts_S3200x20_S3200x20 : S3200x20.ShapeCasts S3200x20
  slices_S3200x20_o0_0_S3200x10 : S3200x20.Slices ![0, 0] S3200x10
  reduces_S3200x10_S3200 : S3200x10.Reduces [1] S3200
  shapeCasts_S3200_S3200x1 : S3200.ShapeCasts S3200x1
  slices_S3200x20_o0_10_S3200x10 : S3200x20.Slices ![0, 10] S3200x10
  inb_S3200x1_S3200x1_0_0 : ∀ a, (![0, 0] : Fin 2 → Nat) a + S3200x1.size a ≤ S3200x1.size a
  h_S3200x1 : 0 < S3200x1.numel
  shapeCasts_S3200000x1_S3200000 : S3200000x1.ShapeCasts S3200000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x128_S128x32_S2000x32_1_0_0_1_n_n_wf : DotDims.WF S2000x128 S128x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x256_S2000x256_1_0_0_1_n_n_wf : DotDims.WF S2000x32 S32x256 S2000x256 [1] [0] [0] [1] [] []
  dot_S2000x64_S64x32_S2000x32_1_0_0_1_n_n_wf : DotDims.WF S2000x64 S64x32 S2000x32 [1] [0] [0] [1] [] []
  dot_S2000x32_S32x10_S2000x10_1_0_0_1_n_n_wf : DotDims.WF S2000x32 S32x10 S2000x10 [1] [0] [0] [1] [] []
  gather_S100000x20_S3200000x1_S3200000x20_1_0_n_n_0_1_120_wf : GatherDims.WF S100000x20 S3200000x1 S3200000x20 [1] [0] [] [0] [] 1 ![1, 20]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x256.size a ≤ S32x256.size a
  hwx2_1 : ∀ i : grid2.Coords, EltTy.bits .f32 = 32 ∨ (Rect.block (s := S32x256) S32x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x32.size a ≤ S64x32.size a
  hwx3_7 : ∀ i : grid3.Coords, EltTy.bits .f32 = 32 ∨ (Rect.block (s := S64x32) S64x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x32.size a ≤ S1x32.size a
  hwx3_8 : ∀ i : grid3.Coords, EltTy.bits .f32 = 32 ∨ (Rect.block (s := S1x32) S1x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S32x10.size a ≤ S32x10.size a
  hwx3_9 : ∀ i : grid3.Coords, EltTy.bits .f32 = 32 ∨ (Rect.block (s := S32x10) S32x10.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x10.size a ≤ S1x10.size a
  hwx3_10 : ∀ i : grid3.Coords, EltTy.bits .f32 = 32 ∨ (Rect.block (s := S1x10) S1x10.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64x32.size a ≤ S64x32.size a
  hwx3_11 : ∀ i : grid3.Coords, EltTy.bits .f32 = 32 ∨ (Rect.block (s := S64x32) S64x32.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x32.size a ≤ S1x32.size a
  hwx3_12 : ∀ i : grid3.Coords, EltTy.bits .f32 = 32 ∨ (Rect.block (s := S1x32) S1x32.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S32x10.size a ≤ S32x10.size a
  hwx3_13 : ∀ i : grid3.Coords, EltTy.bits .f32 = 32 ∨ (Rect.block (s := S32x10) S32x10.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x10.size a ≤ S1x10.size a
  hwx3_14 : ∀ i : grid3.Coords, EltTy.bits .f32 = 32 ∨ (Rect.block (s := S1x10) S1x10.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S2000x64.size a ≤ S100000x64.size a
  hwx3_15 : ∀ i : grid3.Coords, EltTy.bits .f32 = 32 ∨ (Rect.block (s := S100000x64) S2000x64.size (cc3_transform_15 i) (hinb3_15 i)).WholeWords (EltTy.packing .f32)
  hstage3_16 : ∀ j, (stage3_16 j).IsWhole
  nbuf3_16 : grid3.bufCount reads3_16 false = 2
  hreads3_16 : ∀ i i' : grid3.Coords, (∀ a, reads3_16 a = true → i a = i' a) → cc3_transform_16 i = cc3_transform_16 i'
  hinb3_16 : ∀ (i : grid3.Coords) a, (cc3_transform_16 i a + 1) * S2000x64.size a ≤ S100000x64.size a
  hwx3_16 : ∀ i : grid3.Coords, EltTy.bits .f32 = 32 ∨ (Rect.block (s := S100000x64) S2000x64.size (cc3_transform_16 i) (hinb3_16 i)).WholeWords (EltTy.packing .f32)
  hstage3_17 : ∀ j, (stage3_17 j).IsWhole
  nbuf3_17 : grid3.bufCount reads3_17 false = 2
  hreads3_17 : ∀ i i' : grid3.Coords, (∀ a, reads3_17 a = true → i a = i' a) → cc3_transform_17 i = cc3_transform_17 i'
  hinb3_17 : ∀ (i : grid3.Coords) a, (cc3_transform_17 i a + 1) * S2000x64.size a ≤ S100000x64.size a
  hwx3_17 : ∀ i : grid3.Coords, EltTy.bits .f32 = 32 ∨ (Rect.block (s := S100000x64) S2000x64.size (cc3_transform_17 i) (hinb3_17 i)).WholeWords (EltTy.packing .f32)
  hstage3_18 : ∀ j, (stage3_18 j).IsWhole
  nbuf3_18 : grid3.bufCount reads3_18 false = 2
  hreads3_18 : ∀ i i' : grid3.Coords, (∀ a, reads3_18 a = true → i a = i' a) → cc3_transform_18 i = cc3_transform_18 i'
  hinb3_18 : ∀ (i : grid3.Coords) a, (cc3_transform_18 i a + 1) * S2000x64.size a ≤ S100000x64.size a
  hwx3_18 : ∀ i : grid3.Coords, EltTy.bits .f32 = 32 ∨ (Rect.block (s := S100000x64) S2000x64.size (cc3_transform_18 i) (hinb3_18 i)).WholeWords (EltTy.packing .f32)
  hstage3_19 : ∀ j, (stage3_19 j).IsWhole
  nbuf3_19 : grid3.bufCount reads3_19 false = 2
  hreads3_19 : ∀ i i' : grid3.Coords, (∀ a, reads3_19 a = true → i a = i' a) → cc3_transform_19 i = cc3_transform_19 i'
  hinb3_19 : ∀ (i : grid3.Coords) a, (cc3_transform_19 i a + 1) * S2000x10.size a ≤ S100000x10.size a
  hwx3_19 : ∀ i : grid3.Coords, EltTy.bits .f32 = 32 ∨ (Rect.block (s := S100000x10) S2000x10.size (cc3_transform_19 i) (hinb3_19 i)).WholeWords (EltTy.packing .f32)
  hstage3_20 : ∀ j, (stage3_20 j).IsWhole
  nbuf3_20 : grid3.bufCount reads3_20 false = 2
  hreads3_20 : ∀ i i' : grid3.Coords, (∀ a, reads3_20 a = true → i a = i' a) → cc3_transform_20 i = cc3_transform_20 i'
  hinb3_20 : ∀ (i : grid3.Coords) a, (cc3_transform_20 i a + 1) * S2000x10.size a ≤ S100000x10.size a
  hwx3_20 : ∀ i : grid3.Coords, EltTy.bits .f32 = 32 ∨ (Rect.block (s := S100000x10) S2000x10.size (cc3_transform_20 i) (hinb3_20 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3200x20.size a ≤ S3200000x20.size a
  hwx4_0 : ∀ i : grid4.Coords, EltTy.bits .f32 = 32 ∨ (Rect.block (s := S3200000x20) S3200x20.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3200x20.size a ≤ S3200000x20.size a
  hwx4_1 : ∀ i : grid4.Coords, EltTy.bits .f32 = 32 ∨ (Rect.block (s := S3200000x20) S3200x20.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3200x1.size a ≤ S3200000x1.size a
  hwx4_2 : ∀ i : grid4.Coords, EltTy.bits .f32 = 32 ∨ (Rect.block (s := S3200000x1) S3200x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S3200x1.size a ≤ S3200000x1.size a
  hwx4_3 : ∀ i : grid4.Coords, EltTy.bits .f32 = 32 ∨ (Rect.block (s := S3200000x1) S3200x1.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x10_S2000x10_1_0_0_1_n_n : DotDims S2000x32 S32x10 S2000x10 where
  lhsContracting := [1]
  rhsContracting := [0]
  lhsNonContracting := [0]
  rhsNonContracting := [1]
  lhsBatch := []
  rhsBatch := []
  wf := dot_S2000x32_S32x10_S2000x10_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S32x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg2) S2000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg3) S2000x64.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg14) S64x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v67) S1x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg16) S32x10.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v68) S1x10.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg18) S64x32.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v69) S1x32.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_arg20) S32x10.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v70) S1x10.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v71_0) S2000x64.size cc3_transform_15 reads3_15 true false 2 stage3_15 sem3_15
    hrank3 hreads3_15 hinb3_15 nbuf3_15 (Memref.isWhole_whole _) hwx3_15 hstage3_15

abbrev win3_16 : Pipeline.Window sig grid3 :=
  Pipeline.Window.ofSpec (Memref.whole main_v71_1) S2000x64.size cc3_transform_16 reads3_16 true false 2 stage3_16 sem3_16
    hrank3 hreads3_16 hinb3_16 nbuf3_16 (Memref.isWhole_whole _) hwx3_16 hstage3_16

abbrev win3_17 : Pipeline.Window sig grid3 :=
  Pipeline.Window.ofSpec (Memref.whole main_v71_2) S2000x64.size cc3_transform_17 reads3_17 true false 2 stage3_17 sem3_17
    hrank3 hreads3_17 hinb3_17 nbuf3_17 (Memref.isWhole_whole _) hwx3_17 hstage3_17

abbrev win3_18 : Pipeline.Window sig grid3 :=
  Pipeline.Window.ofSpec (Memref.whole main_v71_3) S2000x64.size cc3_transform_18 reads3_18 true false 2 stage3_18 sem3_18
    hrank3 hreads3_18 hinb3_18 nbuf3_18 (Memref.isWhole_whole _) hwx3_18 hstage3_18

abbrev win3_19 : Pipeline.Window sig grid3 :=
  Pipeline.Window.ofSpec (Memref.whole main_v71_4) S2000x10.size cc3_transform_19 reads3_19 true false 2 stage3_19 sem3_19
    hrank3 hreads3_19 hinb3_19 nbuf3_19 (Memref.isWhole_whole _) hwx3_19 hstage3_19

abbrev win3_20 : Pipeline.Window sig grid3 :=
  Pipeline.Window.ofSpec (Memref.whole main_v71_5) S2000x10.size cc3_transform_20 reads3_20 true false 2 stage3_20 sem3_20
    hrank3 hreads3_20 hinb3_20 nbuf3_20 (Memref.isWhole_whole _) hwx3_20 hstage3_20

abbrev win3 : Fin 21 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | ⟨_ + 21, h⟩ => absurd h (Nat.not_lt.2 (Nat.le_add_left _ _))
abbrev spec3 : Fin 21 → Pipeline.WinSpec sig grid3.rank := fun w => (win3 w).toWinSpec

abbrev win4_0 : Pipeline.Window sig grid4 :=
  Pipeline.Window.ofSpec (Memref.whole main_v83) S3200x20.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S3200x20.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91_0) S3200x1.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v91_1) S3200x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000x64 : Shape := ⟨2, ![100000, 64]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S3300000x64 : Shape := ⟨2, ![3300000, 64]⟩
abbrev S1x64 : Shape := ⟨2, ![1, 64]⟩
abbrev S100000x10 : Shape := ⟨2, ![100000, 10]⟩
abbrev S1x10 : Shape := ⟨2, ![1, 10]⟩
abbrev S3200000x1 : Shape := ⟨2, ![3200000, 1]⟩
abbrev S3200000x10 : Shape := ⟨2, ![3200000, 10]⟩

abbrev nBuf : Space → Nat
  | .hbm => 262
  | .vmem => 0
  | .smem => 0
  | _ => 0

abbrev hbmTy0_0 (i : Nat) : BufTy := match i % 128 with
  | 0 => ⟨S100000x128, .f32⟩
  | 1 => ⟨S2x3200000, .i32⟩
  | 2 => ⟨S100000x64, .f32⟩
  | 3 => ⟨S100000x64, .f32⟩
  | 4 => ⟨S128x32, .f32⟩
  | 5 => ⟨S32, .f32⟩
  | 6 => ⟨S32x64, .f32⟩
  | 7 => ⟨S64, .f32⟩
  | 8 => ⟨S32x64, .f32⟩
  | 9 => ⟨S64, .f32⟩
  | 10 => ⟨S32x64, .f32⟩
  | 11 => ⟨S64, .f32⟩
  | 12 => ⟨S32x64, .f32⟩
  | 13 => ⟨S64, .f32⟩
  | 14 => ⟨S64x32, .f32⟩
  | 15 => ⟨S32, .f32⟩
  | 16 => ⟨S32x10, .f32⟩
  | 17 => ⟨S10, .f32⟩
  | 18 => ⟨S64x32, .f32⟩
  | 19 => ⟨S32, .f32⟩
  | 20 => ⟨S32x10, .f32⟩
  | 21 => ⟨S10, .f32⟩
  | 22 => ⟨S100000, .i32⟩
  | 23 => ⟨S1x3200000, .i32⟩
  | 24 => ⟨S3200000, .i32⟩
  | 25 => ⟨S3300000, .i32⟩
  | 26 => ⟨S1x3200000, .i32⟩
  | 27 => ⟨S3200000, .i32⟩
  | 28 => ⟨S3300000, .i32⟩
  | 29 => ⟨S_, .f32⟩
  | 30 => ⟨S3300000, .f32⟩
  | 31 => ⟨S_, .f32⟩
  | 32 => ⟨S100000, .f32⟩
  | 33 => ⟨S3300000x1, .i32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000, .f32⟩
  | 64 => ⟨S3300000, .f32⟩
  | 65 => ⟨S100000x32, .f32⟩
  | 66 => ⟨S_, .i32⟩
  | 67 => ⟨S3300000, .i32⟩
  | 68 => ⟨S3300000, .i1⟩
  | 69 => ⟨S_, .i32⟩
  | 70 => ⟨S3300000, .i32⟩
  | 71 => ⟨S3300000, .i32⟩
  | 72 => ⟨S3300000, .i32⟩
  | 73 => ⟨S3300000x1, .i32⟩
  | 74 => ⟨S3300000x32, .f32⟩
  | 75 => ⟨S3300000x1, .f32⟩
  | 76 => ⟨S3300000x32, .f32⟩
  | 77 => ⟨S3300000x32, .f32⟩
  | 78 => ⟨S_, .f32⟩
  | 79 => ⟨S100000x32, .f32⟩
  | 80 => ⟨S3300000x1, .i32⟩
  | 81 => ⟨S100000x32, .f32⟩
  | 82 => ⟨S1x32, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S100000x64, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000x64, .f32⟩
  | 98 => ⟨S3300000x1, .f32⟩
  | 99 => ⟨S3300000x64, .f32⟩
  | 100 => ⟨S3300000x64, .f32⟩
  | 101 => ⟨S_, .f32⟩
  | 102 => ⟨S100000x64, .f32⟩
  | 103 => ⟨S3300000x1, .i32⟩
  | 104 => ⟨S100000x64, .f32⟩
  | 105 => ⟨S1x64, .f32⟩
  | 106 => ⟨S100000x64, .f32⟩
  | 107 => ⟨S100000x64, .f32⟩
  | 108 => ⟨S100000x64, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x64, .f32⟩
  | 118 => ⟨S3300000x1, .f32⟩
  | 119 => ⟨S3300000x64, .f32⟩
  | 120 => ⟨S3300000x64, .f32⟩
  | 121 => ⟨S_, .f32⟩
  | 122 => ⟨S100000x64, .f32⟩
  | 123 => ⟨S3300000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .i32⟩
  | 2 => ⟨S3300000, .i32⟩
  | 3 => ⟨S3300000, .i1⟩
  | 4 => ⟨S_, .i32⟩
  | 5 => ⟨S3300000, .i32⟩
  | 6 => ⟨S3300000, .i32⟩
  | 7 => ⟨S3300000, .i32⟩
  | 8 => ⟨S3300000x1, .i32⟩
  | 9 => ⟨S3300000x64, .f32⟩
  | 10 => ⟨S3300000x1, .f32⟩
  | 11 => ⟨S3300000x64, .f32⟩
  | 12 => ⟨S3300000x64, .f32⟩
  | 13 => ⟨S_, .f32⟩
  | 14 => ⟨S100000x64, .f32⟩
  | 15 => ⟨S3300000x1, .i32⟩
  | 16 => ⟨S100000x64, .f32⟩
  | 17 => ⟨S1x64, .f32⟩
  | 18 => ⟨S100000x64, .f32⟩
  | 19 => ⟨S100000x64, .f32⟩
  | 20 => ⟨S100000x64, .f32⟩
  | 21 => ⟨S_, .i32⟩
  | 22 => ⟨S3300000, .i32⟩
  | 23 => ⟨S3300000, .i1⟩
  | 24 => ⟨S_, .i32⟩
  | 25 => ⟨S3300000, .i32⟩
  | 26 => ⟨S3300000, .i32⟩
  | 27 => ⟨S3300000, .i32⟩
  | 28 => ⟨S3300000x1, .i32⟩
  | 29 => ⟨S3300000x64, .f32⟩
  | 30 => ⟨S3300000x1, .f32⟩
  | 31 => ⟨S3300000x64, .f32⟩
  | 32 => ⟨S3300000x64, .f32⟩
  | 33 => ⟨S_, .f32⟩
  | 34 => ⟨S100000x64, .f32⟩
  | 35 => ⟨S3300000x1, .i32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S1x3200000, .i32⟩
  | 53 => ⟨S3200000, .i32⟩
  | 54 => ⟨S1x3200000, .i32⟩
  | 55 => ⟨S3200000, .i32⟩
  | 56 => ⟨S100000x32, .f32⟩
  | 57 => ⟨S1x32, .f32⟩
  | 58 => ⟨S100000x32, .f32⟩
  | 59 => ⟨S100000x32, .f32⟩
  | 60 => ⟨S100000x32, .f32⟩
  | 61 => ⟨S100000x10, .f32⟩
  | 62 => ⟨S1x10, .f32⟩
  | 63 => ⟨S100000x10, .f32⟩
  | 64 => ⟨S100000x10, .f32⟩
  | 65 => ⟨S100000x10, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S3200000x10, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x10, .f32⟩
  | 84 => ⟨S3200000x10, .f32⟩
  | 85 => ⟨S_, .f32⟩
  | 86 => ⟨S3200000, .f32⟩
  | 87 => ⟨S3200000, .f32⟩
  | 88 => ⟨S3200000, .f32⟩
  | 89 => ⟨S_, .f32⟩
  | 90 => ⟨S3200000, .f32⟩
  | 91 => ⟨S3200000, .f32⟩
  | 92 => ⟨S_, .f32⟩
  | 93 => ⟨S3200000, .f32⟩
  | 94 => ⟨S3200000, .f32⟩
  | 95 => ⟨S100000x32, .f32⟩
  | 96 => ⟨S1x32, .f32⟩
  | 97 => ⟨S100000x32, .f32⟩
  | 98 => ⟨S100000x32, .f32⟩
  | 99 => ⟨S100000x32, .f32⟩
  | 100 => ⟨S100000x10, .f32⟩
  | 101 => ⟨S1x10, .f32⟩
  | 102 => ⟨S100000x10, .f32⟩
  | 103 => ⟨S100000x10, .f32⟩
  | 104 => ⟨S100000x10, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x10, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000x10, .f32⟩
  | 123 => ⟨S3200000x10, .f32⟩
  | 124 => ⟨S_, .f32⟩
  | 125 => ⟨S3200000, .f32⟩
  | 126 => ⟨S3200000, .f32⟩
  | 127 => ⟨S3200000, .f32⟩
  | _ => ⟨S100000x128, .f32⟩

abbrev hbmTy0_2 (i : Nat) : BufTy := match i % 128 with
  | 0 => ⟨S_, .f32⟩
  | 1 => ⟨S3200000, .f32⟩
  | 2 => ⟨S3200000, .f32⟩
  | 3 => ⟨S_, .f32⟩
  | 4 => ⟨S3200000, .f32⟩
  | 5 => ⟨S3200000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_9 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call1_cst : Ref sig .tc := ⟨.hbm, 85, rfl⟩
abbrev main_call1_v0 : Ref sig .tc := ⟨.hbm, 86, rfl⟩
abbrev main_v49 : Ref sig .tc := ⟨.hbm, 87, rfl⟩
abbrev main_v50 : Ref sig .tc := ⟨.hbm, 88, rfl⟩
abbrev main_c_10 : Ref sig .tc := ⟨.hbm, 89, rfl⟩
abbrev main_v51 : Ref sig .tc := ⟨.hbm, 90, rfl⟩
abbrev main_v52 : Ref sig .tc := ⟨.hbm, 91, rfl⟩
abbrev main_c_11 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_13 : Ref sig .tc := ⟨.hbm, 109, rfl⟩
abbrev main_v68 : Ref sig .tc := ⟨.hbm, 110, rfl⟩
abbrev main_v69 : Ref sig .tc := ⟨.hbm, 111, rfl⟩
abbrev main_c_14 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_15 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_16 : Ref sig .tc := ⟨.hbm, 129, rfl⟩
abbrev main_v85 : Ref sig .tc := ⟨.hbm, 130, rfl⟩
abbrev main_v86 : Ref sig .tc := ⟨.hbm, 131, rfl⟩
abbrev main_c_17 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_18 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_19 : Ref sig .tc := ⟨.hbm, 149, rfl⟩
abbrev main_v102 : Ref sig .tc := ⟨.hbm, 150, rfl⟩
abbrev main_v103 : Ref sig .tc := ⟨.hbm, 151, rfl⟩
abbrev main_c_20 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_21 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_22 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_23 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_c_24 : Ref sig .tc := ⟨.hbm, 194, rfl⟩
abbrev main_v142 : Ref sig .tc := ⟨.hbm, 195, rfl⟩
abbrev main_v143 : Ref sig .tc := ⟨.hbm, 196, rfl⟩
abbrev main_c_25 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_c_26 : Ref sig .tc := ⟨.hbm, 203, rfl⟩
abbrev main_v149 : Ref sig .tc := ⟨.hbm, 204, rfl⟩
abbrev main_v150 : Ref sig .tc := ⟨.hbm, 205, rfl⟩
abbrev main_c_27 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_28 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_29 : Ref sig .tc := ⟨.hbm, 217, rfl⟩
abbrev main_v160 : Ref sig .tc := ⟨.hbm, 218, rfl⟩
abbrev main_v161 : Ref sig .tc := ⟨.hbm, 219, rfl⟩
abbrev main_cst_30 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_c_31 : Ref sig .tc := ⟨.hbm, 233, rfl⟩
abbrev main_v174 : Ref sig .tc := ⟨.hbm, 234, rfl⟩
abbrev main_v175 : Ref sig .tc := ⟨.hbm, 235, rfl⟩
abbrev main_c_32 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_c_33 : Ref sig .tc := ⟨.hbm, 242, rfl⟩
abbrev main_v181 : Ref sig .tc := ⟨.hbm, 243, rfl⟩
abbrev main_v182 : Ref sig .tc := ⟨.hbm, 244, rfl⟩
abbrev main_c_34 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_35 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_cst_36 : Ref sig .tc := ⟨.hbm, 256, rfl⟩
abbrev main_v192 : Ref sig .tc := ⟨.hbm, 257, rfl⟩
abbrev main_v193 : Ref sig .tc := ⟨.hbm, 258, rfl⟩
abbrev main_cst_37 : Ref sig .tc := ⟨.hbm, 259, rfl⟩
abbrev main_v194 : Ref sig .tc := ⟨.hbm, 260, rfl⟩
abbrev main_v195 : Ref sig .tc := ⟨.hbm, 261, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x10_S3200000_d1 : S3200000x10.ReducesTo [1] S3200000
  h_S_ : 0 < S_.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  dot_S100000x32_S32x10_S100000x10_1_0_0_1_n_n_wf : DotDims.WF S100000x32 S32x10 S100000x10 [1] [0] [0] [1] [] []
  gather_S100000x10_S3200000x1_S3200000x10_1_0_n_n_0_1_110_wf : GatherDims.WF S100000x10 S3200000x1 S3200000x10 [1] [0] [] [0] [] 1 ![1, 10]

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf

class Facts : Prop extends Facts₀ where

variable [Facts]
-- ==== Proof.RefGen.lean ====
/-
  The reference's run and its read-at-an-index lemmas, gathered under one module so that the modules about the
  reference's values import a single name.
-/
import proofs.«157918_j42898133352759_2_alg».proof.Proof.RefRun
import proofs.«157918_j42898133352759_2_alg».proof.Proof.RefRead
-- ==== Proof.Region0.lean ====
/- The region's half of pallas_call 0 (`cc0__matmul_kernel`), written by hand in the shape a frame certificate
   takes for a program of several regions. Everything here is stated at a parameter `V`: the
   TensorCore's buffer contents at the moment the region is entered. From `V` we read each
   window's block at a grid point, say what the body leaves in the output window's staging buffer
   (one whole-buffer store of the body's payload), prove the body's separation-logic triple by
   symbolic execution, package the pipeline's proof data, and discharge the library's body
   obligation at every grid point. Here the body multiplies a 2000×128 row block of the first operand by the whole 128×32 second operand (both rounded to bf16 first) into a 2000×32 block of the result. -/
import proofs.«157918_j42898133352759_2_alg».proof.Proof.Gen.KernelIdeal.Launch
import proofs.«157918_j42898133352759_2_alg».proof.Proof.Gen.KernelIdeal.Skeleton
import proofs.«157918_j42898133352759_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is decided by a structural recursion, one step
-- per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block's view read off the window's array as the
    region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a fresh row block at every point): whatever proof data we use, as long as its
    array is `V`'s and its body leaves the block where it was, the current staging buffer holds the
    block of the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole second operand, brought in at the first point only): the same
    statement. At a point where nothing is fetched the block index has not moved since the last
    fetch, so the buffer still holds the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The three rectangles the body touches: each is the whole of its staging buffer. -/
abbrev r0_0 : Rect S2000x128 := Rect.unit (s := S2000x128) ![0, 0] S2000x128.size inb_S2000x128_S2000x128_0_0
abbrev r0_1 : Rect S128x32 := Rect.unit (s := S128x32) ![0, 0] S128x32.size inb_S128x32_S128x32_0_0
abbrev r0_2 : Rect S2000x32 := Rect.unit (s := S2000x32) ![0, 0] S2000x32.size inb_S2000x32_S2000x32_0_0

/-! ## What the body leaves in the output window's buffer -/

/-- The output window's staging buffer after the body, as a function of the two input blocks: the
    body stores once, over the whole buffer, the payload computed from the two loaded blocks. -/
def out0_2 (x0 : Vec F S2000x128 .f32) (x1 : Vec F S128x32 .f32) : Vec F S2000x32 .f32 :=
  View.canon [⟨r0_2, k0_pay1 (View.ld x0 r0_0) (View.ld x1 r0_1)⟩]

/-- That one store covers the buffer: its rectangle is the whole extent. -/
theorem cover0_2 (p0 : Vec F S2000x32 .f32) (y : S2000x32.Idx) :
    ∃ pc ∈ ([⟨r0_2, p0⟩] : List (View.Piece (Elt F) S2000x32 .f32)), y ∈ pc.1.set :=
  View.cover_of_tiled [⟨r0_2, p0⟩] S2000x32.size (by rfl) y

/-! ## The body's triple -/

set_option maxHeartbeats 1000000 in
/-- The body on whole staging memrefs. Given the two input memrefs at contents `x0`, `x1` and the
    output memref at anything, it runs to a state where the inputs are unchanged and the output
    holds `out0_2 x0 x1`. The printed body first loads the output memref (a value it never uses)
    and then overwrites it whole. -/
theorem sound_kernel0 (c : Dev nD) (E : Set ℕ) (i : grid0.Coords) (arg1 : Memref sig .tc .vmem S2000x128 .f32) (harg1 : arg1.IsWhole) (arg2 : Memref sig .tc .vmem S128x32 .f32) (harg2 : arg2.IsWhole) (arg3 : Memref sig .tc .vmem S2000x32 .f32) (harg3 : arg3.IsWhole)
    (x0 : Vec F S2000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`. The arrays are as the region finds them (`V`);
    after the body at point `t` each input buffer still holds its block and the output buffer holds
    `out0_2` of the two input blocks; the invariant is the library's standard one (the scoped
    rest and the generator register, untouched); nothing is owed; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window (the `match` of the definition reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debt, and the three current
    staging memrefs at what the pipeline has put in them. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, with every memref at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks (`before0_W`), so the body's triple
    applies; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/- The region's half of pallas_call 1 (`cc1__bias_relu_kernel`), written by hand in the shape a frame certificate
   takes for a program of several regions. Everything here is stated at a parameter `V`: the
   TensorCore's buffer contents at the moment the region is entered. From `V` we read each
   window's block at a grid point, say what the body leaves in the output window's staging buffer
   (one whole-buffer store of the body's payload), prove the body's separation-logic triple by
   symbolic execution, package the pipeline's proof data, and discharge the library's body
   obligation at every grid point. Here the body adds the whole 1×32 bias row, broadcast down the rows, to a 2000×32 row block of the first operand and takes the maximum with zero. -/
import proofs.«157918_j42898133352759_2_alg».proof.Proof.Gen.KernelIdeal.Launch
import proofs.«157918_j42898133352759_2_alg».proof.Proof.Gen.KernelIdeal.Skeleton
import proofs.«157918_j42898133352759_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is decided by a structural recursion, one step
-- per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block's view read off the window's array as the
    region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a fresh row block at every point): whatever proof data we use, as long as its
    array is `V`'s and its body leaves the block where it was, the current staging buffer holds the
    block of the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole second operand, brought in at the first point only): the same
    statement. At a point where nothing is fetched the block index has not moved since the last
    fetch, so the buffer still holds the block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The three rectangles the body touches: each is the whole of its staging buffer. -/
abbrev r1_0 : Rect S2000x32 := Rect.unit (s := S2000x32) ![0, 0] S2000x32.size inb_S2000x32_S2000x32_0_0
abbrev r1_1 : Rect S1x32 := Rect.unit (s := S1x32) ![0, 0] S1x32.size inb_S1x32_S1x32_0_0
abbrev r1_2 : Rect S2000x32 := Rect.unit (s := S2000x32) ![0, 0] S2000x32.size inb_S2000x32_S2000x32_0_0

/-! ## What the body leaves in the output window's buffer -/

/-- The output window's staging buffer after the body, as a function of the two input blocks: the
    body stores once, over the whole buffer, the payload computed from the two loaded blocks. -/
def out1_2 (x0 : Vec F S2000x32 .f32) (x1 : Vec F S1x32 .f32) : Vec F S2000x32 .f32 :=
  View.canon [⟨r1_2, k1_pay1 (View.ld x0 r1_0) (View.ld x1 r1_1)⟩]

/-- That one store covers the buffer: its rectangle is the whole extent. -/
theorem cover1_2 (p0 : Vec F S2000x32 .f32) (y : S2000x32.Idx) :
    ∃ pc ∈ ([⟨r1_2, p0⟩] : List (View.Piece (Elt F) S2000x32 .f32)), y ∈ pc.1.set :=
  View.cover_of_tiled [⟨r1_2, p0⟩] S2000x32.size (by rfl) y

/-! ## The body's triple -/

set_option maxHeartbeats 1000000 in
/-- The body on whole staging memrefs. Given the two input memrefs at contents `x0`, `x1` and the
    output memref at anything, it runs to a state where the inputs are unchanged and the output
    holds `out1_2 x0 x1`. The printed body first loads the output memref (a value it never uses)
    and then overwrites it whole. -/
theorem sound_kernel1 (c : Dev nD) (E : Set ℕ) (i : grid1.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole)
    (x0 : Vec F S2000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`. The arrays are as the region finds them (`V`);
    after the body at point `t` each input buffer still holds its block and the output buffer holds
    `out1_2` of the two input blocks; the invariant is the library's standard one (the scoped
    rest and the generator register, untouched); nothing is owed; all shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the `match` of the definition reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debt, and the three current
    staging memrefs at what the pipeline has put in them. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same, with every memref at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input memrefs hold their blocks (`before1_W`), so the body's triple
    applies; the invariant and the debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/- The region's half of pallas_call 2 (`cc2__matmul_kernel`), written by hand in the shape a frame certificate
   takes for a program of several regions. Everything here is stated at a parameter `V`: the
   TensorCore's buffer contents at the moment the region is entered. From `V` we read each
   window's block at a grid point, say what the body leaves in the output window's staging buffer
   (one whole-buffer store of the body's payload), prove the body's separation-logic triple by
   symbolic execution, package the pipeline's proof data, and discharge the library's body
   obligation at every grid point. Here the body multiplies a 2000×32 row block of the first operand by the whole 32×256 second operand (both rounded to bf16 first) into a 2000×256 block of the result. -/
import proofs.«157918_j42898133352759_2_alg».proof.Proof.Gen.KernelIdeal.Launch
import proofs.«157918_j42898133352759_2_alg».proof.Proof.Gen.KernelIdeal.Skeleton
import proofs.«157918_j42898133352759_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is decided by a structural recursion, one step
-- per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block's view read off the window's array as the
    region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a fresh row block at every point): whatever proof data we use, as long as its
    array is `V`'s and its body leaves the block where it was, the current staging buffer holds the
    block of the point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole second operand, brought in at the first point only): the same
    statement. At a point where nothing is fetched the block index has not moved since the last
    fetch, so the buffer still holds the block of the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The three rectangles the body touches: each is the whole of its staging buffer. -/
abbrev r2_0 : Rect S2000x32 := Rect.unit (s := S2000x32) ![0, 0] S2000x32.size inb_S2000x32_S2000x32_0_0
abbrev r2_1 : Rect S32x256 := Rect.unit (s := S32x256) ![0, 0] S32x256.size inb_S32x256_S32x256_0_0
abbrev r2_2 : Rect S2000x256 := Rect.unit (s := S2000x256) ![0, 0] S2000x256.size inb_S2000x256_S2000x256_0_0

/-! ## What the body leaves in the output window's buffer -/

/-- The output window's staging buffer after the body, as a function of the two input blocks: the
    body stores once, over the whole buffer, the payload computed from the two loaded blocks. -/
def out2_2 (x0 : Vec F S2000x32 .f32) (x1 : Vec F S32x256 .f32) : Vec F S2000x256 .f32 :=
  View.canon [⟨r2_2, k2_pay1 (View.ld x0 r2_0) (View.ld x1 r2_1)⟩]

/-- That one store covers the buffer: its rectangle is the whole extent. -/
theorem cover2_2 (p0 : Vec F S2000x256 .f32) (y : S2000x256.Idx) :
    ∃ pc ∈ ([⟨r2_2, p0⟩] : List (View.Piece (Elt F) S2000x256 .f32)), y ∈ pc.1.set :=
  View.cover_of_tiled [⟨r2_2, p0⟩] S2000x256.size (by rfl) y

/-! ## The body's triple -/

set_option maxHeartbeats 1000000 in
/-- The body on whole staging memrefs. Given the two input memrefs at contents `x0`, `x1` and the
    output memref at anything, it runs to a state where the inputs are unchanged and the output
    holds `out2_2 x0 x1`. The printed body first loads the output memref (a value it never uses)
    and then overwrites it whole. -/
theorem sound_kernel2 (c : Dev nD) (E : Set ℕ) (i : grid2.Coords) (arg1 : Memref sig .tc .vmem S2000x32 .f32) (harg1 : arg1.IsWhole) (arg2 : Memref sig .tc .vmem S32x256 .f32) (harg2 : arg2.IsWhole) (arg3 : Memref sig .tc .vmem S2000x256 .f32) (harg3 : arg3.IsWhole)
    (x0 : Vec F S2000x32 .f32) (x1 : Vec F S32x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`. The arrays are as the region finds them (`V`);
    after the body at point `t` each input buffer still holds its block and the output buffer holds
    `out2_2` of the two input blocks; the invariant is the library's standard one (the scoped
    rest and the generator register, untouched); nothing is owed; all shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the `match` of the definition reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debt, and the three current
    staging memrefs at what the pipeline has put in them. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns: the same, with every memref at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input memrefs hold their blocks (`before2_W`), so the body's triple
    applies; the invariant and the debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region3.lean ====
/- The region's half of the frame certificate for the third TensorCore region of @main (the reparametrise-and-decode
   kernel, `cc3__reparam_decode_kernel`), stated at a PARAMETER `V`: the TensorCore's buffer contents when the region
   is entered. It names each window's block at a grid point, what the body leaves in each of the six output windows'
   staging buffers as a function of the input blocks, proves the body's separation-logic triple, packages the
   pipeline's proof data, and discharges the library's body obligation at every grid point. Generic in the float
   instance. -/
import proofs.«157918_j42898133352759_2_alg».proof.Proof.Gen.KernelIdeal.Launch
import proofs.«157918_j42898133352759_2_alg».proof.Proof.Gen.KernelIdeal.Skeleton
import proofs.«157918_j42898133352759_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! # Region 3 of @main: `cc3__reparam_decode_kernel` (pipeline 3), at the entry contents `V` -/

/-! ## The windows' blocks -/

/-- Window `w`'s block at grid point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the pipeline fetched it there or
    not (the small operands are fetched at the first point only: their block index never moves, so the buffer keeps
    the block), for ANY proof data whose array is `V`'s (`hA`) and whose body leaves the block in place (`hafter`).
    One statement per input window; every window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

-- every load and every store of the body is of a whole staging buffer: one rectangle per buffer shape
abbrev r3_S2000x256 : Rect S2000x256 := Rect.unit (s := S2000x256) ![0, 0] S2000x256.size inb_S2000x256_S2000x256_0_0
abbrev r3_S1x64 : Rect S1x64 := Rect.unit (s := S1x64) ![0, 0] S1x64.size inb_S1x64_S1x64_0_0
abbrev r3_S2000x64 : Rect S2000x64 := Rect.unit (s := S2000x64) ![0, 0] S2000x64.size inb_S2000x64_S2000x64_0_0
abbrev r3_S64x32 : Rect S64x32 := Rect.unit (s := S64x32) ![0, 0] S64x32.size inb_S64x32_S64x32_0_0
abbrev r3_S1x32 : Rect S1x32 := Rect.unit (s := S1x32) ![0, 0] S1x32.size inb_S1x32_S1x32_0_0
abbrev r3_S32x10 : Rect S32x10 := Rect.unit (s := S32x10) ![0, 0] S32x10.size inb_S32x10_S32x10_0_0
abbrev r3_S1x10 : Rect S1x10 := Rect.unit (s := S1x10) ![0, 0] S1x10.size inb_S1x10_S1x10_0_0
abbrev r3_S2000x10 : Rect S2000x10 := Rect.unit (s := S2000x10) ![0, 0] S2000x10.size inb_S2000x10_S2000x10_0_0

/-! ## What the body leaves in each output window's buffer -/

/-- Window 15 (the first mean block): the first 64 columns of the input block plus the first bias row. Its one store, of the whole buffer, as a
    single piece over the skeleton's payload. -/
def out3_15 (x0 : Vec F S2000x256 .f32) (x1 : Vec F S1x64 .f32) : Vec F S2000x64 .f32 :=
  View.canon [⟨r3_S2000x64, k3_pay3 (View.ld x0 r3_S2000x256) (View.ld x1 r3_S1x64)⟩]

/-- Window 16 (the second mean block): columns 64..127 of the input block plus the second bias row. Its one store, of the whole buffer, as a
    single piece over the skeleton's payload. -/
def out3_16 (x0 : Vec F S2000x256 .f32) (x2 : Vec F S1x64 .f32) : Vec F S2000x64 .f32 :=
  View.canon [⟨r3_S2000x64, k3_pay4 (View.ld x0 r3_S2000x256) (View.ld x2 r3_S1x64)⟩]

/-- Window 17 (the first log-variance block): columns 128..191 of the input block plus the third bias row. Its one store, of the whole buffer, as a
    single piece over the skeleton's payload. -/
def out3_17 (x0 : Vec F S2000x256 .f32) (x3 : Vec F S1x64 .f32) : Vec F S2000x64 .f32 :=
  View.canon [⟨r3_S2000x64, k3_pay5 (View.ld x0 r3_S2000x256) (View.ld x3 r3_S1x64)⟩]

/-- Window 18 (the second log-variance block): columns 192..255 of the input block plus the fourth bias row. Its one store, of the whole buffer, as a
    single piece over the skeleton's payload. -/
def out3_18 (x0 : Vec F S2000x256 .f32) (x4 : Vec F S1x64 .f32) : Vec F S2000x64 .f32 :=
  View.canon [⟨r3_S2000x64, k3_pay6 (View.ld x0 r3_S2000x256) (View.ld x4 r3_S1x64)⟩]

/-- Window 19 (the first decoded block): the first sample (mean plus noise times the exponential of half the
    log-variance) through the first two-layer decoder. Its one store, of the whole buffer, as a
    single piece over the skeleton's payload. -/
def out3_19 (x0 : Vec F S2000x256 .f32) (x1 : Vec F S1x64 .f32) (x3 : Vec F S1x64 .f32) (x5 : Vec F S2000x64 .f32) (x7 : Vec F S64x32 .f32) (x8 : Vec F S1x32 .f32) (x9 : Vec F S32x10 .f32) (x10 : Vec F S1x10 .f32) : Vec F S2000x10 .f32 :=
  View.canon [⟨r3_S2000x10, k3_pay8 (k3_pay7 (View.ld x0 r3_S2000x256) (View.ld x1 r3_S1x64) (View.ld x3 r3_S1x64) (View.ld x5 r3_S2000x64)) (View.ld x7 r3_S64x32) (View.ld x8 r3_S1x32) (View.ld x9 r3_S32x10) (View.ld x10 r3_S1x10)⟩]

/-- Window 20 (the second decoded block): the second sample through the second two-layer decoder. Its one store, of the whole buffer, as a
    single piece over the skeleton's payload. -/
def out3_20 (x0 : Vec F S2000x256 .f32) (x2 : Vec F S1x64 .f32) (x4 : Vec F S1x64 .f32) (x6 : Vec F S2000x64 .f32) (x11 : Vec F S64x32 .f32) (x12 : Vec F S1x32 .f32) (x13 : Vec F S32x10 .f32) (x14 : Vec F S1x10 .f32) : Vec F S2000x10 .f32 :=
  View.canon [⟨r3_S2000x10, k3_pay1 (k3_pay9 (k3_pay4 (View.ld x0 r3_S2000x256) (View.ld x2 r3_S1x64)) (k3_pay6 (View.ld x0 r3_S2000x256) (View.ld x4 r3_S1x64)) (View.ld x6 r3_S2000x64) (View.ld x11 r3_S64x32) (View.ld x12 r3_S1x32) (View.ld x13 r3_S32x10)) (View.ld x14 r3_S1x10)⟩]

/-- A single store of the whole buffer tiles it (checked by evaluation), so it covers it: one statement per output
    buffer shape. -/
theorem cover3_S2000x64 (p0 : Vec F S2000x64 .f32) (y : S2000x64.Idx) :
    ∃ pc ∈ ([⟨r3_S2000x64, p0⟩] : List (View.Piece (Elt F) S2000x64 .f32)), y ∈ pc.1.set :=
  View.cover_of_tiled [⟨r3_S2000x64, p0⟩] S2000x64.size (by rfl) y
theorem cover3_S2000x10 (p0 : Vec F S2000x10 .f32) (y : S2000x10.Idx) :
    ∃ pc ∈ ([⟨r3_S2000x10, p0⟩] : List (View.Piece (Elt F) S2000x10 .f32)), y ∈ pc.1.set :=
  View.cover_of_tiled [⟨r3_S2000x10, p0⟩] S2000x10.size (by rfl) y

/-! ## The body's triple -/

set_option maxHeartbeats 1000000 in
/-- The kernel body on whole staging memrefs, the inputs' at read contents `xW` and the outputs' at anything, runs to
    the continuation holding the inputs' as they were and each output's at `out3_W` of the inputs': the printed
    function and its two printed parts are their skeletons of loads and stores over payloads, which are run one
    memory operation at a time. The body loads each output buffer before storing it whole; those loads' values are
    unused. -/
theorem sound_kernel3 (c : Dev nD) (E : Set ℕ) (i : grid3.Coords) (arg1 : Memref sig .tc .vmem S2000x256 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x10 .f32) (harg10 : arg10.IsWhole) (arg11 : Memref sig .tc .vmem S1x10 .f32) (harg11 : arg11.IsWhole) (arg12 : Memref sig .tc .vmem S64x32 .f32) (harg12 : arg12.IsWhole) (arg13 : Memref sig .tc .vmem S1x32 .f32) (harg13 : arg13.IsWhole) (arg14 : Memref sig .tc .vmem S32x10 .f32) (harg14 : arg14.IsWhole) (arg15 : Memref sig .tc .vmem S1x10 .f32) (harg15 : arg15.IsWhole) (arg16 : Memref sig .tc .vmem S2000x64 .f32) (harg16 : arg16.IsWhole) (arg17 : Memref sig .tc .vmem S2000x64 .f32) (harg17 : arg17.IsWhole) (arg18 : Memref sig .tc .vmem S2000x64 .f32) (harg18 : arg18.IsWhole) (arg19 : Memref sig .tc .vmem S2000x64 .f32) (harg19 : arg19.IsWhole) (arg20 : Memref sig .tc .vmem S2000x10 .f32) (harg20 : arg20.IsWhole) (arg21 : Memref sig .tc .vmem S2000x10 .f32) (harg21 : arg21.IsWhole)
    (x0 : Vec F S2000x256 .f32) (x1 : Vec F S1x64 .f32) (x2 : Vec F S1x64 .f32) (x3 : Vec F S1x64 .f32) (x4 : Vec F S1x64 .f32) (x5 : Vec F S2000x64 .f32) (x6 : Vec F S2000x64 .f32) (x7 : Vec F S64x32 .f32) (x8 : Vec F S1x32 .f32) (x9 : Vec F S32x10 .f32) (x10 : Vec F S1x10 .f32) (x11 : Vec F S64x32 .f32) (x12 : Vec F S1x32 .f32) (x13 : Vec F S32x10 .f32) (x14 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out3_15 x0 x1) ∗ owns (c : Thread nD τ) arg17 fullShare (out3_16 x0 x2) ∗ owns (c : Thread nD τ) arg18 fullShare (out3_17 x0 x3) ∗ owns (c : Thread nD τ) arg19 fullShare (out3_18 x0 x4) ∗ owns (c : Thread nD τ) arg20 fullShare (out3_19 x0 x1 x3 x5 x7 x8 x9 x10) ∗ owns (c : Thread nD τ) arg21 fullShare (out3_20 x0 x2 x4 x6 x11 x12 x13 x14)) -∗ K ⟨⟩))
      ⊢ wp frame (wpE (defs₀ (F := F)) Variants.none c none) E (cc3__reparam_decode_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc3__reparam_decode_kernel_eq_skeleton]; unfold cc3__reparam_decode_kernel_skel
  simp only [k3_part1_eq_skeleton, k3_part2_eq_skeleton]; unfold k3_part1_skel k3_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover3_S2000x64 _)
  isplitl [H16]
  · iexists _; isplitr
    swap; · iexact H16
    ipureintro
    exact View.read_writes_eq_canon _ _ _ (cover3_S2000x64 _)
  isplitl [H17]
  · iexists _; isplitr
    swap; · iexact H17
    ipureintro
    exact View.read_writes_eq_canon _ _ _ (cover3_S2000x64 _)
  isplitl [H18]
  · iexists _; isplitr
    swap; · iexact H18
    ipureintro
    exact View.read_writes_eq_canon _ _ _ (cover3_S2000x64 _)
  isplitl [H19]
  · iexists _; isplitr
    swap; · iexact H19
    ipureintro
    exact View.read_writes_eq_canon _ _ _ (cover3_S2000x10 _)
  iexists _; isplitr
  swap; · iexact H20
  ipureintro
  exact View.read_writes_eq_canon _ _ _ (cover3_S2000x10 _)

/-! ## The pipeline's proof data -/

/-- The proof data of pipeline 3 on core `c`: the arrays as the region finds them (`V`); after the body at point `t`
    each input's buffer at its block and each output's at `out3_W` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => out3_15 (iblk3 V c 0 t) (iblk3 V c 1 t)
    | ⟨16, _⟩ => out3_16 (iblk3 V c 0 t) (iblk3 V c 2 t)
    | ⟨17, _⟩ => out3_17 (iblk3 V c 0 t) (iblk3 V c 3 t)
    | ⟨18, _⟩ => out3_18 (iblk3 V c 0 t) (iblk3 V c 4 t)
    | ⟨19, _⟩ => out3_19 (iblk3 V c 0 t) (iblk3 V c 1 t) (iblk3 V c 3 t) (iblk3 V c 5 t) (iblk3 V c 7 t) (iblk3 V c 8 t) (iblk3 V c 9 t) (iblk3 V c 10 t)
    | ⟨20, _⟩ => out3_20 (iblk3 V c 0 t) (iblk3 V c 2 t) (iblk3 V c 4 t) (iblk3 V c 6 t) (iblk3 V c 11 t) (iblk3 V c 12 t) (iblk3 V c 13 t) (iblk3 V c 14 t)
    | ⟨_ + 21, h⟩ => absurd h (Nat.not_lt.2 (Nat.le_add_left _ _))
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = out3_15 (iblk3 V c 0 t) (iblk3 V c 1 t) := by dsimp only [dat3]
theorem after3_16 (c : Dev nD) (t : Fin cfg3.N) : (dat3 V c).after 16 t = out3_16 (iblk3 V c 0 t) (iblk3 V c 2 t) := by dsimp only [dat3]
theorem after3_17 (c : Dev nD) (t : Fin cfg3.N) : (dat3 V c).after 17 t = out3_17 (iblk3 V c 0 t) (iblk3 V c 3 t) := by dsimp only [dat3]
theorem after3_18 (c : Dev nD) (t : Fin cfg3.N) : (dat3 V c).after 18 t = out3_18 (iblk3 V c 0 t) (iblk3 V c 4 t) := by dsimp only [dat3]
theorem after3_19 (c : Dev nD) (t : Fin cfg3.N) : (dat3 V c).after 19 t = out3_19 (iblk3 V c 0 t) (iblk3 V c 1 t) (iblk3 V c 3 t) (iblk3 V c 5 t) (iblk3 V c 7 t) (iblk3 V c 8 t) (iblk3 V c 9 t) (iblk3 V c 10 t) := by dsimp only [dat3]
theorem after3_20 (c : Dev nD) (t : Fin cfg3.N) : (dat3 V c).after 20 t = out3_20 (iblk3 V c 0 t) (iblk3 V c 2 t) (iblk3 V c 4 t) (iblk3 V c 6 t) (iblk3 V c 11 t) (iblk3 V c 12 t) (iblk3 V c 13 t) (iblk3 V c 14 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d

/-! ## The body obligation, at a generic point -/

/-- What the body is called with at point `t` (the library's body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t))

/-- The body at any point: the inputs' memrefs hold their blocks (`before3_W`), so `sound_kernel3` applies; the
    invariant and the core's owed counters pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel3 c Set.univ (grid3.coords t) _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Region4.lean ====
/- The systems half of region 4 of the program: the pallas_call `cc4__edge_score_kernel`, a pipeline over a
   grid of 1000 points with two input windows (blocks of 3200 rows by 20 columns) and two output windows (blocks
   of 3200 rows by 1 column). Everything here is stated at a PARAMETER `V`, the TensorCore's buffer contents
   when the region is entered, and at any float instance. It gives: each window's block at a grid point
   (`iblk4`); what the body leaves in each output window's staging buffer as a function of the two input
   blocks (`out4_2`, `out4_3`); the body's separation-logic triple (`sound_kernel4`); the pipeline's proof
   data (`dat4`) with its projections; and the library's body obligation at every point
   (`body_obligation4`). -/
import proofs.«157918_j42898133352759_2_alg».proof.Proof.Gen.KernelIdeal.Launch
import proofs.«157918_j42898133352759_2_alg».proof.Proof.Gen.KernelIdeal.Skeleton
import proofs.«157918_j42898133352759_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with thousands of rows is decided by a structural recursion that goes
-- once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: `cc4__edge_score_kernel`, at the entry contents `V` -/

/-! ## The windows' blocks -/

/-- Window `w`'s block at grid point `t`: the rectangle of its array that the window maps the point to, read
    off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the pipeline fetched
    it there, for any proof data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole of an input block: every load of an input reads this rectangle. -/
abbrev r4_0 : Rect S3200x20 := Rect.unit (s := S3200x20) ![0, 0] S3200x20.size inb_S3200x20_S3200x20_0_0
/-- The whole of an output block: every load and store of an output is on this rectangle. -/
abbrev r4_1 : Rect S3200x1 := Rect.unit (s := S3200x1) ![0, 0] S3200x1.size inb_S3200x1_S3200x1_0_0

/-! ## What the body leaves in each output window's buffer -/

/-- Output window 2's staging buffer after the body, from the two input blocks: the body stores into it once,
    the whole block, the logistic of the row sums of the products of the first ten columns. -/
def out4_2 (x0 : Vec F S3200x20 .f32) (x1 : Vec F S3200x20 .f32) : Vec F S3200x1 .f32 :=
  View.canon [⟨r4_1, k4_pay3 (View.ld x0 r4_0) (View.ld x1 r4_0)⟩]

/-- Output window 3's staging buffer after the body: one whole-block store, the same over the last ten columns. -/
def out4_3 (x0 : Vec F S3200x20 .f32) (x1 : Vec F S3200x20 .f32) : Vec F S3200x1 .f32 :=
  View.canon [⟨r4_1, k4_pay4 (View.ld x0 r4_0) (View.ld x1 r4_0)⟩]

/-- The one store into an output block is of the whole block, so every index of the block lies in it. -/
theorem cover4_out (p0 : Vec F S3200x1 .f32) (y : S3200x1.Idx) :
    ∃ pc ∈ ([⟨r4_1, p0⟩] : List (View.Piece (Elt F) S3200x1 .f32)), y ∈ pc.1.set :=
  View.cover_of_tiled [⟨r4_1, p0⟩] S3200x1.size (by rfl) y

/-! ## The body's triple -/

set_option maxHeartbeats 1000000 in
/-- The kernel body on whole staging memrefs, the inputs' owned at contents `x0`, `x1` and the outputs' at
    anything, runs to the continuation holding the inputs' as they were and each output's at `out4_W` of the
    inputs. The body loads each output block before overwriting all of it; the loaded value is never read. -/
theorem sound_kernel4 (c : Dev nD) (E : Set ℕ) (i : grid4.Coords) (arg1 : Memref sig .tc .vmem S3200x20 .f32) (harg1 : arg1.IsWhole) (arg2 : Memref sig .tc .vmem S3200x20 .f32) (harg2 : arg2.IsWhole) (arg3 : Memref sig .tc .vmem S3200x1 .f32) (harg3 : arg3.IsWhole) (arg4 : Memref sig .tc .vmem S3200x1 .f32) (harg4 : arg4.IsWhole)
    (x0 : Vec F S3200x20 .f32) (x1 : Vec F S3200x20 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out4_2 x0 x1) ∗ owns (c : Thread nD τ) arg4 fullShare (out4_3 x0 x1)) -∗ K ⟨⟩))
      ⊢ wp frame (wpE (defs₀ (F := F)) Variants.none c none) E (cc4__edge_score_kernel i arg1 harg1 arg2 harg2 arg3 harg3 arg4 harg4) K := by
  simp only [cc4__edge_score_kernel_eq_skeleton]; unfold cc4__edge_score_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover4_out _)
  iexists _; isplitr
  swap; · iexact H3
  ipureintro
  exact View.read_writes_eq_canon _ _ _ (cover4_out _)

/-! ## The pipeline's proof data -/

/-- The proof data of pipeline 4 on core `c`: the arrays as the region finds them; after the body at point
    `t` each input's buffer still at its block and each output's at `out4_W` of the two input blocks; the
    invariant is the library's for a body that touches nothing but its windows (the scoped rest and the
    generator register pass through); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (iblk4 V c 0 t) (iblk4 V c 1 t)
  Φ _ := Pipeline.ΦA spec4 c
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (iblk4 V c 0 t) (iblk4 V c 1 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`: the invariant, the core's debts, and each window's current
    staging memref owned at what the pipeline left in it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: the same with each memref at the proof data's `after`. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Run.lean ====
/-
  The whole run of the program, segment by segment.

  @main is thirteen items: stretches of host operations and five kernel regions.  Between two items every buffer of the
  core that lives for the whole program holds a known array: the launch memory, then each stretch's operations applied
  in order, then, after a region, the same arrays except that each array the region writes holds what its blocks,
  written back point by point, leave there.  `W j` is that valuation before item j (`W 13` after the last).  Each region is
  run from its proof data (the region modules) entered at `W` of its entry; the run theorem reads every such buffer of
  the final memory at `W 13`.  From it follow the frame (no item writes an argument array) and, for a value proof,
  each result array as `W 13` of its buffer.
-/
import proofs.«157918_j42898133352759_2_alg».proof.Proof.Region0
import proofs.«157918_j42898133352759_2_alg».proof.Proof.Region1
import proofs.«157918_j42898133352759_2_alg».proof.Proof.Region2
import proofs.«157918_j42898133352759_2_alg».proof.Proof.Region3
import proofs.«157918_j42898133352759_2_alg».proof.Proof.Region4
import proofs.«157918_j42898133352759_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
/-- After the stretch `hostOps0_1`. -/
abbrev W2 : Dev nD → Valuation τ sig (Elt F) := fun c => StableHlo.after hostOps0_1 (W1 m ρ c)
/-- After the stretch `hostOps0_2`. -/
abbrev W3 : Dev nD → Valuation τ sig (Elt F) := fun c => StableHlo.after hostOps0_2 (W2 m ρ c)
/-- `W3` read at the TensorCore's references. -/
abbrev V3 : (c : Dev nD) → (b : Ref sig .tc) → Buf (Elt F) ((c : Thread nD τ).loc b) := fun c b => W3 m ρ c b
/-- At region 0's exit: each of its arrays at what the write-backs of all its points leave (an input array as
    entered), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- `W4` read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input array of region 0 leaves the region as it entered it. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
/-- After the stretch `hostOps1`. -/
abbrev W5 : Dev nD → Valuation τ sig (Elt F) := fun c => StableHlo.after hostOps1 (W4 m ρ c)
/-- `W5` read at the TensorCore's references. -/
abbrev V5 : (c : Dev nD) → (b : Ref sig .tc) → Buf (Elt F) ((c : Thread nD τ).loc b) := fun c b => W5 m ρ c b
/-- At region 1's exit: each of its arrays at what the write-backs of all its points leave (an input array as
    entered), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- `W6` read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input array of region 1 leaves the region as it entered it. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
/-- After the stretch `hostOps2`. -/
abbrev W7 : Dev nD → Valuation τ sig (Elt F) := fun c => StableHlo.after hostOps2 (W6 m ρ c)
/-- `W7` read at the TensorCore's references. -/
abbrev V7 : (c : Dev nD) → (b : Ref sig .tc) → Buf (Elt F) ((c : Thread nD τ).loc b) := fun c b => W7 m ρ c b
/-- At region 2's exit: each of its arrays at what the write-backs of all its points leave (an input array as
    entered), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- `W8` read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input array of region 2 leaves the region as it entered it. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))
/-- After the stretch `hostOps3`. -/
abbrev W9 : Dev nD → Valuation τ sig (Elt F) := fun c => StableHlo.after hostOps3 (W8 m ρ c)
/-- `W9` read at the TensorCore's references. -/
abbrev V9 : (c : Dev nD) → (b : Ref sig .tc) → Buf (Elt F) ((c : Thread nD τ).loc b) := fun c b => W9 m ρ c b
/-- At region 3's exit: each of its arrays at what the write-backs of all its points leave (an input array as
    entered), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- `W10` read at the TensorCore's references. -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- An input array of region 3 leaves the region as it entered it. -/
theorem W10_in (c : Dev nD) (w : Fin cfg3.W) (hw : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hw _).trans (A_eq3 (V9 m ρ) c w))
/-- After the stretch `hostOps4`. -/
abbrev W11 : Dev nD → Valuation τ sig (Elt F) := fun c => StableHlo.after hostOps4 (W10 m ρ c)
/-- `W11` read at the TensorCore's references. -/
abbrev V11 : (c : Dev nD) → (b : Ref sig .tc) → Buf (Elt F) ((c : Thread nD τ).loc b) := fun c b => W11 m ρ c b
/-- At region 4's exit: each of its arrays at what the write-backs of all its points leave (an input array as
    entered), every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- `W12` read at the TensorCore's references. -/
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- An input array of region 4 leaves the region as it entered it. -/
theorem W12_in (c : Dev nD) (w : Fin cfg4.W) (hw : (cfg4.win w).isOut = false) :
    W12 m ρ c (Proc.devRef .tc (Pipeline.arrRef spec4 w)) = W11 m ρ c (Proc.devRef .tc (Pipeline.arrRef spec4 w)) :=
  (W12_arr m ρ c w).trans (((dat4 (V11 m ρ) c).arrAt_in w hw _).trans (A_eq4 (V11 m ρ) c w))
/-- After the stretch `hostOps5`. -/
abbrev W13 : Dev nD → Valuation τ sig (Elt F) := fun c => StableHlo.after hostOps5 (W12 m ρ c)

/-! ## What each item leaves unchanged -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W2_keep (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_keep (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- Region 0 changes no buffer other than its output arrays. -/
theorem W4_keep (c : Dev nD) (r : Ref sig .tc) (hr : r ∉ ([main_v32] : List (Ref sig .tc))) :
    W4 m ρ c (Proc.devRef .tc r) = W3 m ρ c (Proc.devRef .tc r) := by
  by_cases h : ∃ w, Pipeline.arrRef spec0 w = r
  · obtain ⟨w, rfl⟩ := h
    have hw : (cfg0.win w).isOut = false := by
      revert hr; revert w; decide
    exact W4_in m ρ c w hw
  · exact W4_of_ne m ρ c r fun w e => h ⟨w, e⟩
theorem W5_keep (c : Dev nD) (r : Ref sig .tc) (h : r ∉ hostOps1_W) : W5 m ρ c (Proc.devRef .tc r) = W4 m ρ c (Proc.devRef .tc r) :=
  StableHlo.after_of_writes_sub hostOps1 _ hostOps1_writes h
/-- Region 1 changes no buffer other than its output arrays. -/
theorem W6_keep (c : Dev nD) (r : Ref sig .tc) (hr : r ∉ ([main_v47] : List (Ref sig .tc))) :
    W6 m ρ c (Proc.devRef .tc r) = W5 m ρ c (Proc.devRef .tc r) := by
  by_cases h : ∃ w, Pipeline.arrRef spec1 w = r
  · obtain ⟨w, rfl⟩ := h
    have hw : (cfg1.win w).isOut = false := by
      revert hr; revert w; decide
    exact W6_in m ρ c w hw
  · exact W6_of_ne m ρ c r fun w e => h ⟨w, e⟩
theorem W7_keep (c : Dev nD) (r : Ref sig .tc) (h : r ∉ hostOps2_W) : W7 m ρ c (Proc.devRef .tc r) = W6 m ρ c (Proc.devRef .tc r) :=
  StableHlo.after_of_writes_sub hostOps2 _ hostOps2_writes h
/-- Region 2 changes no buffer other than its output arrays. -/
theorem W8_keep (c : Dev nD) (r : Ref sig .tc) (hr : r ∉ ([main_v62] : List (Ref sig .tc))) :
    W8 m ρ c (Proc.devRef .tc r) = W7 m ρ c (Proc.devRef .tc r) := by
  by_cases h : ∃ w, Pipeline.arrRef spec2 w = r
  · obtain ⟨w, rfl⟩ := h
    have hw : (cfg2.win w).isOut = false := by
      revert hr; revert w; decide
    exact W8_in m ρ c w hw
  · exact W8_of_ne m ρ c r fun w e => h ⟨w, e⟩
theorem W9_keep (c : Dev nD) (r : Ref sig .tc) (h : r ∉ hostOps3_W) : W9 m ρ c (Proc.devRef .tc r) = W8 m ρ c (Proc.devRef .tc r) :=
  StableHlo.after_of_writes_sub hostOps3 _ hostOps3_writes h
/-- Region 3 changes no buffer other than its output arrays. -/
theorem W10_keep (c : Dev nD) (r : Ref sig .tc) (hr : r ∉ ([main_v71_0, main_v71_1, main_v71_2, main_v71_3, main_v71_4, main_v71_5] : List (Ref sig .tc))) :
    W10 m ρ c (Proc.devRef .tc r) = W9 m ρ c (Proc.devRef .tc r) := by
  by_cases h : ∃ w, Pipeline.arrRef spec3 w = r
  · obtain ⟨w, rfl⟩ := h
    have hw : (cfg3.win w).isOut = false := by
      revert hr; revert w; decide
    exact W10_in m ρ c w hw
  · exact W10_of_ne m ρ c r fun w e => h ⟨w, e⟩
theorem W11_keep (c : Dev nD) (r : Ref sig .tc) (h : r ∉ hostOps4_W) : W11 m ρ c (Proc.devRef .tc r) = W10 m ρ c (Proc.devRef .tc r) :=
  StableHlo.after_of_writes_sub hostOps4 _ hostOps4_writes h
/-- Region 4 changes no buffer other than its output arrays. -/
theorem W12_keep (c : Dev nD) (r : Ref sig .tc) (hr : r ∉ ([main_v91_0, main_v91_1] : List (Ref sig .tc))) :
    W12 m ρ c (Proc.devRef .tc r) = W11 m ρ c (Proc.devRef .tc r) := by
  by_cases h : ∃ w, Pipeline.arrRef spec4 w = r
  · obtain ⟨w, rfl⟩ := h
    have hw : (cfg4.win w).isOut = false := by
      revert hr; revert w; decide
    exact W12_in m ρ c w hw
  · exact W12_of_ne m ρ c r fun w e => h ⟨w, e⟩
theorem W13_keep (c : Dev nD) (r : Ref sig .tc) (h : r ∉ hostOps5_W) : W13 m ρ c (Proc.devRef .tc r) = W12 m ρ c (Proc.devRef .tc r) :=
  StableHlo.after_of_writes_sub hostOps5 _ hostOps5_writes h

/-- Every reference some item may write. -/
abbrev written : List (Ref sig .tc) :=
  hostOps0_W ++ hostOps0_1_W ++ hostOps0_2_W ++ [main_v32] ++ hostOps1_W ++ [main_v47] ++ hostOps2_W ++ [main_v62] ++ hostOps3_W
    ++ [main_v71_0, main_v71_1, main_v71_2, main_v71_3, main_v71_4, main_v71_5] ++ hostOps4_W ++ [main_v91_0, main_v91_1] ++ hostOps5_W

/-- A buffer no item writes holds at every boundary what it held at launch. -/
theorem keep_all (c : Dev nD) (r : Ref sig .tc) (h : r ∉ (written : List (Ref sig .tc))) :
    W13 m ρ c (Proc.devRef .tc r) = m ((c : Thread nD τ).loc r)
    ∧ W11 m ρ c (Proc.devRef .tc r) = m ((c : Thread nD τ).loc r)
    ∧ W9 m ρ c (Proc.devRef .tc r) = m ((c : Thread nD τ).loc r)
    ∧ W7 m ρ c (Proc.devRef .tc r) = m ((c : Thread nD τ).loc r)
    ∧ W5 m ρ c (Proc.devRef .tc r) = m ((c : Thread nD τ).loc r)
    ∧ W3 m ρ c (Proc.devRef .tc r) = m ((c : Thread nD τ).loc r) := by
  simp only [written, List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  have e1 := W1_keep m ρ c r h0
  have e2 := (W2_keep m ρ c r h1).trans e1
  have e3 := (W3_keep m ρ c r h2).trans e2
  have e4 := (W4_keep m ρ c r h3).trans e3
  have e5 := (W5_keep m ρ c r h4).trans e4
  have e6 := (W6_keep m ρ c r h5).trans e5
  have e7 := (W7_keep m ρ c r h6).trans e6
  have e8 := (W8_keep m ρ c r h7).trans e7
  have e9 := (W9_keep m ρ c r h8).trans e8
  have e10 := (W10_keep m ρ c r h9).trans e9
  have e11 := (W11_keep m ρ c r h10).trans e10
  have e12 := (W12_keep m ρ c r h11).trans e11
  have e13 := (W13_keep m ρ c r h12).trans e12
  exact ⟨e13, e11, e9, e7, e5, e3⟩

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A reference that lives for the whole program is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every such buffer at the last contents `W13`, the generator register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- REGION 0 over the thread state: entered from every buffer at `W3`, left at `W4`. Its arrays are split out of the held
    buffers and put back at the exit contents; the generator register goes into the region's invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every buffer at `W5`, left at `W6`. Its arrays are split out of the held
    buffers and put back at the exit contents; the generator register goes into the region's invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every buffer at `W7`, left at `W8`. Its arrays are split out of the held
    buffers and put back at the exit contents; the generator register goes into the region's invariant and comes out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every buffer at `W9`, left at `W10`. Its arrays are split out of the held
    buffers and put back at the exit contents; the generator register goes into the region's invariant and comes out;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every buffer at `W11`, left at `W12`. Its arrays are split out of the held
    buffers and put back at the exit contents; the generator register goes into the region's invariant and comes out;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)) ]

/-- @main IS the run of the segments. -/
theorem main_run (c : Dev nD) : main (F := F) c = Pipeline.Seg.run (segs m ρ) := by
  rw [main_chain c, Pipeline.Seg.run_eq_chain]
  rfl

set_option backward.isDefEq.respectTransparency.types false in
/-- THE RUN.  From any memory with zero counters every weakly fair execution of @main terminates, nothing faulting, and
    in the final memory every buffer that lives for the whole program holds `W13` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c) ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- THE FRAME: every weakly fair execution of @main terminates, nothing faulting, and every argument array ends as
    launched — no stretch of host operations and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (keep_all m ρ c main_arg0 (by decide)).1,
      (h c _ (mem_uc main_arg1 (by decide))).trans (keep_all m ρ c main_arg1 (by decide)).1,
      (h c _ (mem_uc main_arg2 (by decide))).trans (keep_all m ρ c main_arg2 (by decide)).1,
      (h c _ (mem_uc main_arg3 (by decide))).trans (keep_all m ρ c main_arg3 (by decide)).1,
      (h c _ (mem_uc main_arg4 (by decide))).trans (keep_all m ρ c main_arg4 (by decide)).1,
      (h c _ (mem_uc main_arg5 (by decide))).trans (keep_all m ρ c main_arg5 (by decide)).1,
      (h c _ (mem_uc main_arg6 (by decide))).trans (keep_all m ρ c main_arg6 (by decide)).1,
      (h c _ (mem_uc main_arg7 (by decide))).trans (keep_all m ρ c main_arg7 (by decide)).1,
      (h c _ (mem_uc main_arg8 (by decide))).trans (keep_all m ρ c main_arg8 (by decide)).1,
      (h c _ (mem_uc main_arg9 (by decide))).trans (keep_all m ρ c main_arg9 (by decide)).1,
      (h c _ (mem_uc main_arg10 (by decide))).trans (keep_all m ρ c main_arg10 (by decide)).1,
      (h c _ (mem_uc main_arg11 (by decide))).trans (keep_all m ρ c main_arg11 (by decide)).1,
      (h c _ (mem_uc main_arg12 (by decide))).trans (keep_all m ρ c main_arg12 (by decide)).1,
      (h c _ (mem_uc main_arg13 (by decide))).trans (keep_all m ρ c main_arg13 (by decide)).1,
      (h c _ (mem_uc main_arg14 (by decide))).trans (keep_all m ρ c main_arg14 (by decide)).1,
      (h c _ (mem_uc main_arg15 (by decide))).trans (keep_all m ρ c main_arg15 (by decide)).1,
      (h c _ (mem_uc main_arg16 (by decide))).trans (keep_all m ρ c main_arg16 (by decide)).1,
      (h c _ (mem_uc main_arg17 (by decide))).trans (keep_all m ρ c main_arg17 (by decide)).1,
      (h c _ (mem_uc main_arg18 (by decide))).trans (keep_all m ρ c main_arg18 (by decide)).1,
      (h c _ (mem_uc main_arg19 (by decide))).trans (keep_all m ρ c main_arg19 (by decide)).1,
      (h c _ (mem_uc main_arg20 (by decide))).trans (keep_all m ρ c main_arg20 (by decide)).1,
      (h c _ (mem_uc main_arg21 (by decide))).trans (keep_all m ρ c main_arg21 (by decide)).1⟩) (run_all m ρ)

end Cert.KernelIdeal.Hand

end
-- ==== Proof.KRegion0.lean ====
/- The region's half of pallas_call 0 (`cc0__matmul_kernel`), written by hand in the shape a frame certificate
   takes for a program of several regions. Everything here is stated at a parameter `V`: the
   TensorCore's buffer contents at the moment the region is entered. From `V` we read each
   window's block at a grid point, say what the body leaves in the output window's staging buffer
   (one whole-buffer store of the body's payload), prove the body's separation-logic triple by
   symbolic execution, package the pipeline's proof data, and discharge the library's body
   obligation at every grid point. Here the body multiplies a 2000×128 row block of the first operand by the whole 128×32 second operand (both rounded to bf16 first) into a 2000×32 block of the result. -/
import proofs.«157918_j42898133352759_2_alg».proof.Proof.Gen.Kernel.Launch
import proofs.«157918_j42898133352759_2_alg».proof.Proof.Gen.Kernel.Skeleton
import proofs.«157918_j42898133352759_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is decided by a structural recursion, one step
-- per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block's view read off the window's array as the
    region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a fresh row block at every point): whatever proof data we use, as long as its
    array is `V`'s and its body leaves the block where it was, the current staging buffer holds the
    block of the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole second operand, brought in at the first point only): the same
    statement. At a point where nothing is fetched the block index has not moved since the last
    fetch, so the buffer still holds the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The three rectangles the body touches: each is the whole of its staging buffer. -/
abbrev r0_0 : Rect S2000x128 := Rect.unit (s := S2000x128) ![0, 0] S2000x128.size inb_S2000x128_S2000x128_0_0
abbrev r0_1 : Rect S128x32 := Rect.unit (s := S128x32) ![0, 0] S128x32.size inb_S128x32_S128x32_0_0
abbrev r0_2 : Rect S2000x32 := Rect.unit (s := S2000x32) ![0, 0] S2000x32.size inb_S2000x32_S2000x32_0_0

/-! ## What the body leaves in the output window's buffer -/

/-- The output window's staging buffer after the body, as a function of the two input blocks: the
    body stores once, over the whole buffer, the payload computed from the two loaded blocks. -/
def out0_2 (x0 : Vec F S2000x128 .f32) (x1 : Vec F S128x32 .f32) : Vec F S2000x32 .f32 :=
  View.canon [⟨r0_2, k0_pay1 (View.ld x0 r0_0) (View.ld x1 r0_1)⟩]

/-- That one store covers the buffer: its rectangle is the whole extent. -/
theorem cover0_2 (p0 : Vec F S2000x32 .f32) (y : S2000x32.Idx) :
    ∃ pc ∈ ([⟨r0_2, p0⟩] : List (View.Piece (Elt F) S2000x32 .f32)), y ∈ pc.1.set :=
  View.cover_of_tiled [⟨r0_2, p0⟩] S2000x32.size (by rfl) y

/-! ## The body's triple -/

set_option maxHeartbeats 1000000 in
/-- The body on whole staging memrefs. Given the two input memrefs at contents `x0`, `x1` and the
    output memref at anything, it runs to a state where the inputs are unchanged and the output
    holds `out0_2 x0 x1`. The printed body first loads the output memref (a value it never uses)
    and then overwrites it whole. -/
theorem sound_kernel0 (c : Dev nD) (E : Set ℕ) (i : grid0.Coords) (arg1 : Memref sig .tc .vmem S2000x128 .f32) (harg1 : arg1.IsWhole) (arg2 : Memref sig .tc .vmem S128x32 .f32) (harg2 : arg2.IsWhole) (arg3 : Memref sig .tc .vmem S2000x32 .f32) (harg3 : arg3.IsWhole)
    (x0 : Vec F S2000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`. The arrays are as the region finds them (`V`);
    after the body at point `t` each input buffer still holds its block and the output buffer holds
    `out0_2` of the two input blocks; the invariant is the library's standard one (the scoped
    rest and the generator register, untouched); nothing is owed; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window (the `match` of the definition reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debt, and the three current
    staging memrefs at what the pipeline has put in them. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, with every memref at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs hold their blocks (`before0_W`), so the body's triple
    applies; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/- The region's half of pallas_call 1 (`cc1__bias_relu_kernel`), written by hand in the shape a frame certificate
   takes for a program of several regions. Everything here is stated at a parameter `V`: the
   TensorCore's buffer contents at the moment the region is entered. From `V` we read each
   window's block at a grid point, say what the body leaves in the output window's staging buffer
   (one whole-buffer store of the body's payload), prove the body's separation-logic triple by
   symbolic execution, package the pipeline's proof data, and discharge the library's body
   obligation at every grid point. Here the body adds the whole 1×32 bias row, broadcast down the rows, to a 2000×32 row block of the first operand and takes the maximum with zero. -/
import proofs.«157918_j42898133352759_2_alg».proof.Proof.Gen.Kernel.Launch
import proofs.«157918_j42898133352759_2_alg».proof.Proof.Gen.Kernel.Skeleton
import proofs.«157918_j42898133352759_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is decided by a structural recursion, one step
-- per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block's view read off the window's array as the
    region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a fresh row block at every point): whatever proof data we use, as long as its
    array is `V`'s and its body leaves the block where it was, the current staging buffer holds the
    block of the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole second operand, brought in at the first point only): the same
    statement. At a point where nothing is fetched the block index has not moved since the last
    fetch, so the buffer still holds the block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The three rectangles the body touches: each is the whole of its staging buffer. -/
abbrev r1_0 : Rect S2000x32 := Rect.unit (s := S2000x32) ![0, 0] S2000x32.size inb_S2000x32_S2000x32_0_0
abbrev r1_1 : Rect S1x32 := Rect.unit (s := S1x32) ![0, 0] S1x32.size inb_S1x32_S1x32_0_0
abbrev r1_2 : Rect S2000x32 := Rect.unit (s := S2000x32) ![0, 0] S2000x32.size inb_S2000x32_S2000x32_0_0

/-! ## What the body leaves in the output window's buffer -/

/-- The output window's staging buffer after the body, as a function of the two input blocks: the
    body stores once, over the whole buffer, the payload computed from the two loaded blocks. -/
def out1_2 (x0 : Vec F S2000x32 .f32) (x1 : Vec F S1x32 .f32) : Vec F S2000x32 .f32 :=
  View.canon [⟨r1_2, k1_pay1 (View.ld x0 r1_0) (View.ld x1 r1_1)⟩]

/-- That one store covers the buffer: its rectangle is the whole extent. -/
theorem cover1_2 (p0 : Vec F S2000x32 .f32) (y : S2000x32.Idx) :
    ∃ pc ∈ ([⟨r1_2, p0⟩] : List (View.Piece (Elt F) S2000x32 .f32)), y ∈ pc.1.set :=
  View.cover_of_tiled [⟨r1_2, p0⟩] S2000x32.size (by rfl) y

/-! ## The body's triple -/

set_option maxHeartbeats 1000000 in
/-- The body on whole staging memrefs. Given the two input memrefs at contents `x0`, `x1` and the
    output memref at anything, it runs to a state where the inputs are unchanged and the output
    holds `out1_2 x0 x1`. The printed body first loads the output memref (a value it never uses)
    and then overwrites it whole. -/
theorem sound_kernel1 (c : Dev nD) (E : Set ℕ) (i : grid1.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole)
    (x0 : Vec F S2000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`. The arrays are as the region finds them (`V`);
    after the body at point `t` each input buffer still holds its block and the output buffer holds
    `out1_2` of the two input blocks; the invariant is the library's standard one (the scoped
    rest and the generator register, untouched); nothing is owed; all shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the `match` of the definition reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debt, and the three current
    staging memrefs at what the pipeline has put in them. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same, with every memref at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input memrefs hold their blocks (`before1_W`), so the body's triple
    applies; the invariant and the debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/- The region's half of pallas_call 2 (`cc2__matmul_kernel`), written by hand in the shape a frame certificate
   takes for a program of several regions. Everything here is stated at a parameter `V`: the
   TensorCore's buffer contents at the moment the region is entered. From `V` we read each
   window's block at a grid point, say what the body leaves in the output window's staging buffer
   (one whole-buffer store of the body's payload), prove the body's separation-logic triple by
   symbolic execution, package the pipeline's proof data, and discharge the library's body
   obligation at every grid point. Here the body multiplies a 2000×32 row block of the first operand by the whole 32×256 second operand (both rounded to bf16 first) into a 2000×256 block of the result. -/
import proofs.«157918_j42898133352759_2_alg».proof.Proof.Gen.Kernel.Launch
import proofs.«157918_j42898133352759_2_alg».proof.Proof.Gen.Kernel.Skeleton
import proofs.«157918_j42898133352759_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is decided by a structural recursion, one step
-- per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the block's view read off the window's array as the
    region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a fresh row block at every point): whatever proof data we use, as long as its
    array is `V`'s and its body leaves the block where it was, the current staging buffer holds the
    block of the point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole second operand, brought in at the first point only): the same
    statement. At a point where nothing is fetched the block index has not moved since the last
    fetch, so the buffer still holds the block of the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The three rectangles the body touches: each is the whole of its staging buffer. -/
abbrev r2_0 : Rect S2000x32 := Rect.unit (s := S2000x32) ![0, 0] S2000x32.size inb_S2000x32_S2000x32_0_0
abbrev r2_1 : Rect S32x256 := Rect.unit (s := S32x256) ![0, 0] S32x256.size inb_S32x256_S32x256_0_0
abbrev r2_2 : Rect S2000x256 := Rect.unit (s := S2000x256) ![0, 0] S2000x256.size inb_S2000x256_S2000x256_0_0

/-! ## What the body leaves in the output window's buffer -/

/-- The output window's staging buffer after the body, as a function of the two input blocks: the
    body stores once, over the whole buffer, the payload computed from the two loaded blocks. -/
def out2_2 (x0 : Vec F S2000x32 .f32) (x1 : Vec F S32x256 .f32) : Vec F S2000x256 .f32 :=
  View.canon [⟨r2_2, k2_pay1 (View.ld x0 r2_0) (View.ld x1 r2_1)⟩]

/-- That one store covers the buffer: its rectangle is the whole extent. -/
theorem cover2_2 (p0 : Vec F S2000x256 .f32) (y : S2000x256.Idx) :
    ∃ pc ∈ ([⟨r2_2, p0⟩] : List (View.Piece (Elt F) S2000x256 .f32)), y ∈ pc.1.set :=
  View.cover_of_tiled [⟨r2_2, p0⟩] S2000x256.size (by rfl) y

/-! ## The body's triple -/

set_option maxHeartbeats 1000000 in
/-- The body on whole staging memrefs. Given the two input memrefs at contents `x0`, `x1` and the
    output memref at anything, it runs to a state where the inputs are unchanged and the output
    holds `out2_2 x0 x1`. The printed body first loads the output memref (a value it never uses)
    and then overwrites it whole. -/
theorem sound_kernel2 (c : Dev nD) (E : Set ℕ) (i : grid2.Coords) (arg1 : Memref sig .tc .vmem S2000x32 .f32) (harg1 : arg1.IsWhole) (arg2 : Memref sig .tc .vmem S32x256 .f32) (harg2 : arg2.IsWhole) (arg3 : Memref sig .tc .vmem S2000x256 .f32) (harg3 : arg3.IsWhole)
    (x0 : Vec F S2000x32 .f32) (x1 : Vec F S32x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`. The arrays are as the region finds them (`V`);
    after the body at point `t` each input buffer still holds its block and the output buffer holds
    `out2_2` of the two input blocks; the invariant is the library's standard one (the scoped
    rest and the generator register, untouched); nothing is owed; all shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the `match` of the definition reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debt, and the three current
    staging memrefs at what the pipeline has put in them. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns: the same, with every memref at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input memrefs hold their blocks (`before2_W`), so the body's triple
    applies; the invariant and the debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
/- The region's half of the frame certificate for the third TensorCore region of @main (the reparametrise-and-decode
   kernel, `cc3__reparam_decode_kernel`), stated at a PARAMETER `V`: the TensorCore's buffer contents when the region
   is entered. It names each window's block at a grid point, what the body leaves in each of the six output windows'
   staging buffers as a function of the input blocks, proves the body's separation-logic triple, packages the
   pipeline's proof data, and discharges the library's body obligation at every grid point. Generic in the float
   instance. -/
import proofs.«157918_j42898133352759_2_alg».proof.Proof.Gen.Kernel.Launch
import proofs.«157918_j42898133352759_2_alg».proof.Proof.Gen.Kernel.Skeleton
import proofs.«157918_j42898133352759_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! # Region 3 of @main: `cc3__reparam_decode_kernel` (pipeline 3), at the entry contents `V` -/

/-! ## The windows' blocks -/

/-- Window `w`'s block at grid point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the pipeline fetched it there or
    not (the small operands are fetched at the first point only: their block index never moves, so the buffer keeps
    the block), for ANY proof data whose array is `V`'s (`hA`) and whose body leaves the block in place (`hafter`).
    One statement per input window; every window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

-- every load and every store of the body is of a whole staging buffer: one rectangle per buffer shape
abbrev r3_S2000x256 : Rect S2000x256 := Rect.unit (s := S2000x256) ![0, 0] S2000x256.size inb_S2000x256_S2000x256_0_0
abbrev r3_S1x64 : Rect S1x64 := Rect.unit (s := S1x64) ![0, 0] S1x64.size inb_S1x64_S1x64_0_0
abbrev r3_S2000x64 : Rect S2000x64 := Rect.unit (s := S2000x64) ![0, 0] S2000x64.size inb_S2000x64_S2000x64_0_0
abbrev r3_S64x32 : Rect S64x32 := Rect.unit (s := S64x32) ![0, 0] S64x32.size inb_S64x32_S64x32_0_0
abbrev r3_S1x32 : Rect S1x32 := Rect.unit (s := S1x32) ![0, 0] S1x32.size inb_S1x32_S1x32_0_0
abbrev r3_S32x10 : Rect S32x10 := Rect.unit (s := S32x10) ![0, 0] S32x10.size inb_S32x10_S32x10_0_0
abbrev r3_S1x10 : Rect S1x10 := Rect.unit (s := S1x10) ![0, 0] S1x10.size inb_S1x10_S1x10_0_0
abbrev r3_S2000x10 : Rect S2000x10 := Rect.unit (s := S2000x10) ![0, 0] S2000x10.size inb_S2000x10_S2000x10_0_0

/-! ## What the body leaves in each output window's buffer -/

/-- Window 15 (the first mean block): the first 64 columns of the input block plus the first bias row. Its one store, of the whole buffer, as a
    single piece over the skeleton's payload. -/
def out3_15 (x0 : Vec F S2000x256 .f32) (x1 : Vec F S1x64 .f32) : Vec F S2000x64 .f32 :=
  View.canon [⟨r3_S2000x64, k3_pay3 (View.ld x0 r3_S2000x256) (View.ld x1 r3_S1x64)⟩]

/-- Window 16 (the second mean block): columns 64..127 of the input block plus the second bias row. Its one store, of the whole buffer, as a
    single piece over the skeleton's payload. -/
def out3_16 (x0 : Vec F S2000x256 .f32) (x2 : Vec F S1x64 .f32) : Vec F S2000x64 .f32 :=
  View.canon [⟨r3_S2000x64, k3_pay4 (View.ld x0 r3_S2000x256) (View.ld x2 r3_S1x64)⟩]

/-- Window 17 (the first log-variance block): columns 128..191 of the input block plus the third bias row. Its one store, of the whole buffer, as a
    single piece over the skeleton's payload. -/
def out3_17 (x0 : Vec F S2000x256 .f32) (x3 : Vec F S1x64 .f32) : Vec F S2000x64 .f32 :=
  View.canon [⟨r3_S2000x64, k3_pay5 (View.ld x0 r3_S2000x256) (View.ld x3 r3_S1x64)⟩]

/-- Window 18 (the second log-variance block): columns 192..255 of the input block plus the fourth bias row. Its one store, of the whole buffer, as a
    single piece over the skeleton's payload. -/
def out3_18 (x0 : Vec F S2000x256 .f32) (x4 : Vec F S1x64 .f32) : Vec F S2000x64 .f32 :=
  View.canon [⟨r3_S2000x64, k3_pay6 (View.ld x0 r3_S2000x256) (View.ld x4 r3_S1x64)⟩]

/-- Window 19 (the first decoded block): the first sample (mean plus noise times the exponential of half the
    log-variance) through the first two-layer decoder. Its one store, of the whole buffer, as a
    single piece over the skeleton's payload. -/
def out3_19 (x0 : Vec F S2000x256 .f32) (x1 : Vec F S1x64 .f32) (x3 : Vec F S1x64 .f32) (x5 : Vec F S2000x64 .f32) (x7 : Vec F S64x32 .f32) (x8 : Vec F S1x32 .f32) (x9 : Vec F S32x10 .f32) (x10 : Vec F S1x10 .f32) : Vec F S2000x10 .f32 :=
  View.canon [⟨r3_S2000x10, k3_pay8 (k3_pay7 (View.ld x0 r3_S2000x256) (View.ld x1 r3_S1x64) (View.ld x3 r3_S1x64) (View.ld x5 r3_S2000x64)) (View.ld x7 r3_S64x32) (View.ld x8 r3_S1x32) (View.ld x9 r3_S32x10) (View.ld x10 r3_S1x10)⟩]

/-- Window 20 (the second decoded block): the second sample through the second two-layer decoder. Its one store, of the whole buffer, as a
    single piece over the skeleton's payload. -/
def out3_20 (x0 : Vec F S2000x256 .f32) (x2 : Vec F S1x64 .f32) (x4 : Vec F S1x64 .f32) (x6 : Vec F S2000x64 .f32) (x11 : Vec F S64x32 .f32) (x12 : Vec F S1x32 .f32) (x13 : Vec F S32x10 .f32) (x14 : Vec F S1x10 .f32) : Vec F S2000x10 .f32 :=
  View.canon [⟨r3_S2000x10, k3_pay1 (k3_pay9 (k3_pay4 (View.ld x0 r3_S2000x256) (View.ld x2 r3_S1x64)) (k3_pay6 (View.ld x0 r3_S2000x256) (View.ld x4 r3_S1x64)) (View.ld x6 r3_S2000x64) (View.ld x11 r3_S64x32) (View.ld x12 r3_S1x32) (View.ld x13 r3_S32x10)) (View.ld x14 r3_S1x10)⟩]

/-- A single store of the whole buffer tiles it (checked by evaluation), so it covers it: one statement per output
    buffer shape. -/
theorem cover3_S2000x64 (p0 : Vec F S2000x64 .f32) (y : S2000x64.Idx) :
    ∃ pc ∈ ([⟨r3_S2000x64, p0⟩] : List (View.Piece (Elt F) S2000x64 .f32)), y ∈ pc.1.set :=
  View.cover_of_tiled [⟨r3_S2000x64, p0⟩] S2000x64.size (by rfl) y
theorem cover3_S2000x10 (p0 : Vec F S2000x10 .f32) (y : S2000x10.Idx) :
    ∃ pc ∈ ([⟨r3_S2000x10, p0⟩] : List (View.Piece (Elt F) S2000x10 .f32)), y ∈ pc.1.set :=
  View.cover_of_tiled [⟨r3_S2000x10, p0⟩] S2000x10.size (by rfl) y

/-! ## The body's triple -/

set_option maxHeartbeats 1000000 in
/-- The kernel body on whole staging memrefs, the inputs' at read contents `xW` and the outputs' at anything, runs to
    the continuation holding the inputs' as they were and each output's at `out3_W` of the inputs': the printed
    function and its two printed parts are their skeletons of loads and stores over payloads, which are run one
    memory operation at a time. The body loads each output buffer before storing it whole; those loads' values are
    unused. -/
theorem sound_kernel3 (c : Dev nD) (E : Set ℕ) (i : grid3.Coords) (arg1 : Memref sig .tc .vmem S2000x256 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x10 .f32) (harg10 : arg10.IsWhole) (arg11 : Memref sig .tc .vmem S1x10 .f32) (harg11 : arg11.IsWhole) (arg12 : Memref sig .tc .vmem S64x32 .f32) (harg12 : arg12.IsWhole) (arg13 : Memref sig .tc .vmem S1x32 .f32) (harg13 : arg13.IsWhole) (arg14 : Memref sig .tc .vmem S32x10 .f32) (harg14 : arg14.IsWhole) (arg15 : Memref sig .tc .vmem S1x10 .f32) (harg15 : arg15.IsWhole) (arg16 : Memref sig .tc .vmem S2000x64 .f32) (harg16 : arg16.IsWhole) (arg17 : Memref sig .tc .vmem S2000x64 .f32) (harg17 : arg17.IsWhole) (arg18 : Memref sig .tc .vmem S2000x64 .f32) (harg18 : arg18.IsWhole) (arg19 : Memref sig .tc .vmem S2000x64 .f32) (harg19 : arg19.IsWhole) (arg20 : Memref sig .tc .vmem S2000x10 .f32) (harg20 : arg20.IsWhole) (arg21 : Memref sig .tc .vmem S2000x10 .f32) (harg21 : arg21.IsWhole)
    (x0 : Vec F S2000x256 .f32) (x1 : Vec F S1x64 .f32) (x2 : Vec F S1x64 .f32) (x3 : Vec F S1x64 .f32) (x4 : Vec F S1x64 .f32) (x5 : Vec F S2000x64 .f32) (x6 : Vec F S2000x64 .f32) (x7 : Vec F S64x32 .f32) (x8 : Vec F S1x32 .f32) (x9 : Vec F S32x10 .f32) (x10 : Vec F S1x10 .f32) (x11 : Vec F S64x32 .f32) (x12 : Vec F S1x32 .f32) (x13 : Vec F S32x10 .f32) (x14 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out3_15 x0 x1) ∗ owns (c : Thread nD τ) arg17 fullShare (out3_16 x0 x2) ∗ owns (c : Thread nD τ) arg18 fullShare (out3_17 x0 x3) ∗ owns (c : Thread nD τ) arg19 fullShare (out3_18 x0 x4) ∗ owns (c : Thread nD τ) arg20 fullShare (out3_19 x0 x1 x3 x5 x7 x8 x9 x10) ∗ owns (c : Thread nD τ) arg21 fullShare (out3_20 x0 x2 x4 x6 x11 x12 x13 x14)) -∗ K ⟨⟩))
      ⊢ wp frame (wpE (defs₀ (F := F)) Variants.none c none) E (cc3__reparam_decode_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc3__reparam_decode_kernel_eq_skeleton]; unfold cc3__reparam_decode_kernel_skel
  simp only [k3_part1_eq_skeleton, k3_part2_eq_skeleton]; unfold k3_part1_skel k3_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover3_S2000x64 _)
  isplitl [H16]
  · iexists _; isplitr
    swap; · iexact H16
    ipureintro
    exact View.read_writes_eq_canon _ _ _ (cover3_S2000x64 _)
  isplitl [H17]
  · iexists _; isplitr
    swap; · iexact H17
    ipureintro
    exact View.read_writes_eq_canon _ _ _ (cover3_S2000x64 _)
  isplitl [H18]
  · iexists _; isplitr
    swap; · iexact H18
    ipureintro
    exact View.read_writes_eq_canon _ _ _ (cover3_S2000x64 _)
  isplitl [H19]
  · iexists _; isplitr
    swap; · iexact H19
    ipureintro
    exact View.read_writes_eq_canon _ _ _ (cover3_S2000x10 _)
  iexists _; isplitr
  swap; · iexact H20
  ipureintro
  exact View.read_writes_eq_canon _ _ _ (cover3_S2000x10 _)

/-! ## The pipeline's proof data -/

/-- The proof data of pipeline 3 on core `c`: the arrays as the region finds them (`V`); after the body at point `t`
    each input's buffer at its block and each output's at `out3_W` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => out3_15 (iblk3 V c 0 t) (iblk3 V c 1 t)
    | ⟨16, _⟩ => out3_16 (iblk3 V c 0 t) (iblk3 V c 2 t)
    | ⟨17, _⟩ => out3_17 (iblk3 V c 0 t) (iblk3 V c 3 t)
    | ⟨18, _⟩ => out3_18 (iblk3 V c 0 t) (iblk3 V c 4 t)
    | ⟨19, _⟩ => out3_19 (iblk3 V c 0 t) (iblk3 V c 1 t) (iblk3 V c 3 t) (iblk3 V c 5 t) (iblk3 V c 7 t) (iblk3 V c 8 t) (iblk3 V c 9 t) (iblk3 V c 10 t)
    | ⟨20, _⟩ => out3_20 (iblk3 V c 0 t) (iblk3 V c 2 t) (iblk3 V c 4 t) (iblk3 V c 6 t) (iblk3 V c 11 t) (iblk3 V c 12 t) (iblk3 V c 13 t) (iblk3 V c 14 t)
    | ⟨_ + 21, h⟩ => absurd h (Nat.not_lt.2 (Nat.le_add_left _ _))
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = out3_15 (iblk3 V c 0 t) (iblk3 V c 1 t) := by dsimp only [dat3]
theorem after3_16 (c : Dev nD) (t : Fin cfg3.N) : (dat3 V c).after 16 t = out3_16 (iblk3 V c 0 t) (iblk3 V c 2 t) := by dsimp only [dat3]
theorem after3_17 (c : Dev nD) (t : Fin cfg3.N) : (dat3 V c).after 17 t = out3_17 (iblk3 V c 0 t) (iblk3 V c 3 t) := by dsimp only [dat3]
theorem after3_18 (c : Dev nD) (t : Fin cfg3.N) : (dat3 V c).after 18 t = out3_18 (iblk3 V c 0 t) (iblk3 V c 4 t) := by dsimp only [dat3]
theorem after3_19 (c : Dev nD) (t : Fin cfg3.N) : (dat3 V c).after 19 t = out3_19 (iblk3 V c 0 t) (iblk3 V c 1 t) (iblk3 V c 3 t) (iblk3 V c 5 t) (iblk3 V c 7 t) (iblk3 V c 8 t) (iblk3 V c 9 t) (iblk3 V c 10 t) := by dsimp only [dat3]
theorem after3_20 (c : Dev nD) (t : Fin cfg3.N) : (dat3 V c).after 20 t = out3_20 (iblk3 V c 0 t) (iblk3 V c 2 t) (iblk3 V c 4 t) (iblk3 V c 6 t) (iblk3 V c 11 t) (iblk3 V c 12 t) (iblk3 V c 13 t) (iblk3 V c 14 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d

/-! ## The body obligation, at a generic point -/

/-- What the body is called with at point `t` (the library's body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t))

/-- The body at any point: the inputs' memrefs hold their blocks (`before3_W`), so `sound_kernel3` applies; the
    invariant and the core's owed counters pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel3 c Set.univ (grid3.coords t) _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegion4.lean ====
/- The systems half of region 4 of the program: the pallas_call `cc4__edge_score_kernel`, a pipeline over a
   grid of 1000 points with two input windows (blocks of 3200 rows by 20 columns) and two output windows (blocks
   of 3200 rows by 1 column). Everything here is stated at a PARAMETER `V`, the TensorCore's buffer contents
   when the region is entered, and at any float instance. It gives: each window's block at a grid point
   (`iblk4`); what the body leaves in each output window's staging buffer as a function of the two input
   blocks (`out4_2`, `out4_3`); the body's separation-logic triple (`sound_kernel4`); the pipeline's proof
   data (`dat4`) with its projections; and the library's body obligation at every point
   (`body_obligation4`). -/
import proofs.«157918_j42898133352759_2_alg».proof.Proof.Gen.Kernel.Launch
import proofs.«157918_j42898133352759_2_alg».proof.Proof.Gen.Kernel.Skeleton
import proofs.«157918_j42898133352759_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with thousands of rows is decided by a structural recursion that goes
-- once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: `cc4__edge_score_kernel`, at the entry contents `V` -/

/-! ## The windows' blocks -/

/-- Window `w`'s block at grid point `t`: the rectangle of its array that the window maps the point to, read
    off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the pipeline fetched
    it there, for any proof data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole of an input block: every load of an input reads this rectangle. -/
abbrev r4_0 : Rect S3200x20 := Rect.unit (s := S3200x20) ![0, 0] S3200x20.size inb_S3200x20_S3200x20_0_0
/-- The whole of an output block: every load and store of an output is on this rectangle. -/
abbrev r4_1 : Rect S3200x1 := Rect.unit (s := S3200x1) ![0, 0] S3200x1.size inb_S3200x1_S3200x1_0_0

/-! ## What the body leaves in each output window's buffer -/

/-- Output window 2's staging buffer after the body, from the two input blocks: the body stores into it once,
    the whole block, the logistic of the row sums of the products of the first ten columns. -/
def out4_2 (x0 : Vec F S3200x20 .f32) (x1 : Vec F S3200x20 .f32) : Vec F S3200x1 .f32 :=
  View.canon [⟨r4_1, k4_pay3 (View.ld x0 r4_0) (View.ld x1 r4_0)⟩]

/-- Output window 3's staging buffer after the body: one whole-block store, the same over the last ten columns. -/
def out4_3 (x0 : Vec F S3200x20 .f32) (x1 : Vec F S3200x20 .f32) : Vec F S3200x1 .f32 :=
  View.canon [⟨r4_1, k4_pay4 (View.ld x0 r4_0) (View.ld x1 r4_0)⟩]

/-- The one store into an output block is of the whole block, so every index of the block lies in it. -/
theorem cover4_out (p0 : Vec F S3200x1 .f32) (y : S3200x1.Idx) :
    ∃ pc ∈ ([⟨r4_1, p0⟩] : List (View.Piece (Elt F) S3200x1 .f32)), y ∈ pc.1.set :=
  View.cover_of_tiled [⟨r4_1, p0⟩] S3200x1.size (by rfl) y

/-! ## The body's triple -/

set_option maxHeartbeats 1000000 in
/-- The kernel body on whole staging memrefs, the inputs' owned at contents `x0`, `x1` and the outputs' at
    anything, runs to the continuation holding the inputs' as they were and each output's at `out4_W` of the
    inputs. The body loads each output block before overwriting all of it; the loaded value is never read. -/
theorem sound_kernel4 (c : Dev nD) (E : Set ℕ) (i : grid4.Coords) (arg1 : Memref sig .tc .vmem S3200x20 .f32) (harg1 : arg1.IsWhole) (arg2 : Memref sig .tc .vmem S3200x20 .f32) (harg2 : arg2.IsWhole) (arg3 : Memref sig .tc .vmem S3200x1 .f32) (harg3 : arg3.IsWhole) (arg4 : Memref sig .tc .vmem S3200x1 .f32) (harg4 : arg4.IsWhole)
    (x0 : Vec F S3200x20 .f32) (x1 : Vec F S3200x20 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out4_2 x0 x1) ∗ owns (c : Thread nD τ) arg4 fullShare (out4_3 x0 x1)) -∗ K ⟨⟩))
      ⊢ wp frame (wpE (defs₀ (F := F)) Variants.none c none) E (cc4__edge_score_kernel i arg1 harg1 arg2 harg2 arg3 harg3 arg4 harg4) K := by
  simp only [cc4__edge_score_kernel_eq_skeleton]; unfold cc4__edge_score_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover4_out _)
  iexists _; isplitr
  swap; · iexact H3
  ipureintro
  exact View.read_writes_eq_canon _ _ _ (cover4_out _)

/-! ## The pipeline's proof data -/

/-- The proof data of pipeline 4 on core `c`: the arrays as the region finds them; after the body at point
    `t` each input's buffer still at its block and each output's at `out4_W` of the two input blocks; the
    invariant is the library's for a body that touches nothing but its windows (the scoped rest and the
    generator register pass through); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (iblk4 V c 0 t) (iblk4 V c 1 t)
  Φ _ := Pipeline.ΦA spec4 c
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (iblk4 V c 0 t) (iblk4 V c 1 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`: the invariant, the core's debts, and each window's current
    staging memref owned at what the pipeline left in it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: the same with each memref at the proof data's `after`. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRun.lean ====
/-
  The whole run of the program, segment by segment.

  @main is thirteen items: stretches of host operations and five kernel regions.  Between two items every buffer of the
  core that lives for the whole program holds a known array: the launch memory, then each stretch's operations applied
  in order, then, after a region, the same arrays except that each array the region writes holds what its blocks,
  written back point by point, leave there.  `W j` is that valuation before item j (`W 13` after the last).  Each region is
  run from its proof data (the region modules) entered at `W` of its entry; the run theorem reads every such buffer of
  the final memory at `W 13`.  From it follow the frame (no item writes an argument array) and, for a value proof,
  each result array as `W 13` of its buffer.
-/
import proofs.«157918_j42898133352759_2_alg».proof.Proof.KRegion0
import proofs.«157918_j42898133352759_2_alg».proof.Proof.KRegion1
import proofs.«157918_j42898133352759_2_alg».proof.Proof.KRegion2
import proofs.«157918_j42898133352759_2_alg».proof.Proof.KRegion3
import proofs.«157918_j42898133352759_2_alg».proof.Proof.KRegion4
import proofs.«157918_j42898133352759_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
/-- After the stretch `hostOps0_1`. -/
abbrev W2 : Dev nD → Valuation τ sig (Elt F) := fun c => StableHlo.after hostOps0_1 (W1 m ρ c)
/-- After the stretch `hostOps0_2`. -/
abbrev W3 : Dev nD → Valuation τ sig (Elt F) := fun c => StableHlo.after hostOps0_2 (W2 m ρ c)
/-- `W3` read at the TensorCore's references. -/
abbrev V3 : (c : Dev nD) → (b : Ref sig .tc) → Buf (Elt F) ((c : Thread nD τ).loc b) := fun c b => W3 m ρ c b
/-- At region 0's exit: each of its arrays at what the write-backs of all its points leave (an input array as
    entered), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- `W4` read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input array of region 0 leaves the region as it entered it. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
/-- After the stretch `hostOps1`. -/
abbrev W5 : Dev nD → Valuation τ sig (Elt F) := fun c => StableHlo.after hostOps1 (W4 m ρ c)
/-- `W5` read at the TensorCore's references. -/
abbrev V5 : (c : Dev nD) → (b : Ref sig .tc) → Buf (Elt F) ((c : Thread nD τ).loc b) := fun c b => W5 m ρ c b
/-- At region 1's exit: each of its arrays at what the write-backs of all its points leave (an input array as
    entered), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- `W6` read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input array of region 1 leaves the region as it entered it. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
/-- After the stretch `hostOps2`. -/
abbrev W7 : Dev nD → Valuation τ sig (Elt F) := fun c => StableHlo.after hostOps2 (W6 m ρ c)
/-- `W7` read at the TensorCore's references. -/
abbrev V7 : (c : Dev nD) → (b : Ref sig .tc) → Buf (Elt F) ((c : Thread nD τ).loc b) := fun c b => W7 m ρ c b
/-- At region 2's exit: each of its arrays at what the write-backs of all its points leave (an input array as
    entered), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- `W8` read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input array of region 2 leaves the region as it entered it. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))
/-- After the stretch `hostOps3`. -/
abbrev W9 : Dev nD → Valuation τ sig (Elt F) := fun c => StableHlo.after hostOps3 (W8 m ρ c)
/-- `W9` read at the TensorCore's references. -/
abbrev V9 : (c : Dev nD) → (b : Ref sig .tc) → Buf (Elt F) ((c : Thread nD τ).loc b) := fun c b => W9 m ρ c b
/-- At region 3's exit: each of its arrays at what the write-backs of all its points leave (an input array as
    entered), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- `W10` read at the TensorCore's references. -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- An input array of region 3 leaves the region as it entered it. -/
theorem W10_in (c : Dev nD) (w : Fin cfg3.W) (hw : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hw _).trans (A_eq3 (V9 m ρ) c w))
/-- After the stretch `hostOps4`. -/
abbrev W11 : Dev nD → Valuation τ sig (Elt F) := fun c => StableHlo.after hostOps4 (W10 m ρ c)
/-- `W11` read at the TensorCore's references. -/
abbrev V11 : (c : Dev nD) → (b : Ref sig .tc) → Buf (Elt F) ((c : Thread nD τ).loc b) := fun c b => W11 m ρ c b
/-- At region 4's exit: each of its arrays at what the write-backs of all its points leave (an input array as
    entered), every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- `W12` read at the TensorCore's references. -/
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- An input array of region 4 leaves the region as it entered it. -/
theorem W12_in (c : Dev nD) (w : Fin cfg4.W) (hw : (cfg4.win w).isOut = false) :
    W12 m ρ c (Proc.devRef .tc (Pipeline.arrRef spec4 w)) = W11 m ρ c (Proc.devRef .tc (Pipeline.arrRef spec4 w)) :=
  (W12_arr m ρ c w).trans (((dat4 (V11 m ρ) c).arrAt_in w hw _).trans (A_eq4 (V11 m ρ) c w))
/-- After the stretch `hostOps5`. -/
abbrev W13 : Dev nD → Valuation τ sig (Elt F) := fun c => StableHlo.after hostOps5 (W12 m ρ c)

/-! ## What each item leaves unchanged -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W2_keep (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_keep (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- Region 0 changes no buffer other than its output arrays. -/
theorem W4_keep (c : Dev nD) (r : Ref sig .tc) (hr : r ∉ ([main_v32] : List (Ref sig .tc))) :
    W4 m ρ c (Proc.devRef .tc r) = W3 m ρ c (Proc.devRef .tc r) := by
  by_cases h : ∃ w, Pipeline.arrRef spec0 w = r
  · obtain ⟨w, rfl⟩ := h
    have hw : (cfg0.win w).isOut = false := by
      revert hr; revert w; decide
    exact W4_in m ρ c w hw
  · exact W4_of_ne m ρ c r fun w e => h ⟨w, e⟩
theorem W5_keep (c : Dev nD) (r : Ref sig .tc) (h : r ∉ hostOps1_W) : W5 m ρ c (Proc.devRef .tc r) = W4 m ρ c (Proc.devRef .tc r) :=
  StableHlo.after_of_writes_sub hostOps1 _ hostOps1_writes h
/-- Region 1 changes no buffer other than its output arrays. -/
theorem W6_keep (c : Dev nD) (r : Ref sig .tc) (hr : r ∉ ([main_v47] : List (Ref sig .tc))) :
    W6 m ρ c (Proc.devRef .tc r) = W5 m ρ c (Proc.devRef .tc r) := by
  by_cases h : ∃ w, Pipeline.arrRef spec1 w = r
  · obtain ⟨w, rfl⟩ := h
    have hw : (cfg1.win w).isOut = false := by
      revert hr; revert w; decide
    exact W6_in m ρ c w hw
  · exact W6_of_ne m ρ c r fun w e => h ⟨w, e⟩
theorem W7_keep (c : Dev nD) (r : Ref sig .tc) (h : r ∉ hostOps2_W) : W7 m ρ c (Proc.devRef .tc r) = W6 m ρ c (Proc.devRef .tc r) :=
  StableHlo.after_of_writes_sub hostOps2 _ hostOps2_writes h
/-- Region 2 changes no buffer other than its output arrays. -/
theorem W8_keep (c : Dev nD) (r : Ref sig .tc) (hr : r ∉ ([main_v62] : List (Ref sig .tc))) :
    W8 m ρ c (Proc.devRef .tc r) = W7 m ρ c (Proc.devRef .tc r) := by
  by_cases h : ∃ w, Pipeline.arrRef spec2 w = r
  · obtain ⟨w, rfl⟩ := h
    have hw : (cfg2.win w).isOut = false := by
      revert hr; revert w; decide
    exact W8_in m ρ c w hw
  · exact W8_of_ne m ρ c r fun w e => h ⟨w, e⟩
theorem W9_keep (c : Dev nD) (r : Ref sig .tc) (h : r ∉ hostOps3_W) : W9 m ρ c (Proc.devRef .tc r) = W8 m ρ c (Proc.devRef .tc r) :=
  StableHlo.after_of_writes_sub hostOps3 _ hostOps3_writes h
/-- Region 3 changes no buffer other than its output arrays. -/
theorem W10_keep (c : Dev nD) (r : Ref sig .tc) (hr : r ∉ ([main_v71_0, main_v71_1, main_v71_2, main_v71_3, main_v71_4, main_v71_5] : List (Ref sig .tc))) :
    W10 m ρ c (Proc.devRef .tc r) = W9 m ρ c (Proc.devRef .tc r) := by
  by_cases h : ∃ w, Pipeline.arrRef spec3 w = r
  · obtain ⟨w, rfl⟩ := h
    have hw : (cfg3.win w).isOut = false := by
      revert hr; revert w; decide
    exact W10_in m ρ c w hw
  · exact W10_of_ne m ρ c r fun w e => h ⟨w, e⟩
theorem W11_keep (c : Dev nD) (r : Ref sig .tc) (h : r ∉ hostOps4_W) : W11 m ρ c (Proc.devRef .tc r) = W10 m ρ c (Proc.devRef .tc r) :=
  StableHlo.after_of_writes_sub hostOps4 _ hostOps4_writes h
/-- Region 4 changes no buffer other than its output arrays. -/
theorem W12_keep (c : Dev nD) (r : Ref sig .tc) (hr : r ∉ ([main_v91_0, main_v91_1] : List (Ref sig .tc))) :
    W12 m ρ c (Proc.devRef .tc r) = W11 m ρ c (Proc.devRef .tc r) := by
  by_cases h : ∃ w, Pipeline.arrRef spec4 w = r
  · obtain ⟨w, rfl⟩ := h
    have hw : (cfg4.win w).isOut = false := by
      revert hr; revert w; decide
    exact W12_in m ρ c w hw
  · exact W12_of_ne m ρ c r fun w e => h ⟨w, e⟩
theorem W13_keep (c : Dev nD) (r : Ref sig .tc) (h : r ∉ hostOps5_W) : W13 m ρ c (Proc.devRef .tc r) = W12 m ρ c (Proc.devRef .tc r) :=
  StableHlo.after_of_writes_sub hostOps5 _ hostOps5_writes h

/-- Every reference some item may write. -/
abbrev written : List (Ref sig .tc) :=
  hostOps0_W ++ hostOps0_1_W ++ hostOps0_2_W ++ [main_v32] ++ hostOps1_W ++ [main_v47] ++ hostOps2_W ++ [main_v62] ++ hostOps3_W
    ++ [main_v71_0, main_v71_1, main_v71_2, main_v71_3, main_v71_4, main_v71_5] ++ hostOps4_W ++ [main_v91_0, main_v91_1] ++ hostOps5_W

/-- A buffer no item writes holds at every boundary what it held at launch. -/
theorem keep_all (c : Dev nD) (r : Ref sig .tc) (h : r ∉ (written : List (Ref sig .tc))) :
    W13 m ρ c (Proc.devRef .tc r) = m ((c : Thread nD τ).loc r)
    ∧ W11 m ρ c (Proc.devRef .tc r) = m ((c : Thread nD τ).loc r)
    ∧ W9 m ρ c (Proc.devRef .tc r) = m ((c : Thread nD τ).loc r)
    ∧ W7 m ρ c (Proc.devRef .tc r) = m ((c : Thread nD τ).loc r)
    ∧ W5 m ρ c (Proc.devRef .tc r) = m ((c : Thread nD τ).loc r)
    ∧ W3 m ρ c (Proc.devRef .tc r) = m ((c : Thread nD τ).loc r) := by
  simp only [written, List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  have e1 := W1_keep m ρ c r h0
  have e2 := (W2_keep m ρ c r h1).trans e1
  have e3 := (W3_keep m ρ c r h2).trans e2
  have e4 := (W4_keep m ρ c r h3).trans e3
  have e5 := (W5_keep m ρ c r h4).trans e4
  have e6 := (W6_keep m ρ c r h5).trans e5
  have e7 := (W7_keep m ρ c r h6).trans e6
  have e8 := (W8_keep m ρ c r h7).trans e7
  have e9 := (W9_keep m ρ c r h8).trans e8
  have e10 := (W10_keep m ρ c r h9).trans e9
  have e11 := (W11_keep m ρ c r h10).trans e10
  have e12 := (W12_keep m ρ c r h11).trans e11
  have e13 := (W13_keep m ρ c r h12).trans e12
  exact ⟨e13, e11, e9, e7, e5, e3⟩

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A reference that lives for the whole program is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every such buffer at the last contents `W13`, the generator register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- REGION 0 over the thread state: entered from every buffer at `W3`, left at `W4`. Its arrays are split out of the held
    buffers and put back at the exit contents; the generator register goes into the region's invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every buffer at `W5`, left at `W6`. Its arrays are split out of the held
    buffers and put back at the exit contents; the generator register goes into the region's invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every buffer at `W7`, left at `W8`. Its arrays are split out of the held
    buffers and put back at the exit contents; the generator register goes into the region's invariant and comes out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every buffer at `W9`, left at `W10`. Its arrays are split out of the held
    buffers and put back at the exit contents; the generator register goes into the region's invariant and comes out;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every buffer at `W11`, left at `W12`. Its arrays are split out of the held
    buffers and put back at the exit contents; the generator register goes into the region's invariant and comes out;
    nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)) ]

/-- @main IS the run of the segments. -/
theorem main_run (c : Dev nD) : main (F := F) c = Pipeline.Seg.run (segs m ρ) := by
  rw [main_chain c, Pipeline.Seg.run_eq_chain]
  rfl

set_option backward.isDefEq.respectTransparency.types false in
/-- THE RUN.  From any memory with zero counters every weakly fair execution of @main terminates, nothing faulting, and
    in the final memory every buffer that lives for the whole program holds `W13` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c) ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- THE FRAME: every weakly fair execution of @main terminates, nothing faulting, and every argument array ends as
    launched — no stretch of host operations and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_arg0 (by decide))).trans (keep_all m ρ c main_arg0 (by decide)).1,
      (h c _ (mem_uc main_arg1 (by decide))).trans (keep_all m ρ c main_arg1 (by decide)).1,
      (h c _ (mem_uc main_arg2 (by decide))).trans (keep_all m ρ c main_arg2 (by decide)).1,
      (h c _ (mem_uc main_arg3 (by decide))).trans (keep_all m ρ c main_arg3 (by decide)).1,
      (h c _ (mem_uc main_arg4 (by decide))).trans (keep_all m ρ c main_arg4 (by decide)).1,
      (h c _ (mem_uc main_arg5 (by decide))).trans (keep_all m ρ c main_arg5 (by decide)).1,
      (h c _ (mem_uc main_arg6 (by decide))).trans (keep_all m ρ c main_arg6 (by decide)).1,
      (h c _ (mem_uc main_arg7 (by decide))).trans (keep_all m ρ c main_arg7 (by decide)).1,
      (h c _ (mem_uc main_arg8 (by decide))).trans (keep_all m ρ c main_arg8 (by decide)).1,
      (h c _ (mem_uc main_arg9 (by decide))).trans (keep_all m ρ c main_arg9 (by decide)).1,
      (h c _ (mem_uc main_arg10 (by decide))).trans (keep_all m ρ c main_arg10 (by decide)).1,
      (h c _ (mem_uc main_arg11 (by decide))).trans (keep_all m ρ c main_arg11 (by decide)).1,
      (h c _ (mem_uc main_arg12 (by decide))).trans (keep_all m ρ c main_arg12 (by decide)).1,
      (h c _ (mem_uc main_arg13 (by decide))).trans (keep_all m ρ c main_arg13 (by decide)).1,
      (h c _ (mem_uc main_arg14 (by decide))).trans (keep_all m ρ c main_arg14 (by decide)).1,
      (h c _ (mem_uc main_arg15 (by decide))).trans (keep_all m ρ c main_arg15 (by decide)).1,
      (h c _ (mem_uc main_arg16 (by decide))).trans (keep_all m ρ c main_arg16 (by decide)).1,
      (h c _ (mem_uc main_arg17 (by decide))).trans (keep_all m ρ c main_arg17 (by decide)).1,
      (h c _ (mem_uc main_arg18 (by decide))).trans (keep_all m ρ c main_arg18 (by decide)).1,
      (h c _ (mem_uc main_arg19 (by decide))).trans (keep_all m ρ c main_arg19 (by decide)).1,
      (h c _ (mem_uc main_arg20 (by decide))).trans (keep_all m ρ c main_arg20 (by decide)).1,
      (h c _ (mem_uc main_arg21 (by decide))).trans (keep_all m ρ c main_arg21 (by decide)).1⟩) (run_all m ρ)

end Cert.Kernel.Hand

end
-- ==== Proof.LibMatmulFin.lean ====
/-
  A matrix product read at one entry, as a finite sum over a plain range.

  On the extended reals a matrix-unit product into a zero accumulator is, entry by entry, the sum
  over the contraction index of the products of the two operands' entries.  When one axis is
  contracted, of extent `K`, that index is just a number below `K`; the lemma below states the
  entry as a sum over `Fin K`, the caller naming which entry of each operand position `k` reads.
  It holds for any dimension numbers with a single contracted axis, whatever the operands' layout
  (either may be stored transposed).
-/
import Idealize.ShloMosaic.PureOps.Ideal.Laws
import Idealize.ShloMosaic.Lib.ValueIdx

noncomputable section

namespace Cert.LibMatmulFin

open Idealize.ShloMosaic Idealize.ShloMosaic.ValueIdx

/-- Two indices of a rank-two shape with equal coordinates are equal. -/
theorem idx2_ext {n0 n1 : Nat} (a b : (⟨2, ![n0, n1]⟩ : Shape).Idx)
    (h0 : (a 0).val = (b 0).val) (h1 : (a 1).val = (b 1).val) : a = b :=
  funext fun d => Fin.ext (by
    match d with
    | ⟨0, _⟩ => exact h0
    | ⟨1, _⟩ => exact h1)

/-- A product into the zero accumulator, contracted over ONE axis of extent `K`, read at the
    result index `j`: the sum over `k < K` of the left operand at `li k` times the right operand at
    `ri k`, where `li k` and `ri k` are the operand indices the dimension numbers assign to result
    index `j` and contraction position `k` (`hl`, `hri`). -/
theorem matmul_zero_apply_fin {sl sr so : Shape} {φ₁ φ₂ : FTy} (D : DotDims sl sr so) (K : Nat)
    (hr : D.contr.rank = 1) (hs : D.contr.size ⟨0, by omega⟩ = K) (prec : Option ContractPrecision)
    (A : FVec Ideal sl φ₁) (B : FVec Ideal sr φ₂) (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    FloatOps.matmul D prec A B (constant so .f32 0x00000000#32) j = ∑ k : Fin K, A (li k) * B (ri k) := by
  rw [Ideal.matmul_constant_zero_apply, ← Equiv.sum_comp (contrEquiv1 D K hr hs).symm]
  exact Finset.sum_congr rfl fun k _ => by rw [hl k, hri k]

end Cert.LibMatmulFin

end
-- ==== Proof.Value0.lean ====
/- The value of pallas_call 0's result array at an index, on the extended reals. The body is one
   matrix product into a zero accumulator (the roundings to bf16 are the identity on the extended
   reals), so at entry (p, q) of a block it is the sum over the contraction index of the products
   of the two loaded blocks' entries. Point t of the 50-point grid loads rows 2000 t … 2000 t + 1999
   of the first operand and the whole second operand, and writes back rows 2000 t … 2000 t + 1999 of
   the result; the 50 row blocks tile the 100000 rows. So the result array ends holding, at (n, j),
   the sum over k of first operand (n, k) times second operand (k, j). -/
import proofs.«157918_j42898133352759_2_alg».proof.Proof.Region0
import proofs.«157918_j42898133352759_2_alg».proof.Proof.LibMatmulFin
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.LibMatmulFin

variable (V : (c : Dev nD) → (b : Ref sig .tc) → Buf (Elt Ideal) ((c : Thread nD τ).loc b))

/-- The zero offsets of a whole-buffer rectangle, as the constant function. -/
theorem zero_off0 : (![0, 0] : Fin 2 → Nat) = fun _ => 0 := funext fun a => by fin_cases a <;> rfl

/-! ## The body's payload at an index -/

/-- Entry (p, q) of the block product: the sum over the 128 contraction positions of the left block's
    (p, k) entry times the right block's (k, q) entry. The two roundings to bf16 are the identity on
    the extended reals and the accumulator is the zero splat. -/
theorem pay0_apply (x0 : Vec Ideal S2000x128 .f32) (x1 : Vec Ideal S128x32 .f32) (p : Fin 2000) (q : Fin 32) :
    k0_pay1 x0 x1 (ix2 p q) = ∑ k : Fin 128, x0 (ix2 p k) * x1 (ix2 k q) := by
  unfold k0_pay1
  refine matmul_zero_apply_fin dot_S2000x128_S128x32_S2000x32_1_0_0_1_n_n 128 rfl rfl none _ _ (ix2 p q) (fun k => ix2 p k) (fun k => ix2 k q) (fun k => ?_) (fun k => ?_)
  · have hk := contrEquiv1_symm_val dot_S2000x128_S128x32_S2000x32_1_0_0_1_n_n 128 rfl rfl k
    refine idx2_ext _ _ ?_ ?_
    · unfold DotDims.lhsIdx
      rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
      rfl
    · exact (dot_S2000x128_S128x32_S2000x32_1_0_0_1_n_n.lhsIdx_val_of_single rfl (ix2 p q) _).trans hk
  · have hk := contrEquiv1_symm_val dot_S2000x128_S128x32_S2000x32_1_0_0_1_n_n 128 rfl rfl k
    refine idx2_ext _ _ ?_ ?_
    · exact (dot_S2000x128_S128x32_S2000x32_1_0_0_1_n_n.rhsIdx_val_of_single rfl (ix2 p q) _).trans hk
    · unfold DotDims.rhsIdx
      rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
      rfl

/-! ## The result array as one function of the operand arrays -/

/-- The product of the two operand arrays, entry by entry. -/
def prod0 (a0 : S100000x128.Idx → EReal) (a1 : S128x32.Idx → EReal) : S100000x32.Idx → EReal :=
  fun i => ∑ k : Fin 128, a0 (ix2 (⟨(i 0).val, idx2_lt0 i⟩ : Fin 100000) k) * a1 (ix2 k (⟨(i 1).val, idx2_lt1 i⟩ : Fin 32))

/-! ## Where the windows' blocks sit -/

/-- The printed index maps over the 50 grid points: the first operand's and the result's row block
    is the point's number, the column block is 0; the second operand's one block is at (0, 0). -/
theorem blk_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the first operand's block at point `t` is the array's entry 2000 t rows further down. -/
theorem iblk0_0_apply (c : Dev nD) (t : Fin cfg0.N) (x : S2000x128.Idx) (i : S100000x128.Idx)
    (h0 : (i 0).val = 2000 * t.val + (x 0).val) (h1 : (i 1).val = (x 1).val) :
    (iblk0 V c 0 t : Vec Ideal S2000x128 .f32) x = (V c main_arg0 : S100000x128.Idx → EReal) i := by
  obtain ⟨e0, e1, -⟩ := blk_index0 t
  unfold iblk0
  rw [View.read_apply]
  show V c main_arg0 _ = V c main_arg0 _
  congr 1
  funext a
  apply Fin.ext
  match a with
  | ⟨0, _⟩ => show win0_0.index t (0 : Fin 2) * 2000 + 1 * (x 0).val = (i 0).val; omega
  | ⟨1, _⟩ => show win0_0.index t (1 : Fin 2) * 128 + 1 * (x 1).val = (i 1).val; omega

/-- The second operand's block at any point is the whole array. -/
theorem iblk0_1_apply (c : Dev nD) (t : Fin cfg0.N) (x : S128x32.Idx) :
    (iblk0 V c 1 t : Vec Ideal S128x32 .f32) x = (V c main_arg4 : S128x32.Idx → EReal) x := by
  obtain ⟨-, -, e2, e3, -⟩ := blk_index0 t
  unfold iblk0
  rw [View.read_apply]
  show V c main_arg4 _ = V c main_arg4 _
  congr 1
  funext a
  apply Fin.ext
  match a with
  | ⟨0, _⟩ => show win0_1.index t (0 : Fin 2) * 128 + 1 * (x 0).val = (x 0).val; omega
  | ⟨1, _⟩ => show win0_1.index t (1 : Fin 2) * 32 + 1 * (x 1).val = (x 1).val; omega

/-! ## What a point writes back -/

/-- Point `t` writes back block `t` of the product of the operand arrays as the region finds them. -/
theorem flushed0_2_eq (c : Dev nD) (t : Fin cfg0.N) :
    (dat0 V c).flushed 2 t = ((cfg0.win 2).blk t).view.read (Elt Ideal) (prod0 (V c main_arg0) (V c main_arg4)) := by
  show (cfg0.win 2).cut (grid0.coords t) ((dat0 V c).after 2 t) = _
  rw [after0_2]
  unfold out0_2
  rw [View.canon_unit_zero zero_off0]
  simp only [View.ld_unit_zero (S := S2000x128) zero_off0, View.ld_unit_zero (S := S128x32) zero_off0]
  obtain ⟨-, -, -, -, e4, e5⟩ := blk_index0 t
  funext y
  obtain ⟨p, q, rfl⟩ : ∃ (p : Fin 2000) (q : Fin 32), y = ix2 p q := ⟨y 0, y 1, eq_ix2 y⟩
  show k0_pay1 (iblk0 V c 0 t) (iblk0 V c 1 t) (ix2 p q) = prod0 (V c main_arg0) (V c main_arg4) (((cfg0.win 2).blk t).view.emb (ix2 p q))
  refine (pay0_apply (iblk0 V c 0 t) (iblk0 V c 1 t) p q).trans ?_
  unfold prod0
  refine Finset.sum_congr rfl fun k _ => ?_
  have r0 : ((((cfg0.win 2).blk t).view.emb (ix2 p q)) 0).val = 2000 * t.val + p.val := by
    show win0_2.index t (0 : Fin 2) * 2000 + 1 * p.val = _; omega
  have r1 : ((((cfg0.win 2).blk t).view.emb (ix2 p q)) 1).val = q.val := by
    show win0_2.index t (1 : Fin 2) * 32 + 1 * q.val = _; omega
  rw [iblk0_0_apply V c t (ix2 p k) (ix2 (⟨_, idx2_lt0 (((cfg0.win 2).blk t).view.emb (ix2 p q))⟩ : Fin 100000) k) r0 rfl,
    iblk0_1_apply V c t (ix2 k q)]
  congr 2
  exact idx2_ext _ _ rfl r1.symm

/-! ## The blocks tile the array -/

/-- An index of the result array is in point `t`'s block iff each coordinate is in the block's range. -/
theorem mem_blk0_2 (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v32).slice (win0_2.rect t)).set ↔ _
  rw [View.set_slice_whole, Rect.mem_set_unit]
  exact Iff.rfl

/-- Row r of the result is in the block of point r / 2000, which writes back. -/
theorem covered0_2 (i : S100000x32.Idx) :
    ∃ t : Fin cfg0.N, (cfg0.win 2).flush t = true ∧ i ∈ ((cfg0.win 2).blk t).view.set := by
  have hi0 : (i 0).val < 100000 := idx2_lt0 i
  have hi1 : (i 1).val < 32 := idx2_lt1 i
  have hN : cfg0.N = 50 := N_0
  let t : Fin cfg0.N := ⟨(i 0).val / 2000, by rw [hN]; omega⟩
  have ht : t.val = (i 0).val / 2000 := rfl
  obtain ⟨-, -, -, -, e4, e5⟩ := blk_index0 t
  refine ⟨t, flush0_2 t, ?_⟩
  rw [mem_blk0_2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 32 ≤ (i 1).val ∧ (i 1).val < win0_2.index t (1 : Fin 2) * 32 + 32; omega

/-! ## The result array after the region -/

/-- The result array after the last point is the product of the operand arrays. -/
theorem arr0_2_eq (c : Dev nD) : (dat0 V c).arrAt 2 cfg0.N = prod0 (V c main_arg0) (V c main_arg4) :=
  (dat0 V c).arrAt_eq_of_cover 2 (prod0 (V c main_arg0) (V c main_arg4)) (fun t _ => flushed0_2_eq V c t) (covered0_2)

/-- The product at entry (n, j), spelt out. -/
theorem prod0_apply (a0 : S100000x128.Idx → EReal) (a1 : S128x32.Idx → EReal) (n : Fin 100000) (j : Fin 32) :
    prod0 a0 a1 (ix2 n j) = ∑ k : Fin 128, a0 (ix2 n k) * a1 (ix2 k j) := rfl

/-- At entry (n, j): the sum over k of first operand (n, k) times second operand (k, j). -/
theorem final0_2 (c : Dev nD) (n : Fin 100000) (j : Fin 32) :
    let a0 : S100000x128.Idx → EReal := V c main_arg0
    let a1 : S128x32.Idx → EReal := V c main_arg4
    let r : S100000x32.Idx → EReal := (dat0 V c).arrAt 2 cfg0.N
    r (ix2 n j) = ∑ k : Fin 128, a0 (ix2 n k) * a1 (ix2 k j) := by
  intro a0 a1 r
  exact congrFun (arr0_2_eq V c) (ix2 n j)

end Cert.KernelIdeal.Hand

end
-- ==== Proof.Value1.lean ====
/- The value of pallas_call 1's result array at an index, on the extended reals. The body adds the
   1×32 bias row, broadcast down the rows, to a 2000×32 block and takes the maximum with zero,
   entry by entry. Point t of the 50-point grid loads rows 2000 t … 2000 t + 1999 of the first
   operand and the whole bias row, and writes back the same rows of the result; the 50 row blocks
   tile the 100000 rows. So the result array ends holding, at (n, k), the maximum of zero and first
   operand (n, k) plus bias (0, k). -/
import proofs.«157918_j42898133352759_2_alg».proof.Proof.Region1
import proofs.«157918_j42898133352759_2_alg».proof.Proof.LibMatmulFin
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.LibMatmulFin

variable (V : (c : Dev nD) → (b : Ref sig .tc) → Buf (Elt Ideal) ((c : Thread nD τ).loc b))

/-- The zero offsets of a whole-buffer rectangle, as the constant function. -/
theorem zero_off1 : (![0, 0] : Fin 2 → Nat) = fun _ => 0 := funext fun a => by fin_cases a <;> rfl

/-! ## The body's payload at an index -/

/-- Entry (p, q) of the body's result: the block's entry plus the bias row's entry of column q,
    clamped below at zero. The two shape casts are each to the shape the value already has, the
    row broadcast reads row 0, and the zero word is the extended real 0. -/
theorem pay1_apply (x0 : Vec Ideal S2000x32 .f32) (x1 : Vec Ideal S1x32 .f32) (p : Fin 2000) (q : Fin 32) :
    k1_pay1 x0 x1 (ix2 p q) = max (x0 (ix2 p q) + x1 (ix2 (0 : Fin 1) q)) 0 := by
  unfold k1_pay1
  simp only [shapeCast_self]
  rw [maximumf_apply, addf_apply, broadcast_apply, broadcastTo_1b_ab_apply]
  show max _ (Ideal.ofBits .f32 0x00000000#32) = _
  rw [Ideal.ofBits_zero_f32]

/-! ## The result array as one function of the operand arrays -/

/-- The first array plus the bias row, clamped below at zero, entry by entry. -/
def biasRelu1 (a0 : S100000x32.Idx → EReal) (a1 : S1x32.Idx → EReal) : S100000x32.Idx → EReal :=
  fun i => max (a0 i + a1 (ix2 (0 : Fin 1) (⟨(i 1).val, idx2_lt1 i⟩ : Fin 32))) 0

/-! ## Where the windows' blocks sit -/

/-- The printed index maps over the 50 grid points: the first operand's and the result's row block
    is the point's number, the column block is 0; the bias row's one block is at (0, 0). -/
theorem blk_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the first operand's block at point `t` is the array's entry 2000 t rows further down. -/
theorem iblk1_0_apply (c : Dev nD) (t : Fin cfg1.N) (x : S2000x32.Idx) (i : S100000x32.Idx)
    (h0 : (i 0).val = 2000 * t.val + (x 0).val) (h1 : (i 1).val = (x 1).val) :
    (iblk1 V c 0 t : Vec Ideal S2000x32 .f32) x = (V c main_v45 : S100000x32.Idx → EReal) i := by
  obtain ⟨e0, e1, -⟩ := blk_index1 t
  unfold iblk1
  rw [View.read_apply]
  show V c main_v45 _ = V c main_v45 _
  congr 1
  funext a
  apply Fin.ext
  match a with
  | ⟨0, _⟩ => show win1_0.index t (0 : Fin 2) * 2000 + 1 * (x 0).val = (i 0).val; omega
  | ⟨1, _⟩ => show win1_0.index t (1 : Fin 2) * 32 + 1 * (x 1).val = (i 1).val; omega

/-- The bias row's block at any point is the whole row. -/
theorem iblk1_1_apply (c : Dev nD) (t : Fin cfg1.N) (x : S1x32.Idx) :
    (iblk1 V c 1 t : Vec Ideal S1x32 .f32) x = (V c main_v46 : S1x32.Idx → EReal) x := by
  obtain ⟨-, -, e2, e3, -⟩ := blk_index1 t
  unfold iblk1
  rw [View.read_apply]
  show V c main_v46 _ = V c main_v46 _
  congr 1
  funext a
  apply Fin.ext
  match a with
  | ⟨0, _⟩ => show win1_1.index t (0 : Fin 2) * 1 + 1 * (x 0).val = (x 0).val; omega
  | ⟨1, _⟩ => show win1_1.index t (1 : Fin 2) * 32 + 1 * (x 1).val = (x 1).val; omega

/-! ## What a point writes back -/

/-- Point `t` writes back block `t` of `biasRelu1` of the operand arrays as the region finds them. -/
theorem flushed1_2_eq (c : Dev nD) (t : Fin cfg1.N) :
    (dat1 V c).flushed 2 t = ((cfg1.win 2).blk t).view.read (Elt Ideal) (biasRelu1 (V c main_v45) (V c main_v46)) := by
  show (cfg1.win 2).cut (grid1.coords t) ((dat1 V c).after 2 t) = _
  rw [after1_2]
  unfold out1_2
  rw [View.canon_unit_zero zero_off1]
  simp only [View.ld_unit_zero (S := S2000x32) zero_off1, View.ld_unit_zero (S := S1x32) zero_off1]
  obtain ⟨-, -, -, -, e4, e5⟩ := blk_index1 t
  funext y
  obtain ⟨p, q, rfl⟩ : ∃ (p : Fin 2000) (q : Fin 32), y = ix2 p q := ⟨y 0, y 1, eq_ix2 y⟩
  show k1_pay1 (iblk1 V c 0 t) (iblk1 V c 1 t) (ix2 p q) = biasRelu1 (V c main_v45) (V c main_v46) (((cfg1.win 2).blk t).view.emb (ix2 p q))
  refine (pay1_apply (iblk1 V c 0 t) (iblk1 V c 1 t) p q).trans ?_
  unfold biasRelu1
  have r0 : ((((cfg1.win 2).blk t).view.emb (ix2 p q)) 0).val = 2000 * t.val + p.val := by
    show win1_2.index t (0 : Fin 2) * 2000 + 1 * p.val = _; omega
  have r1 : ((((cfg1.win 2).blk t).view.emb (ix2 p q)) 1).val = q.val := by
    show win1_2.index t (1 : Fin 2) * 32 + 1 * q.val = _; omega
  have eq : (ix2 (0 : Fin 1) q : S1x32.Idx) = ix2 (0 : Fin 1) (⟨_, idx2_lt1 (((cfg1.win 2).blk t).view.emb (ix2 p q))⟩ : Fin 32) :=
    idx2_ext _ _ rfl r1.symm
  rw [iblk1_0_apply V c t (ix2 p q) (((cfg1.win 2).blk t).view.emb (ix2 p q)) r0 r1, iblk1_1_apply V c t (ix2 (0 : Fin 1) q), eq]

/-! ## The blocks tile the array -/

/-- An index of the result array is in point `t`'s block iff each coordinate is in the block's range. -/
theorem mem_blk1_2 (t : Fin cfg1.N) (i : S100000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v47).slice (win1_2.rect t)).set ↔ _
  rw [View.set_slice_whole, Rect.mem_set_unit]
  exact Iff.rfl

/-- Row r of the result is in the block of point r / 2000, which writes back. -/
theorem covered1_2 (i : S100000x32.Idx) :
    ∃ t : Fin cfg1.N, (cfg1.win 2).flush t = true ∧ i ∈ ((cfg1.win 2).blk t).view.set := by
  have hi0 : (i 0).val < 100000 := idx2_lt0 i
  have hi1 : (i 1).val < 32 := idx2_lt1 i
  have hN : cfg1.N = 50 := N_1
  let t : Fin cfg1.N := ⟨(i 0).val / 2000, by rw [hN]; omega⟩
  have ht : t.val = (i 0).val / 2000 := rfl
  obtain ⟨-, -, -, -, e4, e5⟩ := blk_index1 t
  refine ⟨t, flush1_2 t, ?_⟩
  rw [mem_blk1_2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 32 ≤ (i 1).val ∧ (i 1).val < win1_2.index t (1 : Fin 2) * 32 + 32; omega

/-! ## The result array after the region -/

/-- The result array after the last point is `biasRelu1` of the operand arrays. -/
theorem arr1_2_eq (c : Dev nD) : (dat1 V c).arrAt 2 cfg1.N = biasRelu1 (V c main_v45) (V c main_v46) :=
  (dat1 V c).arrAt_eq_of_cover 2 (biasRelu1 (V c main_v45) (V c main_v46)) (fun t _ => flushed1_2_eq V c t) (covered1_2)

/-- `biasRelu1` at entry (n, k), spelt out. -/
theorem biasRelu1_apply (a0 : S100000x32.Idx → EReal) (a1 : S1x32.Idx → EReal) (n : Fin 100000) (k : Fin 32) :
    biasRelu1 a0 a1 (ix2 n k) = max (a0 (ix2 n k) + a1 (ix2 (0 : Fin 1) k)) 0 := rfl

/-- At entry (n, k): the maximum of zero and first operand (n, k) plus bias (0, k). -/
theorem final1_2 (c : Dev nD) (n : Fin 100000) (k : Fin 32) :
    let a0 : S100000x32.Idx → EReal := V c main_v45
    let a1 : S1x32.Idx → EReal := V c main_v46
    let r : S100000x32.Idx → EReal := (dat1 V c).arrAt 2 cfg1.N
    r (ix2 n k) = max (a0 (ix2 n k) + a1 (ix2 (0 : Fin 1) k)) 0 := by
  intro a0 a1 r
  exact congrFun (arr1_2_eq V c) (ix2 n k)

end Cert.KernelIdeal.Hand

end
-- ==== Proof.Value2.lean ====
/- The value of pallas_call 2's result array at an index, on the extended reals. The body is one
   matrix product into a zero accumulator (the roundings to bf16 are the identity on the extended
   reals), so at entry (p, q) of a block it is the sum over the contraction index of the products
   of the two loaded blocks' entries. Point t of the 50-point grid loads rows 2000 t … 2000 t + 1999
   of the first operand and the whole second operand, and writes back rows 2000 t … 2000 t + 1999 of
   the result; the 50 row blocks tile the 100000 rows. So the result array ends holding, at (n, j),
   the sum over k of first operand (n, k) times second operand (k, j). -/
import proofs.«157918_j42898133352759_2_alg».proof.Proof.Region2
import proofs.«157918_j42898133352759_2_alg».proof.Proof.LibMatmulFin
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.LibMatmulFin

variable (V : (c : Dev nD) → (b : Ref sig .tc) → Buf (Elt Ideal) ((c : Thread nD τ).loc b))

/-- The zero offsets of a whole-buffer rectangle, as the constant function. -/
theorem zero_off2 : (![0, 0] : Fin 2 → Nat) = fun _ => 0 := funext fun a => by fin_cases a <;> rfl

/-! ## The body's payload at an index -/

/-- Entry (p, q) of the block product: the sum over the 32 contraction positions of the left block's
    (p, k) entry times the right block's (k, q) entry. The two roundings to bf16 and the two shape casts (each to the shape it already has) are the identity on
    the extended reals and the accumulator is the zero splat. -/
theorem pay2_apply (x0 : Vec Ideal S2000x32 .f32) (x1 : Vec Ideal S32x256 .f32) (p : Fin 2000) (q : Fin 256) :
    k2_pay1 x0 x1 (ix2 p q) = ∑ k : Fin 32, x0 (ix2 p k) * x1 (ix2 k q) := by
  unfold k2_pay1
  simp only [shapeCast_self]
  refine matmul_zero_apply_fin dot_S2000x32_S32x256_S2000x256_1_0_0_1_n_n 32 rfl rfl none _ _ (ix2 p q) (fun k => ix2 p k) (fun k => ix2 k q) (fun k => ?_) (fun k => ?_)
  · have hk := contrEquiv1_symm_val dot_S2000x32_S32x256_S2000x256_1_0_0_1_n_n 32 rfl rfl k
    refine idx2_ext _ _ ?_ ?_
    · unfold DotDims.lhsIdx
      rw [dif_neg (show ¬(0 : Fin S2000x32.rank) ∈ dot_S2000x32_S32x256_S2000x256_1_0_0_1_n_n.lhsBatch by decide), dif_pos (show (0 : Fin S2000x32.rank) ∈ dot_S2000x32_S32x256_S2000x256_1_0_0_1_n_n.lhsNonContracting by decide)]
      rfl
    · exact (dot_S2000x32_S32x256_S2000x256_1_0_0_1_n_n.lhsIdx_val_of_single rfl (ix2 p q) _).trans hk
  · have hk := contrEquiv1_symm_val dot_S2000x32_S32x256_S2000x256_1_0_0_1_n_n 32 rfl rfl k
    refine idx2_ext _ _ ?_ ?_
    · exact (dot_S2000x32_S32x256_S2000x256_1_0_0_1_n_n.rhsIdx_val_of_single rfl (ix2 p q) _).trans hk
    · unfold DotDims.rhsIdx
      rw [dif_neg (show ¬(1 : Fin S32x256.rank) ∈ dot_S2000x32_S32x256_S2000x256_1_0_0_1_n_n.rhsBatch by decide), dif_pos (show (1 : Fin S32x256.rank) ∈ dot_S2000x32_S32x256_S2000x256_1_0_0_1_n_n.rhsNonContracting by decide)]
      rfl

/-! ## The result array as one function of the operand arrays -/

/-- The product of the two operand arrays, entry by entry. -/
def prod2 (a0 : S100000x32.Idx → EReal) (a1 : S32x256.Idx → EReal) : S100000x256.Idx → EReal :=
  fun i => ∑ k : Fin 32, a0 (ix2 (⟨(i 0).val, idx2_lt0 i⟩ : Fin 100000) k) * a1 (ix2 k (⟨(i 1).val, idx2_lt1 i⟩ : Fin 256))

/-! ## Where the windows' blocks sit -/

/-- The printed index maps over the 50 grid points: the first operand's and the result's row block
    is the point's number, the column block is 0; the second operand's one block is at (0, 0). -/
theorem blk_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the first operand's block at point `t` is the array's entry 2000 t rows further down. -/
theorem iblk2_0_apply (c : Dev nD) (t : Fin cfg2.N) (x : S2000x32.Idx) (i : S100000x32.Idx)
    (h0 : (i 0).val = 2000 * t.val + (x 0).val) (h1 : (i 1).val = (x 1).val) :
    (iblk2 V c 0 t : Vec Ideal S2000x32 .f32) x = (V c main_v60 : S100000x32.Idx → EReal) i := by
  obtain ⟨e0, e1, -⟩ := blk_index2 t
  unfold iblk2
  rw [View.read_apply]
  show V c main_v60 _ = V c main_v60 _
  congr 1
  funext a
  apply Fin.ext
  match a with
  | ⟨0, _⟩ => show win2_0.index t (0 : Fin 2) * 2000 + 1 * (x 0).val = (i 0).val; omega
  | ⟨1, _⟩ => show win2_0.index t (1 : Fin 2) * 32 + 1 * (x 1).val = (i 1).val; omega

/-- The second operand's block at any point is the whole array. -/
theorem iblk2_1_apply (c : Dev nD) (t : Fin cfg2.N) (x : S32x256.Idx) :
    (iblk2 V c 1 t : Vec Ideal S32x256 .f32) x = (V c main_v61 : S32x256.Idx → EReal) x := by
  obtain ⟨-, -, e2, e3, -⟩ := blk_index2 t
  unfold iblk2
  rw [View.read_apply]
  show V c main_v61 _ = V c main_v61 _
  congr 1
  funext a
  apply Fin.ext
  match a with
  | ⟨0, _⟩ => show win2_1.index t (0 : Fin 2) * 32 + 1 * (x 0).val = (x 0).val; omega
  | ⟨1, _⟩ => show win2_1.index t (1 : Fin 2) * 256 + 1 * (x 1).val = (x 1).val; omega

/-! ## What a point writes back -/

/-- Point `t` writes back block `t` of the product of the operand arrays as the region finds them. -/
theorem flushed2_2_eq (c : Dev nD) (t : Fin cfg2.N) :
    (dat2 V c).flushed 2 t = ((cfg2.win 2).blk t).view.read (Elt Ideal) (prod2 (V c main_v60) (V c main_v61)) := by
  show (cfg2.win 2).cut (grid2.coords t) ((dat2 V c).after 2 t) = _
  rw [after2_2]
  unfold out2_2
  rw [View.canon_unit_zero zero_off2]
  simp only [View.ld_unit_zero (S := S2000x32) zero_off2, View.ld_unit_zero (S := S32x256) zero_off2]
  obtain ⟨-, -, -, -, e4, e5⟩ := blk_index2 t
  funext y
  obtain ⟨p, q, rfl⟩ : ∃ (p : Fin 2000) (q : Fin 256), y = ix2 p q := ⟨y 0, y 1, eq_ix2 y⟩
  show k2_pay1 (iblk2 V c 0 t) (iblk2 V c 1 t) (ix2 p q) = prod2 (V c main_v60) (V c main_v61) (((cfg2.win 2).blk t).view.emb (ix2 p q))
  refine (pay2_apply (iblk2 V c 0 t) (iblk2 V c 1 t) p q).trans ?_
  unfold prod2
  refine Finset.sum_congr rfl fun k _ => ?_
  have r0 : ((((cfg2.win 2).blk t).view.emb (ix2 p q)) 0).val = 2000 * t.val + p.val := by
    show win2_2.index t (0 : Fin 2) * 2000 + 1 * p.val = _; omega
  have r1 : ((((cfg2.win 2).blk t).view.emb (ix2 p q)) 1).val = q.val := by
    show win2_2.index t (1 : Fin 2) * 256 + 1 * q.val = _; omega
  rw [iblk2_0_apply V c t (ix2 p k) (ix2 (⟨_, idx2_lt0 (((cfg2.win 2).blk t).view.emb (ix2 p q))⟩ : Fin 100000) k) r0 rfl,
    iblk2_1_apply V c t (ix2 k q)]
  congr 2
  exact idx2_ext _ _ rfl r1.symm

/-! ## The blocks tile the array -/

/-- An index of the result array is in point `t`'s block iff each coordinate is in the block's range. -/
theorem mem_blk2_2 (t : Fin cfg2.N) (i : S100000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v62).slice (win2_2.rect t)).set ↔ _
  rw [View.set_slice_whole, Rect.mem_set_unit]
  exact Iff.rfl

/-- Row r of the result is in the block of point r / 2000, which writes back. -/
theorem covered2_2 (i : S100000x256.Idx) :
    ∃ t : Fin cfg2.N, (cfg2.win 2).flush t = true ∧ i ∈ ((cfg2.win 2).blk t).view.set := by
  have hi0 : (i 0).val < 100000 := idx2_lt0 i
  have hi1 : (i 1).val < 256 := idx2_lt1 i
  have hN : cfg2.N = 50 := N_2
  let t : Fin cfg2.N := ⟨(i 0).val / 2000, by rw [hN]; omega⟩
  have ht : t.val = (i 0).val / 2000 := rfl
  obtain ⟨-, -, -, -, e4, e5⟩ := blk_index2 t
  refine ⟨t, flush2_2 t, ?_⟩
  rw [mem_blk2_2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-! ## The result array after the region -/

/-- The result array after the last point is the product of the operand arrays. -/
theorem arr2_2_eq (c : Dev nD) : (dat2 V c).arrAt 2 cfg2.N = prod2 (V c main_v60) (V c main_v61) :=
  (dat2 V c).arrAt_eq_of_cover 2 (prod2 (V c main_v60) (V c main_v61)) (fun t _ => flushed2_2_eq V c t) (covered2_2)

/-- The product at entry (n, j), spelt out. -/
theorem prod2_apply (a0 : S100000x32.Idx → EReal) (a1 : S32x256.Idx → EReal) (n : Fin 100000) (j : Fin 256) :
    prod2 a0 a1 (ix2 n j) = ∑ k : Fin 32, a0 (ix2 n k) * a1 (ix2 k j) := rfl

/-- At entry (n, j): the sum over k of first operand (n, k) times second operand (k, j). -/
theorem final2_2 (c : Dev nD) (n : Fin 100000) (j : Fin 256) :
    let a0 : S100000x32.Idx → EReal := V c main_v60
    let a1 : S32x256.Idx → EReal := V c main_v61
    let r : S100000x256.Idx → EReal := (dat2 V c).arrAt 2 cfg2.N
    r (ix2 n j) = ∑ k : Fin 32, a0 (ix2 n k) * a1 (ix2 k j) := by
  intro a0 a1 r
  exact congrFun (arr2_2_eq V c) (ix2 n j)

end Cert.KernelIdeal.Hand

end
-- ==== Proof.Spec.lean ====
/-
  The mathematics both programs compute, written once over plain coordinates.

  A graph on N nodes is given by M messages.  Message e reads the row of a node table named by its SOURCE index and is
  added into the row named by its DESTINATION index; both are 32-bit words read as signed integers.  A source index is
  clamped into the table (a gather never leaves it); a destination index outside 0 … N-1 lands nowhere (a scatter
  drops it).  Each message carries a weight nrm e.  One round of message passing of a node table t is

      agg t n c = Σ_e [dst e = n] · t (src e) c · nrm e .

  The network is: h = relu (agg (x·W_shared) + b_shared); four heads  agg (h·W) + b  (mu_c, mu_n, lv_c, lv_n);
  z = mu + eps · exp (lv / 2); a two-layer tanh decoder; and for every edge the logistic of the inner product of the
  decoded rows of its two end nodes.
-/
import Idealize.ShloMosaic.PureOps.Ideal
import Idealize.ShloMosaic.Lib.ValueIdx

noncomputable section

namespace Cert.Spec

open Idealize.ShloMosaic Idealize.ShloMosaic.ValueIdx
open scoped BigOperators

/-- A column of M 32-bit indices, as the programs hold it: shape [M, 1]. -/
abbrev IdxCol (M : Nat) : Type := IVec (⟨2, ![M, 1]⟩ : Shape) 32

/-- The table row that entry e of an index column names: the word read signed and clamped into 0 … N-1. -/
def rowOf (N : Nat) (hN : 0 < N) {M : Nat} (sI : IdxCol M) (e : Fin M) : Fin N :=
  ⟨min (sI (ix2 e 0)).toInt.toNat (N - 1), by omega⟩

/-- One round of message passing: node n, column c receives t (src e) c · nrm e from every message e whose destination
    index, read signed, is n. -/
def agg {N M C : Nat} (hN : 0 < N) (sI dI : IdxCol M) (nrm : Fin M → EReal) (t : Fin N → Fin C → EReal)
    (n : Fin N) (c : Fin C) : EReal :=
  ∑ e : Fin M, if (dI (ix2 e 0)).toInt = (n.val : Int) then t (rowOf N hN sI e) c * nrm e else 0

/-- The matrix product, entry by entry. -/
def mm {A K B : Nat} (a : Fin A → Fin K → EReal) (b : Fin K → Fin B → EReal) (i : Fin A) (j : Fin B) : EReal :=
  ∑ k : Fin K, a i k * b k j

/-- A graph-convolution layer: message passing of the projected table, plus a bias per column. -/
def conv {N M K C : Nat} (hN : 0 < N) (sI dI : IdxCol M) (nrm : Fin M → EReal) (t : Fin N → Fin K → EReal)
    (W : Fin K → Fin C → EReal) (b : Fin C → EReal) (n : Fin N) (c : Fin C) : EReal :=
  agg hN sI dI nrm (mm t W) n c + b c

/-- The hidden layer: the first graph convolution followed by relu. -/
def hidden {N M K C : Nat} (hN : 0 < N) (sI dI : IdxCol M) (nrm : Fin M → EReal) (x : Fin N → Fin K → EReal)
    (W : Fin K → Fin C → EReal) (b : Fin C → EReal) (n : Fin N) (c : Fin C) : EReal :=
  max (conv hN sI dI nrm x W b n c) 0

/-- The reparameterised sample z = mu + eps · exp (half · lv), entry by entry (half is the literal one half). -/
def sample {N C : Nat} (half : EReal) (mu lv eps : Fin N → Fin C → EReal) (n : Fin N) (c : Fin C) : EReal :=
  mu n c + eps n c * Ideal.exp (half * lv n c)

/-- One dense layer with tanh. -/
def dense {N K C : Nat} (z : Fin N → Fin K → EReal) (W : Fin K → Fin C → EReal) (b : Fin C → EReal)
    (n : Fin N) (c : Fin C) : EReal :=
  Ideal.tanh (mm z W n c + b c)

/-- The score of edge e: the logistic of the inner product of the decoded rows of its two end nodes. -/
def score {N E C : Nat} (hN : 0 < N) (e0I e1I : IdxCol E) (d : Fin N → Fin C → EReal) (e : Fin E) : EReal :=
  Ideal.logistic (∑ j : Fin C, d (rowOf N hN e0I e) j * d (rowOf N hN e1I e) j)

end Cert.Spec

end
-- ==== Proof.LibRowGatherScatter.lean ====
/-
  ROW GATHER AND ROW SCATTER, READ AT AN INDEX.

  Two index computations of StableHLO, specialised to the dimension numbers that whole-row indexing produces, and
  each reduced to one line of arithmetic on coordinates.

  * x[idx] for a table x : [N, C] (or a flat x : [N]) and a column of integer indices idx : [M, 1] is a
    stablehlo.gather that collapses axis 0 and keeps axis 1 whole. Result element (e, q) is x at row
    min (max idx[e, 0] 0) (N − 1), column q: the start index is read as a SIGNED integer and clamped into the table
    (a negative index reads row 0, an index ≥ N reads row N − 1). Here max · 0 is Int.toNat.
    (gather_rows_apply, gather_row1_apply.)

  * x.at[idx].add(v) / a segment sum for x : [N, C], idx : [M, 1], v : [M, C] is a stablehlo.scatter whose window is
    one whole row. Update element (e, q) lands on operand element (idx[e, 0], q), the index again read signed but
    NOT clamped: an index outside [0, N) makes the update land nowhere. So update (e, q) lands on (r, q') exactly
    when idx[e, 0] = r and q = q'. (resultIdx_rows.)

  The dimension numbers are records over literal-shaped Shapes ⟨2, ![N, C]⟩ with the sizes N, M, C generic; the
  well-formedness conditions of the records are a parameter wf, decided where the sizes are numerals.
-/
import Idealize.ShloMosaic.Lib.ValueIdx

noncomputable section

namespace Idealize.ShloMosaic.RowIndex

open Idealize.ShloMosaic Idealize.ShloMosaic.ValueIdx

/-! ## Gather of whole rows

Per operand axis a, the operand index of result index j is start j a + batchCoord j a + offCoord j a. There are no
batching axes, so batchCoord is 0 throughout. Axis 0 is collapsed and is the one axis the start index map names: its
offset coordinate is 0 and its start is the start index idx[e, 0], read signed, clamped to [0, N − slice size] with
slice size 1. Axis 1 (when the operand has one) is not named by the start index map, so its start is 0, and it is the
only kept axis, fed by the result's only offset axis: its offset coordinate is q. -/

section Gather
variable {α : Type}

/-- x[idx] for an operand [N, C] and a column of start indices [M, 1]: offset_dims [1], collapsed_slice_dims [0],
    start_index_map [0], index_vector_dim 1, slice_sizes [1, C]; result [M, C]. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, q): the operand at row idx[e, 0], read signed and clamped into [0, N − 1], and
    column q. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q)
      = x (ix2 ⟨min (idx (ix2 e 0)).toInt.toNat (N - 1), by omega⟩ q) := by
  unfold Host.gather
  congr 1
  funext a
  refine Fin.ext ?_
  match a with
  | ⟨0, _⟩ =>
    -- axis 0: no batching, collapsed (offset coordinate 0), start = the clamped start index
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    -- the start index is read at [e, 0]: the batch coordinate e, and component 0 on the index vector's axis
    rw [hsi]
    rfl
  | ⟨1, _⟩ =>
    -- axis 1: no batching, start 0 (the start index map does not name it), offset coordinate q
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hst : (rowGatherDims N M C wf).start (ix2 e q) idx 1 = 0 := by
      unfold GatherDims.start
      rw [dif_neg (show (1 : Fin 2) ∉ ([0] : List (Fin 2)) by decide)]
    have hmem : (1 : Fin 2) ∈ (rowGatherDims N M C wf).sKept :=
      (GatherDims.mem_sKept _ _).mpr ⟨(show (1 : Fin 2) ∉ ([0] : List (Fin 2)) by decide), List.not_mem_nil⟩
    have hoff : (rowGatherDims N M C wf).offCoord (ix2 e q) 1 = q.val := by
      unfold GatherDims.offCoord
      rw [dif_pos hmem]
      rfl
    rw [hst, hoff]; omega

/-- x[idx] for a flat operand [N] and a column of start indices [M, 1]: offset_dims [], collapsed_slice_dims [0],
    start_index_map [0], index_vector_dim 1, slice_sizes [1]; result [M]. -/
abbrev rowGatherDims1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at position idx[e, 0], read signed and clamped into [0, N − 1]. -/
theorem gather_row1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowGatherDims1 N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowGatherDims1 N M wf).start (ix1 e) idx 0 + (rowGatherDims1 N M wf).batchCoord (ix1 e) 0
    + (rowGatherDims1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGatherDims1 N M wf).startIndexMap from List.mem_singleton.mpr rfl)]
  have hsi : (rowGatherDims1 N M wf).siIdx (ix1 e) ⟨List.idxOf (0 : Fin 1) (rowGatherDims1 N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Scatter of whole rows

Per operand axis a, update index j lands at start j a + window j a (an integer), provided that is inside
[0, size a) on EVERY axis; otherwise the update is dropped. Axis 0 is the one axis the scatter-dims-to-operand-dims
map names and it is an inserted window axis: start = idx[e, 0] read signed (no clamp), window = 0. Axis 1 is not
named by the map and is the only kept axis, fed by the updates' only window axis: start = 0, window = q. So the
landing point is (idx[e, 0], q), in range exactly when 0 ≤ idx[e, 0] < N (q < C always holds). -/

section Scatter

/-- x.at[idx].add(v) for an operand [N, C], a column of scatter indices [M, 1] and updates [M, C]:
    update_window_dims [1], inserted_window_dims [0], scatter_dims_to_operand_dims [0], index_vector_dim 1. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On axis 0 the window of update (e, q) starts at the scatter index idx[e, 0], read as a signed integer. -/
theorem start_rows_zero {N M C w : Nat} (wf : ScatterDims.WF ⟨2, ![N, C]⟩ ⟨2, ![M, 1]⟩ ⟨2, ![M, C]⟩ [1] [0] [0] 1)
    (idx : IVec ⟨2, ![M, 1]⟩ w) (e : Fin M) (q : Fin C) :
    (rowScatterDims N M C wf).start (ix2 e q) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e q)
      ⟨List.idxOf (0 : Fin 2) (rowScatterDims N M C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1, which the scatter-dims-to-operand-dims map does not name, the window starts at 0. -/
theorem start_rows_one {N M C w : Nat} (wf : ScatterDims.WF ⟨2, ![N, C]⟩ ⟨2, ![M, 1]⟩ ⟨2, ![M, C]⟩ [1] [0] [0] 1)
    (idx : IVec ⟨2, ![M, 1]⟩ w) (e : Fin M) (q : Fin C) :
    (rowScatterDims N M C wf).start (ix2 e q) idx 1 = 0 := by
  unfold ScatterDims.start
  rw [dif_neg (show (1 : Fin 2) ∉ ([0] : List (Fin 2)) by decide)]

/-- Axis 0 is an inserted window axis: the window coordinate there is 0. -/
theorem window_rows_zero {N M C : Nat} (wf : ScatterDims.WF ⟨2, ![N, C]⟩ ⟨2, ![M, 1]⟩ ⟨2, ![M, C]⟩ [1] [0] [0] 1)
    (e : Fin M) (q : Fin C) : (rowScatterDims N M C wf).window (ix2 e q) 0 = 0 := by
  unfold ScatterDims.window
  rw [dif_neg (show (0 : Fin 2) ∉ Shape.kept (⟨2, ![N, C]⟩ : Shape) ([0] : List (Fin 2)) by
    simp [Shape.kept, List.mem_filter])]

/-- Axis 1 is the one kept axis, fed by the updates' window axis 1: the window coordinate there is the update's
    column q. -/
theorem window_rows_one {N M C : Nat} (wf : ScatterDims.WF ⟨2, ![N, C]⟩ ⟨2, ![M, 1]⟩ ⟨2, ![M, C]⟩ [1] [0] [0] 1)
    (e : Fin M) (q : Fin C) : (rowScatterDims N M C wf).window (ix2 e q) 1 = q.val := by
  unfold ScatterDims.window
  rw [dif_pos (show (1 : Fin 2) ∈ Shape.kept (⟨2, ![N, C]⟩ : Shape) ([0] : List (Fin 2)) by
    simp [Shape.kept, List.mem_filter, List.mem_finRange])]
  rfl

/-- Update (e, q) lands on element (r, q') exactly when row e's scatter index, read signed, is r and the columns
    agree: an index outside [0, N) lands nowhere.

    (→) If the landing point exists it is the function a ↦ (start a + window a).toNat, with 0 ≤ start a + window a
    on every axis; reading the equation of indices at axis 0 gives (idx[e, 0] + 0).toNat = r with 0 ≤ idx[e, 0], so
    idx[e, 0] = r, and at axis 1 gives (0 + q).toNat = q'.
    (←) If idx[e, 0] = r < N then start + window is r on axis 0 and q < C on axis 1, both in range, and the landing
    point's coordinates are r and q. -/
theorem resultIdx_rows {N M C w : Nat} (wf : ScatterDims.WF ⟨2, ![N, C]⟩ ⟨2, ![M, 1]⟩ ⟨2, ![M, C]⟩ [1] [0] [0] 1)
    (idx : IVec ⟨2, ![M, 1]⟩ w) (e : Fin M) (q : Fin C) (r : Fin N) (q' : Fin C) :
    (rowScatterDims N M C wf).resultIdx? (ix2 e q) idx = some (ix2 r q')
      ↔ (idx (ix2 e 0)).toInt = (r.val : Int) ∧ q = q' := by
  have h0s := start_rows_zero wf idx e q
  have h1s := start_rows_one wf idx e q
  have h0w := window_rows_zero wf e q
  have h1w := window_rows_one wf e q
  unfold ScatterDims.resultIdx?
  constructor
  · intro hres
    split at hres
    · rename_i h
      have hf := Option.some.inj hres
      have e0 : ((rowScatterDims N M C wf).start (ix2 e q) idx 0 + (rowScatterDims N M C wf).window (ix2 e q) 0).toNat = r.val :=
        congrArg Fin.val (congrFun hf 0)
      have e1 : ((rowScatterDims N M C wf).start (ix2 e q) idx 1 + (rowScatterDims N M C wf).window (ix2 e q) 1).toNat = q'.val :=
        congrArg Fin.val (congrFun hf 1)
      have b0 := (h 0).1
      -- e0 : (idx[e, 0] + 0).toNat = r and b0 : 0 ≤ idx[e, 0] + 0;  e1 : (0 + q).toNat = q'
      rw [h0s, h0w] at e0 b0
      rw [h1s, h1w] at e1
      exact ⟨by omega, Fin.ext (by omega)⟩
    · exact absurd hres (by simp)
  · rintro ⟨hr, rfl⟩
    -- the landing point is in range on both axes: r < N on axis 0, q < C on axis 1
    have h : ∀ a, 0 ≤ (rowScatterDims N M C wf).start (ix2 e q) idx a + (rowScatterDims N M C wf).window (ix2 e q) a
        ∧ (rowScatterDims N M C wf).start (ix2 e q) idx a + (rowScatterDims N M C wf).window (ix2 e q) a < (⟨2, ![N, C]⟩ : Shape).size a := by
      intro a
      match a with
      | ⟨0, _⟩ =>
        show 0 ≤ (rowScatterDims N M C wf).start (ix2 e q) idx 0 + (rowScatterDims N M C wf).window (ix2 e q) 0
          ∧ (rowScatterDims N M C wf).start (ix2 e q) idx 0 + (rowScatterDims N M C wf).window (ix2 e q) 0 < ((N : Nat) : Int)
        rw [h0s, h0w]; have := r.isLt; omega
      | ⟨1, _⟩ =>
        show 0 ≤ (rowScatterDims N M C wf).start (ix2 e q) idx 1 + (rowScatterDims N M C wf).window (ix2 e q) 1
          ∧ (rowScatterDims N M C wf).start (ix2 e q) idx 1 + (rowScatterDims N M C wf).window (ix2 e q) 1 < ((C : Nat) : Int)
        rw [h1s, h1w]; have := q.isLt; omega
    rw [dif_pos h]
    congr 1
    funext a
    refine Fin.ext ?_
    match a with
    | ⟨0, _⟩ =>
      show ((rowScatterDims N M C wf).start (ix2 e q) idx 0 + (rowScatterDims N M C wf).window (ix2 e q) 0).toNat = r.val
      rw [h0s, h0w]; omega
    | ⟨1, _⟩ =>
      show ((rowScatterDims N M C wf).start (ix2 e q) idx 1 + (rowScatterDims N M C wf).window (ix2 e q) 1).toNat = q.val
      rw [h1s, h1w]; omega

end Scatter

end Idealize.ShloMosaic.RowIndex
-- ==== Proof.LibScatterSet.lean ====
/-
  A scatter whose body returns the update ("set"), read at one index.

  `Host.scatter d f x idx upd` is a left fold over the update positions in row-major order.  Each
  step takes the array built so far and, when the update position lands inside the operand, replaces
  the element at the landing index by `f` of the old element and the update.  When `f` returns the
  update, the element at a fixed index `i` only ever changes by being overwritten: its history is
  a fold over SCALARS, which keeps the last update that landed on `i`.  Two such scatters therefore
  agree at a pair of indices as soon as they start equal there, every update position lands on the
  one index exactly when it lands on the other, and the values written by the positions that land
  agree — whatever the two operand shapes, dimension numbers and index tables are.
-/
import Idealize.ShloMosaic.PureOps.ShapeOps

namespace Cert.LibScatterSet

open Idealize.ShloMosaic

/-- An update position lands on the index `i` exactly when, on every operand axis, its start plus
    its window coordinate is `i`'s coordinate.  The in-range test the scatter makes before writing
    is then automatic, `i` being an index of the operand; conversely a position that fails the
    test lands nowhere. -/
theorem resultIdx?_eq_some_iff {s si u : Shape} {w : Nat} (d : ScatterDims s si u)
    (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hin
      have hv := congrArg Fin.val (congrFun (Option.some.inj h) a)
      simp only at hv
      have := hin a
      omega
    · cases h
  · intro hall
    have hin : ∀ a, 0 ≤ d.start j idx a + d.window j a ∧ d.start j idx a + d.window j a < s.size a := by
      intro a; have := hall a; have := (i a).isLt; omega
    rw [dif_pos hin]
    congr 1; funext a; apply Fin.ext; simp only; have := hall a; omega

/-- One step of a set-scatter, read at the index `i`: the array after the step holds at `i` the
    update's value when the update position `j` lands on `i`, and the old element otherwise
    (the update landed elsewhere, or outside the operand and was dropped). -/
theorem step_apply {α : Type} {s si u : Shape} {w : Nat} (d : ScatterDims s si u)
    (idx : IVec si w) (upd : u.Idx → α) (r : s.Idx → α) (j : u.Idx) (i : s.Idx) :
    (match d.resultIdx? j idx with
      | some k => fun i' => if i' = k then (fun (_ b : α) => b) (r k) (upd j) else r i'
      | none => r) i
      = if d.resultIdx? j idx = some i then upd j else r i := by
  cases hk : d.resultIdx? j idx with
  | none => simp
  | some k =>
    by_cases hik : i = k
    · subst hik; simp
    · have hne : ¬ (some k = some i) := fun h => hik (Option.some.inj h).symm
      simp [hik, hne]

/-- The array fold of a set-scatter over ANY list of flat update positions, read at `i`, is the
    scalar fold over the same list started from the element at `i`: by induction on the list, the
    starting array generalized, each step rewritten by `step_apply`. -/
theorem foldl_set_apply {α : Type} {s si u : Shape} {w : Nat} (d : ScatterDims s si u)
    (idx : IVec si w) (upd : u.Idx → α) (i : s.Idx) (l : List (Fin u.numel)) (x : s.Idx → α) :
    l.foldl (fun r n =>
        match d.resultIdx? (u.rowMajor.symm n) idx with
        | some k => fun i' => if i' = k then (fun (_ b : α) => b) (r k) (upd (u.rowMajor.symm n)) else r i'
        | none => r) x i
      = l.foldl (fun a n =>
          if d.resultIdx? (u.rowMajor.symm n) idx = some i then upd (u.rowMajor.symm n) else a) (x i) := by
  induction l generalizing x with
  | nil => rfl
  | cons n l ih =>
    rw [List.foldl_cons, List.foldl_cons, ih, step_apply]

/-- A set-scatter read at one index `i` is a scalar left fold over the update positions in
    row-major order: start from the operand's element at `i`; an update position that lands on `i`
    overwrites the running value with its update, any other leaves it. -/
theorem scatter_set_apply {α : Type} {s si u : Shape} {w : Nat} (d : ScatterDims s si u)
    (x : s.Idx → α) (idx : IVec si w) (upd : u.Idx → α) (i : s.Idx) :
    Host.scatter d (fun _ b => b) x idx upd i
      = (List.finRange u.numel).foldl (fun a n =>
          if d.resultIdx? (u.rowMajor.symm n) idx = some i then upd (u.rowMajor.symm n) else a) (x i) := by
  unfold Host.scatter
  exact foldl_set_apply d idx upd i _ x

/-- Two scalar "keep the last hit" folds over the same list agree when they start equal, hit at
    the same positions, and write equal values where they hit. -/
theorem foldl_hit_congr {α ι : Type} (l : List ι) (P Q : ι → Prop) [DecidablePred P] [DecidablePred Q]
    (f g : ι → α) (hPQ : ∀ n, P n ↔ Q n) (hfg : ∀ n, P n → f n = g n) (a b : α) (hab : a = b) :
    l.foldl (fun a n => if P n then f n else a) a = l.foldl (fun b n => if Q n then g n else b) b := by
  induction l generalizing a b with
  | nil => exact hab
  | cons n l ih =>
    rw [List.foldl_cons, List.foldl_cons]
    apply ih
    by_cases hp : P n
    · rw [if_pos hp, if_pos ((hPQ n).1 hp)]; exact hfg n hp
    · rw [if_neg hp, if_neg (fun hq => hp ((hPQ n).2 hq))]; exact hab

/-- Two set-scatters with the same update shape — operand shapes, dimension numbers, index tables
    and update tables possibly different — agree at the indices `i` and `i'` when the operands agree
    there, every update position lands on `i` in the first exactly when it lands on `i'` in the
    second, and the updates that land carry equal values. -/
theorem scatter_set_congr {α : Type} {s s' si si' u : Shape} {w w' : Nat}
    (d : ScatterDims s si u) (d' : ScatterDims s' si' u)
    (x : s.Idx → α) (x' : s'.Idx → α) (idx : IVec si w) (idx' : IVec si' w') (upd upd' : u.Idx → α)
    (i : s.Idx) (i' : s'.Idx)
    (h0 : x i = x' i')
    (hhit : ∀ j : u.Idx, d.resultIdx? j idx = some i ↔ d'.resultIdx? j idx' = some i')
    (hupd : ∀ j : u.Idx, d.resultIdx? j idx = some i → upd j = upd' j) :
    Host.scatter d (fun _ b => b) x idx upd i = Host.scatter d' (fun _ b => b) x' idx' upd' i' := by
  rw [scatter_set_apply, scatter_set_apply]
  exact foldl_hit_congr _ _ _ _ _ (fun n => hhit _) (fun n hn => hupd _ hn) _ _ h0

end Cert.LibScatterSet
-- ==== Proof.LibScatterAddColumns.lean ====
/-
  A row scatter-add, read column by column.

  The scatter in question adds row `n` of an update table `[N, C]` into row `idx n` of an operand `[S, C]`
  (one index per update row, read signed; a row whose index is outside `0 … S-1` is dropped): at the ideal
  instance the element `(s, c)` of the result is the operand's element plus the SUM, over the update rows `n`
  with `idx n = s`, of `upd (n, c)`.  Whether an update element lands on `(s, c)` is decided by its row alone,
  and it then lands in its own column.  So the columns never mix: a band of `C'` consecutive columns of the result,
  starting at column `off`, is the result of the same scatter run on that band of the operand and of the updates
  alone.  In particular, accumulating `[features | 1]` (65 columns) in one pass gives in columns 0…63 what
  accumulating the features gives, and in column 64 what accumulating the ones gives.

  Nothing is asked of the summands: the sums are over the same update rows on both sides, matched one to one.
-/
import proofs.«157918_j42898133352759_2_alg».proof.Proof.LibScatterSet
import Idealize.ShloMosaic.PureOps.Ideal
import Idealize.ShloMosaic.Lib.ValueIdx

namespace Cert.LibScatterAddColumns

open Idealize.ShloMosaic Idealize.ShloMosaic.ValueIdx

/-- The rank-2 shape `[a, b]`. -/
abbrev Sh2 (a b : Nat) : Shape := ⟨2, ![a, b]⟩

/-- The dimension numbers of a row scatter: the updates' axis 1 is the window axis, the operand's axis 0 is
    inserted and is the one the index addresses, and the index vector is axis 1 (of extent 1) of the index table. -/
structure IsRowScatter {S C N Cu : Nat} (d : ScatterDims (Sh2 S C) (Sh2 N 1) (Sh2 N Cu)) : Prop where
  uw : d.updateWindowDims = [1]
  iw : d.insertedWindowDims = [0]
  sd : d.scatterDimsToOperandDims = [0]
  iv : d.indexVectorDim = 1

variable {S C N Cu : Nat} {w : Nat}

/-- On the row axis the window starts at the update row's index, read signed. -/
theorem start_row (d : ScatterDims (Sh2 S C) (Sh2 N 1) (Sh2 N Cu)) (hd : IsRowScatter d)
    (n : Fin N) (c : Fin Cu) (idx : IVec (Sh2 N 1) w) :
    d.start (ix2 n c) idx (0 : Fin 2) = (idx (ix2 n (0 : Fin 1))).toInt := by
  obtain ⟨uw, iw, sd, iv, wf⟩ := d
  obtain ⟨h1, h2, h3, h4⟩ := hd
  simp only at h1 h2 h3 h4
  subst h1 h2 h3 h4
  unfold ScatterDims.start
  rw [dif_pos (show (0 : Fin 2) ∈ [(0 : Fin 2)] from List.mem_singleton.mpr rfl)]
  refine congrArg (fun t => (idx t).toInt) ?_
  funext b
  match b with
  | ⟨0, _⟩ => rfl
  | ⟨1, _⟩ => rfl

/-- On the column axis the window starts at 0: the index addresses rows only. -/
theorem start_col (d : ScatterDims (Sh2 S C) (Sh2 N 1) (Sh2 N Cu)) (hd : IsRowScatter d)
    (j : (Sh2 N Cu).Idx) (idx : IVec (Sh2 N 1) w) :
    d.start j idx (1 : Fin 2) = 0 := by
  obtain ⟨uw, iw, sd, iv, wf⟩ := d
  obtain ⟨h1, h2, h3, h4⟩ := hd
  simp only at h1 h2 h3 h4
  subst h1 h2 h3 h4
  unfold ScatterDims.start
  rw [dif_neg (show ¬ (1 : Fin 2) ∈ [(0 : Fin 2)] from by simp)]

/-- The row axis is inserted: the window has no extent along it. -/
theorem window_row (d : ScatterDims (Sh2 S C) (Sh2 N 1) (Sh2 N Cu)) (hd : IsRowScatter d)
    (j : (Sh2 N Cu).Idx) : d.window j (0 : Fin 2) = 0 := by
  obtain ⟨uw, iw, sd, iv, wf⟩ := d
  obtain ⟨h1, h2, h3, h4⟩ := hd
  simp only at h1 h2 h3 h4
  subst h1 h2 h3 h4
  unfold ScatterDims.window
  rw [dif_neg (by show ¬ (0 : Fin 2) ∈ (List.finRange 2).filter (fun a => a ∉ [(0 : Fin 2)]); decide)]

/-- Along the column axis the window coordinate is the update's own column. -/
theorem window_col (d : ScatterDims (Sh2 S C) (Sh2 N 1) (Sh2 N Cu)) (hd : IsRowScatter d)
    (n : Fin N) (c : Fin Cu) : d.window (ix2 n c) (1 : Fin 2) = c.val := by
  obtain ⟨uw, iw, sd, iv, wf⟩ := d
  obtain ⟨h1, h2, h3, h4⟩ := hd
  simp only at h1 h2 h3 h4
  subst h1 h2 h3 h4
  unfold ScatterDims.window
  rw [dif_pos (by show (1 : Fin 2) ∈ (List.finRange 2).filter (fun a => a ∉ [(0 : Fin 2)]); decide)]
  rfl

/-- WHERE AN UPDATE ELEMENT LANDS: the element `(n, c)` of the updates lands on `(s, c')` of the operand exactly
    when row `n`'s index is `s` and `c = c'`. -/
theorem lands_iff (d : ScatterDims (Sh2 S C) (Sh2 N 1) (Sh2 N Cu)) (hd : IsRowScatter d)
    (n : Fin N) (c : Fin Cu) (idx : IVec (Sh2 N 1) w) (s : Fin S) (c' : Fin C) :
    d.resultIdx? (ix2 n c) idx = some (ix2 s c')
      ↔ (idx (ix2 n (0 : Fin 1))).toInt = (s.val : Int) ∧ c.val = c'.val := by
  rw [Cert.LibScatterSet.resultIdx?_eq_some_iff]
  constructor
  · intro h
    have h0 := h (0 : Fin 2)
    have h1 := h (1 : Fin 2)
    rw [start_row d hd, window_row d hd] at h0
    rw [start_col d hd, window_col d hd] at h1
    refine ⟨?_, ?_⟩
    · have : ((ix2 s c' : (Sh2 S C).Idx) (0 : Fin 2)).val = s.val := rfl
      omega
    · have : ((ix2 s c' : (Sh2 S C).Idx) (1 : Fin 2)).val = c'.val := rfl
      omega
  · rintro ⟨h0, h1⟩ a
    match a with
    | ⟨0, _⟩ =>
      show d.start (ix2 n c) idx (0 : Fin 2) + (d.window (ix2 n c) (0 : Fin 2) : Int) = (s.val : Int)
      rw [start_row d hd, window_row d hd]; omega
    | ⟨1, _⟩ =>
      show d.start (ix2 n c) idx (1 : Fin 2) + (d.window (ix2 n c) (1 : Fin 2) : Int) = (c'.val : Int)
      rw [start_col d hd, window_col d hd]; omega

open scoped BigOperators

/-- A sum over a range that keeps only the position `k` (and only when `A` holds) is that one term. -/
theorem sum_ite_and_val_eq {M : Type*} [AddCommMonoid M] {C : Nat} (A : Prop) [Decidable A] (k : Nat) (hk : k < C)
    (f : Fin C → M) : (∑ c : Fin C, if A ∧ c.val = k then f c else 0) = if A then f ⟨k, hk⟩ else 0 := by
  by_cases hA : A
  · simp only [hA, true_and, if_true]
    rw [Finset.sum_eq_single (⟨k, hk⟩ : Fin C)]
    · simp
    · intro b _ hb
      rw [if_neg]
      intro h
      exact hb (Fin.ext h)
    · intro h
      exact absurd (Finset.mem_univ _) h
  · simp [hA]

/-- THE COLUMNS DO NOT MIX.  Take a row scatter-add on `C` columns and one on `C'` columns with the same index
    table, such that the second's operand and updates are the band of `C'` columns starting at column `off` of the
    first's.  Then the second's result is that band of the first's result: at `(s, off + c)` the wide scatter adds to
    the operand the updates `(n, off + c)` of the rows `n` whose index is `s`, and the narrow one adds, to the same
    operand element, the same rows' elements `(n, c)` — the same numbers, over the same rows. -/
theorem hostScatterAdd_band {S C C' N : Nat} {w : Nat}
    (d : ScatterDims (Sh2 S C) (Sh2 N 1) (Sh2 N C)) (hd : IsRowScatter d)
    (d' : ScatterDims (Sh2 S C') (Sh2 N 1) (Sh2 N C')) (hd' : IsRowScatter d')
    (off : Nat) (hoff : off + C' ≤ C)
    (x : (Sh2 S C).Idx → EReal) (x' : (Sh2 S C').Idx → EReal)
    (upd : (Sh2 N C).Idx → EReal) (upd' : (Sh2 N C').Idx → EReal) (idx : IVec (Sh2 N 1) w)
    (hx : ∀ (s : Fin S) (c : Fin C'), x (ix2 s (⟨off + c.val, by omega⟩ : Fin C)) = x' (ix2 s c))
    (hupd : ∀ (n : Fin N) (c : Fin C'), upd (ix2 n (⟨off + c.val, by omega⟩ : Fin C)) = upd' (ix2 n c))
    (s : Fin S) (c : Fin C') :
    Ideal.hostScatterAdd d x idx upd (ix2 s (⟨off + c.val, by omega⟩ : Fin C))
      = Ideal.hostScatterAdd d' x' idx upd' (ix2 s c) := by
  unfold Ideal.hostScatterAdd
  rw [hx]
  congr 1
  rw [Finset.sum_filter, Finset.sum_filter, sum_idx2, sum_idx2]
  refine Finset.sum_congr rfl fun n _ => ?_
  simp only [lands_iff d hd, lands_iff d' hd']
  rw [sum_ite_and_val_eq _ (off + c.val) (by omega), sum_ite_and_val_eq _ c.val c.isLt]
  exact if_congr Iff.rfl (hupd n c) rfl

end Cert.LibScatterAddColumns
-- ==== Proof.MessagePass.lean ====
/-
  ONE ROUND OF MESSAGE PASSING, AS THE PROGRAMS SPELL IT, READ AT AN INDEX.

  Both programs compute a round of message passing of a node table t : [N, C] in three steps:

    1. gather the rows of t named by a column of SOURCE indices: a table [M, C] whose row e is row src e of t,
       the index read signed and clamped into the table;
    2. multiply it, entry by entry, by the message weights broadcast along the columns (entry (e, q) is nrm e);
    3. scatter-add the product into a table of zeros [N, C] at a column of DESTINATION indices: row e of the product is
       added into row dst e, the index read signed, and dropped when it is outside the table.

  Read at node n and column c, the result is the sum, over the messages e whose destination index is n, of
  t (src e) c · nrm e: the gather is read at (e, c), and the scatter-add's sum over the update ELEMENTS that land on
  (n, c) is a sum over the update ROWS e with dst e = n, each contributing its element of column c.
  Nothing is assumed of the values: the statement is an identity of sums with the same terms.
-/
import proofs.«157918_j42898133352759_2_alg».proof.Proof.Spec
import proofs.«157918_j42898133352759_2_alg».proof.Proof.LibRowGatherScatter
import proofs.«157918_j42898133352759_2_alg».proof.Proof.LibScatterAddColumns

noncomputable section

namespace Cert.MessagePass

open Idealize.ShloMosaic Idealize.ShloMosaic.ValueIdx
open Cert.LibScatterAddColumns
open scoped BigOperators

/-- The dimension numbers of a gather of whole rows of a table `[N, C]` at a column of indices `[M, 1]`: the result's
    axis 1 is the offset axis, the table's axis 0 is collapsed and is the one the index addresses, nothing is batched,
    the index vector is axis 1 (of extent 1) of the index table, and a slice is one whole row. -/
structure IsRowGather {N M C : Nat} (g : GatherDims (Sh2 N C) (Sh2 M 1) (Sh2 M C)) : Prop where
  od : g.offsetDims = [1]
  cs : g.collapsedSliceDims = [0]
  ob : g.operandBatchingDims = []
  sb : g.startIndicesBatchingDims = []
  sm : g.startIndexMap = [0]
  iv : g.indexVectorDim = 1
  ss : g.sliceSizes = ![1, C]

/-- A ROW GATHER READ AT `(e, q)`: the table at the row that entry `e` of the index column names (read signed and
    clamped into `0 … N-1`) and column `q`. -/
theorem gather_apply {α : Type} {N M C w : Nat} (hN : 0 < N)
    (g : GatherDims (Sh2 N C) (Sh2 M 1) (Sh2 M C)) (hg : IsRowGather g)
    (x : (Sh2 N C).Idx → α) (idx : IVec (Sh2 M 1) w) (e : Fin M) (q : Fin C) :
    Host.gather g x idx (ix2 e q) = x (ix2 ⟨min (idx (ix2 e 0)).toInt.toNat (N - 1), by omega⟩ q) := by
  obtain ⟨od, cs, ob, sb, sm, iv, ss, wf⟩ := g
  obtain ⟨h1, h2, h3, h4, h5, h6, h7⟩ := hg
  simp only at h1 h2 h3 h4 h5 h6 h7
  subst h1 h2 h3 h4 h5 h6 h7
  exact RowIndex.gather_rows_apply hN wf x idx e q

/-- ONE ROUND, READ AT `(n, c)`.  Gathering the rows of `t` at the source indices, multiplying by the weights
    broadcast along the columns, and scatter-adding into a table of zeros at the destination indices gives, at node `n`
    and column `c`, the sum over the messages `e` arriving at `n` of `t (src e) c · nrm e`.

    The zero operand contributes nothing.  The scatter-add's sum over the update elements `(e, q)` landing on `(n, c)`
    is a double sum over rows `e` and columns `q`; element `(e, q)` lands on `(n, c)` exactly when `dst e = n` and
    `q = c`, so the inner sum keeps the single column `c`, and only for the rows with `dst e = n`.  What it keeps is
    the gathered row's entry `t (src e) c` times the weight `nrm e`. -/
theorem round_apply {N M C : Nat} (hN : 0 < N)
    (g : GatherDims (Sh2 N C) (Sh2 M 1) (Sh2 M C)) (hg : IsRowGather g)
    (d : ScatterDims (Sh2 N C) (Sh2 M 1) (Sh2 M C)) (hd : IsRowScatter d)
    (t : (Sh2 N C).Idx → EReal) (sI dI : Cert.Spec.IdxCol M) (nrm : Fin M → EReal) (w : (Sh2 M C).Idx → EReal)
    (hw : ∀ (e : Fin M) (q : Fin C), w (ix2 e q) = nrm e) (n : Fin N) (c : Fin C) :
    Ideal.hostScatterAdd d (fun _ => (0 : EReal)) dI (fun j => Host.gather g t sI j * w j) (ix2 n c)
      = Cert.Spec.agg hN sI dI nrm (fun n' c' => t (ix2 n' c')) n c := by
  unfold Ideal.hostScatterAdd Cert.Spec.agg
  rw [zero_add, Finset.sum_filter, sum_idx2]
  refine Finset.sum_congr rfl fun e _ => ?_
  simp only [lands_iff d hd]
  rw [sum_ite_and_val_eq _ c.val c.isLt]
  refine if_congr Iff.rfl ?_ rfl
  show Host.gather g t sI (ix2 e c) * w (ix2 e c) = t (ix2 (Cert.Spec.rowOf N hN sI e) c) * nrm e
  rw [gather_apply hN g hg, hw]
  rfl

end Cert.MessagePass

end
-- ==== Proof.KHost.lean ====
/-
  THE KERNEL PROGRAM'S HOST STRETCHES, READ AT AN INDEX.

  Between its kernels the program runs short stretches of whole-array operations.  Each lemma here takes the
  buffers' contents V when a stretch starts, and says what one buffer holds, at one index, when the stretch ends.

  * The two message-passing stretches.  Each gathers the rows of a node table at the column of source indices,
    multiplies them by the message weights broadcast along the columns, and scatter-adds them into zeros at the
    column of destination indices; read at node n and column k this is the specification's round of message passing
    of that table.  The source column is the flat index list with its negative entries wrapped around by the number of
    nodes; the destination column is the flat list as it is.
  * The reshapes of the bias vectors [C] to one-row tables [1, C]: entry (0, k) is entry k.
  * The concatenation of the four head matrices [32, 64] side by side into [32, 256]: column 64·m + l of the result is
    column l of the m-th matrix.

  Nothing is assumed of the values.
-/
import proofs.«157918_j42898133352759_2_alg».proof.Proof.Gen.KernelIdeal.Launch
import proofs.«157918_j42898133352759_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«157918_j42898133352759_2_alg».proof.Proof.Spec
import proofs.«157918_j42898133352759_2_alg».proof.Proof.MessagePass

noncomputable section

namespace Cert.KernelIdeal.Hand

open Cert.KernelIdeal Cert.KernelIdeal.Gen Idealize.ShloMosaic Idealize.ShloMosaic.ValueIdx

open Cert.MessagePass Cert.LibScatterAddColumns

/-! ### Broadcasts read at an index -/

/-- A scalar broadcast to any shape reads the scalar everywhere. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A list [M] laid out as a column [M, 1] reads, at (e, 0), entry e of the list. -/
theorem bcast_col_apply {α : Type} {M : Nat} (h : (⟨1, ![M]⟩ : Shape).BroadcastsInDim ⟨2, ![M, 1]⟩ ![0])
    (x : (⟨1, ![M]⟩ : Shape).Idx → α) (e : Fin M) (u : Fin 1) :
    broadcastInDim ⟨2, ![M, 1]⟩ ![0] h x (ix2 e u) = x (ix1 e) :=
  broadcastInDim_apply _ h x _ _ (fun a => by
    match a with
    | ⟨0, _⟩ =>
      show e.val = if M = 1 then 0 else e.val
      split
      · omega
      · rfl)

/-- A column [M, 1] broadcast along the columns to [M, C] reads, at (e, q), entry (e, 0) of the column. -/
theorem bcast_row_apply {α : Type} {M C : Nat} (h : (⟨2, ![M, 1]⟩ : Shape).BroadcastsInDim ⟨2, ![M, C]⟩ ![0, 1])
    (x : (⟨2, ![M, 1]⟩ : Shape).Idx → α) (e : Fin M) (q : Fin C) :
    broadcastInDim ⟨2, ![M, C]⟩ ![0, 1] h x (ix2 e q) = x (ix2 e 0) :=
  broadcastInDim_apply _ h x _ _ (fun a => by
    match a with
    | ⟨0, _⟩ =>
      show e.val = if M = 1 then 0 else e.val
      split
      · omega
      · rfl
    | ⟨1, _⟩ =>
      show (0 : Fin 1).val = if 1 = 1 then 0 else q.val
      rfl)

/-- The table of zeros the scatter-adds start from: the zero word broadcast to the table's shape. -/
theorem zeros_eq {t : Shape} (h : S_.BroadcastsInDim t ![]) :
    broadcastInDim t ![] h (constant (F := Ideal) S_ .f32 0x00000000#32) = fun _ => (0 : EReal) := by
  funext j
  rw [bcast_scalar_apply, constant_apply, Ideal.ofBits_zero_f32]

/-- The column of source indices as the program builds it from the flat list of source indices: an index that is
    negative, read signed, has the number of nodes added to it (so that -1 names the last node), and the list is then
    laid out as a column. -/
def srcColOf (v3 : S3300000.Idx → BitVec 32) : Cert.Spec.IdxCol 3300000 :=
  broadcastInDim S3300000x1 ![0] bcast_S3300000_S3300000x1_0
    (select (cmpi .slt v3 (broadcastInDim S3300000 ![] bcast_S_S3300000 (constantI S_ 32 0#32)))
      (addi v3 (broadcastInDim S3300000 ![] bcast_S_S3300000 (constantI S_ 32 100000#32))) v3)

/-- The column of destination indices: the flat list of destination indices laid out as a column, as it is. -/
def dstColOf (v6 : S3300000.Idx → BitVec 32) : Cert.Spec.IdxCol 3300000 :=
  broadcastInDim S3300000x1 ![0] bcast_S3300000_S3300000x1_0 v6

/-- One message-passing stretch, as a term: the table `t` gathered at the source column, times the weights `nrm`
    broadcast along the columns, scatter-added into zeros at the destination column; read at node n and column k it is
    the specification's round of message passing of `t`. -/
theorem round_read (t : FVec Ideal S100000x32 .f32) (sI dI : Cert.Spec.IdxCol 3300000) (nrm : FVec Ideal S3300000 .f32)
    (n : Fin 100000) (k : Fin 32) :
    Host.scatterAdd (F := Ideal) scatter_S100000x32_S3300000x1_S3300000x32_1_0_0_1
        (broadcastInDim S100000x32 ![] bcast_S_S100000x32 (constant (F := Ideal) S_ .f32 0x00000000#32)) dI
        (mulf (Host.gather gather_S100000x32_S3300000x1_S3300000x32_1_0_n_n_0_1_132 t sI)
          (broadcastInDim S3300000x32 ![0, 1] bcast_S3300000x1_S3300000x32_0_1
            (broadcastInDim S3300000x1 ![0] bcast_S3300000_S3300000x1_0 nrm))) (ix2 n k)
      = Cert.Spec.agg (by norm_num : 0 < 100000) sI dI (fun e => nrm (ix1 e)) (fun n' c' => t (ix2 n' c')) n k := by
  -- the host's scatter-add at this instance is the exact sum, and the product of two arrays is the product entry by entry
  have hs : ∀ (x : FVec Ideal S100000x32 .f32) (i : IVec S3300000x1 32) (u : FVec Ideal S3300000x32 .f32),
      Host.scatterAdd (F := Ideal) scatter_S100000x32_S3300000x1_S3300000x32_1_0_0_1 x i u
        = Ideal.hostScatterAdd scatter_S100000x32_S3300000x1_S3300000x32_1_0_0_1 x i u := fun _ _ _ => rfl
  have hm : ∀ (a b : FVec Ideal S3300000x32 .f32), mulf a b = fun j => a j * b j := fun _ _ => rfl
  have hw : ∀ (e : Fin 3300000) (q : Fin 32),
      broadcastInDim S3300000x32 ![0, 1] bcast_S3300000x1_S3300000x32_0_1
        (broadcastInDim S3300000x1 ![0] bcast_S3300000_S3300000x1_0 nrm) (ix2 e q) = nrm (ix1 e) := by
    intro e q
    rw [bcast_row_apply, bcast_col_apply]
  have hg : IsRowGather gather_S100000x32_S3300000x1_S3300000x32_1_0_n_n_0_1_132 := ⟨rfl, rfl, rfl, rfl, rfl, rfl, rfl⟩
  have hd : IsRowScatter scatter_S100000x32_S3300000x1_S3300000x32_1_0_0_1 := ⟨rfl, rfl, rfl, rfl⟩
  rw [hs, hm, zeros_eq]
  -- the round of message passing at these arrays, then the two spellings agree term by term
  have key := round_apply (N := 100000) (M := 3300000) (C := 32) (by norm_num) gather_S100000x32_S3300000x1_S3300000x32_1_0_n_n_0_1_132 hg
    scatter_S100000x32_S3300000x1_S3300000x32_1_0_0_1 hd t sI dI (fun e => nrm (ix1 e))
    (broadcastInDim S3300000x32 ![0, 1] bcast_S3300000x1_S3300000x32_0_1
      (broadcastInDim S3300000x1 ![0] bcast_S3300000_S3300000x1_0 nrm)) hw n k
  exact key

/-! ### Running a stretch in two parts -/

/-- Running two lists of operations one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A buffer outside a list holding every buffer the stretch writes keeps its contents through any initial part of the
    stretch. -/
theorem after_take_of_writes_sub {Val : EltTy → Type} {W : List (Ref sig .tc)} {r : Ref sig .tc}
    (ops : List (HloOp τ sig Val)) (n : Nat) (V : Valuation τ sig Val)
    (hW : ops.Forall fun op => op.writes ⊆ (W.map (Proc.devRef (τ := τ) .tc)).toFinset) (hr : r ∉ W) :
    StableHlo.after (ops.take n) V (Proc.devRef .tc r) = V (Proc.devRef .tc r) :=
  StableHlo.after_of_forall_not_mem _ V fun op hop hb => by
    obtain ⟨y, hy, he⟩ := List.mem_map.mp (List.mem_toFinset.mp
      ((List.forall_iff_forall_mem.mp hW) op (List.mem_of_mem_take hop) hb))
    exact hr (Proc.devRef_injective _ he ▸ hy)

set_option maxHeartbeats 1000000

/-! ### The stretch before the first bias-and-relu kernel -/

/-- The aggregated projected features, as a term over the contents the stretch starts from. -/
theorem v45_eq (V : Valuation τ sig (Elt Ideal)) :
    (StableHlo.after (hostOps1 (F := Ideal)) V (Proc.devRef .tc main_v45) : FVec Ideal S100000x32 .f32)
      = Host.scatterAdd (F := Ideal) scatter_S100000x32_S3300000x1_S3300000x32_1_0_0_1
          (broadcastInDim S100000x32 ![] bcast_S_S100000x32 (constant (F := Ideal) S_ .f32 0x00000000#32))
          (dstColOf (V (Proc.devRef .tc main_v6) : IVec S3300000 32))
          (mulf (Host.gather gather_S100000x32_S3300000x1_S3300000x32_1_0_n_n_0_1_132
              (V (Proc.devRef .tc main_v32) : FVec Ideal S100000x32 .f32) (srcColOf (V (Proc.devRef .tc main_v3) : IVec S3300000 32)))
            (broadcastInDim S3300000x32 ![0, 1] bcast_S3300000x1_S3300000x32_0_1
              (broadcastInDim S3300000x1 ![0] bcast_S3300000_S3300000x1_0 (V (Proc.devRef .tc main_v31) : FVec Ideal S3300000 .f32)))) := by
  after_results
  rfl

/-- After the stretch, the aggregated table at (n, k) is the round of message passing of the projected table. -/
theorem stage_v45 (V : Valuation τ sig (Elt Ideal)) (n : Fin 100000) (k : Fin 32) :
    (StableHlo.after (hostOps1 (F := Ideal)) V (Proc.devRef .tc main_v45) : FVec Ideal S100000x32 .f32) (ix2 n k)
      = Cert.Spec.agg (by norm_num : 0 < 100000) (srcColOf (V (Proc.devRef .tc main_v3) : IVec S3300000 32))
          (dstColOf (V (Proc.devRef .tc main_v6) : IVec S3300000 32))
          (fun e => (V (Proc.devRef .tc main_v31) : FVec Ideal S3300000 .f32) (ix1 e))
          (fun n' c' => (V (Proc.devRef .tc main_v32) : FVec Ideal S100000x32 .f32) (ix2 n' c')) n k := by
  rw [v45_eq]
  exact round_read _ _ _ _ n k

/-- The shared bias as a one-row table, as a term. -/
theorem v46_eq (V : Valuation τ sig (Elt Ideal)) :
    (StableHlo.after (hostOps1 (F := Ideal)) V (Proc.devRef .tc main_v46) : FVec Ideal S1x32 .f32)
      = shapeCast S1x32 (V (Proc.devRef .tc main_arg5) : FVec Ideal S32 .f32) shapeCasts_S32_S1x32 := by
  after_results
  rfl

/-- Entry (0, k) of the one-row bias table is entry k of the bias vector. -/
theorem stage_v46 (V : Valuation τ sig (Elt Ideal)) (k : Fin 32) :
    (StableHlo.after (hostOps1 (F := Ideal)) V (Proc.devRef .tc main_v46) : FVec Ideal S1x32 .f32) (ix2 (0 : Fin 1) k)
      = (V (Proc.devRef .tc main_arg5) : FVec Ideal S32 .f32) (ix1 k) := by
  rw [v46_eq]
  exact shapeCast_a_1a_apply _ _ _ _

/-! ### The stretch before the four-head kernel -/

/-- The aggregated hidden features, as a term over the contents the stretch starts from. -/
theorem v60_eq (V : Valuation τ sig (Elt Ideal)) :
    (StableHlo.after (hostOps2 (F := Ideal)) V (Proc.devRef .tc main_v60) : FVec Ideal S100000x32 .f32)
      = Host.scatterAdd (F := Ideal) scatter_S100000x32_S3300000x1_S3300000x32_1_0_0_1
          (broadcastInDim S100000x32 ![] bcast_S_S100000x32 (constant (F := Ideal) S_ .f32 0x00000000#32))
          (dstColOf (V (Proc.devRef .tc main_v6) : IVec S3300000 32))
          (mulf (Host.gather gather_S100000x32_S3300000x1_S3300000x32_1_0_n_n_0_1_132
              (V (Proc.devRef .tc main_v47) : FVec Ideal S100000x32 .f32) (srcColOf (V (Proc.devRef .tc main_v3) : IVec S3300000 32)))
            (broadcastInDim S3300000x32 ![0, 1] bcast_S3300000x1_S3300000x32_0_1
              (broadcastInDim S3300000x1 ![0] bcast_S3300000_S3300000x1_0 (V (Proc.devRef .tc main_v31) : FVec Ideal S3300000 .f32)))) := by
  after_results
  rfl

/-- After the stretch, the aggregated table at (n, k) is the round of message passing of the hidden table. -/
theorem stage_v60 (V : Valuation τ sig (Elt Ideal)) (n : Fin 100000) (k : Fin 32) :
    (StableHlo.after (hostOps2 (F := Ideal)) V (Proc.devRef .tc main_v60) : FVec Ideal S100000x32 .f32) (ix2 n k)
      = Cert.Spec.agg (by norm_num : 0 < 100000) (srcColOf (V (Proc.devRef .tc main_v3) : IVec S3300000 32))
          (dstColOf (V (Proc.devRef .tc main_v6) : IVec S3300000 32))
          (fun e => (V (Proc.devRef .tc main_v31) : FVec Ideal S3300000 .f32) (ix1 e))
          (fun n' c' => (V (Proc.devRef .tc main_v47) : FVec Ideal S100000x32 .f32) (ix2 n' c')) n k := by
  rw [v60_eq]
  exact round_read _ _ _ _ n k

/-- The four head matrices side by side, as a term. -/
theorem v61_eq (V : Valuation τ sig (Elt Ideal)) :
    (StableHlo.after (hostOps2 (F := Ideal)) V (Proc.devRef .tc main_v61) : FVec Ideal S32x256 .f32)
      = concatenate S32x256 1 [⟨S32x64, (V (Proc.devRef .tc main_arg6) : FVec Ideal S32x64 .f32)⟩,
          ⟨S32x64, (V (Proc.devRef .tc main_arg8) : FVec Ideal S32x64 .f32)⟩,
          ⟨S32x64, (V (Proc.devRef .tc main_arg10) : FVec Ideal S32x64 .f32)⟩,
          ⟨S32x64, (V (Proc.devRef .tc main_arg12) : FVec Ideal S32x64 .f32)⟩]
          concatenates_S32x64_S32x64_S32x64_S32x64_S32x256_d1 := by
  -- the concatenation is the last operation of the stretch; none of the sixteen before it writes one of its operands
  have h1 : StableHlo.after (hostOps2 (F := Ideal)) V
      = StableHlo.after ((hostOps2 (F := Ideal)).drop 16) (StableHlo.after ((hostOps2 (F := Ideal)).take 16) V) := by
    rw [← after_append, List.take_append_drop]
  rw [h1]
  have e0 := after_take_of_writes_sub (hostOps2 (F := Ideal)) 16 V hostOps2_writes (r := main_arg6) (by decide)
  have e1 := after_take_of_writes_sub (hostOps2 (F := Ideal)) 16 V hostOps2_writes (r := main_arg8) (by decide)
  have e2 := after_take_of_writes_sub (hostOps2 (F := Ideal)) 16 V hostOps2_writes (r := main_arg10) (by decide)
  have e3 := after_take_of_writes_sub (hostOps2 (F := Ideal)) 16 V hostOps2_writes (r := main_arg12) (by decide)
  generalize StableHlo.after ((hostOps2 (F := Ideal)).take 16) V = W at e0 e1 e2 e3 ⊢
  rw [← e0, ← e1, ← e2, ← e3]
  show StableHlo.after [StableHlo.nary ![main_arg6, main_arg8, main_arg10, main_arg12] main_v61 _ _ _] W
    (Proc.devRef .tc main_v61) = _
  rw [StableHlo.after_cons, StableHlo.after_nil, StableHlo.nary_result]
  rfl

/-- Piece m of four [32, 64] matrices laid side by side: column 64·m + l of the result is column l of piece m. -/
theorem concat4_apply (x0 x1 x2 x3 : FVec Ideal S32x64 .f32) (m : Nat) (hm : m < 4) (xm : FVec Ideal S32x64 .f32)
    (hxm : [(⟨S32x64, x0⟩ : (s : Shape) × (s.Idx → EReal)), ⟨S32x64, x1⟩, ⟨S32x64, x2⟩, ⟨S32x64, x3⟩][m]'hm = ⟨S32x64, xm⟩)
    (k : Fin 32) (l : Fin 64) :
    concatenate S32x256 1 [⟨S32x64, x0⟩, ⟨S32x64, x1⟩, ⟨S32x64, x2⟩, ⟨S32x64, x3⟩]
        concatenates_S32x64_S32x64_S32x64_S32x64_S32x256_d1 (ix2 k (⟨64 * m + l.val, by omega⟩ : Fin 256))
      = xm (ix2 k l) := by
  refine concatenate_apply_piece (t := S32x256) (1 : Fin 2) [⟨S32x64, x0⟩, ⟨S32x64, x1⟩, ⟨S32x64, x2⟩, ⟨S32x64, x3⟩]
    concatenates_S32x64_S32x64_S32x64_S32x64_S32x256_d1 (ix2 k (⟨64 * m + l.val, by omega⟩ : Fin 256)) m hm S32x64 xm hxm rfl
    (64 * m) ?_ (ix2 k l) (fun b hb => ?_) rfl
  · match m, hm with
    | 0, _ => rfl
    | 1, _ => rfl
    | 2, _ => rfl
    | 3, _ => rfl
  · match b with
    | ⟨0, _⟩ => rfl
    | ⟨1, _⟩ => exact absurd rfl hb

/-- Columns 0 … 63 of the wide head matrix are the first head's matrix. -/
theorem stage_v61_0 (V : Valuation τ sig (Elt Ideal)) (k : Fin 32) (l : Fin 64) :
    (StableHlo.after (hostOps2 (F := Ideal)) V (Proc.devRef .tc main_v61) : FVec Ideal S32x256 .f32)
        (ix2 k (⟨64 * 0 + l.val, by omega⟩ : Fin 256))
      = (V (Proc.devRef .tc main_arg6) : FVec Ideal S32x64 .f32) (ix2 k l) := by
  rw [v61_eq]
  exact concat4_apply _ _ _ _ 0 (by decide) _ rfl k l

/-- Columns 64 … 127 are the second head's matrix. -/
theorem stage_v61_1 (V : Valuation τ sig (Elt Ideal)) (k : Fin 32) (l : Fin 64) :
    (StableHlo.after (hostOps2 (F := Ideal)) V (Proc.devRef .tc main_v61) : FVec Ideal S32x256 .f32)
        (ix2 k (⟨64 * 1 + l.val, by omega⟩ : Fin 256))
      = (V (Proc.devRef .tc main_arg8) : FVec Ideal S32x64 .f32) (ix2 k l) := by
  rw [v61_eq]
  exact concat4_apply _ _ _ _ 1 (by decide) _ rfl k l

/-- Columns 128 … 191 are the third head's matrix. -/
theorem stage_v61_2 (V : Valuation τ sig (Elt Ideal)) (k : Fin 32) (l : Fin 64) :
    (StableHlo.after (hostOps2 (F := Ideal)) V (Proc.devRef .tc main_v61) : FVec Ideal S32x256 .f32)
        (ix2 k (⟨64 * 2 + l.val, by omega⟩ : Fin 256))
      = (V (Proc.devRef .tc main_arg10) : FVec Ideal S32x64 .f32) (ix2 k l) := by
  rw [v61_eq]
  exact concat4_apply _ _ _ _ 2 (by decide) _ rfl k l

/-- Columns 192 … 255 are the fourth head's matrix. -/
theorem stage_v61_3 (V : Valuation τ sig (Elt Ideal)) (k : Fin 32) (l : Fin 64) :
    (StableHlo.after (hostOps2 (F := Ideal)) V (Proc.devRef .tc main_v61) : FVec Ideal S32x256 .f32)
        (ix2 k (⟨64 * 3 + l.val, by omega⟩ : Fin 256))
      = (V (Proc.devRef .tc main_arg12) : FVec Ideal S32x64 .f32) (ix2 k l) := by
  rw [v61_eq]
  exact concat4_apply _ _ _ _ 3 (by decide) _ rfl k l

/-! ### The stretch of bias reshapes -/

/-- The first head's bias as a one-row table: entry (0, l) is entry l of the vector. -/
theorem stage_v63 (V : Valuation τ sig (Elt Ideal)) (l : Fin 64) :
    (StableHlo.after (hostOps3 (F := Ideal)) V (Proc.devRef .tc main_v63) : FVec Ideal S1x64 .f32) (ix2 (0 : Fin 1) l)
      = (V (Proc.devRef .tc main_arg7) : FVec Ideal S64 .f32) (ix1 l) := by
  have h : (StableHlo.after (hostOps3 (F := Ideal)) V (Proc.devRef .tc main_v63) : FVec Ideal S1x64 .f32)
      = shapeCast S1x64 (V (Proc.devRef .tc main_arg7) : FVec Ideal S64 .f32) shapeCasts_S64_S1x64 := by
    after_results
    rfl
  rw [h]
  exact shapeCast_a_1a_apply _ _ _ _

/-- The second head's bias as a one-row table: entry (0, l) is entry l of the vector. -/
theorem stage_v64 (V : Valuation τ sig (Elt Ideal)) (l : Fin 64) :
    (StableHlo.after (hostOps3 (F := Ideal)) V (Proc.devRef .tc main_v64) : FVec Ideal S1x64 .f32) (ix2 (0 : Fin 1) l)
      = (V (Proc.devRef .tc main_arg9) : FVec Ideal S64 .f32) (ix1 l) := by
  have h : (StableHlo.after (hostOps3 (F := Ideal)) V (Proc.devRef .tc main_v64) : FVec Ideal S1x64 .f32)
      = shapeCast S1x64 (V (Proc.devRef .tc main_arg9) : FVec Ideal S64 .f32) shapeCasts_S64_S1x64 := by
    after_results
    rfl
  rw [h]
  exact shapeCast_a_1a_apply _ _ _ _

/-- The third head's bias as a one-row table: entry (0, l) is entry l of the vector. -/
theorem stage_v65 (V : Valuation τ sig (Elt Ideal)) (l : Fin 64) :
    (StableHlo.after (hostOps3 (F := Ideal)) V (Proc.devRef .tc main_v65) : FVec Ideal S1x64 .f32) (ix2 (0 : Fin 1) l)
      = (V (Proc.devRef .tc main_arg11) : FVec Ideal S64 .f32) (ix1 l) := by
  have h : (StableHlo.after (hostOps3 (F := Ideal)) V (Proc.devRef .tc main_v65) : FVec Ideal S1x64 .f32)
      = shapeCast S1x64 (V (Proc.devRef .tc main_arg11) : FVec Ideal S64 .f32) shapeCasts_S64_S1x64 := by
    after_results
    rfl
  rw [h]
  exact shapeCast_a_1a_apply _ _ _ _

/-- The fourth head's bias as a one-row table: entry (0, l) is entry l of the vector. -/
theorem stage_v66 (V : Valuation τ sig (Elt Ideal)) (l : Fin 64) :
    (StableHlo.after (hostOps3 (F := Ideal)) V (Proc.devRef .tc main_v66) : FVec Ideal S1x64 .f32) (ix2 (0 : Fin 1) l)
      = (V (Proc.devRef .tc main_arg13) : FVec Ideal S64 .f32) (ix1 l) := by
  have h : (StableHlo.after (hostOps3 (F := Ideal)) V (Proc.devRef .tc main_v66) : FVec Ideal S1x64 .f32)
      = shapeCast S1x64 (V (Proc.devRef .tc main_arg13) : FVec Ideal S64 .f32) shapeCasts_S64_S1x64 := by
    after_results
    rfl
  rw [h]
  exact shapeCast_a_1a_apply _ _ _ _

/-- The first decoder's hidden bias as a one-row table: entry (0, l) is entry l of the vector. -/
theorem stage_v67 (V : Valuation τ sig (Elt Ideal)) (l : Fin 32) :
    (StableHlo.after (hostOps3 (F := Ideal)) V (Proc.devRef .tc main_v67) : FVec Ideal S1x32 .f32) (ix2 (0 : Fin 1) l)
      = (V (Proc.devRef .tc main_arg15) : FVec Ideal S32 .f32) (ix1 l) := by
  have h : (StableHlo.after (hostOps3 (F := Ideal)) V (Proc.devRef .tc main_v67) : FVec Ideal S1x32 .f32)
      = shapeCast S1x32 (V (Proc.devRef .tc main_arg15) : FVec Ideal S32 .f32) shapeCasts_S32_S1x32 := by
    after_results
    rfl
  rw [h]
  exact shapeCast_a_1a_apply _ _ _ _

/-- The first decoder's output bias as a one-row table: entry (0, l) is entry l of the vector. -/
theorem stage_v68 (V : Valuation τ sig (Elt Ideal)) (l : Fin 10) :
    (StableHlo.after (hostOps3 (F := Ideal)) V (Proc.devRef .tc main_v68) : FVec Ideal S1x10 .f32) (ix2 (0 : Fin 1) l)
      = (V (Proc.devRef .tc main_arg17) : FVec Ideal S10 .f32) (ix1 l) := by
  have h : (StableHlo.after (hostOps3 (F := Ideal)) V (Proc.devRef .tc main_v68) : FVec Ideal S1x10 .f32)
      = shapeCast S1x10 (V (Proc.devRef .tc main_arg17) : FVec Ideal S10 .f32) shapeCasts_S10_S1x10 := by
    after_results
    rfl
  rw [h]
  exact shapeCast_a_1a_apply _ _ _ _

/-- The second decoder's hidden bias as a one-row table: entry (0, l) is entry l of the vector. -/
theorem stage_v69 (V : Valuation τ sig (Elt Ideal)) (l : Fin 32) :
    (StableHlo.after (hostOps3 (F := Ideal)) V (Proc.devRef .tc main_v69) : FVec Ideal S1x32 .f32) (ix2 (0 : Fin 1) l)
      = (V (Proc.devRef .tc main_arg19) : FVec Ideal S32 .f32) (ix1 l) := by
  have h : (StableHlo.after (hostOps3 (F := Ideal)) V (Proc.devRef .tc main_v69) : FVec Ideal S1x32 .f32)
      = shapeCast S1x32 (V (Proc.devRef .tc main_arg19) : FVec Ideal S32 .f32) shapeCasts_S32_S1x32 := by
    after_results
    rfl
  rw [h]
  exact shapeCast_a_1a_apply _ _ _ _

/-- The second decoder's output bias as a one-row table: entry (0, l) is entry l of the vector. -/
theorem stage_v70 (V : Valuation τ sig (Elt Ideal)) (l : Fin 10) :
    (StableHlo.after (hostOps3 (F := Ideal)) V (Proc.devRef .tc main_v70) : FVec Ideal S1x10 .f32) (ix2 (0 : Fin 1) l)
      = (V (Proc.devRef .tc main_arg21) : FVec Ideal S10 .f32) (ix1 l) := by
  have h : (StableHlo.after (hostOps3 (F := Ideal)) V (Proc.devRef .tc main_v70) : FVec Ideal S1x10 .f32)
      = shapeCast S1x10 (V (Proc.devRef .tc main_arg21) : FVec Ideal S10 .f32) shapeCasts_S10_S1x10 := by
    after_results
    rfl
  rw [h]
  exact shapeCast_a_1a_apply _ _ _ _

end Cert.KernelIdeal.Hand

end
-- ==== Proof.KChain1.lean ====
/- The kernel program's values, first part: from the argument arrays to the 256-wide projection.
   The program alternates host stretches and pallas_call regions. Reading the buffers at each
   boundary in turn: region 0 leaves x · W_shared; the stretch after it gathers, weights and
   scatter-adds the rows along the messages (one round of message passing) and reshapes the bias;
   region 1 adds the bias and clamps below at zero, which is the hidden layer; the next stretch passes
   the hidden table along the messages again and lays the four heads' weight tables side by side;
   region 2 multiplies the two, so each 64-column band of its result is the aggregated hidden table
   times one head's weights. The graph data (message sources, destinations, weights) and the
   argument arrays are written by none of these items, so every boundary reads them as the first
   region found them, respectively as at launch. -/
import proofs.«157918_j42898133352759_2_alg».proof.Proof.Run
import proofs.«157918_j42898133352759_2_alg».proof.Proof.Value0
import proofs.«157918_j42898133352759_2_alg».proof.Proof.Value1
import proofs.«157918_j42898133352759_2_alg».proof.Proof.Value2
import proofs.«157918_j42898133352759_2_alg».proof.Proof.KHost
import proofs.«157918_j42898133352759_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg) (c : Dev nD)

/-! ## The graph data and the argument tables, as the kernel program holds them -/

/-- A function on a rank-two index type read by coordinates. -/
abbrev tab2 {A B : Nat} (X : (⟨2, ![A, B]⟩ : Shape).Idx → EReal) (n : Fin A) (k : Fin B) : EReal := X (ix2 n k)
/-- A function on a rank-one index type read by its coordinate. -/
abbrev vec1 {A : Nat} (X : (⟨1, ![A]⟩ : Shape).Idx → EReal) (k : Fin A) : EReal := X (ix1 k)

/-- The argument arrays at launch, on their literal index types. -/
abbrev arg0 : S100000x128.Idx → EReal := m ((c : Thread nD τ).loc main_arg0)
abbrev arg4 : S128x32.Idx → EReal := m ((c : Thread nD τ).loc main_arg4)
abbrev arg5 : S32.Idx → EReal := m ((c : Thread nD τ).loc main_arg5)
abbrev arg6 : S32x64.Idx → EReal := m ((c : Thread nD τ).loc main_arg6)
abbrev arg8 : S32x64.Idx → EReal := m ((c : Thread nD τ).loc main_arg8)
abbrev arg10 : S32x64.Idx → EReal := m ((c : Thread nD τ).loc main_arg10)
abbrev arg12 : S32x64.Idx → EReal := m ((c : Thread nD τ).loc main_arg12)

/-- The message sources, destinations and weights as the program holds them when the first
    region is entered (no later item writes them). -/
abbrev kSrc : Cert.Spec.IdxCol 3300000 := srcColOf (W3 m ρ c (Proc.devRef .tc main_v3))
abbrev kDst : Cert.Spec.IdxCol 3300000 := dstColOf (W3 m ρ c (Proc.devRef .tc main_v6))
abbrev kNrm : Fin 3300000 → EReal := fun e => (W3 m ρ c (Proc.devRef .tc main_v31) : S3300000.Idx → EReal) (ix1 e)

/-- Positivity of the node count, as the specification's functions take it. -/
abbrev hN : 0 < 100000 := by decide

/-! ## The first projection: x · W_shared -/

/-- Region 0's result array is the product of the two argument arrays. -/
theorem k_hw0_arr : W4 m ρ c (Proc.devRef .tc main_v32) = prod0 (arg0 m c) (arg4 m c) := by
  have h1 : W4 m ρ c (Proc.devRef .tc main_v32) = (dat0 (V3 m ρ) c).arrAt 2 cfg0.N := W4_arr m ρ c 2
  have h2 := arr0_2_eq (V3 m ρ) c
  have a0 : V3 m ρ c main_arg0 = m ((c : Thread nD τ).loc main_arg0) := (keep_all m ρ c main_arg0 (by decide)).2.2.2.2.2
  have a4 : V3 m ρ c main_arg4 = m ((c : Thread nD τ).loc main_arg4) := (keep_all m ρ c main_arg4 (by decide)).2.2.2.2.2
  rw [a0, a4] at h2
  exact h1.trans h2

theorem k_hw0 (n : Fin 100000) (j : Fin 32) :
    W4 m ρ c (Proc.devRef .tc main_v32) (ix2 n j) = Cert.Spec.mm (tab2 (arg0 m c)) (tab2 (arg4 m c)) n j :=
  congrFun (k_hw0_arr m ρ c) (ix2 n j)

/-! ## What regions 0 and 1 and the stretches between them leave alone -/

/-- A buffer that neither region 0 nor the stretch after it writes is, when region 1 is entered, as
    it was when region 0 was entered. -/
theorem keep5 (r : Ref sig .tc) (h4 : r ∉ ([main_v32] : List (Ref sig .tc))) (h5 : r ∉ hostOps1_W) :
    W5 m ρ c (Proc.devRef .tc r) = W3 m ρ c (Proc.devRef .tc r) :=
  (W5_keep m ρ c r h5).trans (W4_keep m ρ c r h4)

/-- Likewise up to region 1's exit. -/
theorem keep6 (r : Ref sig .tc) (h4 : r ∉ ([main_v32] : List (Ref sig .tc))) (h5 : r ∉ hostOps1_W)
    (h6 : r ∉ ([main_v47] : List (Ref sig .tc))) :
    W6 m ρ c (Proc.devRef .tc r) = W3 m ρ c (Proc.devRef .tc r) :=
  (W6_keep m ρ c r h6).trans (keep5 m ρ c r h4 h5)

/-! ## The hidden layer: relu (agg (x · W_shared) + b_shared) -/

/-- The first message-passing round's result, as region 1 finds it. -/
theorem k_agg0 (n : Fin 100000) (k : Fin 32) :
    W5 m ρ c (Proc.devRef .tc main_v45) (ix2 n k)
      = Cert.Spec.agg hN (kSrc m ρ c) (kDst m ρ c) (kNrm m ρ c) (Cert.Spec.mm (tab2 (arg0 m c)) (tab2 (arg4 m c))) n k := by
  show StableHlo.after hostOps1 (W4 m ρ c) (Proc.devRef .tc main_v45) (ix2 n k) = _
  rw [stage_v45, W4_keep m ρ c main_v3 (by decide), W4_keep m ρ c main_v6 (by decide), W4_keep m ρ c main_v31 (by decide)]
  have ht : (fun n' c' => W4 m ρ c (Proc.devRef .tc main_v32) (ix2 n' c')) = Cert.Spec.mm (tab2 (arg0 m c)) (tab2 (arg4 m c)) :=
    funext fun n' => funext fun c' => k_hw0 m ρ c n' c'
  rw [ht]

/-- The bias row, as region 1 finds it. -/
theorem k_bias0 (k : Fin 32) :
    W5 m ρ c (Proc.devRef .tc main_v46) (ix2 (0 : Fin 1) k) = vec1 (arg5 m c) k := by
  show StableHlo.after hostOps1 (W4 m ρ c) (Proc.devRef .tc main_v46) (ix2 (0 : Fin 1) k) = _
  rw [stage_v46, W4_keep m ρ c main_arg5 (by decide), (keep_all m ρ c main_arg5 (by decide)).2.2.2.2.2]

theorem k_h (n : Fin 100000) (k : Fin 32) :
    W6 m ρ c (Proc.devRef .tc main_v47) (ix2 n k)
      = Cert.Spec.hidden hN (kSrc m ρ c) (kDst m ρ c) (kNrm m ρ c) (tab2 (arg0 m c)) (tab2 (arg4 m c)) (vec1 (arg5 m c)) n k := by
  have h1 : W6 m ρ c (Proc.devRef .tc main_v47) = biasRelu1 (V5 m ρ c main_v45) (V5 m ρ c main_v46) :=
    (W6_arr m ρ c 2).trans (arr1_2_eq (V5 m ρ) c)
  have e45 : V5 m ρ c main_v45 (ix2 n k) = _ := k_agg0 m ρ c n k
  have e46 : V5 m ρ c main_v46 (ix2 (0 : Fin 1) k) = _ := k_bias0 m ρ c k
  rw [h1, biasRelu1_apply, e45, e46]
  rfl

/-! ## The second message-passing round, of the hidden layer -/

theorem k_aggh (n : Fin 100000) (k : Fin 32) :
    W7 m ρ c (Proc.devRef .tc main_v60) (ix2 n k)
      = Cert.Spec.agg hN (kSrc m ρ c) (kDst m ρ c) (kNrm m ρ c)
          (Cert.Spec.hidden hN (kSrc m ρ c) (kDst m ρ c) (kNrm m ρ c) (tab2 (arg0 m c)) (tab2 (arg4 m c)) (vec1 (arg5 m c))) n k := by
  show StableHlo.after hostOps2 (W6 m ρ c) (Proc.devRef .tc main_v60) (ix2 n k) = _
  rw [stage_v60, keep6 m ρ c main_v3 (by decide) (by decide) (by decide), keep6 m ρ c main_v6 (by decide) (by decide) (by decide),
    keep6 m ρ c main_v31 (by decide) (by decide) (by decide)]
  have ht : (fun n' c' => W6 m ρ c (Proc.devRef .tc main_v47) (ix2 n' c'))
      = Cert.Spec.hidden hN (kSrc m ρ c) (kDst m ρ c) (kNrm m ρ c) (tab2 (arg0 m c)) (tab2 (arg4 m c)) (vec1 (arg5 m c)) :=
    funext fun n' => funext fun c' => k_h m ρ c n' c'
  rw [ht]

/-! ## The 256-wide projection: four 64-wide heads side by side -/

/-- An argument array is, when region 2 is entered, as at launch. -/
theorem keep7_arg (r : Ref sig .tc) (h : r ∉ (written : List (Ref sig .tc))) :
    W6 m ρ c (Proc.devRef .tc r) = m ((c : Thread nD τ).loc r) := by
  have h6 : r ∉ ([main_v47] : List (Ref sig .tc)) := fun hm => h (by
    simp only [written, List.mem_append]; exact Or.inl (Or.inl (Or.inl (Or.inl (Or.inl (Or.inl (Or.inl (Or.inr hm))))))))
  exact (W6_keep m ρ c r h6).trans (keep_all m ρ c r h).2.2.2.2.1

/-- Region 2's result array is the product of the aggregated hidden table and the concatenated
    weight table, as region 2 finds them. -/
theorem k_hw1_arr : W8 m ρ c (Proc.devRef .tc main_v62) = prod2 (V7 m ρ c main_v60) (V7 m ρ c main_v61) :=
  (W8_arr m ρ c 2).trans (arr2_2_eq (V7 m ρ) c)

/-- The common step of the four bands: the product's entry in column `j`, given which argument
    table `T` column `j` of the concatenated weight table reads, at which of its columns `l`. -/
theorem k_hw1_of (T : S32x64.Idx → EReal) (n : Fin 100000) (j : Fin 256) (l : Fin 64)
    (hT : ∀ k : Fin 32, W7 m ρ c (Proc.devRef .tc main_v61) (ix2 k j) = T (ix2 k l)) :
    W8 m ρ c (Proc.devRef .tc main_v62) (ix2 n j)
      = Cert.Spec.mm (Cert.Spec.agg hN (kSrc m ρ c) (kDst m ρ c) (kNrm m ρ c)
          (Cert.Spec.hidden hN (kSrc m ρ c) (kDst m ρ c) (kNrm m ρ c) (tab2 (arg0 m c)) (tab2 (arg4 m c)) (vec1 (arg5 m c)))) (tab2 T) n l := by
  rw [k_hw1_arr, prod2_apply]
  unfold Cert.Spec.mm
  change @Eq EReal _ _
  refine Finset.sum_congr rfl fun k _ => ?_
  have e1 : V7 m ρ c main_v60 (ix2 n k) = _ := k_aggh m ρ c n k
  have e2 : V7 m ρ c main_v61 (ix2 k j) = T (ix2 k l) := hT k
  rw [e1, e2]

theorem k_hw1_0 (n : Fin 100000) (l : Fin 64) :
    W8 m ρ c (Proc.devRef .tc main_v62) (ix2 n (⟨l.val, by omega⟩ : Fin 256))
      = Cert.Spec.mm (Cert.Spec.agg hN (kSrc m ρ c) (kDst m ρ c) (kNrm m ρ c)
          (Cert.Spec.hidden hN (kSrc m ρ c) (kDst m ρ c) (kNrm m ρ c) (tab2 (arg0 m c)) (tab2 (arg4 m c)) (vec1 (arg5 m c)))) (tab2 (arg6 m c)) n l :=
  k_hw1_of m ρ c (arg6 m c) n _ l fun k => by
    have ej : (⟨l.val, by omega⟩ : Fin 256) = ⟨64 * 0 + l.val, by omega⟩ := Fin.ext (by show l.val = 64 * 0 + l.val; omega)
    rw [ej]
    show StableHlo.after hostOps2 (W6 m ρ c) (Proc.devRef .tc main_v61) _ = _
    rw [stage_v61_0, keep7_arg m ρ c main_arg6 (by decide)]

theorem k_hw1_1 (n : Fin 100000) (l : Fin 64) :
    W8 m ρ c (Proc.devRef .tc main_v62) (ix2 n (⟨64 + l.val, by omega⟩ : Fin 256))
      = Cert.Spec.mm (Cert.Spec.agg hN (kSrc m ρ c) (kDst m ρ c) (kNrm m ρ c)
          (Cert.Spec.hidden hN (kSrc m ρ c) (kDst m ρ c) (kNrm m ρ c) (tab2 (arg0 m c)) (tab2 (arg4 m c)) (vec1 (arg5 m c)))) (tab2 (arg8 m c)) n l :=
  k_hw1_of m ρ c (arg8 m c) n _ l fun k => by
    have ej : (⟨64 + l.val, by omega⟩ : Fin 256) = ⟨64 * 1 + l.val, by omega⟩ := Fin.ext (by show 64 + l.val = 64 * 1 + l.val; omega)
    rw [ej]
    show StableHlo.after hostOps2 (W6 m ρ c) (Proc.devRef .tc main_v61) _ = _
    rw [stage_v61_1, keep7_arg m ρ c main_arg8 (by decide)]

theorem k_hw1_2 (n : Fin 100000) (l : Fin 64) :
    W8 m ρ c (Proc.devRef .tc main_v62) (ix2 n (⟨128 + l.val, by omega⟩ : Fin 256))
      = Cert.Spec.mm (Cert.Spec.agg hN (kSrc m ρ c) (kDst m ρ c) (kNrm m ρ c)
          (Cert.Spec.hidden hN (kSrc m ρ c) (kDst m ρ c) (kNrm m ρ c) (tab2 (arg0 m c)) (tab2 (arg4 m c)) (vec1 (arg5 m c)))) (tab2 (arg10 m c)) n l :=
  k_hw1_of m ρ c (arg10 m c) n _ l fun k => by
    have ej : (⟨128 + l.val, by omega⟩ : Fin 256) = ⟨64 * 2 + l.val, by omega⟩ := Fin.ext (by show 128 + l.val = 64 * 2 + l.val; omega)
    rw [ej]
    show StableHlo.after hostOps2 (W6 m ρ c) (Proc.devRef .tc main_v61) _ = _
    rw [stage_v61_2, keep7_arg m ρ c main_arg10 (by decide)]

theorem k_hw1_3 (n : Fin 100000) (l : Fin 64) :
    W8 m ρ c (Proc.devRef .tc main_v62) (ix2 n (⟨192 + l.val, by omega⟩ : Fin 256))
      = Cert.Spec.mm (Cert.Spec.agg hN (kSrc m ρ c) (kDst m ρ c) (kNrm m ρ c)
          (Cert.Spec.hidden hN (kSrc m ρ c) (kDst m ρ c) (kNrm m ρ c) (tab2 (arg0 m c)) (tab2 (arg4 m c)) (vec1 (arg5 m c)))) (tab2 (arg12 m c)) n l :=
  k_hw1_of m ρ c (arg12 m c) n _ l fun k => by
    have ej : (⟨192 + l.val, by omega⟩ : Fin 256) = ⟨64 * 3 + l.val, by omega⟩ := Fin.ext (by show 192 + l.val = 64 * 3 + l.val; omega)
    rw [ej]
    show StableHlo.after hostOps2 (W6 m ρ c) (Proc.devRef .tc main_v61) _ = _
    rw [stage_v61_3, keep7_arg m ρ c main_arg12 (by decide)]

end Cert.KernelIdeal.Hand

end
-- ==== Proof.Value3.lean ====
/- The value of the third region's four head result arrays at an index, on the extended reals, and the block geometry
   of all six of its result arrays.

   Point t of the 50-point grid loads rows 2000 t … 2000 t + 1999 of the 256-column head table and of the two noise
   tables, and the whole of every small operand (four bias rows, two pairs of decoder weights and biases); it writes
   back rows 2000 t … 2000 t + 1999 of each result. The 50 row blocks tile the 100000 rows. Each of the four head
   results ends holding a 64-column slice of the head table plus a bias row broadcast down the rows. The two decoded
   results are read in a module of their own, over the block facts proved here. -/
import proofs.«157918_j42898133352759_2_alg».proof.Proof.Region3
import proofs.«157918_j42898133352759_2_alg».proof.Proof.LibMatmulFin
import proofs.«157918_j42898133352759_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.LibMatmulFin

variable (V : (c : Dev nD) → (b : Ref sig .tc) → Buf (Elt Ideal) ((c : Thread nD τ).loc b))

/-- The zero offsets of a whole-buffer rectangle, as the constant function. -/
theorem zero_off3 : (![0, 0] : Fin 2 → Nat) = fun _ => 0 := funext fun a => by fin_cases a <;> rfl

/-- The printed one half. -/
abbrev half3 : EReal := Ideal.ofBits .f32 0x3F000000#32

/-! ## The body's payloads at an index -/

/-- A 64-column slice of the loaded 256-column block, from column `o`, plus a bias row broadcast down the rows:
    at (p, l) it is the block's (p, o + l) entry plus the row's l-th entry. -/
theorem head_apply (o : Nat) (v0 : Vec Ideal S2000x256 .f32) (vb : Vec Ideal S1x64 .f32)
    (hs : S2000x256.Slices ![0, o] S2000x64) (p : Fin 2000) (l : Fin 64) (k : Fin 256) (hk : k.val = o + l.val) :
    addf (extractStridedSlice S2000x64 ![0, o] (k3_pay2 v0) hs)
        (broadcastTo S2000x64 (shapeCast S1x64 vb shapeCasts_S1x64_S1x64) broadcasts_S1x64_S2000x64) (ix2 p l)
      = v0 (ix2 p k) + vb (ix2 (0 : Fin 1) l) := by
  unfold k3_pay2
  rw [addf_apply, shapeCast_self, shapeCast_self, slice2_axis1_apply o v0 hs p l k hk, broadcastTo_1b_ab_apply]

/-- The first mean payload at (p, l): the block's (p, 0 + l) entry plus the bias row's l-th entry. -/
theorem pay3_3_apply (v0 : Vec Ideal S2000x256 .f32) (vb : Vec Ideal S1x64 .f32) (p : Fin 2000) (l : Fin 64) :
    k3_pay3 v0 vb (ix2 p l) = v0 (ix2 p (⟨0 + l.val, by omega⟩ : Fin 256)) + vb (ix2 (0 : Fin 1) l) := by
  unfold k3_pay3
  exact head_apply 0 v0 vb _ p l _ rfl

/-- The second mean payload at (p, l): the block's (p, 64 + l) entry plus the bias row's l-th entry. -/
theorem pay3_4_apply (v0 : Vec Ideal S2000x256 .f32) (vb : Vec Ideal S1x64 .f32) (p : Fin 2000) (l : Fin 64) :
    k3_pay4 v0 vb (ix2 p l) = v0 (ix2 p (⟨64 + l.val, by omega⟩ : Fin 256)) + vb (ix2 (0 : Fin 1) l) := by
  unfold k3_pay4
  exact head_apply 64 v0 vb _ p l _ rfl

/-- The first log-variance payload at (p, l): the block's (p, 128 + l) entry plus the bias row's l-th entry. -/
theorem pay3_5_apply (v0 : Vec Ideal S2000x256 .f32) (vb : Vec Ideal S1x64 .f32) (p : Fin 2000) (l : Fin 64) :
    k3_pay5 v0 vb (ix2 p l) = v0 (ix2 p (⟨128 + l.val, by omega⟩ : Fin 256)) + vb (ix2 (0 : Fin 1) l) := by
  unfold k3_pay5
  exact head_apply 128 v0 vb _ p l _ rfl

/-- The second log-variance payload at (p, l): the block's (p, 192 + l) entry plus the bias row's l-th entry. -/
theorem pay3_6_apply (v0 : Vec Ideal S2000x256 .f32) (vb : Vec Ideal S1x64 .f32) (p : Fin 2000) (l : Fin 64) :
    k3_pay6 v0 vb (ix2 p l) = v0 (ix2 p (⟨192 + l.val, by omega⟩ : Fin 256)) + vb (ix2 (0 : Fin 1) l) := by
  unfold k3_pay6
  exact head_apply 192 v0 vb _ p l _ rfl

/-! ## Where the windows' blocks sit -/

/-- The printed index maps over the 50 grid points: a row-blocked window's row block is the point's number and its
    column block is 0; a small operand's one block is at (0, 0). One statement per window. -/
theorem blk_index3_0 : ∀ t : Fin cfg3.N, win3_0.index t (0 : Fin 2) = t.val ∧ win3_0.index t (1 : Fin 2) = 0 :=
  (by decide +kernel : ∀ t : Fin grid3.N, _)
theorem blk_index3_1 : ∀ t : Fin cfg3.N, win3_1.index t (0 : Fin 2) = 0 ∧ win3_1.index t (1 : Fin 2) = 0 :=
  (by decide +kernel : ∀ t : Fin grid3.N, _)
theorem blk_index3_2 : ∀ t : Fin cfg3.N, win3_2.index t (0 : Fin 2) = 0 ∧ win3_2.index t (1 : Fin 2) = 0 :=
  (by decide +kernel : ∀ t : Fin grid3.N, _)
theorem blk_index3_3 : ∀ t : Fin cfg3.N, win3_3.index t (0 : Fin 2) = 0 ∧ win3_3.index t (1 : Fin 2) = 0 :=
  (by decide +kernel : ∀ t : Fin grid3.N, _)
theorem blk_index3_4 : ∀ t : Fin cfg3.N, win3_4.index t (0 : Fin 2) = 0 ∧ win3_4.index t (1 : Fin 2) = 0 :=
  (by decide +kernel : ∀ t : Fin grid3.N, _)
theorem blk_index3_5 : ∀ t : Fin cfg3.N, win3_5.index t (0 : Fin 2) = t.val ∧ win3_5.index t (1 : Fin 2) = 0 :=
  (by decide +kernel : ∀ t : Fin grid3.N, _)
theorem blk_index3_6 : ∀ t : Fin cfg3.N, win3_6.index t (0 : Fin 2) = t.val ∧ win3_6.index t (1 : Fin 2) = 0 :=
  (by decide +kernel : ∀ t : Fin grid3.N, _)
theorem blk_index3_7 : ∀ t : Fin cfg3.N, win3_7.index t (0 : Fin 2) = 0 ∧ win3_7.index t (1 : Fin 2) = 0 :=
  (by decide +kernel : ∀ t : Fin grid3.N, _)
theorem blk_index3_8 : ∀ t : Fin cfg3.N, win3_8.index t (0 : Fin 2) = 0 ∧ win3_8.index t (1 : Fin 2) = 0 :=
  (by decide +kernel : ∀ t : Fin grid3.N, _)
theorem blk_index3_9 : ∀ t : Fin cfg3.N, win3_9.index t (0 : Fin 2) = 0 ∧ win3_9.index t (1 : Fin 2) = 0 :=
  (by decide +kernel : ∀ t : Fin grid3.N, _)
theorem blk_index3_10 : ∀ t : Fin cfg3.N, win3_10.index t (0 : Fin 2) = 0 ∧ win3_10.index t (1 : Fin 2) = 0 :=
  (by decide +kernel : ∀ t : Fin grid3.N, _)
theorem blk_index3_11 : ∀ t : Fin cfg3.N, win3_11.index t (0 : Fin 2) = 0 ∧ win3_11.index t (1 : Fin 2) = 0 :=
  (by decide +kernel : ∀ t : Fin grid3.N, _)
theorem blk_index3_12 : ∀ t : Fin cfg3.N, win3_12.index t (0 : Fin 2) = 0 ∧ win3_12.index t (1 : Fin 2) = 0 :=
  (by decide +kernel : ∀ t : Fin grid3.N, _)
theorem blk_index3_13 : ∀ t : Fin cfg3.N, win3_13.index t (0 : Fin 2) = 0 ∧ win3_13.index t (1 : Fin 2) = 0 :=
  (by decide +kernel : ∀ t : Fin grid3.N, _)
theorem blk_index3_14 : ∀ t : Fin cfg3.N, win3_14.index t (0 : Fin 2) = 0 ∧ win3_14.index t (1 : Fin 2) = 0 :=
  (by decide +kernel : ∀ t : Fin grid3.N, _)
theorem blk_index3_15 : ∀ t : Fin cfg3.N, win3_15.index t (0 : Fin 2) = t.val ∧ win3_15.index t (1 : Fin 2) = 0 :=
  (by decide +kernel : ∀ t : Fin grid3.N, _)
theorem blk_index3_16 : ∀ t : Fin cfg3.N, win3_16.index t (0 : Fin 2) = t.val ∧ win3_16.index t (1 : Fin 2) = 0 :=
  (by decide +kernel : ∀ t : Fin grid3.N, _)
theorem blk_index3_17 : ∀ t : Fin cfg3.N, win3_17.index t (0 : Fin 2) = t.val ∧ win3_17.index t (1 : Fin 2) = 0 :=
  (by decide +kernel : ∀ t : Fin grid3.N, _)
theorem blk_index3_18 : ∀ t : Fin cfg3.N, win3_18.index t (0 : Fin 2) = t.val ∧ win3_18.index t (1 : Fin 2) = 0 :=
  (by decide +kernel : ∀ t : Fin grid3.N, _)
theorem blk_index3_19 : ∀ t : Fin cfg3.N, win3_19.index t (0 : Fin 2) = t.val ∧ win3_19.index t (1 : Fin 2) = 0 :=
  (by decide +kernel : ∀ t : Fin grid3.N, _)
theorem blk_index3_20 : ∀ t : Fin cfg3.N, win3_20.index t (0 : Fin 2) = t.val ∧ win3_20.index t (1 : Fin 2) = 0 :=
  (by decide +kernel : ∀ t : Fin grid3.N, _)

/-! ## The input blocks, read off the arrays -/

/-- An entry of window 0's block at point `t` is the array's entry 2000 t rows further down. -/
theorem iblk3_0_apply (c : Dev nD) (t : Fin cfg3.N) (x : S2000x256.Idx) (i : S100000x256.Idx)
    (h0 : (i 0).val = 2000 * t.val + (x 0).val) (h1 : (i 1).val = (x 1).val) :
    (iblk3 V c 0 t : Vec Ideal S2000x256 .f32) x = (V c main_v62 : S100000x256.Idx → EReal) i := by
  obtain ⟨e0, e1⟩ := blk_index3_0 t
  unfold iblk3
  rw [View.read_apply]
  show V c main_v62 _ = V c main_v62 _
  congr 1
  funext a
  apply Fin.ext
  match a with
  | ⟨0, _⟩ => show win3_0.index t (0 : Fin 2) * 2000 + 1 * (x 0).val = (i 0).val; omega
  | ⟨1, _⟩ => show win3_0.index t (1 : Fin 2) * 256 + 1 * (x 1).val = (i 1).val; omega

/-- Window 1's block at any point is the whole array. -/
theorem iblk3_1_apply (c : Dev nD) (t : Fin cfg3.N) (x : S1x64.Idx) :
    (iblk3 V c 1 t : Vec Ideal S1x64 .f32) x = (V c main_v63 : S1x64.Idx → EReal) x := by
  obtain ⟨e0, e1⟩ := blk_index3_1 t
  unfold iblk3
  rw [View.read_apply]
  show V c main_v63 _ = V c main_v63 _
  congr 1
  funext a
  apply Fin.ext
  match a with
  | ⟨0, _⟩ => show win3_1.index t (0 : Fin 2) * 1 + 1 * (x 0).val = (x 0).val; omega
  | ⟨1, _⟩ => show win3_1.index t (1 : Fin 2) * 64 + 1 * (x 1).val = (x 1).val; omega

/-- Window 2's block at any point is the whole array. -/
theorem iblk3_2_apply (c : Dev nD) (t : Fin cfg3.N) (x : S1x64.Idx) :
    (iblk3 V c 2 t : Vec Ideal S1x64 .f32) x = (V c main_v64 : S1x64.Idx → EReal) x := by
  obtain ⟨e0, e1⟩ := blk_index3_2 t
  unfold iblk3
  rw [View.read_apply]
  show V c main_v64 _ = V c main_v64 _
  congr 1
  funext a
  apply Fin.ext
  match a with
  | ⟨0, _⟩ => show win3_2.index t (0 : Fin 2) * 1 + 1 * (x 0).val = (x 0).val; omega
  | ⟨1, _⟩ => show win3_2.index t (1 : Fin 2) * 64 + 1 * (x 1).val = (x 1).val; omega

/-- Window 3's block at any point is the whole array. -/
theorem iblk3_3_apply (c : Dev nD) (t : Fin cfg3.N) (x : S1x64.Idx) :
    (iblk3 V c 3 t : Vec Ideal S1x64 .f32) x = (V c main_v65 : S1x64.Idx → EReal) x := by
  obtain ⟨e0, e1⟩ := blk_index3_3 t
  unfold iblk3
  rw [View.read_apply]
  show V c main_v65 _ = V c main_v65 _
  congr 1
  funext a
  apply Fin.ext
  match a with
  | ⟨0, _⟩ => show win3_3.index t (0 : Fin 2) * 1 + 1 * (x 0).val = (x 0).val; omega
  | ⟨1, _⟩ => show win3_3.index t (1 : Fin 2) * 64 + 1 * (x 1).val = (x 1).val; omega

/-- Window 4's block at any point is the whole array. -/
theorem iblk3_4_apply (c : Dev nD) (t : Fin cfg3.N) (x : S1x64.Idx) :
    (iblk3 V c 4 t : Vec Ideal S1x64 .f32) x = (V c main_v66 : S1x64.Idx → EReal) x := by
  obtain ⟨e0, e1⟩ := blk_index3_4 t
  unfold iblk3
  rw [View.read_apply]
  show V c main_v66 _ = V c main_v66 _
  congr 1
  funext a
  apply Fin.ext
  match a with
  | ⟨0, _⟩ => show win3_4.index t (0 : Fin 2) * 1 + 1 * (x 0).val = (x 0).val; omega
  | ⟨1, _⟩ => show win3_4.index t (1 : Fin 2) * 64 + 1 * (x 1).val = (x 1).val; omega

/-- An entry of window 5's block at point `t` is the array's entry 2000 t rows further down. -/
theorem iblk3_5_apply (c : Dev nD) (t : Fin cfg3.N) (x : S2000x64.Idx) (i : S100000x64.Idx)
    (h0 : (i 0).val = 2000 * t.val + (x 0).val) (h1 : (i 1).val = (x 1).val) :
    (iblk3 V c 5 t : Vec Ideal S2000x64 .f32) x = (V c main_arg2 : S100000x64.Idx → EReal) i := by
  obtain ⟨e0, e1⟩ := blk_index3_5 t
  unfold iblk3
  rw [View.read_apply]
  show V c main_arg2 _ = V c main_arg2 _
  congr 1
  funext a
  apply Fin.ext
  match a with
  | ⟨0, _⟩ => show win3_5.index t (0 : Fin 2) * 2000 + 1 * (x 0).val = (i 0).val; omega
  | ⟨1, _⟩ => show win3_5.index t (1 : Fin 2) * 64 + 1 * (x 1).val = (i 1).val; omega

/-- An entry of window 6's block at point `t` is the array's entry 2000 t rows further down. -/
theorem iblk3_6_apply (c : Dev nD) (t : Fin cfg3.N) (x : S2000x64.Idx) (i : S100000x64.Idx)
    (h0 : (i 0).val = 2000 * t.val + (x 0).val) (h1 : (i 1).val = (x 1).val) :
    (iblk3 V c 6 t : Vec Ideal S2000x64 .f32) x = (V c main_arg3 : S100000x64.Idx → EReal) i := by
  obtain ⟨e0, e1⟩ := blk_index3_6 t
  unfold iblk3
  rw [View.read_apply]
  show V c main_arg3 _ = V c main_arg3 _
  congr 1
  funext a
  apply Fin.ext
  match a with
  | ⟨0, _⟩ => show win3_6.index t (0 : Fin 2) * 2000 + 1 * (x 0).val = (i 0).val; omega
  | ⟨1, _⟩ => show win3_6.index t (1 : Fin 2) * 64 + 1 * (x 1).val = (i 1).val; omega

/-- Window 7's block at any point is the whole array. -/
theorem iblk3_7_apply (c : Dev nD) (t : Fin cfg3.N) (x : S64x32.Idx) :
    (iblk3 V c 7 t : Vec Ideal S64x32 .f32) x = (V c main_arg14 : S64x32.Idx → EReal) x := by
  obtain ⟨e0, e1⟩ := blk_index3_7 t
  unfold iblk3
  rw [View.read_apply]
  show V c main_arg14 _ = V c main_arg14 _
  congr 1
  funext a
  apply Fin.ext
  match a with
  | ⟨0, _⟩ => show win3_7.index t (0 : Fin 2) * 64 + 1 * (x 0).val = (x 0).val; omega
  | ⟨1, _⟩ => show win3_7.index t (1 : Fin 2) * 32 + 1 * (x 1).val = (x 1).val; omega

/-- Window 8's block at any point is the whole array. -/
theorem iblk3_8_apply (c : Dev nD) (t : Fin cfg3.N) (x : S1x32.Idx) :
    (iblk3 V c 8 t : Vec Ideal S1x32 .f32) x = (V c main_v67 : S1x32.Idx → EReal) x := by
  obtain ⟨e0, e1⟩ := blk_index3_8 t
  unfold iblk3
  rw [View.read_apply]
  show V c main_v67 _ = V c main_v67 _
  congr 1
  funext a
  apply Fin.ext
  match a with
  | ⟨0, _⟩ => show win3_8.index t (0 : Fin 2) * 1 + 1 * (x 0).val = (x 0).val; omega
  | ⟨1, _⟩ => show win3_8.index t (1 : Fin 2) * 32 + 1 * (x 1).val = (x 1).val; omega

/-- Window 9's block at any point is the whole array. -/
theorem iblk3_9_apply (c : Dev nD) (t : Fin cfg3.N) (x : S32x10.Idx) :
    (iblk3 V c 9 t : Vec Ideal S32x10 .f32) x = (V c main_arg16 : S32x10.Idx → EReal) x := by
  obtain ⟨e0, e1⟩ := blk_index3_9 t
  unfold iblk3
  rw [View.read_apply]
  show V c main_arg16 _ = V c main_arg16 _
  congr 1
  funext a
  apply Fin.ext
  match a with
  | ⟨0, _⟩ => show win3_9.index t (0 : Fin 2) * 32 + 1 * (x 0).val = (x 0).val; omega
  | ⟨1, _⟩ => show win3_9.index t (1 : Fin 2) * 10 + 1 * (x 1).val = (x 1).val; omega

/-- Window 10's block at any point is the whole array. -/
theorem iblk3_10_apply (c : Dev nD) (t : Fin cfg3.N) (x : S1x10.Idx) :
    (iblk3 V c 10 t : Vec Ideal S1x10 .f32) x = (V c main_v68 : S1x10.Idx → EReal) x := by
  obtain ⟨e0, e1⟩ := blk_index3_10 t
  unfold iblk3
  rw [View.read_apply]
  show V c main_v68 _ = V c main_v68 _
  congr 1
  funext a
  apply Fin.ext
  match a with
  | ⟨0, _⟩ => show win3_10.index t (0 : Fin 2) * 1 + 1 * (x 0).val = (x 0).val; omega
  | ⟨1, _⟩ => show win3_10.index t (1 : Fin 2) * 10 + 1 * (x 1).val = (x 1).val; omega

/-- Window 11's block at any point is the whole array. -/
theorem iblk3_11_apply (c : Dev nD) (t : Fin cfg3.N) (x : S64x32.Idx) :
    (iblk3 V c 11 t : Vec Ideal S64x32 .f32) x = (V c main_arg18 : S64x32.Idx → EReal) x := by
  obtain ⟨e0, e1⟩ := blk_index3_11 t
  unfold iblk3
  rw [View.read_apply]
  show V c main_arg18 _ = V c main_arg18 _
  congr 1
  funext a
  apply Fin.ext
  match a with
  | ⟨0, _⟩ => show win3_11.index t (0 : Fin 2) * 64 + 1 * (x 0).val = (x 0).val; omega
  | ⟨1, _⟩ => show win3_11.index t (1 : Fin 2) * 32 + 1 * (x 1).val = (x 1).val; omega

/-- Window 12's block at any point is the whole array. -/
theorem iblk3_12_apply (c : Dev nD) (t : Fin cfg3.N) (x : S1x32.Idx) :
    (iblk3 V c 12 t : Vec Ideal S1x32 .f32) x = (V c main_v69 : S1x32.Idx → EReal) x := by
  obtain ⟨e0, e1⟩ := blk_index3_12 t
  unfold iblk3
  rw [View.read_apply]
  show V c main_v69 _ = V c main_v69 _
  congr 1
  funext a
  apply Fin.ext
  match a with
  | ⟨0, _⟩ => show win3_12.index t (0 : Fin 2) * 1 + 1 * (x 0).val = (x 0).val; omega
  | ⟨1, _⟩ => show win3_12.index t (1 : Fin 2) * 32 + 1 * (x 1).val = (x 1).val; omega

/-- Window 13's block at any point is the whole array. -/
theorem iblk3_13_apply (c : Dev nD) (t : Fin cfg3.N) (x : S32x10.Idx) :
    (iblk3 V c 13 t : Vec Ideal S32x10 .f32) x = (V c main_arg20 : S32x10.Idx → EReal) x := by
  obtain ⟨e0, e1⟩ := blk_index3_13 t
  unfold iblk3
  rw [View.read_apply]
  show V c main_arg20 _ = V c main_arg20 _
  congr 1
  funext a
  apply Fin.ext
  match a with
  | ⟨0, _⟩ => show win3_13.index t (0 : Fin 2) * 32 + 1 * (x 0).val = (x 0).val; omega
  | ⟨1, _⟩ => show win3_13.index t (1 : Fin 2) * 10 + 1 * (x 1).val = (x 1).val; omega

/-- Window 14's block at any point is the whole array. -/
theorem iblk3_14_apply (c : Dev nD) (t : Fin cfg3.N) (x : S1x10.Idx) :
    (iblk3 V c 14 t : Vec Ideal S1x10 .f32) x = (V c main_v70 : S1x10.Idx → EReal) x := by
  obtain ⟨e0, e1⟩ := blk_index3_14 t
  unfold iblk3
  rw [View.read_apply]
  show V c main_v70 _ = V c main_v70 _
  congr 1
  funext a
  apply Fin.ext
  match a with
  | ⟨0, _⟩ => show win3_14.index t (0 : Fin 2) * 1 + 1 * (x 0).val = (x 0).val; omega
  | ⟨1, _⟩ => show win3_14.index t (1 : Fin 2) * 10 + 1 * (x 1).val = (x 1).val; omega

/-! ## The result blocks tile the result arrays -/

/-- An index of result 0's array is in point `t`'s block iff each coordinate is in the block's range. -/
theorem mem_blk3_15 (t : Fin cfg3.N) (i : S100000x64.Idx) :
    i ∈ ((cfg3.win 15).blk t).view.set ↔ ∀ a : Fin 2, win3_15.index t a * S2000x64.size a ≤ (i a).val ∧ (i a).val < win3_15.index t a * S2000x64.size a + S2000x64.size a := by
  show i ∈ ((View.whole main_v71_0).slice (win3_15.rect t)).set ↔ _
  rw [View.set_slice_whole, Rect.mem_set_unit]
  exact Iff.rfl

/-- Row r of result 0 is in the block of point r / 2000, which writes back. -/
theorem covered3_15 (i : S100000x64.Idx) :
    ∃ t : Fin cfg3.N, (cfg3.win 15).flush t = true ∧ i ∈ ((cfg3.win 15).blk t).view.set := by
  have hi0 : (i 0).val < 100000 := idx2_lt0 i
  have hi1 : (i 1).val < 64 := idx2_lt1 i
  have hN : cfg3.N = 50 := N_3
  let t : Fin cfg3.N := ⟨(i 0).val / 2000, by rw [hN]; omega⟩
  have ht : t.val = (i 0).val / 2000 := rfl
  obtain ⟨e0, e1⟩ := blk_index3_15 t
  refine ⟨t, flush3_15 t, ?_⟩
  rw [mem_blk3_15]
  intro a
  match a with
  | ⟨0, _⟩ => show win3_15.index t (0 : Fin 2) * 2000 ≤ (i 0).val ∧ (i 0).val < win3_15.index t (0 : Fin 2) * 2000 + 2000; omega
  | ⟨1, _⟩ => show win3_15.index t (1 : Fin 2) * 64 ≤ (i 1).val ∧ (i 1).val < win3_15.index t (1 : Fin 2) * 64 + 64; omega

/-- Where an entry of point `t`'s block of result 0 sits in the array. -/
theorem emb3_15_row (t : Fin cfg3.N) (p : Fin 2000) (q : Fin 64) :
    ((((cfg3.win 15).blk t).view.emb (ix2 p q)) 0).val = 2000 * t.val + p.val := by
  obtain ⟨e0, e1⟩ := blk_index3_15 t
  show win3_15.index t (0 : Fin 2) * 2000 + 1 * p.val = _; omega
theorem emb3_15_col (t : Fin cfg3.N) (p : Fin 2000) (q : Fin 64) :
    ((((cfg3.win 15).blk t).view.emb (ix2 p q)) 1).val = q.val := by
  obtain ⟨e0, e1⟩ := blk_index3_15 t
  show win3_15.index t (1 : Fin 2) * 64 + 1 * q.val = _; omega

/-- An index of result 1's array is in point `t`'s block iff each coordinate is in the block's range. -/
theorem mem_blk3_16 (t : Fin cfg3.N) (i : S100000x64.Idx) :
    i ∈ ((cfg3.win 16).blk t).view.set ↔ ∀ a : Fin 2, win3_16.index t a * S2000x64.size a ≤ (i a).val ∧ (i a).val < win3_16.index t a * S2000x64.size a + S2000x64.size a := by
  show i ∈ ((View.whole main_v71_1).slice (win3_16.rect t)).set ↔ _
  rw [View.set_slice_whole, Rect.mem_set_unit]
  exact Iff.rfl

/-- Row r of result 1 is in the block of point r / 2000, which writes back. -/
theorem covered3_16 (i : S100000x64.Idx) :
    ∃ t : Fin cfg3.N, (cfg3.win 16).flush t = true ∧ i ∈ ((cfg3.win 16).blk t).view.set := by
  have hi0 : (i 0).val < 100000 := idx2_lt0 i
  have hi1 : (i 1).val < 64 := idx2_lt1 i
  have hN : cfg3.N = 50 := N_3
  let t : Fin cfg3.N := ⟨(i 0).val / 2000, by rw [hN]; omega⟩
  have ht : t.val = (i 0).val / 2000 := rfl
  obtain ⟨e0, e1⟩ := blk_index3_16 t
  refine ⟨t, flush3_16 t, ?_⟩
  rw [mem_blk3_16]
  intro a
  match a with
  | ⟨0, _⟩ => show win3_16.index t (0 : Fin 2) * 2000 ≤ (i 0).val ∧ (i 0).val < win3_16.index t (0 : Fin 2) * 2000 + 2000; omega
  | ⟨1, _⟩ => show win3_16.index t (1 : Fin 2) * 64 ≤ (i 1).val ∧ (i 1).val < win3_16.index t (1 : Fin 2) * 64 + 64; omega

/-- Where an entry of point `t`'s block of result 1 sits in the array. -/
theorem emb3_16_row (t : Fin cfg3.N) (p : Fin 2000) (q : Fin 64) :
    ((((cfg3.win 16).blk t).view.emb (ix2 p q)) 0).val = 2000 * t.val + p.val := by
  obtain ⟨e0, e1⟩ := blk_index3_16 t
  show win3_16.index t (0 : Fin 2) * 2000 + 1 * p.val = _; omega
theorem emb3_16_col (t : Fin cfg3.N) (p : Fin 2000) (q : Fin 64) :
    ((((cfg3.win 16).blk t).view.emb (ix2 p q)) 1).val = q.val := by
  obtain ⟨e0, e1⟩ := blk_index3_16 t
  show win3_16.index t (1 : Fin 2) * 64 + 1 * q.val = _; omega

/-- An index of result 2's array is in point `t`'s block iff each coordinate is in the block's range. -/
theorem mem_blk3_17 (t : Fin cfg3.N) (i : S100000x64.Idx) :
    i ∈ ((cfg3.win 17).blk t).view.set ↔ ∀ a : Fin 2, win3_17.index t a * S2000x64.size a ≤ (i a).val ∧ (i a).val < win3_17.index t a * S2000x64.size a + S2000x64.size a := by
  show i ∈ ((View.whole main_v71_2).slice (win3_17.rect t)).set ↔ _
  rw [View.set_slice_whole, Rect.mem_set_unit]
  exact Iff.rfl

/-- Row r of result 2 is in the block of point r / 2000, which writes back. -/
theorem covered3_17 (i : S100000x64.Idx) :
    ∃ t : Fin cfg3.N, (cfg3.win 17).flush t = true ∧ i ∈ ((cfg3.win 17).blk t).view.set := by
  have hi0 : (i 0).val < 100000 := idx2_lt0 i
  have hi1 : (i 1).val < 64 := idx2_lt1 i
  have hN : cfg3.N = 50 := N_3
  let t : Fin cfg3.N := ⟨(i 0).val / 2000, by rw [hN]; omega⟩
  have ht : t.val = (i 0).val / 2000 := rfl
  obtain ⟨e0, e1⟩ := blk_index3_17 t
  refine ⟨t, flush3_17 t, ?_⟩
  rw [mem_blk3_17]
  intro a
  match a with
  | ⟨0, _⟩ => show win3_17.index t (0 : Fin 2) * 2000 ≤ (i 0).val ∧ (i 0).val < win3_17.index t (0 : Fin 2) * 2000 + 2000; omega
  | ⟨1, _⟩ => show win3_17.index t (1 : Fin 2) * 64 ≤ (i 1).val ∧ (i 1).val < win3_17.index t (1 : Fin 2) * 64 + 64; omega

/-- Where an entry of point `t`'s block of result 2 sits in the array. -/
theorem emb3_17_row (t : Fin cfg3.N) (p : Fin 2000) (q : Fin 64) :
    ((((cfg3.win 17).blk t).view.emb (ix2 p q)) 0).val = 2000 * t.val + p.val := by
  obtain ⟨e0, e1⟩ := blk_index3_17 t
  show win3_17.index t (0 : Fin 2) * 2000 + 1 * p.val = _; omega
theorem emb3_17_col (t : Fin cfg3.N) (p : Fin 2000) (q : Fin 64) :
    ((((cfg3.win 17).blk t).view.emb (ix2 p q)) 1).val = q.val := by
  obtain ⟨e0, e1⟩ := blk_index3_17 t
  show win3_17.index t (1 : Fin 2) * 64 + 1 * q.val = _; omega

/-- An index of result 3's array is in point `t`'s block iff each coordinate is in the block's range. -/
theorem mem_blk3_18 (t : Fin cfg3.N) (i : S100000x64.Idx) :
    i ∈ ((cfg3.win 18).blk t).view.set ↔ ∀ a : Fin 2, win3_18.index t a * S2000x64.size a ≤ (i a).val ∧ (i a).val < win3_18.index t a * S2000x64.size a + S2000x64.size a := by
  show i ∈ ((View.whole main_v71_3).slice (win3_18.rect t)).set ↔ _
  rw [View.set_slice_whole, Rect.mem_set_unit]
  exact Iff.rfl

/-- Row r of result 3 is in the block of point r / 2000, which writes back. -/
theorem covered3_18 (i : S100000x64.Idx) :
    ∃ t : Fin cfg3.N, (cfg3.win 18).flush t = true ∧ i ∈ ((cfg3.win 18).blk t).view.set := by
  have hi0 : (i 0).val < 100000 := idx2_lt0 i
  have hi1 : (i 1).val < 64 := idx2_lt1 i
  have hN : cfg3.N = 50 := N_3
  let t : Fin cfg3.N := ⟨(i 0).val / 2000, by rw [hN]; omega⟩
  have ht : t.val = (i 0).val / 2000 := rfl
  obtain ⟨e0, e1⟩ := blk_index3_18 t
  refine ⟨t, flush3_18 t, ?_⟩
  rw [mem_blk3_18]
  intro a
  match a with
  | ⟨0, _⟩ => show win3_18.index t (0 : Fin 2) * 2000 ≤ (i 0).val ∧ (i 0).val < win3_18.index t (0 : Fin 2) * 2000 + 2000; omega
  | ⟨1, _⟩ => show win3_18.index t (1 : Fin 2) * 64 ≤ (i 1).val ∧ (i 1).val < win3_18.index t (1 : Fin 2) * 64 + 64; omega

/-- Where an entry of point `t`'s block of result 3 sits in the array. -/
theorem emb3_18_row (t : Fin cfg3.N) (p : Fin 2000) (q : Fin 64) :
    ((((cfg3.win 18).blk t).view.emb (ix2 p q)) 0).val = 2000 * t.val + p.val := by
  obtain ⟨e0, e1⟩ := blk_index3_18 t
  show win3_18.index t (0 : Fin 2) * 2000 + 1 * p.val = _; omega
theorem emb3_18_col (t : Fin cfg3.N) (p : Fin 2000) (q : Fin 64) :
    ((((cfg3.win 18).blk t).view.emb (ix2 p q)) 1).val = q.val := by
  obtain ⟨e0, e1⟩ := blk_index3_18 t
  show win3_18.index t (1 : Fin 2) * 64 + 1 * q.val = _; omega

/-- An index of result 4's array is in point `t`'s block iff each coordinate is in the block's range. -/
theorem mem_blk3_19 (t : Fin cfg3.N) (i : S100000x10.Idx) :
    i ∈ ((cfg3.win 19).blk t).view.set ↔ ∀ a : Fin 2, win3_19.index t a * S2000x10.size a ≤ (i a).val ∧ (i a).val < win3_19.index t a * S2000x10.size a + S2000x10.size a := by
  show i ∈ ((View.whole main_v71_4).slice (win3_19.rect t)).set ↔ _
  rw [View.set_slice_whole, Rect.mem_set_unit]
  exact Iff.rfl

/-- Row r of result 4 is in the block of point r / 2000, which writes back. -/
theorem covered3_19 (i : S100000x10.Idx) :
    ∃ t : Fin cfg3.N, (cfg3.win 19).flush t = true ∧ i ∈ ((cfg3.win 19).blk t).view.set := by
  have hi0 : (i 0).val < 100000 := idx2_lt0 i
  have hi1 : (i 1).val < 10 := idx2_lt1 i
  have hN : cfg3.N = 50 := N_3
  let t : Fin cfg3.N := ⟨(i 0).val / 2000, by rw [hN]; omega⟩
  have ht : t.val = (i 0).val / 2000 := rfl
  obtain ⟨e0, e1⟩ := blk_index3_19 t
  refine ⟨t, flush3_19 t, ?_⟩
  rw [mem_blk3_19]
  intro a
  match a with
  | ⟨0, _⟩ => show win3_19.index t (0 : Fin 2) * 2000 ≤ (i 0).val ∧ (i 0).val < win3_19.index t (0 : Fin 2) * 2000 + 2000; omega
  | ⟨1, _⟩ => show win3_19.index t (1 : Fin 2) * 10 ≤ (i 1).val ∧ (i 1).val < win3_19.index t (1 : Fin 2) * 10 + 10; omega

/-- Where an entry of point `t`'s block of result 4 sits in the array. -/
theorem emb3_19_row (t : Fin cfg3.N) (p : Fin 2000) (q : Fin 10) :
    ((((cfg3.win 19).blk t).view.emb (ix2 p q)) 0).val = 2000 * t.val + p.val := by
  obtain ⟨e0, e1⟩ := blk_index3_19 t
  show win3_19.index t (0 : Fin 2) * 2000 + 1 * p.val = _; omega
theorem emb3_19_col (t : Fin cfg3.N) (p : Fin 2000) (q : Fin 10) :
    ((((cfg3.win 19).blk t).view.emb (ix2 p q)) 1).val = q.val := by
  obtain ⟨e0, e1⟩ := blk_index3_19 t
  show win3_19.index t (1 : Fin 2) * 10 + 1 * q.val = _; omega

/-- An index of result 5's array is in point `t`'s block iff each coordinate is in the block's range. -/
theorem mem_blk3_20 (t : Fin cfg3.N) (i : S100000x10.Idx) :
    i ∈ ((cfg3.win 20).blk t).view.set ↔ ∀ a : Fin 2, win3_20.index t a * S2000x10.size a ≤ (i a).val ∧ (i a).val < win3_20.index t a * S2000x10.size a + S2000x10.size a := by
  show i ∈ ((View.whole main_v71_5).slice (win3_20.rect t)).set ↔ _
  rw [View.set_slice_whole, Rect.mem_set_unit]
  exact Iff.rfl

/-- Row r of result 5 is in the block of point r / 2000, which writes back. -/
theorem covered3_20 (i : S100000x10.Idx) :
    ∃ t : Fin cfg3.N, (cfg3.win 20).flush t = true ∧ i ∈ ((cfg3.win 20).blk t).view.set := by
  have hi0 : (i 0).val < 100000 := idx2_lt0 i
  have hi1 : (i 1).val < 10 := idx2_lt1 i
  have hN : cfg3.N = 50 := N_3
  let t : Fin cfg3.N := ⟨(i 0).val / 2000, by rw [hN]; omega⟩
  have ht : t.val = (i 0).val / 2000 := rfl
  obtain ⟨e0, e1⟩ := blk_index3_20 t
  refine ⟨t, flush3_20 t, ?_⟩
  rw [mem_blk3_20]
  intro a
  match a with
  | ⟨0, _⟩ => show win3_20.index t (0 : Fin 2) * 2000 ≤ (i 0).val ∧ (i 0).val < win3_20.index t (0 : Fin 2) * 2000 + 2000; omega
  | ⟨1, _⟩ => show win3_20.index t (1 : Fin 2) * 10 ≤ (i 1).val ∧ (i 1).val < win3_20.index t (1 : Fin 2) * 10 + 10; omega

/-- Where an entry of point `t`'s block of result 5 sits in the array. -/
theorem emb3_20_row (t : Fin cfg3.N) (p : Fin 2000) (q : Fin 10) :
    ((((cfg3.win 20).blk t).view.emb (ix2 p q)) 0).val = 2000 * t.val + p.val := by
  obtain ⟨e0, e1⟩ := blk_index3_20 t
  show win3_20.index t (0 : Fin 2) * 2000 + 1 * p.val = _; omega
theorem emb3_20_col (t : Fin cfg3.N) (p : Fin 2000) (q : Fin 10) :
    ((((cfg3.win 20).blk t).view.emb (ix2 p q)) 1).val = q.val := by
  obtain ⟨e0, e1⟩ := blk_index3_20 t
  show win3_20.index t (1 : Fin 2) * 10 + 1 * q.val = _; omega

/-! ## The four head results -/

/-- A head result as one function of the head table and a bias row: at (n, l), the table's (n, o + l) entry plus the
    row's l-th entry. -/
def head3 (o : Nat) (ho : o + 64 ≤ 256) (hw : S100000x256.Idx → EReal) (b : S1x64.Idx → EReal) : S100000x64.Idx → EReal :=
  fun i => hw (ix2 (⟨(i 0).val, idx2_lt0 i⟩ : Fin 100000) (⟨o + (i 1).val, by have := idx2_lt1 i; omega⟩ : Fin 256))
    + b (ix2 (0 : Fin 1) (⟨(i 1).val, idx2_lt1 i⟩ : Fin 64))

theorem head3_apply (o : Nat) (ho : o + 64 ≤ 256) (hw : S100000x256.Idx → EReal) (b : S1x64.Idx → EReal) (n : Fin 100000) (l : Fin 64) :
    head3 o ho hw b (ix2 n l) = hw (ix2 n (⟨o + l.val, by omega⟩ : Fin 256)) + b (ix2 (0 : Fin 1) l) := rfl

/-- Point `t` writes back block `t` of the first mean result: the head table's columns 0 … 63 plus bias row 1. -/
theorem flushed3_15_eq (c : Dev nD) (t : Fin cfg3.N) :
    (dat3 V c).flushed 15 t = ((cfg3.win 15).blk t).view.read (Elt Ideal) (head3 0 (by omega) (V c main_v62) (V c main_v63)) := by
  show (cfg3.win 15).cut (grid3.coords t) ((dat3 V c).after 15 t) = _
  rw [after3_15]
  unfold out3_15
  rw [View.canon_unit_zero zero_off3]
  simp only [View.ld_unit_zero (S := S2000x256) zero_off3, View.ld_unit_zero (S := S1x64) zero_off3]
  funext y
  obtain ⟨p, q, rfl⟩ : ∃ (p : Fin 2000) (q : Fin 64), y = ix2 p q := ⟨y 0, y 1, eq_ix2 y⟩
  show k3_pay3 (iblk3 V c 0 t) (iblk3 V c 1 t) (ix2 p q) = head3 0 (by omega) (V c main_v62) (V c main_v63) (((cfg3.win 15).blk t).view.emb (ix2 p q))
  refine (pay3_3_apply (iblk3 V c 0 t) (iblk3 V c 1 t) p q).trans ?_
  have r0 := emb3_15_row t p q
  have r1 := emb3_15_col t p q
  unfold head3
  rw [iblk3_0_apply V c t (ix2 p (⟨0 + q.val, by omega⟩ : Fin 256))
      (ix2 (⟨_, idx2_lt0 (((cfg3.win 15).blk t).view.emb (ix2 p q))⟩ : Fin 100000) (⟨0 + ((((cfg3.win 15).blk t).view.emb (ix2 p q)) 1).val, by have := idx2_lt1 (((cfg3.win 15).blk t).view.emb (ix2 p q)); omega⟩ : Fin 256)) r0 (by show 0 + _ = 0 + q.val; rw [r1]),
    iblk3_1_apply V c t (ix2 (0 : Fin 1) q)]
  congr 2
  exact idx2_ext _ _ rfl r1.symm

/-- The first mean result after the last point. -/
theorem arr3_15_eq (c : Dev nD) : (dat3 V c).arrAt 15 cfg3.N = head3 0 (by omega) (V c main_v62) (V c main_v63) :=
  (dat3 V c).arrAt_eq_of_cover 15 (head3 0 (by omega) (V c main_v62) (V c main_v63)) (fun t _ => flushed3_15_eq V c t) (covered3_15)

/-- At entry (n, l): the head table's (n, l) entry plus bias row 1's l-th entry. -/
theorem final3_15 (c : Dev nD) (n : Fin 100000) (l : Fin 64) :
    let HW : S100000x256.Idx → EReal := V c main_v62
    let B1 : S1x64.Idx → EReal := V c main_v63
    let r : S100000x64.Idx → EReal := (dat3 V c).arrAt 15 cfg3.N
    r (ix2 n l) = HW (ix2 n (⟨l.val, by omega⟩ : Fin 256)) + B1 (ix2 (0 : Fin 1) l) := by
  intro HW B1 r
  show (dat3 V c).arrAt 15 cfg3.N (ix2 n l) = _
  rw [arr3_15_eq, head3_apply]
  have e : (⟨0 + l.val, by omega⟩ : Fin 256) = ⟨l.val, by omega⟩ := Fin.ext (Nat.zero_add _)
  rw [e]

/-- Point `t` writes back block `t` of the second mean result: the head table's columns 64 … 127 plus bias row 2. -/
theorem flushed3_16_eq (c : Dev nD) (t : Fin cfg3.N) :
    (dat3 V c).flushed 16 t = ((cfg3.win 16).blk t).view.read (Elt Ideal) (head3 64 (by omega) (V c main_v62) (V c main_v64)) := by
  show (cfg3.win 16).cut (grid3.coords t) ((dat3 V c).after 16 t) = _
  rw [after3_16]
  unfold out3_16
  rw [View.canon_unit_zero zero_off3]
  simp only [View.ld_unit_zero (S := S2000x256) zero_off3, View.ld_unit_zero (S := S1x64) zero_off3]
  funext y
  obtain ⟨p, q, rfl⟩ : ∃ (p : Fin 2000) (q : Fin 64), y = ix2 p q := ⟨y 0, y 1, eq_ix2 y⟩
  show k3_pay4 (iblk3 V c 0 t) (iblk3 V c 2 t) (ix2 p q) = head3 64 (by omega) (V c main_v62) (V c main_v64) (((cfg3.win 16).blk t).view.emb (ix2 p q))
  refine (pay3_4_apply (iblk3 V c 0 t) (iblk3 V c 2 t) p q).trans ?_
  have r0 := emb3_16_row t p q
  have r1 := emb3_16_col t p q
  unfold head3
  rw [iblk3_0_apply V c t (ix2 p (⟨64 + q.val, by omega⟩ : Fin 256))
      (ix2 (⟨_, idx2_lt0 (((cfg3.win 16).blk t).view.emb (ix2 p q))⟩ : Fin 100000) (⟨64 + ((((cfg3.win 16).blk t).view.emb (ix2 p q)) 1).val, by have := idx2_lt1 (((cfg3.win 16).blk t).view.emb (ix2 p q)); omega⟩ : Fin 256)) r0 (by show 64 + _ = 64 + q.val; rw [r1]),
    iblk3_2_apply V c t (ix2 (0 : Fin 1) q)]
  congr 2
  exact idx2_ext _ _ rfl r1.symm

/-- The second mean result after the last point. -/
theorem arr3_16_eq (c : Dev nD) : (dat3 V c).arrAt 16 cfg3.N = head3 64 (by omega) (V c main_v62) (V c main_v64) :=
  (dat3 V c).arrAt_eq_of_cover 16 (head3 64 (by omega) (V c main_v62) (V c main_v64)) (fun t _ => flushed3_16_eq V c t) (covered3_16)

/-- At entry (n, l): the head table's (n, 64 + l) entry plus bias row 2's l-th entry. -/
theorem final3_16 (c : Dev nD) (n : Fin 100000) (l : Fin 64) :
    let HW : S100000x256.Idx → EReal := V c main_v62
    let B2 : S1x64.Idx → EReal := V c main_v64
    let r : S100000x64.Idx → EReal := (dat3 V c).arrAt 16 cfg3.N
    r (ix2 n l) = HW (ix2 n (⟨64 + l.val, by omega⟩ : Fin 256)) + B2 (ix2 (0 : Fin 1) l) := by
  intro HW B2 r
  show (dat3 V c).arrAt 16 cfg3.N (ix2 n l) = _
  rw [arr3_16_eq, head3_apply]

/-- Point `t` writes back block `t` of the first log-variance result: the head table's columns 128 … 191 plus bias row 3. -/
theorem flushed3_17_eq (c : Dev nD) (t : Fin cfg3.N) :
    (dat3 V c).flushed 17 t = ((cfg3.win 17).blk t).view.read (Elt Ideal) (head3 128 (by omega) (V c main_v62) (V c main_v65)) := by
  show (cfg3.win 17).cut (grid3.coords t) ((dat3 V c).after 17 t) = _
  rw [after3_17]
  unfold out3_17
  rw [View.canon_unit_zero zero_off3]
  simp only [View.ld_unit_zero (S := S2000x256) zero_off3, View.ld_unit_zero (S := S1x64) zero_off3]
  funext y
  obtain ⟨p, q, rfl⟩ : ∃ (p : Fin 2000) (q : Fin 64), y = ix2 p q := ⟨y 0, y 1, eq_ix2 y⟩
  show k3_pay5 (iblk3 V c 0 t) (iblk3 V c 3 t) (ix2 p q) = head3 128 (by omega) (V c main_v62) (V c main_v65) (((cfg3.win 17).blk t).view.emb (ix2 p q))
  refine (pay3_5_apply (iblk3 V c 0 t) (iblk3 V c 3 t) p q).trans ?_
  have r0 := emb3_17_row t p q
  have r1 := emb3_17_col t p q
  unfold head3
  rw [iblk3_0_apply V c t (ix2 p (⟨128 + q.val, by omega⟩ : Fin 256))
      (ix2 (⟨_, idx2_lt0 (((cfg3.win 17).blk t).view.emb (ix2 p q))⟩ : Fin 100000) (⟨128 + ((((cfg3.win 17).blk t).view.emb (ix2 p q)) 1).val, by have := idx2_lt1 (((cfg3.win 17).blk t).view.emb (ix2 p q)); omega⟩ : Fin 256)) r0 (by show 128 + _ = 128 + q.val; rw [r1]),
    iblk3_3_apply V c t (ix2 (0 : Fin 1) q)]
  congr 2
  exact idx2_ext _ _ rfl r1.symm

/-- The first log-variance result after the last point. -/
theorem arr3_17_eq (c : Dev nD) : (dat3 V c).arrAt 17 cfg3.N = head3 128 (by omega) (V c main_v62) (V c main_v65) :=
  (dat3 V c).arrAt_eq_of_cover 17 (head3 128 (by omega) (V c main_v62) (V c main_v65)) (fun t _ => flushed3_17_eq V c t) (covered3_17)

/-- At entry (n, l): the head table's (n, 128 + l) entry plus bias row 3's l-th entry. -/
theorem final3_17 (c : Dev nD) (n : Fin 100000) (l : Fin 64) :
    let HW : S100000x256.Idx → EReal := V c main_v62
    let B3 : S1x64.Idx → EReal := V c main_v65
    let r : S100000x64.Idx → EReal := (dat3 V c).arrAt 17 cfg3.N
    r (ix2 n l) = HW (ix2 n (⟨128 + l.val, by omega⟩ : Fin 256)) + B3 (ix2 (0 : Fin 1) l) := by
  intro HW B3 r
  show (dat3 V c).arrAt 17 cfg3.N (ix2 n l) = _
  rw [arr3_17_eq, head3_apply]

/-- Point `t` writes back block `t` of the second log-variance result: the head table's columns 192 … 255 plus bias row 4. -/
theorem flushed3_18_eq (c : Dev nD) (t : Fin cfg3.N) :
    (dat3 V c).flushed 18 t = ((cfg3.win 18).blk t).view.read (Elt Ideal) (head3 192 (by omega) (V c main_v62) (V c main_v66)) := by
  show (cfg3.win 18).cut (grid3.coords t) ((dat3 V c).after 18 t) = _
  rw [after3_18]
  unfold out3_18
  rw [View.canon_unit_zero zero_off3]
  simp only [View.ld_unit_zero (S := S2000x256) zero_off3, View.ld_unit_zero (S := S1x64) zero_off3]
  funext y
  obtain ⟨p, q, rfl⟩ : ∃ (p : Fin 2000) (q : Fin 64), y = ix2 p q := ⟨y 0, y 1, eq_ix2 y⟩
  show k3_pay6 (iblk3 V c 0 t) (iblk3 V c 4 t) (ix2 p q) = head3 192 (by omega) (V c main_v62) (V c main_v66) (((cfg3.win 18).blk t).view.emb (ix2 p q))
  refine (pay3_6_apply (iblk3 V c 0 t) (iblk3 V c 4 t) p q).trans ?_
  have r0 := emb3_18_row t p q
  have r1 := emb3_18_col t p q
  unfold head3
  rw [iblk3_0_apply V c t (ix2 p (⟨192 + q.val, by omega⟩ : Fin 256))
      (ix2 (⟨_, idx2_lt0 (((cfg3.win 18).blk t).view.emb (ix2 p q))⟩ : Fin 100000) (⟨192 + ((((cfg3.win 18).blk t).view.emb (ix2 p q)) 1).val, by have := idx2_lt1 (((cfg3.win 18).blk t).view.emb (ix2 p q)); omega⟩ : Fin 256)) r0 (by show 192 + _ = 192 + q.val; rw [r1]),
    iblk3_4_apply V c t (ix2 (0 : Fin 1) q)]
  congr 2
  exact idx2_ext _ _ rfl r1.symm

/-- The second log-variance result after the last point. -/
theorem arr3_18_eq (c : Dev nD) : (dat3 V c).arrAt 18 cfg3.N = head3 192 (by omega) (V c main_v62) (V c main_v66) :=
  (dat3 V c).arrAt_eq_of_cover 18 (head3 192 (by omega) (V c main_v62) (V c main_v66)) (fun t _ => flushed3_18_eq V c t) (covered3_18)

/-- At entry (n, l): the head table's (n, 192 + l) entry plus bias row 4's l-th entry. -/
theorem final3_18 (c : Dev nD) (n : Fin 100000) (l : Fin 64) :
    let HW : S100000x256.Idx → EReal := V c main_v62
    let B4 : S1x64.Idx → EReal := V c main_v66
    let r : S100000x64.Idx → EReal := (dat3 V c).arrAt 18 cfg3.N
    r (ix2 n l) = HW (ix2 n (⟨192 + l.val, by omega⟩ : Fin 256)) + B4 (ix2 (0 : Fin 1) l) := by
  intro HW B4 r
  show (dat3 V c).arrAt 18 cfg3.N (ix2 n l) = _
  rw [arr3_18_eq, head3_apply]

end Cert.KernelIdeal.Hand
end
-- ==== Proof.Algebra.lean ====
/-
  The laws that join the two programs.

  Every value the network computes from finite inputs is finite, that is, an ordinary real number sitting inside the
  extended reals; and among such values the arithmetic is the arithmetic of the real field, so sums may be
  re-associated and products distributed over them.  The extended reals as a whole are NOT a ring
  (`(⊤ + ⊥) · x` is not `⊤ · x + ⊥ · x`), which is why finiteness has to be carried along.

  Two things are proved here.

  (a) CLOSURE.  Sums, products, maxima, finite sums, conditionals, and the exponential, the hyperbolic tangent and the
      logistic function of real values are real; hence so are a matrix product, a round of message passing, a
      graph-convolution layer, the hidden layer, the reparameterised sample and a dense tanh layer of real inputs.

  (b) THE LAW.  Message passing is linear in the node table, so it commutes with a matrix product applied on the right
      of the table:

          (agg t) · W  =  agg (t · W) .

      Entry (n, c) of either side is the double sum, over the messages e arriving at n and over the inner index k, of
      t (src e) k · nrm e · W k c; the two sides only differ in which of the two sums is the outer one.
-/
import proofs.«157918_j42898133352759_2_alg».proof.Proof.Spec

noncomputable section

namespace Cert.Algebra

open Idealize.ShloMosaic Idealize.ShloMosaic.ValueIdx
open scoped BigOperators
open Cert.Spec

/-- An extended real is REAL (finite) when it is a real number: neither of the two infinities. -/
def IsReal (x : EReal) : Prop := ∃ r : ℝ, x = (r : EReal)

/-! ### Closure of the real values under the operations of the network -/

/-- A real number, seen as an extended real, is real. -/
theorem isReal_coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- The sum of two real values is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real values is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real values is real: the inclusion of the reals is monotone, so it carries a maximum to the
    maximum. -/
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

/-- A conditional between two real values is real. -/
theorem IsReal.ite {p : Prop} [Decidable p] {x y : EReal} (hx : IsReal x) (hy : IsReal y) :
    IsReal (if p then x else y) := by
  split
  · exact hx
  · exact hy

/-- A finite sum of real values is real. -/
theorem IsReal.sum {ι : Type*} (s : Finset ι) (f : ι → EReal) (h : ∀ i ∈ s, IsReal (f i)) :
    IsReal (∑ i ∈ s, f i) :=
  Finset.sum_induction f IsReal (fun _ _ ha hb => ha.add hb) isReal_zero h

/-- The exponential of a real value is real. -/
theorem IsReal.exp {x : EReal} (hx : IsReal x) : IsReal (Ideal.exp x) := by
  obtain ⟨a, rfl⟩ := hx
  exact ⟨Real.exp a, Ideal.exp_coe a⟩

/-- The hyperbolic tangent of a real value is real. -/
theorem IsReal.tanh {x : EReal} (hx : IsReal x) : IsReal (Ideal.tanh x) := by
  obtain ⟨a, rfl⟩ := hx
  exact ⟨Real.tanh a, Ideal.tanh_coe a⟩

/-- The logistic function `1 / (1 + e⁻ˣ)` of a real value is real (the denominator is positive). -/
theorem IsReal.logistic {x : EReal} (hx : IsReal x) : IsReal (Ideal.logistic x) := by
  obtain ⟨a, rfl⟩ := hx
  exact ⟨(1 + Real.exp (-a))⁻¹, Ideal.logistic_coe a⟩

/-- A matrix product of real tables is real. -/
theorem isReal_mm {A K B : Nat} {a : Fin A → Fin K → EReal} {b : Fin K → Fin B → EReal}
    (ha : ∀ i k, IsReal (a i k)) (hb : ∀ k j, IsReal (b k j)) (i : Fin A) (j : Fin B) : IsReal (mm a b i j) :=
  IsReal.sum _ _ fun k _ => (ha i k).mul (hb k j)

/-- A round of message passing of a real table with real weights is real. -/
theorem isReal_agg {N M C : Nat} (hN : 0 < N) (sI dI : IdxCol M) {nrm : Fin M → EReal} {t : Fin N → Fin C → EReal}
    (hn : ∀ e, IsReal (nrm e)) (ht : ∀ n c, IsReal (t n c)) (n : Fin N) (c : Fin C) :
    IsReal (agg hN sI dI nrm t n c) :=
  IsReal.sum _ _ fun e _ => IsReal.ite ((ht _ c).mul (hn e)) isReal_zero

/-- A graph-convolution layer of real inputs is real. -/
theorem isReal_conv {N M K C : Nat} (hN : 0 < N) (sI dI : IdxCol M) {nrm : Fin M → EReal} {t : Fin N → Fin K → EReal}
    {W : Fin K → Fin C → EReal} {b : Fin C → EReal}
    (hn : ∀ e, IsReal (nrm e)) (ht : ∀ n k, IsReal (t n k)) (hW : ∀ k c, IsReal (W k c)) (hb : ∀ c, IsReal (b c))
    (n : Fin N) (c : Fin C) : IsReal (conv hN sI dI nrm t W b n c) :=
  (isReal_agg hN sI dI hn (isReal_mm ht hW) n c).add (hb c)

/-- The hidden layer of real inputs is real. -/
theorem isReal_hidden {N M K C : Nat} (hN : 0 < N) (sI dI : IdxCol M) {nrm : Fin M → EReal}
    {x : Fin N → Fin K → EReal} {W : Fin K → Fin C → EReal} {b : Fin C → EReal}
    (hn : ∀ e, IsReal (nrm e)) (hx : ∀ n k, IsReal (x n k)) (hW : ∀ k c, IsReal (W k c)) (hb : ∀ c, IsReal (b c))
    (n : Fin N) (c : Fin C) : IsReal (hidden hN sI dI nrm x W b n c) :=
  (isReal_conv hN sI dI hn hx hW hb n c).max isReal_zero

/-- The reparameterised sample of real inputs is real. -/
theorem isReal_sample {N C : Nat} {half : EReal} {mu lv eps : Fin N → Fin C → EReal} (hh : IsReal half)
    (hmu : ∀ n c, IsReal (mu n c)) (hlv : ∀ n c, IsReal (lv n c)) (heps : ∀ n c, IsReal (eps n c))
    (n : Fin N) (c : Fin C) : IsReal (sample half mu lv eps n c) :=
  (hmu n c).add ((heps n c).mul (hh.mul (hlv n c)).exp)

/-- A dense tanh layer of real inputs is real. -/
theorem isReal_dense {N K C : Nat} {z : Fin N → Fin K → EReal} {W : Fin K → Fin C → EReal} {b : Fin C → EReal}
    (hz : ∀ n k, IsReal (z n k)) (hW : ∀ k c, IsReal (W k c)) (hb : ∀ c, IsReal (b c)) (n : Fin N) (c : Fin C) :
    IsReal (dense z W b n c) :=
  ((isReal_mm hz hW n c).add (hb c)).tanh

/-- An edge score of a real decoded table is real. -/
theorem isReal_score {N E C : Nat} (hN : 0 < N) (e0I e1I : IdxCol E) {d : Fin N → Fin C → EReal}
    (hd : ∀ n c, IsReal (d n c)) (e : Fin E) : IsReal (score hN e0I e1I d e) :=
  (IsReal.sum _ _ fun j _ => (hd _ j).mul (hd _ j)).logistic

/-! ### Message passing commutes with a matrix product -/

/-- The inclusion of the reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: `(agg t) · W = agg (t · W)` for a real table `t`, real weights and a real matrix `W`.

    Write everything as real numbers.  Entry `(n, c)` of the left side is
    `Σ_k (Σ_e [dst e = n] · t (src e) k · nrm e) · W k c`; distribute `W k c` into the inner sum and exchange the two
    sums to get `Σ_e Σ_k [dst e = n] · t (src e) k · nrm e · W k c`.  For a message `e` that does not arrive at `n`
    the inner sum is zero; for one that does, pulling `nrm e` out of it leaves
    `(Σ_k t (src e) k · W k c) · nrm e`, the summand of the right side. -/
theorem mm_agg {N M K C : Nat} (hN : 0 < N) (sI dI : IdxCol M) (nrm : Fin M → EReal) (t : Fin N → Fin K → EReal)
    (W : Fin K → Fin C → EReal) (ht : ∀ n k, IsReal (t n k)) (hn : ∀ e, IsReal (nrm e))
    (hW : ∀ k c, IsReal (W k c)) (n : Fin N) (c : Fin C) :
    mm (agg hN sI dI nrm t) W n c = agg hN sI dI nrm (mm t W) n c := by
  choose tr htr using ht
  choose nr hnr using hn
  choose Wr hWr using hW
  -- the left side, as a real number
  have hL : mm (agg hN sI dI nrm t) W n c
      = ((∑ k : Fin K, (∑ e : Fin M, if (dI (ix2 e 0)).toInt = (n.val : Int)
            then tr (rowOf N hN sI e) k * nr e else 0) * Wr k c : ℝ) : EReal) := by
    unfold mm agg
    rw [coe_sum]
    refine Finset.sum_congr rfl fun k _ => ?_
    rw [EReal.coe_mul, coe_sum, hWr]
    congr 1
    refine Finset.sum_congr rfl fun e _ => ?_
    rw [htr, hnr]
    split_ifs
    · rw [EReal.coe_mul]
    · rw [EReal.coe_zero]
  -- the right side, as a real number
  have hR : agg hN sI dI nrm (mm t W) n c
      = ((∑ e : Fin M, if (dI (ix2 e 0)).toInt = (n.val : Int)
            then (∑ k : Fin K, tr (rowOf N hN sI e) k * Wr k c) * nr e else 0 : ℝ) : EReal) := by
    unfold agg mm
    rw [coe_sum]
    refine Finset.sum_congr rfl fun e _ => ?_
    split_ifs
    · rw [EReal.coe_mul, coe_sum, hnr]
      congr 1
      refine Finset.sum_congr rfl fun k _ => ?_
      rw [htr, hWr, EReal.coe_mul]
    · rw [EReal.coe_zero]
  rw [hL, hR]
  congr 1
  -- the identity between real double sums
  simp only [Finset.sum_mul]
  rw [Finset.sum_comm]
  refine Finset.sum_congr rfl fun e _ => ?_
  split_ifs
  · refine Finset.sum_congr rfl fun k _ => ?_
    ring
  · simp

end Cert.Algebra

end
-- ==== Proof.KChain2.lean ====
/- The kernel program's values, second part: the four heads. Region 3 stores, for each head, one
   64-column band of the 256-wide projection plus that head's bias row. The band is
   (agg H) · W for the head's weight table W, where H is the hidden layer; since the message
   weights and the first two layers' arguments are real numbers, H is real and message passing
   commutes with the right matrix product, so the band is agg (H · W) and the stored table is
   the graph convolution of H with W and the bias. The bias rows are reshapes of argument
   vectors, which no item writes. -/
import proofs.«157918_j42898133352759_2_alg».proof.Proof.KChain1
import proofs.«157918_j42898133352759_2_alg».proof.Proof.Value3
import proofs.«157918_j42898133352759_2_alg».proof.Proof.KHost
import proofs.«157918_j42898133352759_2_alg».proof.Proof.Algebra
import proofs.«157918_j42898133352759_2_alg».proof.Proof.Spec
import proofs.«157918_j42898133352759_2_alg».proof.Proof.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg) (c : Dev nD)

/-! ## More argument tables -/

abbrev arg2 : S100000x64.Idx → EReal := m ((c : Thread nD τ).loc main_arg2)
abbrev arg3 : S100000x64.Idx → EReal := m ((c : Thread nD τ).loc main_arg3)
abbrev arg7 : S64.Idx → EReal := m ((c : Thread nD τ).loc main_arg7)
abbrev arg9 : S64.Idx → EReal := m ((c : Thread nD τ).loc main_arg9)
abbrev arg11 : S64.Idx → EReal := m ((c : Thread nD τ).loc main_arg11)
abbrev arg13 : S64.Idx → EReal := m ((c : Thread nD τ).loc main_arg13)
abbrev arg14 : S64x32.Idx → EReal := m ((c : Thread nD τ).loc main_arg14)
abbrev arg15 : S32.Idx → EReal := m ((c : Thread nD τ).loc main_arg15)
abbrev arg16 : S32x10.Idx → EReal := m ((c : Thread nD τ).loc main_arg16)
abbrev arg17 : S10.Idx → EReal := m ((c : Thread nD τ).loc main_arg17)
abbrev arg18 : S64x32.Idx → EReal := m ((c : Thread nD τ).loc main_arg18)
abbrev arg19 : S32.Idx → EReal := m ((c : Thread nD τ).loc main_arg19)
abbrev arg20 : S32x10.Idx → EReal := m ((c : Thread nD τ).loc main_arg20)
abbrev arg21 : S10.Idx → EReal := m ((c : Thread nD τ).loc main_arg21)

/-- The hidden layer, as the specification writes it, of the program's graph data and arguments. -/
abbrev kH : Fin 100000 → Fin 32 → EReal :=
  Cert.Spec.hidden hN (kSrc m ρ c) (kDst m ρ c) (kNrm m ρ c) (tab2 (arg0 m c)) (tab2 (arg4 m c)) (vec1 (arg5 m c))

/-- One head: a graph convolution of the hidden layer with weight table `W` and bias `b`. -/
abbrev headK (W : S32x64.Idx → EReal) (b : S64.Idx → EReal) : Fin 100000 → Fin 64 → EReal :=
  Cert.Spec.conv hN (kSrc m ρ c) (kDst m ρ c) (kNrm m ρ c) (kH m ρ c) (tab2 W) (vec1 b)

/-! ## What the items up to region 3's entry leave alone -/

/-- A buffer no item writes is, at region 2's exit, as at launch. -/
theorem keep8_arg (r : Ref sig .tc) (h : r ∉ (written : List (Ref sig .tc))) :
    W8 m ρ c (Proc.devRef .tc r) = m ((c : Thread nD τ).loc r) := by
  have h8 : r ∉ ([main_v62] : List (Ref sig .tc)) := fun hm => h (by
    simp only [written, List.mem_append]; exact Or.inl (Or.inl (Or.inl (Or.inl (Or.inl (Or.inr hm))))))
  exact (W8_keep m ρ c r h8).trans (keep_all m ρ c r h).2.2.2.1

/-- The eight reshaped bias rows, as region 3 finds them: each is its argument vector. -/
theorem k_b63 (l : Fin 64) : W9 m ρ c (Proc.devRef .tc main_v63) (ix2 (0 : Fin 1) l) = vec1 (arg7 m c) l := by
  show StableHlo.after hostOps3 (W8 m ρ c) (Proc.devRef .tc main_v63) _ = _
  rw [stage_v63, keep8_arg m ρ c main_arg7 (by decide)]
theorem k_b64 (l : Fin 64) : W9 m ρ c (Proc.devRef .tc main_v64) (ix2 (0 : Fin 1) l) = vec1 (arg9 m c) l := by
  show StableHlo.after hostOps3 (W8 m ρ c) (Proc.devRef .tc main_v64) _ = _
  rw [stage_v64, keep8_arg m ρ c main_arg9 (by decide)]
theorem k_b65 (l : Fin 64) : W9 m ρ c (Proc.devRef .tc main_v65) (ix2 (0 : Fin 1) l) = vec1 (arg11 m c) l := by
  show StableHlo.after hostOps3 (W8 m ρ c) (Proc.devRef .tc main_v65) _ = _
  rw [stage_v65, keep8_arg m ρ c main_arg11 (by decide)]
theorem k_b66 (l : Fin 64) : W9 m ρ c (Proc.devRef .tc main_v66) (ix2 (0 : Fin 1) l) = vec1 (arg13 m c) l := by
  show StableHlo.after hostOps3 (W8 m ρ c) (Proc.devRef .tc main_v66) _ = _
  rw [stage_v66, keep8_arg m ρ c main_arg13 (by decide)]
theorem k_b67 (l : Fin 32) : W9 m ρ c (Proc.devRef .tc main_v67) (ix2 (0 : Fin 1) l) = vec1 (arg15 m c) l := by
  show StableHlo.after hostOps3 (W8 m ρ c) (Proc.devRef .tc main_v67) _ = _
  rw [stage_v67, keep8_arg m ρ c main_arg15 (by decide)]
theorem k_b68 (l : Fin 10) : W9 m ρ c (Proc.devRef .tc main_v68) (ix2 (0 : Fin 1) l) = vec1 (arg17 m c) l := by
  show StableHlo.after hostOps3 (W8 m ρ c) (Proc.devRef .tc main_v68) _ = _
  rw [stage_v68, keep8_arg m ρ c main_arg17 (by decide)]
theorem k_b69 (l : Fin 32) : W9 m ρ c (Proc.devRef .tc main_v69) (ix2 (0 : Fin 1) l) = vec1 (arg19 m c) l := by
  show StableHlo.after hostOps3 (W8 m ρ c) (Proc.devRef .tc main_v69) _ = _
  rw [stage_v69, keep8_arg m ρ c main_arg19 (by decide)]
theorem k_b70 (l : Fin 10) : W9 m ρ c (Proc.devRef .tc main_v70) (ix2 (0 : Fin 1) l) = vec1 (arg21 m c) l := by
  show StableHlo.after hostOps3 (W8 m ρ c) (Proc.devRef .tc main_v70) _ = _
  rw [stage_v70, keep8_arg m ρ c main_arg21 (by decide)]

/-- An argument array, as region 3 finds it, is as at launch. -/
theorem k_arg9 (r : Ref sig .tc) (h : r ∉ (written : List (Ref sig .tc))) :
    W9 m ρ c (Proc.devRef .tc r) = m ((c : Thread nD τ).loc r) := (keep_all m ρ c r h).2.2.1

/-- The projection as region 3 finds it is as region 2 left it. -/
theorem k_hw1_9 : W9 m ρ c (Proc.devRef .tc main_v62) = W8 m ρ c (Proc.devRef .tc main_v62) :=
  W9_keep m ρ c main_v62 (by decide)

/-- Column `j` of a 256-wide table at row `n`, plus entry `l` of a bias row: what region 3 stores
    for one head, over functions on the literal index types. -/
abbrev bandPlus (X : S100000x256.Idx → EReal) (Bb : S1x64.Idx → EReal) (j : Fin 256) (n : Fin 100000) (l : Fin 64) : EReal :=
  X (ix2 n j) + Bb (ix2 (0 : Fin 1) l)

section Finite

open Cert.Algebra

/- The finiteness hypotheses: the message weights and the arguments of the first two layers are
   real numbers. Under them message passing commutes with a right matrix product. -/
variable (hnrm : ∀ e, IsReal (kNrm m ρ c e)) (h0 : ∀ i, IsReal (arg0 m c i)) (h4 : ∀ i, IsReal (arg4 m c i))
  (h5 : ∀ i, IsReal (arg5 m c i))

include hnrm h0 h4 h5

/-- The hidden layer is real. -/
theorem kH_real (n : Fin 100000) (k : Fin 32) : IsReal (kH m ρ c n k) :=
  isReal_hidden hN _ _ hnrm (fun _ _ => h0 _) (fun _ _ => h4 _) (fun _ => h5 _) n k

/-! ## The four heads -/

/-- One 64-column band of the projection plus its bias row is one head: the band is (agg H) · W,
    which is agg (H · W) since everything is real. -/
theorem k_head_of (W : S32x64.Idx → EReal) (b : S64.Idx → EReal) (hW : ∀ i, IsReal (W i))
    (j : Fin 256) (n : Fin 100000) (l : Fin 64)
    (X : S100000x256.Idx → EReal) (Bb : S1x64.Idx → EReal)
    (hX : X (ix2 n j) = Cert.Spec.mm (Cert.Spec.agg hN (kSrc m ρ c) (kDst m ρ c) (kNrm m ρ c) (kH m ρ c)) (tab2 W) n l)
    (hB : Bb (ix2 (0 : Fin 1) l) = vec1 b l) :
    bandPlus X Bb j n l = headK m ρ c W b n l := by
  show X (ix2 n j) + Bb (ix2 (0 : Fin 1) l) = _
  rw [hX, hB, mm_agg hN _ _ _ _ _ (kH_real m ρ c hnrm h0 h4 h5) hnrm (fun _ _ => hW _) n l]
  rfl

theorem k_pre_mu_c (h6 : ∀ i, IsReal (arg6 m c i)) (n : Fin 100000) (l : Fin 64) :
    bandPlus (V9 m ρ c main_v62) (V9 m ρ c main_v63) (⟨l.val, by omega⟩ : Fin 256) n l
      = headK m ρ c (arg6 m c) (arg7 m c) n l :=
  k_head_of m ρ c hnrm h0 h4 h5 (arg6 m c) (arg7 m c) h6 (⟨l.val, by omega⟩ : Fin 256) n l (V9 m ρ c main_v62) (V9 m ρ c main_v63)
    (by show W9 m ρ c (Proc.devRef .tc main_v62) _ = _
        rw [k_hw1_9]; exact k_hw1_0 m ρ c n l)
    (k_b63 m ρ c l)

theorem k_pre_mu_n (h8 : ∀ i, IsReal (arg8 m c i)) (n : Fin 100000) (l : Fin 64) :
    bandPlus (V9 m ρ c main_v62) (V9 m ρ c main_v64) (⟨64 + l.val, by omega⟩ : Fin 256) n l
      = headK m ρ c (arg8 m c) (arg9 m c) n l :=
  k_head_of m ρ c hnrm h0 h4 h5 (arg8 m c) (arg9 m c) h8 (⟨64 + l.val, by omega⟩ : Fin 256) n l (V9 m ρ c main_v62) (V9 m ρ c main_v64)
    (by show W9 m ρ c (Proc.devRef .tc main_v62) _ = _
        rw [k_hw1_9]; exact k_hw1_1 m ρ c n l)
    (k_b64 m ρ c l)

theorem k_pre_lv_c (h10 : ∀ i, IsReal (arg10 m c i)) (n : Fin 100000) (l : Fin 64) :
    bandPlus (V9 m ρ c main_v62) (V9 m ρ c main_v65) (⟨128 + l.val, by omega⟩ : Fin 256) n l
      = headK m ρ c (arg10 m c) (arg11 m c) n l :=
  k_head_of m ρ c hnrm h0 h4 h5 (arg10 m c) (arg11 m c) h10 (⟨128 + l.val, by omega⟩ : Fin 256) n l (V9 m ρ c main_v62) (V9 m ρ c main_v65)
    (by show W9 m ρ c (Proc.devRef .tc main_v62) _ = _
        rw [k_hw1_9]; exact k_hw1_2 m ρ c n l)
    (k_b65 m ρ c l)

theorem k_pre_lv_n (h12 : ∀ i, IsReal (arg12 m c i)) (n : Fin 100000) (l : Fin 64) :
    bandPlus (V9 m ρ c main_v62) (V9 m ρ c main_v66) (⟨192 + l.val, by omega⟩ : Fin 256) n l
      = headK m ρ c (arg12 m c) (arg13 m c) n l :=
  k_head_of m ρ c hnrm h0 h4 h5 (arg12 m c) (arg13 m c) h12 (⟨192 + l.val, by omega⟩ : Fin 256) n l (V9 m ρ c main_v62) (V9 m ρ c main_v66)
    (by show W9 m ρ c (Proc.devRef .tc main_v62) _ = _
        rw [k_hw1_9]; exact k_hw1_3 m ρ c n l)
    (k_b66 m ρ c l)

theorem k_mu_c (h6 : ∀ i, IsReal (arg6 m c i)) (n : Fin 100000) (l : Fin 64) :
    W10 m ρ c (Proc.devRef .tc main_v71_0) (ix2 n l) = headK m ρ c (arg6 m c) (arg7 m c) n l := by
  have h1 : W10 m ρ c (Proc.devRef .tc main_v71_0) = (dat3 (V9 m ρ) c).arrAt 15 cfg3.N := W10_arr m ρ c 15
  rw [h1]
  exact (final3_15 (V9 m ρ) c n l).trans (k_pre_mu_c m ρ c hnrm h0 h4 h5 h6 n l)

theorem k_mu_n (h8 : ∀ i, IsReal (arg8 m c i)) (n : Fin 100000) (l : Fin 64) :
    W10 m ρ c (Proc.devRef .tc main_v71_1) (ix2 n l) = headK m ρ c (arg8 m c) (arg9 m c) n l := by
  have h1 : W10 m ρ c (Proc.devRef .tc main_v71_1) = (dat3 (V9 m ρ) c).arrAt 16 cfg3.N := W10_arr m ρ c 16
  rw [h1]
  exact (final3_16 (V9 m ρ) c n l).trans (k_pre_mu_n m ρ c hnrm h0 h4 h5 h8 n l)

theorem k_lv_c (h10 : ∀ i, IsReal (arg10 m c i)) (n : Fin 100000) (l : Fin 64) :
    W10 m ρ c (Proc.devRef .tc main_v71_2) (ix2 n l) = headK m ρ c (arg10 m c) (arg11 m c) n l := by
  have h1 : W10 m ρ c (Proc.devRef .tc main_v71_2) = (dat3 (V9 m ρ) c).arrAt 17 cfg3.N := W10_arr m ρ c 17
  rw [h1]
  exact (final3_17 (V9 m ρ) c n l).trans (k_pre_lv_c m ρ c hnrm h0 h4 h5 h10 n l)

theorem k_lv_n (h12 : ∀ i, IsReal (arg12 m c i)) (n : Fin 100000) (l : Fin 64) :
    W10 m ρ c (Proc.devRef .tc main_v71_3) (ix2 n l) = headK m ρ c (arg12 m c) (arg13 m c) n l := by
  have h1 : W10 m ρ c (Proc.devRef .tc main_v71_3) = (dat3 (V9 m ρ) c).arrAt 18 cfg3.N := W10_arr m ρ c 18
  rw [h1]
  exact (final3_18 (V9 m ρ) c n l).trans (k_pre_lv_n m ρ c hnrm h0 h4 h5 h12 n l)

end Finite

end Cert.KernelIdeal.Hand

end
-- ==== Proof.Value3Dec.lean ====
/- The value of the third region's two decoded result arrays at an index, on the extended reals: the reparametrised
   sample (mean plus noise times the exponential of half the log-variance, the means and log-variances being 64-column
   slices of the head table plus bias rows) pushed through a two-layer tanh decoder, row by row. Each decoder layer is a
   matrix product into a zero accumulator plus a bias row; the roundings to bf16 are the identity on the extended reals.
   A row of the result depends only on the same row of the head table and of the noise table, so block t of the result
   is the restriction of one whole-array function. -/
import proofs.«157918_j42898133352759_2_alg».proof.Proof.Value3

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.LibMatmulFin
open scoped BigOperators

variable (V : (c : Dev nD) → (b : Ref sig .tc) → Buf (Elt Ideal) ((c : Thread nD τ).loc b))

/-! ## Pointwise operations at an index -/

theorem tanh_apply3 {s : Shape} (a : FVec Ideal s .f32) (i : s.Idx) : tanh a i = Ideal.tanh (a i) := rfl

/-- The reparametrised sample at an index: mean plus noise times the exponential of one half times the log-variance. -/
theorem sample_apply (mu lv : FVec Ideal S2000x64 .f32) (eps : Vec Ideal S2000x64 .f32) (i : S2000x64.Idx) :
    addf mu (mulf eps (exp (mulf (broadcast S2000x64 (Scalar.ofBits .f32 0x3F000000#32 : Ideal .f32)) lv))) i
      = mu i + eps i * Ideal.exp (half3 * lv i) := rfl

/-! ## The matrix products at an index -/

/-- Entry (p, q) of a [2000, 64] by [64, 32] product into the zero accumulator: the sum over the 64 contraction positions of
    the left operand's (p, k) entry times the right operand's (k, q) entry. -/
theorem mm3_64_32_apply {φ₁ φ₂ : FTy} (A : FVec Ideal S2000x64 φ₁) (B : FVec Ideal S64x32 φ₂) (p : Fin 2000) (q : Fin 32) :
    matmul dot_S2000x64_S64x32_S2000x32_1_0_0_1_n_n none A B (constant S2000x32 .f32 0x00000000#32) (ix2 p q) = ∑ k : Fin 64, A (ix2 p k) * B (ix2 k q) := by
  refine matmul_zero_apply_fin dot_S2000x64_S64x32_S2000x32_1_0_0_1_n_n 64 rfl rfl none _ _ (ix2 p q) (fun k => ix2 p k) (fun k => ix2 k q) (fun k => ?_) (fun k => ?_)
  · have hk := contrEquiv1_symm_val dot_S2000x64_S64x32_S2000x32_1_0_0_1_n_n 64 rfl rfl k
    refine idx2_ext _ _ ?_ ?_
    · unfold DotDims.lhsIdx
      rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
      rfl
    · exact (dot_S2000x64_S64x32_S2000x32_1_0_0_1_n_n.lhsIdx_val_of_single rfl (ix2 p q) _).trans hk
  · have hk := contrEquiv1_symm_val dot_S2000x64_S64x32_S2000x32_1_0_0_1_n_n 64 rfl rfl k
    refine idx2_ext _ _ ?_ ?_
    · exact (dot_S2000x64_S64x32_S2000x32_1_0_0_1_n_n.rhsIdx_val_of_single rfl (ix2 p q) _).trans hk
    · unfold DotDims.rhsIdx
      rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
      rfl

/-- Entry (p, q) of a [2000, 32] by [32, 10] product into the zero accumulator: the sum over the 32 contraction positions of
    the left operand's (p, k) entry times the right operand's (k, q) entry. -/
theorem mm3_32_10_apply {φ₁ φ₂ : FTy} (A : FVec Ideal S2000x32 φ₁) (B : FVec Ideal S32x10 φ₂) (p : Fin 2000) (q : Fin 10) :
    matmul dot_S2000x32_S32x10_S2000x10_1_0_0_1_n_n none A B (constant S2000x10 .f32 0x00000000#32) (ix2 p q) = ∑ k : Fin 32, A (ix2 p k) * B (ix2 k q) := by
  refine matmul_zero_apply_fin dot_S2000x32_S32x10_S2000x10_1_0_0_1_n_n 32 rfl rfl none _ _ (ix2 p q) (fun k => ix2 p k) (fun k => ix2 k q) (fun k => ?_) (fun k => ?_)
  · have hk := contrEquiv1_symm_val dot_S2000x32_S32x10_S2000x10_1_0_0_1_n_n 32 rfl rfl k
    refine idx2_ext _ _ ?_ ?_
    · unfold DotDims.lhsIdx
      rw [dif_neg (show ¬(0 : Fin S2000x32.rank) ∈ dot_S2000x32_S32x10_S2000x10_1_0_0_1_n_n.lhsBatch by decide), dif_pos (show (0 : Fin S2000x32.rank) ∈ dot_S2000x32_S32x10_S2000x10_1_0_0_1_n_n.lhsNonContracting by decide)]
      rfl
    · exact (dot_S2000x32_S32x10_S2000x10_1_0_0_1_n_n.lhsIdx_val_of_single rfl (ix2 p q) _).trans hk
  · have hk := contrEquiv1_symm_val dot_S2000x32_S32x10_S2000x10_1_0_0_1_n_n 32 rfl rfl k
    refine idx2_ext _ _ ?_ ?_
    · exact (dot_S2000x32_S32x10_S2000x10_1_0_0_1_n_n.rhsIdx_val_of_single rfl (ix2 p q) _).trans hk
    · unfold DotDims.rhsIdx
      rw [dif_neg (show ¬(1 : Fin S32x10.rank) ∈ dot_S2000x32_S32x10_S2000x10_1_0_0_1_n_n.rhsBatch by decide), dif_pos (show (1 : Fin S32x10.rank) ∈ dot_S2000x32_S32x10_S2000x10_1_0_0_1_n_n.rhsNonContracting by decide)]
      rfl

/-! ## The decoder at an index -/

/-- The two decoder layers up to the last product: entry (p, j) is the sum over the 32 hidden units k of the tanh of
    (row p of the input times column k of the first weights, plus the first bias) times the second weights' (k, j). -/
theorem dec_chain_apply (z : FVec Ideal S2000x64 .f32) (W1 : Vec Ideal S64x32 .f32) (b1 : Vec Ideal S1x32 .f32)
    (W2 : Vec Ideal S32x10 .f32) (p : Fin 2000) (j : Fin 10) :
    matmul dot_S2000x32_S32x10_S2000x10_1_0_0_1_n_n none
        (truncf .bf16 (tanh (addf (matmul dot_S2000x64_S64x32_S2000x32_1_0_0_1_n_n none (truncf .bf16 z bitsLt_bf16_f32) (truncf .bf16 W1 bitsLt_bf16_f32) (constant S2000x32 .f32 0x00000000#32))
          (broadcastTo S2000x32 (shapeCast S1x32 b1 shapeCasts_S1x32_S1x32) broadcasts_S1x32_S2000x32))) bitsLt_bf16_f32)
        (truncf .bf16 W2 bitsLt_bf16_f32) (constant S2000x10 .f32 0x00000000#32) (ix2 p j)
      = ∑ k : Fin 32, Ideal.tanh ((∑ l : Fin 64, z (ix2 p l) * W1 (ix2 l k)) + b1 (ix2 (0 : Fin 1) k)) * W2 (ix2 k j) := by
  rw [mm3_32_10_apply]
  refine Finset.sum_congr rfl fun k _ => ?_
  rw [truncf_apply, truncf_apply, tanh_apply3, addf_apply, mm3_64_32_apply, broadcastTo_1b_ab_apply, shapeCast_self]
  rfl

/-- The last bias and tanh: at (p, j), the tanh of the entry plus the bias row's j-th entry. -/
theorem dec_out_apply (y : FVec Ideal S2000x10 .f32) (b2 : Vec Ideal S1x10 .f32) (p : Fin 2000) (j : Fin 10) :
    tanh (addf y (broadcastTo S2000x10 (shapeCast S1x10 b2 shapeCasts_S1x10_S1x10) broadcasts_S1x10_S2000x10)) (ix2 p j)
      = Ideal.tanh (y (ix2 p j) + b2 (ix2 (0 : Fin 1) j)) := by
  rw [tanh_apply3, addf_apply, broadcastTo_1b_ab_apply, shapeCast_self]

/-- The first mean payload at (p, l), with the column written without the zero offset. -/
theorem pay3_3_apply' (v0 : Vec Ideal S2000x256 .f32) (vb : Vec Ideal S1x64 .f32) (p : Fin 2000) (l : Fin 64) :
    k3_pay3 v0 vb (ix2 p l) = v0 (ix2 p (⟨l.val, by omega⟩ : Fin 256)) + vb (ix2 (0 : Fin 1) l) := by
  unfold k3_pay3
  exact head_apply 0 v0 vb _ p l _ (Nat.zero_add _).symm

/-- The first sample payload at (p, l). -/
theorem pay3_7_apply (v0 : Vec Ideal S2000x256 .f32) (v3 v13 : Vec Ideal S1x64 .f32) (v26 : Vec Ideal S2000x64 .f32) (p : Fin 2000) (l : Fin 64) :
    k3_pay7 v0 v3 v13 v26 (ix2 p l)
      = (v0 (ix2 p (⟨l.val, by omega⟩ : Fin 256)) + v3 (ix2 (0 : Fin 1) l))
        + v26 (ix2 p l) * Ideal.exp (half3 * (v0 (ix2 p (⟨128 + l.val, by omega⟩ : Fin 256)) + v13 (ix2 (0 : Fin 1) l))) := by
  unfold k3_pay7
  refine (sample_apply _ _ v26 (ix2 p l)).trans ?_
  rw [pay3_3_apply', pay3_5_apply]

/-- The first decoded block at (p, j), as the shared specification's decoder of the sample, over the loaded blocks. -/
theorem pay3_19_apply (x0 : Vec Ideal S2000x256 .f32) (x1 x3 : Vec Ideal S1x64 .f32) (x5 : Vec Ideal S2000x64 .f32)
    (x7 : Vec Ideal S64x32 .f32) (x8 : Vec Ideal S1x32 .f32) (x9 : Vec Ideal S32x10 .f32) (x10 : Vec Ideal S1x10 .f32)
    (p : Fin 2000) (j : Fin 10) :
    k3_pay8 (k3_pay7 x0 x1 x3 x5) x7 x8 x9 x10 (ix2 p j)
      = Cert.Spec.dense (Cert.Spec.dense (Cert.Spec.sample half3
            (fun (n : Fin 2000) (l : Fin 64) => x0 (ix2 n (⟨l.val, by omega⟩ : Fin 256)) + x1 (ix2 (0 : Fin 1) l))
            (fun (n : Fin 2000) (l : Fin 64) => x0 (ix2 n (⟨128 + l.val, by omega⟩ : Fin 256)) + x3 (ix2 (0 : Fin 1) l))
            (fun (n : Fin 2000) (l : Fin 64) => x5 (ix2 n l)))
          (fun (l : Fin 64) (k : Fin 32) => x7 (ix2 l k)) (fun (k : Fin 32) => x8 (ix2 (0 : Fin 1) k)))
        (fun (k : Fin 32) (j : Fin 10) => x9 (ix2 k j)) (fun (j : Fin 10) => x10 (ix2 (0 : Fin 1) j)) p j := by
  unfold k3_pay8
  refine (dec_out_apply _ x10 p j).trans ?_
  rw [dec_chain_apply]
  unfold Cert.Spec.dense Cert.Spec.mm Cert.Spec.sample
  simp only [pay3_7_apply]

/-- The second decoder's last product at (p, j), over the two head payloads and the loaded blocks. -/
theorem pay3_9_apply (v11 v21 : FVec Ideal S2000x64 .f32) (v32 : Vec Ideal S2000x64 .f32) (v58 : Vec Ideal S64x32 .f32)
    (v61 : Vec Ideal S1x32 .f32) (v66 : Vec Ideal S32x10 .f32) (p : Fin 2000) (j : Fin 10) :
    k3_pay9 v11 v21 v32 v58 v61 v66 (ix2 p j)
      = ∑ k : Fin 32, Ideal.tanh ((∑ l : Fin 64, (v11 (ix2 p l) + v32 (ix2 p l) * Ideal.exp (half3 * v21 (ix2 p l))) * v58 (ix2 l k)) + v61 (ix2 (0 : Fin 1) k)) * v66 (ix2 k j) := by
  unfold k3_pay9
  refine (dec_chain_apply _ v58 v61 v66 p j).trans ?_
  simp only [sample_apply]

/-- The second decoded block at (p, j), as the shared specification's decoder of the sample, over the loaded blocks. -/
theorem pay3_20_apply (x0 : Vec Ideal S2000x256 .f32) (x2 x4 : Vec Ideal S1x64 .f32) (x6 : Vec Ideal S2000x64 .f32)
    (x11 : Vec Ideal S64x32 .f32) (x12 : Vec Ideal S1x32 .f32) (x13 : Vec Ideal S32x10 .f32) (x14 : Vec Ideal S1x10 .f32)
    (p : Fin 2000) (j : Fin 10) :
    k3_pay1 (k3_pay9 (k3_pay4 x0 x2) (k3_pay6 x0 x4) x6 x11 x12 x13) x14 (ix2 p j)
      = Cert.Spec.dense (Cert.Spec.dense (Cert.Spec.sample half3
            (fun (n : Fin 2000) (l : Fin 64) => x0 (ix2 n (⟨64 + l.val, by omega⟩ : Fin 256)) + x2 (ix2 (0 : Fin 1) l))
            (fun (n : Fin 2000) (l : Fin 64) => x0 (ix2 n (⟨192 + l.val, by omega⟩ : Fin 256)) + x4 (ix2 (0 : Fin 1) l))
            (fun (n : Fin 2000) (l : Fin 64) => x6 (ix2 n l)))
          (fun (l : Fin 64) (k : Fin 32) => x11 (ix2 l k)) (fun (k : Fin 32) => x12 (ix2 (0 : Fin 1) k)))
        (fun (k : Fin 32) (j : Fin 10) => x13 (ix2 k j)) (fun (j : Fin 10) => x14 (ix2 (0 : Fin 1) j)) p j := by
  unfold k3_pay1
  refine (dec_out_apply _ x14 p j).trans ?_
  rw [pay3_9_apply]
  unfold Cert.Spec.dense Cert.Spec.mm Cert.Spec.sample
  simp only [pay3_4_apply, pay3_6_apply]

/-! ## The decoded results as functions of the arrays -/

/-- A decoded result as one function of the head table, two bias rows, the noise table and the decoder's weights and
    biases: at (n, j), the shared specification's two dense tanh layers of the sample, whose mean at (n, l) is the head
    table's (n, cmu l) entry plus the first bias row's l-th entry and whose log-variance is the (n, clv l) entry plus
    the second bias row's. -/
def dec3 (cmu clv : Fin 64 → Fin 256) (hw : S100000x256.Idx → EReal) (bmu blv : S1x64.Idx → EReal) (eps : S100000x64.Idx → EReal)
    (W1 : S64x32.Idx → EReal) (b1 : S1x32.Idx → EReal) (W2 : S32x10.Idx → EReal) (b2 : S1x10.Idx → EReal) : S100000x10.Idx → EReal :=
  fun i => Cert.Spec.dense (Cert.Spec.dense (Cert.Spec.sample half3
        (fun (n : Fin 100000) (l : Fin 64) => hw (ix2 n (cmu l)) + bmu (ix2 (0 : Fin 1) l))
        (fun (n : Fin 100000) (l : Fin 64) => hw (ix2 n (clv l)) + blv (ix2 (0 : Fin 1) l))
        (fun (n : Fin 100000) (l : Fin 64) => eps (ix2 n l)))
      (fun (l : Fin 64) (k : Fin 32) => W1 (ix2 l k)) (fun (k : Fin 32) => b1 (ix2 (0 : Fin 1) k)))
    (fun (k : Fin 32) (j : Fin 10) => W2 (ix2 k j)) (fun (j : Fin 10) => b2 (ix2 (0 : Fin 1) j))
    (⟨(i 0).val, idx2_lt0 i⟩ : Fin 100000) (⟨(i 1).val, idx2_lt1 i⟩ : Fin 10)

theorem dec3_apply (cmu clv : Fin 64 → Fin 256) (hw : S100000x256.Idx → EReal) (bmu blv : S1x64.Idx → EReal) (eps : S100000x64.Idx → EReal)
    (W1 : S64x32.Idx → EReal) (b1 : S1x32.Idx → EReal) (W2 : S32x10.Idx → EReal) (b2 : S1x10.Idx → EReal) (n : Fin 100000) (j : Fin 10) :
    dec3 cmu clv hw bmu blv eps W1 b1 W2 b2 (ix2 n j)
      = Cert.Spec.dense (Cert.Spec.dense (Cert.Spec.sample half3
            (fun (n : Fin 100000) (l : Fin 64) => hw (ix2 n (cmu l)) + bmu (ix2 (0 : Fin 1) l))
            (fun (n : Fin 100000) (l : Fin 64) => hw (ix2 n (clv l)) + blv (ix2 (0 : Fin 1) l))
            (fun (n : Fin 100000) (l : Fin 64) => eps (ix2 n l)))
          (fun (l : Fin 64) (k : Fin 32) => W1 (ix2 l k)) (fun (k : Fin 32) => b1 (ix2 (0 : Fin 1) k)))
        (fun (k : Fin 32) (j : Fin 10) => W2 (ix2 k j)) (fun (j : Fin 10) => b2 (ix2 (0 : Fin 1) j)) n j := rfl

/-- A row of the decoder's result depends only on the same row of the mean, log-variance and noise tables: two
    decoders over tables of different heights agree at rows whose entries agree, the weights and biases agreeing. -/
theorem dec_row_congr {N N' : Nat} (h : EReal) (mu lv eps : Fin N → Fin 64 → EReal) (mu' lv' eps' : Fin N' → Fin 64 → EReal)
    (W1 W1' : Fin 64 → Fin 32 → EReal) (b1 b1' : Fin 32 → EReal) (W2 W2' : Fin 32 → Fin 10 → EReal) (b2 b2' : Fin 10 → EReal)
    (n : Fin N) (n' : Fin N') (j : Fin 10)
    (hmu : ∀ l, mu n l = mu' n' l) (hlv : ∀ l, lv n l = lv' n' l) (heps : ∀ l, eps n l = eps' n' l)
    (hW1 : ∀ l k, W1 l k = W1' l k) (hb1 : ∀ k, b1 k = b1' k) (hW2 : ∀ k j, W2 k j = W2' k j) (hb2 : ∀ j, b2 j = b2' j) :
    Cert.Spec.dense (Cert.Spec.dense (Cert.Spec.sample h mu lv eps) W1 b1) W2 b2 n j
      = Cert.Spec.dense (Cert.Spec.dense (Cert.Spec.sample h mu' lv' eps') W1' b1') W2' b2' n' j := by
  unfold Cert.Spec.dense Cert.Spec.mm Cert.Spec.sample
  simp only [hmu, hlv, heps, hW1, hb1, hW2, hb2]

/-- Where point `t`'s block entry (p, q) of a [2000, 10] result sits, as a pair of plain coordinates. -/
theorem row_lt3 (t : Fin cfg3.N) (p : Fin 2000) : 2000 * t.val + p.val < 100000 := by
  have hN : cfg3.N = 50 := N_3
  have := t.isLt; omega

/-- Point `t` writes back block `t` of the first decoded result. -/
theorem flushed3_19_eq (c : Dev nD) (t : Fin cfg3.N) :
    (dat3 V c).flushed 19 t = ((cfg3.win 19).blk t).view.read (Elt Ideal) (dec3 (fun l => (⟨l.val, by omega⟩ : Fin 256)) (fun l => (⟨128 + l.val, by omega⟩ : Fin 256)) (V c main_v62) (V c main_v63) (V c main_v65) (V c main_arg2) (V c main_arg14) (V c main_v67) (V c main_arg16) (V c main_v68)) := by
  show (cfg3.win 19).cut (grid3.coords t) ((dat3 V c).after 19 t) = _
  rw [after3_19]
  unfold out3_19
  rw [View.canon_unit_zero zero_off3]
  simp only [View.ld_unit_zero (S := S2000x256) zero_off3, View.ld_unit_zero (S := S1x64) zero_off3, View.ld_unit_zero (S := S2000x64) zero_off3, View.ld_unit_zero (S := S64x32) zero_off3, View.ld_unit_zero (S := S1x32) zero_off3, View.ld_unit_zero (S := S32x10) zero_off3, View.ld_unit_zero (S := S1x10) zero_off3]
  funext y
  obtain ⟨p, q, rfl⟩ : ∃ (p : Fin 2000) (q : Fin 10), y = ix2 p q := ⟨y 0, y 1, eq_ix2 y⟩
  have hemb : ((cfg3.win 19).blk t).view.emb (ix2 p q) = ix2 (⟨2000 * t.val + p.val, row_lt3 t p⟩ : Fin 100000) q :=
    idx2_ext _ _ (emb3_19_row t p q) (emb3_19_col t p q)
  show k3_pay8 (k3_pay7 (iblk3 V c 0 t) (iblk3 V c 1 t) (iblk3 V c 3 t) (iblk3 V c 5 t)) (iblk3 V c 7 t) (iblk3 V c 8 t) (iblk3 V c 9 t) (iblk3 V c 10 t) (ix2 p q) = (dec3 (fun l => (⟨l.val, by omega⟩ : Fin 256)) (fun l => (⟨128 + l.val, by omega⟩ : Fin 256)) (V c main_v62) (V c main_v63) (V c main_v65) (V c main_arg2) (V c main_arg14) (V c main_v67) (V c main_arg16) (V c main_v68)) (((cfg3.win 19).blk t).view.emb (ix2 p q))
  rw [hemb, dec3_apply]
  refine (pay3_19_apply (iblk3 V c 0 t) (iblk3 V c 1 t) (iblk3 V c 3 t) (iblk3 V c 5 t) (iblk3 V c 7 t) (iblk3 V c 8 t) (iblk3 V c 9 t) (iblk3 V c 10 t) p q).trans ?_
  refine dec_row_congr half3 _ _ _ _ _ _ _ _ _ _ _ _ _ _ p (⟨2000 * t.val + p.val, row_lt3 t p⟩ : Fin 100000) q
    (fun l => ?_) (fun l => ?_) (fun l => ?_) (fun l k => ?_) (fun k => ?_) (fun k j => ?_) (fun j => ?_)
  · exact congrArg₂ (fun (a b : EReal) => a + b)
      (iblk3_0_apply V c t (ix2 p (⟨l.val, by omega⟩ : Fin 256)) (ix2 (⟨2000 * t.val + p.val, row_lt3 t p⟩ : Fin 100000) (⟨l.val, by omega⟩ : Fin 256)) rfl rfl)
      (iblk3_1_apply V c t (ix2 (0 : Fin 1) l))
  · exact congrArg₂ (fun (a b : EReal) => a + b)
      (iblk3_0_apply V c t (ix2 p (⟨128 + l.val, by omega⟩ : Fin 256)) (ix2 (⟨2000 * t.val + p.val, row_lt3 t p⟩ : Fin 100000) (⟨128 + l.val, by omega⟩ : Fin 256)) rfl rfl)
      (iblk3_3_apply V c t (ix2 (0 : Fin 1) l))
  · exact iblk3_5_apply V c t (ix2 p l) (ix2 (⟨2000 * t.val + p.val, row_lt3 t p⟩ : Fin 100000) l) rfl rfl
  · exact iblk3_7_apply V c t (ix2 l k)
  · exact iblk3_8_apply V c t (ix2 (0 : Fin 1) k)
  · exact iblk3_9_apply V c t (ix2 k j)
  · exact iblk3_10_apply V c t (ix2 (0 : Fin 1) j)

/-- The first decoded result after the last point. -/
theorem arr3_19_eq (c : Dev nD) : (dat3 V c).arrAt 19 cfg3.N = dec3 (fun l => (⟨l.val, by omega⟩ : Fin 256)) (fun l => (⟨128 + l.val, by omega⟩ : Fin 256)) (V c main_v62) (V c main_v63) (V c main_v65) (V c main_arg2) (V c main_arg14) (V c main_v67) (V c main_arg16) (V c main_v68) :=
  (dat3 V c).arrAt_eq_of_cover 19 (dec3 (fun l => (⟨l.val, by omega⟩ : Fin 256)) (fun l => (⟨128 + l.val, by omega⟩ : Fin 256)) (V c main_v62) (V c main_v63) (V c main_v65) (V c main_arg2) (V c main_arg14) (V c main_v67) (V c main_arg16) (V c main_v68)) (fun t _ => flushed3_19_eq V c t) (covered3_19)

/-- Point `t` writes back block `t` of the second decoded result. -/
theorem flushed3_20_eq (c : Dev nD) (t : Fin cfg3.N) :
    (dat3 V c).flushed 20 t = ((cfg3.win 20).blk t).view.read (Elt Ideal) (dec3 (fun l => (⟨64 + l.val, by omega⟩ : Fin 256)) (fun l => (⟨192 + l.val, by omega⟩ : Fin 256)) (V c main_v62) (V c main_v64) (V c main_v66) (V c main_arg3) (V c main_arg18) (V c main_v69) (V c main_arg20) (V c main_v70)) := by
  show (cfg3.win 20).cut (grid3.coords t) ((dat3 V c).after 20 t) = _
  rw [after3_20]
  unfold out3_20
  rw [View.canon_unit_zero zero_off3]
  simp only [View.ld_unit_zero (S := S2000x256) zero_off3, View.ld_unit_zero (S := S1x64) zero_off3, View.ld_unit_zero (S := S2000x64) zero_off3, View.ld_unit_zero (S := S64x32) zero_off3, View.ld_unit_zero (S := S1x32) zero_off3, View.ld_unit_zero (S := S32x10) zero_off3, View.ld_unit_zero (S := S1x10) zero_off3]
  funext y
  obtain ⟨p, q, rfl⟩ : ∃ (p : Fin 2000) (q : Fin 10), y = ix2 p q := ⟨y 0, y 1, eq_ix2 y⟩
  have hemb : ((cfg3.win 20).blk t).view.emb (ix2 p q) = ix2 (⟨2000 * t.val + p.val, row_lt3 t p⟩ : Fin 100000) q :=
    idx2_ext _ _ (emb3_20_row t p q) (emb3_20_col t p q)
  show k3_pay1 (k3_pay9 (k3_pay4 (iblk3 V c 0 t) (iblk3 V c 2 t)) (k3_pay6 (iblk3 V c 0 t) (iblk3 V c 4 t)) (iblk3 V c 6 t) (iblk3 V c 11 t) (iblk3 V c 12 t) (iblk3 V c 13 t)) (iblk3 V c 14 t) (ix2 p q) = (dec3 (fun l => (⟨64 + l.val, by omega⟩ : Fin 256)) (fun l => (⟨192 + l.val, by omega⟩ : Fin 256)) (V c main_v62) (V c main_v64) (V c main_v66) (V c main_arg3) (V c main_arg18) (V c main_v69) (V c main_arg20) (V c main_v70)) (((cfg3.win 20).blk t).view.emb (ix2 p q))
  rw [hemb, dec3_apply]
  refine (pay3_20_apply (iblk3 V c 0 t) (iblk3 V c 2 t) (iblk3 V c 4 t) (iblk3 V c 6 t) (iblk3 V c 11 t) (iblk3 V c 12 t) (iblk3 V c 13 t) (iblk3 V c 14 t) p q).trans ?_
  refine dec_row_congr half3 _ _ _ _ _ _ _ _ _ _ _ _ _ _ p (⟨2000 * t.val + p.val, row_lt3 t p⟩ : Fin 100000) q
    (fun l => ?_) (fun l => ?_) (fun l => ?_) (fun l k => ?_) (fun k => ?_) (fun k j => ?_) (fun j => ?_)
  · exact congrArg₂ (fun (a b : EReal) => a + b)
      (iblk3_0_apply V c t (ix2 p (⟨64 + l.val, by omega⟩ : Fin 256)) (ix2 (⟨2000 * t.val + p.val, row_lt3 t p⟩ : Fin 100000) (⟨64 + l.val, by omega⟩ : Fin 256)) rfl rfl)
      (iblk3_2_apply V c t (ix2 (0 : Fin 1) l))
  · exact congrArg₂ (fun (a b : EReal) => a + b)
      (iblk3_0_apply V c t (ix2 p (⟨192 + l.val, by omega⟩ : Fin 256)) (ix2 (⟨2000 * t.val + p.val, row_lt3 t p⟩ : Fin 100000) (⟨192 + l.val, by omega⟩ : Fin 256)) rfl rfl)
      (iblk3_4_apply V c t (ix2 (0 : Fin 1) l))
  · exact iblk3_6_apply V c t (ix2 p l) (ix2 (⟨2000 * t.val + p.val, row_lt3 t p⟩ : Fin 100000) l) rfl rfl
  · exact iblk3_11_apply V c t (ix2 l k)
  · exact iblk3_12_apply V c t (ix2 (0 : Fin 1) k)
  · exact iblk3_13_apply V c t (ix2 k j)
  · exact iblk3_14_apply V c t (ix2 (0 : Fin 1) j)

/-- The second decoded result after the last point. -/
theorem arr3_20_eq (c : Dev nD) : (dat3 V c).arrAt 20 cfg3.N = dec3 (fun l => (⟨64 + l.val, by omega⟩ : Fin 256)) (fun l => (⟨192 + l.val, by omega⟩ : Fin 256)) (V c main_v62) (V c main_v64) (V c main_v66) (V c main_arg3) (V c main_arg18) (V c main_v69) (V c main_arg20) (V c main_v70) :=
  (dat3 V c).arrAt_eq_of_cover 20 (dec3 (fun l => (⟨64 + l.val, by omega⟩ : Fin 256)) (fun l => (⟨192 + l.val, by omega⟩ : Fin 256)) (V c main_v62) (V c main_v64) (V c main_v66) (V c main_arg3) (V c main_arg18) (V c main_v69) (V c main_arg20) (V c main_v70)) (fun t _ => flushed3_20_eq V c t) (covered3_20)

/-- At entry (n, j): the shared specification's decoder of the first sample. -/
theorem final3_19 (c : Dev nD) (n : Fin 100000) (j : Fin 10) :
    let HW : S100000x256.Idx → EReal := V c main_v62
    let B1 : S1x64.Idx → EReal := V c main_v63
    let B3 : S1x64.Idx → EReal := V c main_v65
    let EPSc : S100000x64.Idx → EReal := V c main_arg2
    let Wd1c : S64x32.Idx → EReal := V c main_arg14
    let bd1c : S1x32.Idx → EReal := V c main_v67
    let Wd2c : S32x10.Idx → EReal := V c main_arg16
    let bd2c : S1x10.Idx → EReal := V c main_v68
    let r : S100000x10.Idx → EReal := (dat3 V c).arrAt 19 cfg3.N
    r (ix2 n j) = Cert.Spec.dense (Cert.Spec.dense (Cert.Spec.sample half3
          (fun (n : Fin 100000) (l : Fin 64) => HW (ix2 n (⟨l.val, by omega⟩ : Fin 256)) + B1 (ix2 (0 : Fin 1) l))
          (fun (n : Fin 100000) (l : Fin 64) => HW (ix2 n (⟨128 + l.val, by omega⟩ : Fin 256)) + B3 (ix2 (0 : Fin 1) l))
          (fun (n : Fin 100000) (l : Fin 64) => EPSc (ix2 n l)))
        (fun (l : Fin 64) (k : Fin 32) => Wd1c (ix2 l k)) (fun (k : Fin 32) => bd1c (ix2 (0 : Fin 1) k)))
      (fun (k : Fin 32) (j : Fin 10) => Wd2c (ix2 k j)) (fun (j : Fin 10) => bd2c (ix2 (0 : Fin 1) j)) n j := by
  intro HW B1 B3 EPSc Wd1c bd1c Wd2c bd2c r
  show (dat3 V c).arrAt 19 cfg3.N (ix2 n j) = _
  rw [arr3_19_eq, dec3_apply]

/-- At entry (n, j): the shared specification's decoder of the second sample. -/
theorem final3_20 (c : Dev nD) (n : Fin 100000) (j : Fin 10) :
    let HW : S100000x256.Idx → EReal := V c main_v62
    let B2 : S1x64.Idx → EReal := V c main_v64
    let B4 : S1x64.Idx → EReal := V c main_v66
    let EPSn : S100000x64.Idx → EReal := V c main_arg3
    let Wd1n : S64x32.Idx → EReal := V c main_arg18
    let bd1n : S1x32.Idx → EReal := V c main_v69
    let Wd2n : S32x10.Idx → EReal := V c main_arg20
    let bd2n : S1x10.Idx → EReal := V c main_v70
    let r : S100000x10.Idx → EReal := (dat3 V c).arrAt 20 cfg3.N
    r (ix2 n j) = Cert.Spec.dense (Cert.Spec.dense (Cert.Spec.sample half3
          (fun (n : Fin 100000) (l : Fin 64) => HW (ix2 n (⟨64 + l.val, by omega⟩ : Fin 256)) + B2 (ix2 (0 : Fin 1) l))
          (fun (n : Fin 100000) (l : Fin 64) => HW (ix2 n (⟨192 + l.val, by omega⟩ : Fin 256)) + B4 (ix2 (0 : Fin 1) l))
          (fun (n : Fin 100000) (l : Fin 64) => EPSn (ix2 n l)))
        (fun (l : Fin 64) (k : Fin 32) => Wd1n (ix2 l k)) (fun (k : Fin 32) => bd1n (ix2 (0 : Fin 1) k)))
      (fun (k : Fin 32) (j : Fin 10) => Wd2n (ix2 k j)) (fun (j : Fin 10) => bd2n (ix2 (0 : Fin 1) j)) n j := by
  intro HW B2 B4 EPSn Wd1n bd1n Wd2n bd2n r
  show (dat3 V c).arrAt 20 cfg3.N (ix2 n j) = _
  rw [arr3_20_eq, dec3_apply]

end Cert.KernelIdeal.Hand
end
-- ==== Proof.KChain2Dec.lean ====
/-
  The kernel program's two decoded tables, in the common vocabulary.

  Region 3 of the program writes six tables.  Four are the heads of the network (two means, two log-variances); the
  other two are the decoded tables: for each of the two (mean, log-variance) pairs, the sample
  `z = mu + eps · exp (lv / 2)` drawn with a noise table `eps`, sent through two dense tanh layers.

  Region 3's value, read at an entry, already has the shape of the shared specification's decoder, but over the
  buffers as region 3 finds them: a table of 256 columns holding the four projected-and-aggregated heads side by side
  (without their biases), four bias rows, the two noise tables, and the decoders' weights and bias rows.  Here each of
  these is named by what it is in terms of the program's launch arguments:

    * a band of 64 columns of the wide table plus its bias row is a head of the network (for real inputs);
    * the noise tables and weight matrices are launch arguments that no item of the program writes;
    * the decoders' bias rows are launch vectors recast as one-row matrices by the stretch before region 3.

  A row of the decoder's result depends only on the same row of its three tables, so it is enough to identify them
  entry by entry.
-/
import proofs.«157918_j42898133352759_2_alg».proof.Proof.Run
import proofs.«157918_j42898133352759_2_alg».proof.Proof.KChain2
import proofs.«157918_j42898133352759_2_alg».proof.Proof.Value3Dec
import proofs.«157918_j42898133352759_2_alg».proof.Proof.Algebra
import proofs.«157918_j42898133352759_2_alg».proof.Proof.Spec

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Algebra

variable (m : (ℓ : Loc nD τ sig) → Buf (Elt Ideal) ℓ) (ρ : Dev nD → PrngReg) (c : Dev nD)

/-! ## The two decoded tables -/

section Finite
variable (hnrm : ∀ e, IsReal (kNrm m ρ c e)) (h0 : ∀ i, IsReal (arg0 m c i)) (h4 : ∀ i, IsReal (arg4 m c i))
  (h5 : ∀ i, IsReal (arg5 m c i))
include hnrm h0 h4 h5

/-- THE FIRST DECODED TABLE.  Entry (n, j) of region 3's fifth output is the two-layer tanh decoder of the sample
    `mu + eps · exp (lv / 2)`, where `mu` and `lv` are the first and third heads of the network, `eps` the first noise
    table, and the decoder's weights and biases the launch arguments.  Region 3's value gives the decoder over the buffers
    as region 3 finds them; each of those is then identified: the two head-shaped tables entry by entry (this is where the
    inputs have to be real numbers), the noise table and the two weight matrices as launch arguments that no item writes,
    and the two bias rows as launch vectors recast as rows by the stretch before region 3. -/
theorem k_dec_c (h6 : ∀ i, IsReal (arg6 m c i)) (h10 : ∀ i, IsReal (arg10 m c i)) (n : Fin 100000) (j : Fin 10) :
    W10 m ρ c (Proc.devRef .tc main_v71_4) (ix2 n j)
      = Cert.Spec.dense (Cert.Spec.dense (Cert.Spec.sample (Ideal.ofBits .f32 0x3F000000#32)
            (headK m ρ c (arg6 m c) (arg7 m c)) (headK m ρ c (arg10 m c) (arg11 m c)) (tab2 (arg2 m c)))
          (tab2 (arg14 m c)) (vec1 (arg15 m c))) (tab2 (arg16 m c)) (vec1 (arg17 m c)) n j := by
  -- the table is region 3's output array 19, whose value is the decoder over the buffers as region 3 finds them
  have h1 : W10 m ρ c (Proc.devRef .tc main_v71_4) = (dat3 (V9 m ρ) c).arrAt 19 cfg3.N := W10_arr m ρ c 19
  rw [h1]
  refine (final3_19 (V9 m ρ) c n j).trans ?_
  -- row n of the decoder depends on row n of its three tables, and on the weights and biases: identify each
  refine dec_row_congr _ _ _ _ _ _ _ _ _ _ _ _ _ _ _ n n j
    (fun l => k_pre_mu_c m ρ c hnrm h0 h4 h5 h6 n l) (fun l => k_pre_lv_c m ρ c hnrm h0 h4 h5 h10 n l) ?_ ?_ ?_ ?_ ?_
  · intro l; exact congrFun (k_arg9 m ρ c main_arg2 (by decide)) _
  · intro l k; exact congrFun (k_arg9 m ρ c main_arg14 (by decide)) _
  · intro k; exact k_b67 m ρ c k
  · intro k j'; exact congrFun (k_arg9 m ρ c main_arg16 (by decide)) _
  · intro j'; exact k_b68 m ρ c j'

/-- THE SECOND DECODED TABLE: region 3's sixth output, from the second and fourth heads, the second noise table and the
    second decoder's weights and biases. -/
theorem k_dec_n (h8 : ∀ i, IsReal (arg8 m c i)) (h12 : ∀ i, IsReal (arg12 m c i)) (n : Fin 100000) (j : Fin 10) :
    W10 m ρ c (Proc.devRef .tc main_v71_5) (ix2 n j)
      = Cert.Spec.dense (Cert.Spec.dense (Cert.Spec.sample (Ideal.ofBits .f32 0x3F000000#32)
            (headK m ρ c (arg8 m c) (arg9 m c)) (headK m ρ c (arg12 m c) (arg13 m c)) (tab2 (arg3 m c)))
          (tab2 (arg18 m c)) (vec1 (arg19 m c))) (tab2 (arg20 m c)) (vec1 (arg21 m c)) n j := by
  -- the table is region 3's output array 20, whose value is the decoder over the buffers as region 3 finds them
  have h1 : W10 m ρ c (Proc.devRef .tc main_v71_5) = (dat3 (V9 m ρ) c).arrAt 20 cfg3.N := W10_arr m ρ c 20
  rw [h1]
  refine (final3_20 (V9 m ρ) c n j).trans ?_
  -- row n of the decoder depends on row n of its three tables, and on the weights and biases: identify each
  refine dec_row_congr _ _ _ _ _ _ _ _ _ _ _ _ _ _ _ n n j
    (fun l => k_pre_mu_n m ρ c hnrm h0 h4 h5 h8 n l) (fun l => k_pre_lv_n m ρ c hnrm h0 h4 h5 h12 n l) ?_ ?_ ?_ ?_ ?_
  · intro l; exact congrFun (k_arg9 m ρ c main_arg3 (by decide)) _
  · intro l k; exact congrFun (k_arg9 m ρ c main_arg18 (by decide)) _
  · intro k; exact k_b69 m ρ c k
  · intro k j'; exact congrFun (k_arg9 m ρ c main_arg20 (by decide)) _
  · intro j'; exact k_b70 m ρ c j'

end Finite

end Cert.KernelIdeal.Hand

end
-- ==== Proof.Value4.lean ====
/- The value of region 4's two output arrays at an index, at the ideal (extended-real) float instance. The region's
   body takes, per grid point, a block of 3200 rows of each of two arrays of 20 columns, and writes two columns of
   3200 entries: in row `p`, the logistic function of the inner product of the two blocks' rows `p` over the first
   ten columns (first output) and over the last ten columns (second output). The grid's 1000 points take consecutive
   blocks of rows, so over the whole arrays: entry `e` of each output is the logistic function of the inner product
   of rows `e` of the two inputs over those ten columns. First the body's arithmetic at an index of a block, over
   plain variables; then the blocks placed in the arrays; then the arrays after the region. -/
import proofs.«157918_j42898133352759_2_alg».proof.Proof.Region4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic at an index -/

/-- Column `k` of the first ten, and of the last ten, of the twenty columns. -/
abbrev lowCol (k : Fin 10) : Fin 20 := ⟨k.val, by omega⟩
abbrev highCol (k : Fin 10) : Fin 20 := ⟨10 + k.val, by omega⟩

/-- The sum along a row of a block of 3200 rows by 10 columns, at row `p`: the ten entries of the row added. -/
theorem rowSum10_apply (x : FVec Ideal S3200x10 .f32) (h : S3200x10.Reduces [1] S3200) (hφ : FKind.Formats .f32)
    (hacc : (0x00000000#32 : BitVec 32) = 0x00000000#32) (p : Fin 3200) :
    multiReduction (F := Ideal) .add [1] S3200 x 0x00000000#32 h hφ hacc (ix1 p) = ∑ k : Fin 10, x (ix2 p k) := by
  refine (Ideal.multiReduction_add_single x 0x00000000#32 h hφ hacc (ix1 p)).trans ?_
  refine Finset.sum_congr rfl fun k _ => congrArg x (funext fun a => Fin.ext ?_)
  match a with
  | ⟨0, _⟩ => rfl
  | ⟨1, _⟩ => rfl

/-- A vector of 3200 entries recast as a column reads, in row `p`, entry `p`. -/
theorem column3200_apply (x : S3200.Idx → EReal) (h : S3200.ShapeCasts S3200x1) (p : Fin 3200) (u : Fin 1) :
    shapeCast S3200x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Ten consecutive columns from column `o` of a block of 20 columns, at `(p, k)`: the block at `(p, q)` for
    the column `q = o + k`. -/
theorem cols10_apply (o : ℕ) (x : S3200x20.Idx → EReal) (h : S3200x20.Slices ![0, o] S3200x10) (p : Fin 3200) (k : Fin 10)
    (q : Fin 20) (hq : q.val = o + k.val) :
    extractStridedSlice S3200x10 ![0, o] x h (ix2 p k) = x (ix2 p q) :=
  extractStridedSlice_apply _ x h _ _ fun a => by
    match a with
    | ⟨0, _⟩ => show p.val = 0 + p.val; omega
    | ⟨1, _⟩ => exact hq

/-- The first payload at row `p`: the logistic function of the inner product of the first ten columns of the two
    blocks' rows `p`. -/
theorem pay3_apply (x0 x1 : Vec Ideal S3200x20 .f32) (p : Fin 3200) (u : Fin 1) :
    k4_pay3 x0 x1 (ix2 p u) = Ideal.logistic (∑ k : Fin 10, x0 (ix2 p (lowCol k)) * x1 (ix2 p (lowCol k))) := by
  unfold k4_pay3 k4_pay1 k4_pay2
  simp only [shapeCast_self]
  show Ideal.logistic (shapeCast S3200x1 _ _ (ix2 p u)) = _
  rw [column3200_apply]
  congr 1
  refine (rowSum10_apply _ _ _ _ p).trans ?_
  refine Finset.sum_congr rfl fun k _ => ?_
  rw [mulf_apply, cols10_apply 0 _ _ p k (lowCol k) (Nat.zero_add _).symm, cols10_apply 0 _ _ p k (lowCol k) (Nat.zero_add _).symm]

/-- The second payload at row `p`: the same over the last ten columns. -/
theorem pay4_apply (x0 x1 : Vec Ideal S3200x20 .f32) (p : Fin 3200) (u : Fin 1) :
    k4_pay4 x0 x1 (ix2 p u) = Ideal.logistic (∑ k : Fin 10, x0 (ix2 p (highCol k)) * x1 (ix2 p (highCol k))) := by
  unfold k4_pay4 k4_pay1 k4_pay2
  simp only [shapeCast_self]
  show Ideal.logistic (shapeCast S3200x1 _ _ (ix2 p u)) = _
  rw [column3200_apply]
  congr 1
  refine (rowSum10_apply _ _ _ _ p).trans ?_
  refine Finset.sum_congr rfl fun k _ => ?_
  rw [mulf_apply, cols10_apply 10 _ _ p k (highCol k) rfl, cols10_apply 10 _ _ p k (highCol k) rfl]

/-! ## The blocks in the arrays -/

variable (V : (c : Dev nD) → (b : Ref sig .tc) → Buf (Elt Ideal) ((c : Thread nD τ).loc b))

theorem zeroOffsets4 : (![0, 0] : Fin 2 → Nat) = fun _ => 0 := funext fun a => by fin_cases a <;> rfl

/-- What an output array of the region ends holding, as one function of the two input arrays: at row `e`, the
    logistic function of the inner product of the inputs' rows `e` over the ten columns `col` names. -/
def edgeScore (col : Fin 10 → Fin 20) (A0 A1 : S3200000x20.Idx → EReal) : S3200000x1.Idx → EReal := fun i =>
  Ideal.logistic (∑ k : Fin 10, A0 (ix2 ⟨(i 0).val, idx2_lt0 i⟩ (col k)) * A1 (ix2 ⟨(i 0).val, idx2_lt0 i⟩ (col k)))

/-- The four windows' index maps, decided over the grid: at point `t` every window is on block `t` of the rows
    and block 0 of the columns. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Input window 0's block at point `t` is rows `3200 t … 3200 t + 3199` of the first input array. -/
theorem iblk4_0_apply (c : Dev nD) (t : Fin cfg4.N) (p : Fin 3200) (q : Fin 20) (r : Fin 3200000) (hr : r.val = t.val * 3200 + p.val) :
    (iblk4 V c 0 t : Vec Ideal S3200x20 .f32) (ix2 p q) = (V c main_v83 : S3200000x20.Idx → EReal) (ix2 r q) := by
  obtain ⟨e0, e1, -⟩ := blockIndex4 t
  unfold iblk4
  rw [View.read_apply]
  show V c main_v83 _ = V c main_v83 _
  congr 1
  funext a
  apply Fin.ext
  match a with
  | ⟨0, _⟩ => show win4_0.index t (0 : Fin 2) * 3200 + 1 * p.val = r.val; omega
  | ⟨1, _⟩ => show win4_0.index t (1 : Fin 2) * 20 + 1 * q.val = q.val; omega

/-- Input window 1's block at point `t` is the same rows of the second input array. -/
theorem iblk4_1_apply (c : Dev nD) (t : Fin cfg4.N) (p : Fin 3200) (q : Fin 20) (r : Fin 3200000) (hr : r.val = t.val * 3200 + p.val) :
    (iblk4 V c 1 t : Vec Ideal S3200x20 .f32) (ix2 p q) = (V c main_v90 : S3200000x20.Idx → EReal) (ix2 r q) := by
  obtain ⟨-, -, e0, e1, -⟩ := blockIndex4 t
  unfold iblk4
  rw [View.read_apply]
  show V c main_v90 _ = V c main_v90 _
  congr 1
  funext a
  apply Fin.ext
  match a with
  | ⟨0, _⟩ => show win4_1.index t (0 : Fin 2) * 3200 + 1 * p.val = r.val; omega
  | ⟨1, _⟩ => show win4_1.index t (1 : Fin 2) * 20 + 1 * q.val = q.val; omega

/-- What point `t` writes back to the first output array is block `t` of `edgeScore` over the first ten columns. -/
theorem flushed4_2_eq (c : Dev nD) (t : Fin cfg4.N) :
    (dat4 V c).flushed 2 t = ((cfg4.win 2).blk t).view.read (Elt Ideal) (edgeScore lowCol (V c main_v83) (V c main_v90)) := by
  show (cfg4.win 2).cut (grid4.coords t) ((dat4 V c).after 2 t) = _
  rw [after4_2]
  unfold out4_2
  rw [View.canon_unit_zero zeroOffsets4]
  simp only [View.ld_unit_zero (S := S3200x20) zeroOffsets4]
  obtain ⟨-, -, -, -, e4, e5, -⟩ := blockIndex4 t
  refine funext fun (j : S3200x1.Idx) => ?_
  obtain ⟨p, u, rfl⟩ : ∃ (p : Fin 3200) (u : Fin 1), j = ix2 p u := ⟨j 0, j 1, eq_ix2 j⟩
  show k4_pay3 (iblk4 V c 0 t) (iblk4 V c 1 t) (ix2 p u) = edgeScore lowCol (V c main_v83) (V c main_v90) (((cfg4.win 2).blk t).view.emb (ix2 p u))
  refine (pay3_apply _ _ p u).trans ?_
  unfold edgeScore
  congr 1
  refine Finset.sum_congr rfl fun k _ => ?_
  have hr : (((cfg4.win 2).blk t).view.emb (ix2 p u) 0).val = t.val * 3200 + p.val := by
    show win4_2.index t (0 : Fin 2) * 3200 + 1 * p.val = t.val * 3200 + p.val
    omega
  congr 1
  · exact iblk4_0_apply V c t p _ _ hr
  · exact iblk4_1_apply V c t p _ _ hr

/-- What point `t` writes back to the second output array is block `t` of `edgeScore` over the last ten columns. -/
theorem flushed4_3_eq (c : Dev nD) (t : Fin cfg4.N) :
    (dat4 V c).flushed 3 t = ((cfg4.win 3).blk t).view.read (Elt Ideal) (edgeScore highCol (V c main_v83) (V c main_v90)) := by
  show (cfg4.win 3).cut (grid4.coords t) ((dat4 V c).after 3 t) = _
  rw [after4_3]
  unfold out4_3
  rw [View.canon_unit_zero zeroOffsets4]
  simp only [View.ld_unit_zero (S := S3200x20) zeroOffsets4]
  obtain ⟨-, -, -, -, -, -, e6, e7⟩ := blockIndex4 t
  refine funext fun (j : S3200x1.Idx) => ?_
  obtain ⟨p, u, rfl⟩ : ∃ (p : Fin 3200) (u : Fin 1), j = ix2 p u := ⟨j 0, j 1, eq_ix2 j⟩
  show k4_pay4 (iblk4 V c 0 t) (iblk4 V c 1 t) (ix2 p u) = edgeScore highCol (V c main_v83) (V c main_v90) (((cfg4.win 3).blk t).view.emb (ix2 p u))
  refine (pay4_apply _ _ p u).trans ?_
  unfold edgeScore
  congr 1
  refine Finset.sum_congr rfl fun k _ => ?_
  have hr : (((cfg4.win 3).blk t).view.emb (ix2 p u) 0).val = t.val * 3200 + p.val := by
    show win4_3.index t (0 : Fin 2) * 3200 + 1 * p.val = t.val * 3200 + p.val
    omega
  congr 1
  · exact iblk4_0_apply V c t p _ _ hr
  · exact iblk4_1_apply V c t p _ _ hr

/-! ## The blocks cover the arrays -/

/-- An index of the first output array is in point `t`'s block iff each coordinate is in the block's range. -/
theorem mem_blk4_2 (t : Fin cfg4.N) (i : S3200000x1.Idx) :
    i ∈ ((cfg4.win 2).blk t).view.set ↔ ∀ a : Fin 2, win4_2.index t a * S3200x1.size a ≤ (i a).val ∧ (i a).val < win4_2.index t a * S3200x1.size a + S3200x1.size a := by
  show i ∈ ((View.whole main_v91_0).slice (win4_2.rect t)).set ↔ _
  rw [View.set_slice_whole, Rect.mem_set_unit]
  exact Iff.rfl

theorem mem_blk4_3 (t : Fin cfg4.N) (i : S3200000x1.Idx) :
    i ∈ ((cfg4.win 3).blk t).view.set ↔ ∀ a : Fin 2, win4_3.index t a * S3200x1.size a ≤ (i a).val ∧ (i a).val < win4_3.index t a * S3200x1.size a + S3200x1.size a := by
  show i ∈ ((View.whole main_v91_1).slice (win4_3.rect t)).set ↔ _
  rw [View.set_slice_whole, Rect.mem_set_unit]
  exact Iff.rfl

/-- The point whose block holds row `r`: `r / 3200`. -/
def pointOfRow (r : ℕ) (hr : r < 3200000) : Fin cfg4.N := ⟨r / 3200, by rw [show cfg4.N = 1000 from N_4]; omega⟩

/-- Every index of the first output array is in the block of the point its row names. -/
theorem cover4_2 (i : S3200000x1.Idx) : ∃ t : Fin cfg4.N, (cfg4.win 2).flush t = true ∧ i ∈ ((cfg4.win 2).blk t).view.set := by
  have hi0 : (i 0).val < 3200000 := idx2_lt0 i
  have hi1 : (i 1).val < 1 := idx2_lt1 i
  obtain ⟨-, -, -, -, e4, e5, -⟩ := blockIndex4 (pointOfRow (i 0).val hi0)
  have ht : (pointOfRow (i 0).val hi0).val = (i 0).val / 3200 := rfl
  refine ⟨pointOfRow (i 0).val hi0, flush4_2 _, ?_⟩
  rw [mem_blk4_2]
  intro a
  match a with
  | ⟨0, _⟩ => show win4_2.index (pointOfRow (i 0).val hi0) (0 : Fin 2) * 3200 ≤ (i 0).val ∧ (i 0).val < win4_2.index (pointOfRow (i 0).val hi0) (0 : Fin 2) * 3200 + 3200; omega
  | ⟨1, _⟩ => show win4_2.index (pointOfRow (i 0).val hi0) (1 : Fin 2) * 1 ≤ (i 1).val ∧ (i 1).val < win4_2.index (pointOfRow (i 0).val hi0) (1 : Fin 2) * 1 + 1; omega

/-- The same for the second output array. -/
theorem cover4_3 (i : S3200000x1.Idx) : ∃ t : Fin cfg4.N, (cfg4.win 3).flush t = true ∧ i ∈ ((cfg4.win 3).blk t).view.set := by
  have hi0 : (i 0).val < 3200000 := idx2_lt0 i
  have hi1 : (i 1).val < 1 := idx2_lt1 i
  obtain ⟨-, -, -, -, -, -, e6, e7⟩ := blockIndex4 (pointOfRow (i 0).val hi0)
  have ht : (pointOfRow (i 0).val hi0).val = (i 0).val / 3200 := rfl
  refine ⟨pointOfRow (i 0).val hi0, flush4_3 _, ?_⟩
  rw [mem_blk4_3]
  intro a
  match a with
  | ⟨0, _⟩ => show win4_3.index (pointOfRow (i 0).val hi0) (0 : Fin 2) * 3200 ≤ (i 0).val ∧ (i 0).val < win4_3.index (pointOfRow (i 0).val hi0) (0 : Fin 2) * 3200 + 3200; omega
  | ⟨1, _⟩ => show win4_3.index (pointOfRow (i 0).val hi0) (1 : Fin 2) * 1 ≤ (i 1).val ∧ (i 1).val < win4_3.index (pointOfRow (i 0).val hi0) (1 : Fin 2) * 1 + 1; omega

/-! ## The output arrays after the region -/

/-- A buffer's contents named as a function on the indices of an array of 3200000 rows by 20 columns with
    extended-real entries (the identity: it only fixes the type the entries are read at). -/
abbrev rowsOf (X : S3200000x20.Idx → EReal) : S3200000x20.Idx → EReal := X

/-- The first output array after the region is `edgeScore` of the two input arrays over the first ten columns. -/
theorem final4_2_fun (c : Dev nD) : (dat4 V c).arrAt 2 cfg4.N = edgeScore lowCol (V c main_v83) (V c main_v90) :=
  (dat4 V c).arrAt_eq_of_cover 2 (edgeScore lowCol (V c main_v83) (V c main_v90)) (fun t _ => flushed4_2_eq V c t) cover4_2

/-- The second output array after the region is `edgeScore` over the last ten columns. -/
theorem final4_3_fun (c : Dev nD) : (dat4 V c).arrAt 3 cfg4.N = edgeScore highCol (V c main_v83) (V c main_v90) :=
  (dat4 V c).arrAt_eq_of_cover 3 (edgeScore highCol (V c main_v83) (V c main_v90)) (fun t _ => flushed4_3_eq V c t) cover4_3

/-- The first output array after the region, at row `e`: the logistic function of the inner product of rows `e`
    of the two input arrays over their first ten columns. -/
theorem final4_2 (c : Dev nD) (e : Fin 3200000) :
    (dat4 V c).arrAt 2 cfg4.N (ix2 e (0 : Fin 1)) = Ideal.logistic (∑ j : Fin 10, rowsOf (V c main_v83) (ix2 e ⟨j.val, by omega⟩) * rowsOf (V c main_v90) (ix2 e ⟨j.val, by omega⟩)) := by
  rw [final4_2_fun]
  rfl

/-- The second output array after the region, at row `e`: the same over the last ten columns. -/
theorem final4_3 (c : Dev nD) (e : Fin 3200000) :
    (dat4 V c).arrAt 3 cfg4.N (ix2 e (0 : Fin 1)) = Ideal.logistic (∑ j : Fin 10, rowsOf (V c main_v83) (ix2 e ⟨10 + j.val, by omega⟩) * rowsOf (V c main_v90) (ix2 e ⟨10 + j.val, by omega⟩)) := by
  rw [final4_3_fun]
  rfl

end Cert.KernelIdeal.Hand

end
-- ==== Proof.KHost2.lean ====
/- The kernel program's last two stretches of host operations, read at an index, at the ideal float instance.
   The stretch before the last region prepares that region's two input arrays: it takes the two rows of the edge
   list, turns each into a column of row indices (a negative index counted from the end of the table), glues the two
   decoded half-tables side by side into one table of 20 columns, and gathers that table's rows at each column of
   indices. The stretch after the region recasts the region's two output columns as vectors. Everything is stated for
   arbitrary buffer contents `V` when the stretch begins. -/
import proofs.«157918_j42898133352759_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«157918_j42898133352759_2_alg».proof.Proof.Spec
import proofs.«157918_j42898133352759_2_alg».proof.Proof.MessagePass

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! ## After the last region: the two output columns recast as vectors -/

/-- A column of 3200000 entries recast as a vector reads, at entry `e`, the column's row `e`. -/
theorem uncolumn_apply {α : Type} (x : S3200000x1.Idx → α) (h : S3200000x1.ShapeCasts S3200000) (e : Fin 3200000) :
    shapeCast S3200000 x h (ix1 e) = x (ix2 e (0 : Fin 1)) :=
  shapeCast_apply x h _ _ (by
    rw [Shape.rowMajor_val_two, Shape.rowMajor_val_one]
    show e.val * 1 + 0 = e.val
    omega)

/-- The first result vector after the last stretch, at entry `e`: row `e` of the region's first output column. -/
theorem stage_v92 (V : Valuation τ sig (Elt Ideal)) (e : Fin 3200000) :
    StableHlo.after hostOps5 V (Proc.devRef .tc main_v92) (ix1 e) = V (Proc.devRef .tc main_v91_0) (ix2 e (0 : Fin 1)) := by
  have h : StableHlo.after hostOps5 V (Proc.devRef .tc main_v92)
      = shapeCast S3200000 (V (Proc.devRef .tc main_v91_0)) shapeCasts_S3200000x1_S3200000 := by
    after_results
    rfl
  rw [h]
  exact uncolumn_apply _ _ e

/-- The second result vector, at entry `e`: row `e` of the region's second output column. -/
theorem stage_v93 (V : Valuation τ sig (Elt Ideal)) (e : Fin 3200000) :
    StableHlo.after hostOps5 V (Proc.devRef .tc main_v93) (ix1 e) = V (Proc.devRef .tc main_v91_1) (ix2 e (0 : Fin 1)) := by
  have h : StableHlo.after hostOps5 V (Proc.devRef .tc main_v93)
      = shapeCast S3200000 (V (Proc.devRef .tc main_v91_1)) shapeCasts_S3200000x1_S3200000 := by
    after_results
    rfl
  rw [h]
  exact uncolumn_apply _ _ e

/-! ## Before the last region: the two gathered tables -/

/-- The column of row indices made from row `r` of the edge list (`r` is 0 or 1, through the slice's offsets):
    the row cut out and recast as a vector; every entry below zero moved up by the table's 100000 rows; the vector
    set as a column. Spelt operation by operation as the program's host stretch computes it. -/
def e0ColOf (x1 : S2x3200000.Idx → BitVec 32) : Cert.Spec.IdxCol 3200000 :=
  broadcastInDim S3200000x1 ![0] bcast_S3200000_S3200000x1_0
    (select
      (cmpi CmpIPredicate.slt
        (fun i => shapeCast S3200000 (extractStridedSlice S1x3200000 ![0, 0] x1 slices_S2x3200000_S1x3200000_0_0) shapeCasts_S1x3200000_S3200000 i)
        (broadcastInDim S3200000 ![] bcast_S_S3200000 (constantI S_ 32 0#32)))
      (addi
        (fun i => shapeCast S3200000 (extractStridedSlice S1x3200000 ![0, 0] x1 slices_S2x3200000_S1x3200000_0_0) shapeCasts_S1x3200000_S3200000 i)
        (broadcastInDim S3200000 ![] bcast_S_S3200000 (constantI S_ 32 100000#32)))
      (fun i => shapeCast S3200000 (extractStridedSlice S1x3200000 ![0, 0] x1 slices_S2x3200000_S1x3200000_0_0) shapeCasts_S1x3200000_S3200000 i))

/-- The same from row 1 of the edge list. -/
def e1ColOf (x1 : S2x3200000.Idx → BitVec 32) : Cert.Spec.IdxCol 3200000 :=
  broadcastInDim S3200000x1 ![0] bcast_S3200000_S3200000x1_0
    (select
      (cmpi CmpIPredicate.slt
        (fun i => shapeCast S3200000 (extractStridedSlice S1x3200000 ![1, 0] x1 slices_S2x3200000_S1x3200000_1_0) shapeCasts_S1x3200000_S3200000 i)
        (broadcastInDim S3200000 ![] bcast_S_S3200000 (constantI S_ 32 0#32)))
      (addi
        (fun i => shapeCast S3200000 (extractStridedSlice S1x3200000 ![1, 0] x1 slices_S2x3200000_S1x3200000_1_0) shapeCasts_S1x3200000_S3200000 i)
        (broadcastInDim S3200000 ![] bcast_S_S3200000 (constantI S_ 32 100000#32)))
      (fun i => shapeCast S3200000 (extractStridedSlice S1x3200000 ![1, 0] x1 slices_S2x3200000_S1x3200000_1_0) shapeCasts_S1x3200000_S3200000 i))

/-- The two half-tables of 10 columns glued side by side, at a column of the left half: the left table there. -/
theorem glued_low_apply {α : Type} (a b : S100000x10.Idx → α) (h : Shape.Concatenates [S100000x10, S100000x10] S100000x20 1)
    (n : Fin 100000) (j : Fin 10) :
    concatenate S100000x20 1 [⟨S100000x10, a⟩, ⟨S100000x10, b⟩] h (ix2 n ⟨j.val, by omega⟩) = a (ix2 n j) :=
  concatenate_pair_apply_left 1 a b h _ rfl (ix2 n j) fun c => by
    match c with
    | ⟨0, _⟩ => rfl
    | ⟨1, _⟩ => rfl

/-- … and at a column of the right half: the right table at the column ten to the left. -/
theorem glued_high_apply {α : Type} (a b : S100000x10.Idx → α) (h : Shape.Concatenates [S100000x10, S100000x10] S100000x20 1)
    (n : Fin 100000) (j : Fin 10) :
    concatenate S100000x20 1 [⟨S100000x10, a⟩, ⟨S100000x10, b⟩] h (ix2 n ⟨10 + j.val, by omega⟩) = b (ix2 n j) :=
  concatenate_pair_apply_right 1 a b h _ rfl rfl (ix2 n j)
    (fun c hc => by
      match c with
      | ⟨0, _⟩ => rfl
      | ⟨1, _⟩ => exact absurd rfl hc)
    (by show j.val + 10 = 10 + j.val; omega)

/-- The gather the stretch uses takes whole rows of the glued table at a column of indices. -/
theorem rowGather4 : Cert.MessagePass.IsRowGather (N := 100000) (M := 3200000) (C := 20) gather_S100000x20_S3200000x1_S3200000x20_1_0_n_n_0_1_120 :=
  ⟨rfl, rfl, rfl, rfl, rfl, rfl, rfl⟩

set_option maxHeartbeats 2000000 in
/-- The region's first input array after the stretch, as a term: the glued table gathered at the first column of indices. -/
theorem v83_eq (V : Valuation τ sig (Elt Ideal)) :
    StableHlo.after hostOps4 V (Proc.devRef .tc main_v83)
      = Host.gather gather_S100000x20_S3200000x1_S3200000x20_1_0_n_n_0_1_120
          (concatenate S100000x20 1 [⟨S100000x10, V (Proc.devRef .tc main_v71_4)⟩, ⟨S100000x10, V (Proc.devRef .tc main_v71_5)⟩] concatenates_S100000x10_S100000x10_S100000x20_d1)
          (e0ColOf (V (Proc.devRef .tc main_arg1))) := by
  after_results_simp
  rfl

set_option maxHeartbeats 2000000 in
/-- The region's second input array after the stretch: the glued table gathered at the second column of indices. -/
theorem v90_eq (V : Valuation τ sig (Elt Ideal)) :
    StableHlo.after hostOps4 V (Proc.devRef .tc main_v90)
      = Host.gather gather_S100000x20_S3200000x1_S3200000x20_1_0_n_n_0_1_120
          (concatenate S100000x20 1 [⟨S100000x10, V (Proc.devRef .tc main_v71_4)⟩, ⟨S100000x10, V (Proc.devRef .tc main_v71_5)⟩] concatenates_S100000x10_S100000x10_S100000x20_d1)
          (e1ColOf (V (Proc.devRef .tc main_arg1))) := by
  after_results_simp
  rfl

/-- The first input array at row `e` and a column of the first ten: the left half-table at the row the first index
    column names for `e`. -/
theorem stage_v83 (V : Valuation τ sig (Elt Ideal)) (e : Fin 3200000) (j : Fin 10) :
    StableHlo.after hostOps4 V (Proc.devRef .tc main_v83) (ix2 e ⟨j.val, by omega⟩)
      = V (Proc.devRef .tc main_v71_4) (ix2 (Cert.Spec.rowOf 100000 (by decide) (e0ColOf (V (Proc.devRef .tc main_arg1))) e) j) := by
  rw [v83_eq]
  refine (Cert.MessagePass.gather_apply (N := 100000) (M := 3200000) (C := 20) (by decide) _ rowGather4 _ _ e ⟨j.val, by omega⟩).trans ?_
  exact glued_low_apply _ _ _ _ j

/-- … and a column of the last ten: the right half-table at that row. -/
theorem stage_v83_hi (V : Valuation τ sig (Elt Ideal)) (e : Fin 3200000) (j : Fin 10) :
    StableHlo.after hostOps4 V (Proc.devRef .tc main_v83) (ix2 e ⟨10 + j.val, by omega⟩)
      = V (Proc.devRef .tc main_v71_5) (ix2 (Cert.Spec.rowOf 100000 (by decide) (e0ColOf (V (Proc.devRef .tc main_arg1))) e) j) := by
  rw [v83_eq]
  refine (Cert.MessagePass.gather_apply (N := 100000) (M := 3200000) (C := 20) (by decide) _ rowGather4 _ _ e ⟨10 + j.val, by omega⟩).trans ?_
  exact glued_high_apply _ _ _ _ j

/-- The second input array likewise, at the rows the second index column names. -/
theorem stage_v90 (V : Valuation τ sig (Elt Ideal)) (e : Fin 3200000) (j : Fin 10) :
    StableHlo.after hostOps4 V (Proc.devRef .tc main_v90) (ix2 e ⟨j.val, by omega⟩)
      = V (Proc.devRef .tc main_v71_4) (ix2 (Cert.Spec.rowOf 100000 (by decide) (e1ColOf (V (Proc.devRef .tc main_arg1))) e) j) := by
  rw [v90_eq]
  refine (Cert.MessagePass.gather_apply (N := 100000) (M := 3200000) (C := 20) (by decide) _ rowGather4 _ _ e ⟨j.val, by omega⟩).trans ?_
  exact glued_low_apply _ _ _ _ j

theorem stage_v90_hi (V : Valuation τ sig (Elt Ideal)) (e : Fin 3200000) (j : Fin 10) :
    StableHlo.after hostOps4 V (Proc.devRef .tc main_v90) (ix2 e ⟨10 + j.val, by omega⟩)
      = V (Proc.devRef .tc main_v71_5) (ix2 (Cert.Spec.rowOf 100000 (by decide) (e1ColOf (V (Proc.devRef .tc main_arg1))) e) j) := by
  rw [v90_eq]
  refine (Cert.MessagePass.gather_apply (N := 100000) (M := 3200000) (C := 20) (by decide) _ rowGather4 _ _ e ⟨10 + j.val, by omega⟩).trans ?_
  exact glued_high_apply _ _ _ _ j

end Cert.KernelIdeal.Hand

end
-- ==== Proof.KChain3.lean ====
/-
  The kernel program's value chain, part 3: the edge scores.

  After region 3 the program runs a host stretch, region 4, and a closing host stretch.

    * The stretch after region 3 cuts the two rows out of the edge list, turns each into a column of row indices
      (an entry below zero is moved up by the number of nodes), glues region 3's two decoded half-tables of ten
      columns side by side, and gathers whole rows of the glued table at each of the two columns: two arrays with one
      row of twenty entries per edge.
    * Region 4 takes, per edge, the inner product of the two rows over the first ten columns, and over the last ten,
      and applies the logistic function: two columns with one entry per edge.
    * The closing stretch recasts each column as a vector: the program's two score vectors.

  Read backwards at an edge `e`, each score is the logistic function of the inner product of two rows of a table
  region 3 wrote, the rows named for `e` by the two index columns; that is `Cert.Spec.score`.  The edge list the
  index columns are made from is the launch one, since no item writes it; and the four other tables region 3 wrote
  are not touched by the three items after it.
-/
import proofs.«157918_j42898133352759_2_alg».proof.Proof.Run
import proofs.«157918_j42898133352759_2_alg».proof.Proof.Value4
import proofs.«157918_j42898133352759_2_alg».proof.Proof.KHost2
import proofs.«157918_j42898133352759_2_alg».proof.Proof.Spec

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ## What the last three items leave alone -/

/-- The four mean / log-variance tables that region 3 writes are not written again: the stretch after region 3,
    region 4 and the closing stretch each leave them as they are, so at the end of the program they hold what they
    held at region 3's exit. -/
theorem k_keep_mu0 : W13 m ρ c (Proc.devRef .tc main_v71_0) = W10 m ρ c (Proc.devRef .tc main_v71_0) :=
  ((W13_keep m ρ c main_v71_0 (by decide)).trans (W12_keep m ρ c main_v71_0 (by decide))).trans
    (W11_keep m ρ c main_v71_0 (by decide))
theorem k_keep_mu1 : W13 m ρ c (Proc.devRef .tc main_v71_1) = W10 m ρ c (Proc.devRef .tc main_v71_1) :=
  ((W13_keep m ρ c main_v71_1 (by decide)).trans (W12_keep m ρ c main_v71_1 (by decide))).trans
    (W11_keep m ρ c main_v71_1 (by decide))
theorem k_keep_mu2 : W13 m ρ c (Proc.devRef .tc main_v71_2) = W10 m ρ c (Proc.devRef .tc main_v71_2) :=
  ((W13_keep m ρ c main_v71_2 (by decide)).trans (W12_keep m ρ c main_v71_2 (by decide))).trans
    (W11_keep m ρ c main_v71_2 (by decide))
theorem k_keep_mu3 : W13 m ρ c (Proc.devRef .tc main_v71_3) = W10 m ρ c (Proc.devRef .tc main_v71_3) :=
  ((W13_keep m ρ c main_v71_3 (by decide)).trans (W12_keep m ρ c main_v71_3 (by decide))).trans
    (W11_keep m ρ c main_v71_3 (by decide))

/-- The edge list as the program was launched with it. -/
abbrev arg1 : Buf (Elt Ideal) ((c : Thread nD τ).loc main_arg1) := m ((c : Thread nD τ).loc main_arg1)

/-- No item of the program writes the edge list: at region 3's exit it is still the launch edge list. -/
theorem arg1_at_W10 : W10 m ρ c (Proc.devRef .tc main_arg1) = arg1 m c :=
  (W10_keep m ρ c main_arg1 (by decide)).trans (keep_all m ρ c main_arg1 (by decide)).2.2.1

/-! ## The edge scores -/

/-- THE FIRST SCORE VECTOR.  Entry `e` of the program's first result vector is the score of edge `e` computed from the
    table region 3 left in its fifth output: the closing stretch recasts region 4's first output column as a vector;
    that column is, at row `e`, the logistic function of the inner product of rows `e` of region 4's two input arrays
    over their first ten columns; and those rows are, by the stretch before region 4, the rows of the table that the
    two columns of row indices made from the edge list name for `e`.  The edge list is the one of the launch. -/
theorem k_score_c (e : Fin 3200000) :
    W13 m ρ c (Proc.devRef .tc main_v92) (ix1 e)
      = Cert.Spec.score (by decide : 0 < 100000) (e0ColOf (arg1 m c)) (e1ColOf (arg1 m c))
          (fun n j => W10 m ρ c (Proc.devRef .tc main_v71_4) (ix2 n j)) e := by
  have h1 : W13 m ρ c (Proc.devRef .tc main_v92) (ix1 e)
      = W12 m ρ c (Proc.devRef .tc main_v91_0) (ix2 e (0 : Fin 1)) := stage_v92 (W12 m ρ c) e
  have h2 : W12 m ρ c (Proc.devRef .tc main_v91_0) = (dat4 (V11 m ρ) c).arrAt 2 cfg4.N := W12_arr m ρ c 2
  rw [h1, h2, final4_2 (V11 m ρ) c e]
  unfold Cert.Spec.score
  congr 1
  refine Finset.sum_congr rfl fun j _ => ?_
  have ha : rowsOf (V11 m ρ c main_v83) (ix2 e ⟨j.val, by omega⟩)
      = W10 m ρ c (Proc.devRef .tc main_v71_4)
          (ix2 (Cert.Spec.rowOf 100000 (by decide) (e0ColOf (W10 m ρ c (Proc.devRef .tc main_arg1))) e) j) :=
    stage_v83 (W10 m ρ c) e j
  have hb : rowsOf (V11 m ρ c main_v90) (ix2 e ⟨j.val, by omega⟩)
      = W10 m ρ c (Proc.devRef .tc main_v71_4)
          (ix2 (Cert.Spec.rowOf 100000 (by decide) (e1ColOf (W10 m ρ c (Proc.devRef .tc main_arg1))) e) j) :=
    stage_v90 (W10 m ρ c) e j
  rw [ha, hb, arg1_at_W10]

/-- THE SECOND SCORE VECTOR: the same from region 4's second output column, the last ten columns of its inputs, and the
    table region 3 left in its sixth output. -/
theorem k_score_n (e : Fin 3200000) :
    W13 m ρ c (Proc.devRef .tc main_v93) (ix1 e)
      = Cert.Spec.score (by decide : 0 < 100000) (e0ColOf (arg1 m c)) (e1ColOf (arg1 m c))
          (fun n j => W10 m ρ c (Proc.devRef .tc main_v71_5) (ix2 n j)) e := by
  have h1 : W13 m ρ c (Proc.devRef .tc main_v93) (ix1 e)
      = W12 m ρ c (Proc.devRef .tc main_v91_1) (ix2 e (0 : Fin 1)) := stage_v93 (W12 m ρ c) e
  have h2 : W12 m ρ c (Proc.devRef .tc main_v91_1) = (dat4 (V11 m ρ) c).arrAt 3 cfg4.N := W12_arr m ρ c 3
  rw [h1, h2, final4_3 (V11 m ρ) c e]
  unfold Cert.Spec.score
  congr 1
  refine Finset.sum_congr rfl fun j _ => ?_
  have ha : rowsOf (V11 m ρ c main_v83) (ix2 e ⟨10 + j.val, by omega⟩)
      = W10 m ρ c (Proc.devRef .tc main_v71_5)
          (ix2 (Cert.Spec.rowOf 100000 (by decide) (e0ColOf (W10 m ρ c (Proc.devRef .tc main_arg1))) e) j) :=
    stage_v83_hi (W10 m ρ c) e j
  have hb : rowsOf (V11 m ρ c main_v90) (ix2 e ⟨10 + j.val, by omega⟩)
      = W10 m ρ c (Proc.devRef .tc main_v71_5)
          (ix2 (Cert.Spec.rowOf 100000 (by decide) (e1ColOf (W10 m ρ c (Proc.devRef .tc main_arg1))) e) j) :=
    stage_v90_hi (W10 m ρ c) e j
  rw [ha, hb, arg1_at_W10]

end Cert.KernelIdeal.Hand

end
-- ==== Proof.RefLayers.lean ====
/-
  THE LAYERS OF THE NETWORK, AS A PROGRAM SPELLS THEM, READ AT AN INDEX.

  The network is built from four kinds of step.  Each lemma here takes the arrays of one step as plain functions on
  indices, together with what is already known of its operands at an index, and says what the step's result is at an
  index, in the words of the specification:

    * a matrix product whose entry (n, c) is a sum over k of left (n, k) · right (k, c) is the specification's mm;
    * a round of message passing of such a product (gather the source rows, weight them, scatter-add them at the
      destination rows into zeros) followed by a bias added along the rows is the specification's conv;
    * the logistic spelt  1 / (1 + exp (−s))  with the literal word of the float 1.0 is the logistic function, and
      applied to the sum over the columns of the product of two gathered rows it is the specification's score.

  Nothing is assumed of the values: every statement is an identity between sums with the same terms.
-/
import proofs.«157918_j42898133352759_2_alg».proof.Proof.Spec
import proofs.«157918_j42898133352759_2_alg».proof.Proof.MessagePass
import Idealize.ShloMosaic.PureOps.Ideal.Laws

noncomputable section

namespace Cert.RefLayers

open Idealize.ShloMosaic Idealize.ShloMosaic.ValueIdx
open Cert.LibScatterAddColumns Cert.MessagePass
open scoped BigOperators

/-- The 32-bit word 0x3F800000 is the float 1.0: sign 0, biased exponent 127, mantissa 0, that is 2^23 · 2^(-23). -/
theorem ofBits_one_f32 : Ideal.ofBits .f32 0x3F800000#32 = 1 := by
  simp [Ideal.ofBits, Ideal.ieee]
  rw [← EReal.coe_mul, ← EReal.coe_one]
  congr 1
  norm_num

/-- A MATRIX PRODUCT READ AT (n, c).  P is an array whose entry at i is the sum over k of the left array at li i k
    times the right array at ri i k, where at i = (n, c) these are the positions (n, k) and (k, c); the left array
    is the table T.  Then P at (n, c) is the product of T and the right array, entry (n, c). -/
theorem mm_read {A K B : Nat} (P : (Sh2 A B).Idx → EReal) (L : (Sh2 A K).Idx → EReal) (R : (Sh2 K B).Idx → EReal)
    (li : (Sh2 A B).Idx → Fin K → (Sh2 A K).Idx) (ri : (Sh2 A B).Idx → Fin K → (Sh2 K B).Idx)
    (h : ∀ i, P i = ∑ k : Fin K, L (li i k) * R (ri i k))
    (hl : ∀ (n : Fin A) (c : Fin B) (k : Fin K), li (ix2 n c) k = ix2 n k)
    (hr : ∀ (n : Fin A) (c : Fin B) (k : Fin K), ri (ix2 n c) k = ix2 k c)
    (T : Fin A → Fin K → EReal) (hT : ∀ (n : Fin A) (k : Fin K), L (ix2 n k) = T n k) (n : Fin A) (c : Fin B) :
    P (ix2 n c) = Cert.Spec.mm T (fun k c => R (ix2 k c)) n c := by
  rw [h]
  unfold Cert.Spec.mm
  exact Finset.sum_congr rfl fun k _ => by rw [hl, hr, hT]

/-- A GRAPH CONVOLUTION READ AT (n, c).  P is the projected table, known at every index to be the product of T and
    W; z is an array of zeros; w holds the weight nrm e along row e; upd is, entry by entry, the gathered rows of P at
    the source indices times w.  Scatter-adding upd into z at the destination indices and adding the bias b c gives
    the specification's layer at (n, c): the round of message passing is read by round_apply, and inside its sum the
    projected table is replaced by the product. -/
theorem conv_read {N M K C : Nat} (hN : 0 < N)
    (g : GatherDims (Sh2 N C) (Sh2 M 1) (Sh2 M C)) (hg : IsRowGather g)
    (d : ScatterDims (Sh2 N C) (Sh2 M 1) (Sh2 M C)) (hd : IsRowScatter d)
    (z : (Sh2 N C).Idx → EReal) (hz : ∀ i, z i = 0)
    (P : (Sh2 N C).Idx → EReal) (T : Fin N → Fin K → EReal) (W : Fin K → Fin C → EReal)
    (hP : ∀ (n : Fin N) (c : Fin C), P (ix2 n c) = Cert.Spec.mm T W n c)
    (sI dI : Cert.Spec.IdxCol M) (nrm : Fin M → EReal) (w : (Sh2 M C).Idx → EReal)
    (hw : ∀ (e : Fin M) (q : Fin C), w (ix2 e q) = nrm e)
    (upd : (Sh2 M C).Idx → EReal) (hupd : ∀ j, upd j = Host.gather g P sI j * w j)
    (b : Fin C → EReal) (n : Fin N) (c : Fin C) :
    Ideal.hostScatterAdd d z dI upd (ix2 n c) + b c = Cert.Spec.conv hN sI dI nrm T W b n c := by
  obtain rfl : z = fun _ => (0 : EReal) := funext hz
  obtain rfl : upd = fun j => Host.gather g P sI j * w j := funext hupd
  rw [round_apply hN g hg d hd P sI dI nrm w hw n c]
  unfold Cert.Spec.conv Cert.Spec.agg
  refine congrArg (· + b c) ?_
  exact Finset.sum_congr rfl fun e _ => by beta_reduce; rw [hP]

/-- The logistic function as the reference spells it: one, as the literal word of the float 1.0, divided by one
    plus the exponential of the negated argument. -/
theorem logistic_spelt (s : EReal) :
    Ideal.div (Ideal.ofBits .f32 0x3F800000#32) (Ideal.ofBits .f32 0x3F800000#32 + Ideal.exp (-s)) = Ideal.logistic s := by
  rw [ofBits_one_f32]
  rfl

/-- AN EDGE SCORE READ AT e.  Dst is the decoded table, known at every index to be d.  The sum (from the literal
    zero word) over the columns j of the product of row e of the two gathers of Dst, at the two columns of end-node
    indices, put through the spelt logistic, is the specification's score of edge e: each gather is read at (e, j)
    as the row its index names, clamped into the table. -/
theorem score_read {N E C : Nat} (hN : 0 < N)
    (g : GatherDims (Sh2 N C) (Sh2 E 1) (Sh2 E C)) (hg : IsRowGather g)
    (Dst : (Sh2 N C).Idx → EReal) (d : Fin N → Fin C → EReal) (hD : ∀ (n : Fin N) (j : Fin C), Dst (ix2 n j) = d n j)
    (e0I e1I : Cert.Spec.IdxCol E) (e : Fin E) :
    Ideal.div (Ideal.ofBits .f32 0x3F800000#32) (Ideal.ofBits .f32 0x3F800000#32
        + Ideal.exp (-(Ideal.ofBits .f32 0x00000000#32
            + ∑ j : Fin C, Host.gather g Dst e0I (ix2 e j) * Host.gather g Dst e1I (ix2 e j))))
      = Cert.Spec.score hN e0I e1I d e := by
  rw [logistic_spelt, Ideal.ofBits_zero_f32, zero_add]
  unfold Cert.Spec.score
  refine congrArg Ideal.logistic (Finset.sum_congr rfl fun j _ => ?_)
  rw [gather_apply hN g hg, gather_apply hN g hg, hD, hD]
  rfl

/-! ## Every message weight is a real number

A weight is a product of two entries of dis = select (deg > 0) (rsqrt (max deg 1)) 0.  Whatever deg is, max deg 1 is
at least 1, and the reciprocal square root of an extended real that is at least 1 is a real number (it is 0 at +∞). -/

/-- The reciprocal square root of max y 1 is a real number. -/
theorem rsqrt_max_one_real (y : EReal) : ∃ r : ℝ, Ideal.rsqrt (max y 1) = (r : EReal) := by
  have h1 : (1 : EReal) ≤ max y 1 := le_max_right _ _
  generalize max y 1 = t at h1
  induction t using EReal.rec
  · exact absurd h1 (not_le.mpr (by rw [← EReal.coe_one]; exact EReal.bot_lt_coe 1))
  · rename_i r
    have hr : (1 : ℝ) ≤ r := by exact_mod_cast h1
    refine ⟨(Real.sqrt r)⁻¹, ?_⟩
    rw [Ideal.rsqrt_coe, if_neg (by linarith), if_neg (by linarith)]
  · exact ⟨0, by rw [Ideal.rsqrt_top, EReal.coe_zero]⟩

/-- A choice between a real number and zero is a real number. -/
theorem select_real (c : BitVec 1) (a : EReal) (ha : ∃ r : ℝ, a = (r : EReal)) :
    ∃ r : ℝ, Scalar.select c a (0 : EReal) = (r : EReal) := by
  by_cases h : c = 1#1
  · subst h
    rw [select_one]
    exact ha
  · rw [eq_zero_of_ne_one h, select_zero]
    exact ⟨0, EReal.coe_zero.symm⟩

/-- The product of two real numbers is a real number. -/
theorem mul_real {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

end Cert.RefLayers

end
-- ==== Proof.RefValue.lean ====
/-
  THE REFERENCE PROGRAM'S RESULTS, READ AT AN INDEX, IN THE WORDS OF THE SPECIFICATION.

  The reference builds the graph from its edge array (two rows of 3200000 node indices): it appends one self loop per
  node, so there are 3300000 messages; the degree of a node is the number of messages arriving at it, and the weight
  of message e is dis (src e) · dis (dst e), where dis is the reciprocal square root of the degree (0 at a node of
  degree 0).  These integer and weight arrays are named here once, as functions of the edge array, by the reference's
  own operations (srcCol, dstCol, nrmVec, e0Col, e1Col); the reference recomputes the integer columns before every
  gather and scatter, and each recomputation is the same term.

  Then each result is read layer by layer.  The hidden table is the relu of the first graph convolution; the four
  heads are graph convolutions of the hidden table; a latent table is mean + noise · exp (half · log-variance); a
  decoded table is two dense tanh layers of a latent table; and an edge's score is the logistic of the inner product
  of the decoded rows of its two end nodes.  Every step is an identity of the operations read at one index: a matrix
  product is a sum over the contracted coordinate, a gather reads the row its index names, a scatter-add sums the
  rows that land on a node, a broadcast bias reads its column.  Nothing is assumed of the values.
-/
import proofs.«157918_j42898133352759_2_alg».proof.Proof.RefGen
import proofs.«157918_j42898133352759_2_alg».proof.Proof.RefLayers

noncomputable section

namespace Cert.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.LibScatterAddColumns Cert.MessagePass Cert.RefLayers
open scoped BigOperators

/-- A float array of the given shape, and an array of 32-bit integers, as the reference's operations take them at the
    ideal instance: functions from the shape's indices to the extended reals, or to 32-bit words. -/
abbrev FArr (S : Shape) : Type := (⟨S, .f32⟩ : BufTy).Contents (Elt Ideal)
abbrev IArr (S : Shape) : Type := (⟨S, .i32⟩ : BufTy).Contents (Elt Ideal)

/-- A rank-2 array as a table of its two coordinates, and a rank-1 array as a function of its coordinate. -/
abbrev tab {a b : Nat} (x : (Sh2 a b).Idx → EReal) (n : Fin a) (k : Fin b) : EReal := x (ix2 n k)
abbrev vec {a : Nat} (x : (⟨1, ![a]⟩ : Shape).Idx → EReal) (c : Fin a) : EReal := x (ix1 c)

/-- There is at least one node. -/
theorem hNodes : 0 < 100000 := by decide

/-! ## The graph, as the reference derives it from the edge array -/

/-- The column of SOURCE indices the row gathers read: edge row 0 followed by 0 … 99999 (the self loops), a negative
    entry raised by the number of nodes (an index counted from the end), as a column [3300000, 1]. -/
def srcCol (x1 : IArr S2x3200000) : Cert.Spec.IdxCol 3300000 := val_main_v38 (F := Ideal) x1
/-- The column of DESTINATION indices the scatters read: edge row 1 followed by 0 … 99999, as it is (not wrapped). -/
def dstCol (x1 : IArr S2x3200000) : Cert.Spec.IdxCol 3300000 := val_main_v44 (F := Ideal) x1
/-- The message weights dis (src e) · dis (dst e), a vector [3300000]. -/
def nrmVec (x1 : IArr S2x3200000) : FArr S3300000 := val_main_v31 (F := Ideal) x1
/-- The columns of the two end nodes of the 3200000 edges, wrapped as above, that the decoder's gathers read. -/
def e0Col (x1 : IArr S2x3200000) : Cert.Spec.IdxCol 3200000 := val_main_v147 (F := Ideal) x1
def e1Col (x1 : IArr S2x3200000) : Cert.Spec.IdxCol 3200000 := val_main_v154 (F := Ideal) x1
/-- The weight of message e. -/
def weight (x1 : IArr S2x3200000) (e : Fin 3300000) : EReal := nrmVec x1 (ix1 e)

/-! The reference recomputes the source column before every gather and the destination column before every scatter;
    each is the same chain of operations on the edge array: once the operations' names are opened the two sides are
    the same term. -/
theorem src_v38 (x1 : IArr S2x3200000) : val_main_v38 (F := Ideal) x1 = srcCol x1 := rfl
theorem dst_v44 (x1 : IArr S2x3200000) : val_main_v44 (F := Ideal) x1 = dstCol x1 := rfl
theorem e0_v147 (x1 : IArr S2x3200000) : val_main_v147 (F := Ideal) x1 = e0Col x1 := rfl
theorem e1_v154 (x1 : IArr S2x3200000) : val_main_v154 (F := Ideal) x1 = e1Col x1 := rfl
theorem src_v22 (x1 : IArr S2x3200000) : val_main_v22 (F := Ideal) x1 = srcCol x1 := by
  unfold srcCol val_main_v22 val_main_v21 val_main_v18 val_main_v17 val_main_c val_main_v20 val_main_v19
    val_main_c_4 val_main_v38 val_main_v37 val_main_v34 val_main_v33 val_main_c_7 val_main_v36 val_main_v35
    val_main_c_8
  rfl
theorem src_v56 (x1 : IArr S2x3200000) : val_main_v56 (F := Ideal) x1 = srcCol x1 := by
  unfold srcCol val_main_v56 val_main_v55 val_main_v52 val_main_v51 val_main_c_10 val_main_v54 val_main_v53
    val_main_c_11 val_main_v38 val_main_v37 val_main_v34 val_main_v33 val_main_c_7 val_main_v36 val_main_v35
    val_main_c_8
  rfl
theorem src_v73 (x1 : IArr S2x3200000) : val_main_v73 (F := Ideal) x1 = srcCol x1 := by
  unfold srcCol val_main_v73 val_main_v72 val_main_v69 val_main_v68 val_main_c_13 val_main_v71 val_main_v70
    val_main_c_14 val_main_v38 val_main_v37 val_main_v34 val_main_v33 val_main_c_7 val_main_v36 val_main_v35
    val_main_c_8
  rfl
theorem src_v90 (x1 : IArr S2x3200000) : val_main_v90 (F := Ideal) x1 = srcCol x1 := by
  unfold srcCol val_main_v90 val_main_v89 val_main_v86 val_main_v85 val_main_c_16 val_main_v88 val_main_v87
    val_main_c_17 val_main_v38 val_main_v37 val_main_v34 val_main_v33 val_main_c_7 val_main_v36 val_main_v35
    val_main_c_8
  rfl
theorem src_v107 (x1 : IArr S2x3200000) : val_main_v107 (F := Ideal) x1 = srcCol x1 := by
  unfold srcCol val_main_v107 val_main_v106 val_main_v103 val_main_v102 val_main_c_19 val_main_v105
    val_main_v104 val_main_c_20 val_main_v38 val_main_v37 val_main_v34 val_main_v33 val_main_c_7 val_main_v36
    val_main_v35 val_main_c_8
  rfl
theorem dst_v9 (x1 : IArr S2x3200000) : val_main_v9 (F := Ideal) x1 = dstCol x1 := by
  unfold dstCol val_main_v9 val_main_v44
  rfl
theorem dst_v62 (x1 : IArr S2x3200000) : val_main_v62 (F := Ideal) x1 = dstCol x1 := by
  unfold dstCol val_main_v62 val_main_v44
  rfl
theorem dst_v79 (x1 : IArr S2x3200000) : val_main_v79 (F := Ideal) x1 = dstCol x1 := by
  unfold dstCol val_main_v79 val_main_v44
  rfl
theorem dst_v96 (x1 : IArr S2x3200000) : val_main_v96 (F := Ideal) x1 = dstCol x1 := by
  unfold dstCol val_main_v96 val_main_v44
  rfl
theorem dst_v113 (x1 : IArr S2x3200000) : val_main_v113 (F := Ideal) x1 = dstCol x1 := by
  unfold dstCol val_main_v113 val_main_v44
  rfl
theorem e0_v179 (x1 : IArr S2x3200000) : val_main_v179 (F := Ideal) x1 = e0Col x1 := by
  unfold e0Col val_main_v179 val_main_v178 val_main_v175 val_main_v174 val_main_c_31 val_main_v177 val_main_v176
    val_main_c_32 val_main_v147 val_main_v146 val_main_v143 val_main_v142 val_main_c_24 val_main_v145
    val_main_v144 val_main_c_25
  rfl
theorem e1_v186 (x1 : IArr S2x3200000) : val_main_v186 (F := Ideal) x1 = e1Col x1 := by
  unfold e1Col val_main_v186 val_main_v185 val_main_v182 val_main_v181 val_main_c_33 val_main_v184 val_main_v183
    val_main_c_34 val_main_v154 val_main_v153 val_main_v150 val_main_v149 val_main_c_26 val_main_v152
    val_main_v151 val_main_c_27
  rfl

/-! ## The weights along the rows, and the zero tables

Before each round the weight vector is broadcast to a column and then along the columns of the message table: entry
(e, q) is the weight of message e.  Each scatter accumulates into a table of the literal zero. -/
theorem wt_v41 (x1 : IArr S2x3200000) (e : Fin 3300000) (q : Fin 32) :
    val_main_v41 (F := Ideal) x1 (ix2 e q) = weight x1 e := by
  unfold weight nrmVec
  rw [val_main_v41_apply, val_main_v40_apply]
  exact congrArg (val_main_v31 (F := Ideal) x1) (funext fun a => Fin.ext (by match a with | ⟨0, _⟩ => rfl))
theorem wt_v59 (x1 : IArr S2x3200000) (e : Fin 3300000) (q : Fin 64) :
    val_main_v59 (F := Ideal) x1 (ix2 e q) = weight x1 e := by
  unfold weight nrmVec
  rw [val_main_v59_apply, val_main_v58_apply]
  exact congrArg (val_main_v31 (F := Ideal) x1) (funext fun a => Fin.ext (by match a with | ⟨0, _⟩ => rfl))
theorem wt_v76 (x1 : IArr S2x3200000) (e : Fin 3300000) (q : Fin 64) :
    val_main_v76 (F := Ideal) x1 (ix2 e q) = weight x1 e := by
  unfold weight nrmVec
  rw [val_main_v76_apply, val_main_v75_apply]
  exact congrArg (val_main_v31 (F := Ideal) x1) (funext fun a => Fin.ext (by match a with | ⟨0, _⟩ => rfl))
theorem wt_v93 (x1 : IArr S2x3200000) (e : Fin 3300000) (q : Fin 64) :
    val_main_v93 (F := Ideal) x1 (ix2 e q) = weight x1 e := by
  unfold weight nrmVec
  rw [val_main_v93_apply, val_main_v92_apply]
  exact congrArg (val_main_v31 (F := Ideal) x1) (funext fun a => Fin.ext (by match a with | ⟨0, _⟩ => rfl))
theorem wt_v110 (x1 : IArr S2x3200000) (e : Fin 3300000) (q : Fin 64) :
    val_main_v110 (F := Ideal) x1 (ix2 e q) = weight x1 e := by
  unfold weight nrmVec
  rw [val_main_v110_apply, val_main_v109_apply]
  exact congrArg (val_main_v31 (F := Ideal) x1) (funext fun a => Fin.ext (by match a with | ⟨0, _⟩ => rfl))
theorem zero_v43 (i : S100000x32.Idx) : val_main_v43 (F := Ideal) i = 0 := by
  rw [val_main_v43_apply, val_main_cst_9_apply]
  exact Ideal.ofBits_zero_f32
theorem zero_v61 (i : S100000x64.Idx) : val_main_v61 (F := Ideal) i = 0 := by
  rw [val_main_v61_apply, val_main_cst_12_apply]
  exact Ideal.ofBits_zero_f32
theorem zero_v78 (i : S100000x64.Idx) : val_main_v78 (F := Ideal) i = 0 := by
  rw [val_main_v78_apply, val_main_cst_15_apply]
  exact Ideal.ofBits_zero_f32
theorem zero_v95 (i : S100000x64.Idx) : val_main_v95 (F := Ideal) i = 0 := by
  rw [val_main_v95_apply, val_main_cst_18_apply]
  exact Ideal.ofBits_zero_f32
theorem zero_v112 (i : S100000x64.Idx) : val_main_v112 (F := Ideal) i = 0 := by
  rw [val_main_v112_apply, val_main_cst_21_apply]
  exact Ideal.ofBits_zero_f32

/-! ## The hidden table

The first projection x · W_shared, its round of message passing with the bias, and the relu (a maximum with the
literal zero, from the called function's body). -/

/-- The hidden table h = relu (conv x W_shared b_shared). -/
def hiddenTab (x0 : FArr S100000x128) (x1 : IArr S2x3200000) (x4 : FArr S128x32) (x5 : FArr S32) :
    Fin 100000 → Fin 32 → EReal :=
  Cert.Spec.hidden hNodes (srcCol x1) (dstCol x1) (weight x1) (tab x0) (tab x4) (vec x5)

/-- The first projection at (n, c): the sum over the 128 input features. -/
theorem proj_v32 (x0 : FArr S100000x128) (x4 : FArr S128x32) (n : Fin 100000) (c : Fin 32) :
    val_main_v32 (F := Ideal) x0 x4 (ix2 n c) = Cert.Spec.mm (tab x0) (tab x4) n c :=
  mm_read (A := 100000) (K := 128) (B := 32) (val_main_v32 (F := Ideal) x0 x4) x0 x4 lidx_main_v32 ridx_main_v32
    (val_main_v32_apply x0 x4)
    (fun n c k => funext fun a => Fin.ext (by match a with | ⟨0, _⟩ => rfl | ⟨1, _⟩ => rfl))
    (fun n c k => funext fun a => Fin.ext (by match a with | ⟨0, _⟩ => rfl | ⟨1, _⟩ => rfl))
    (tab x0) (fun _ _ => rfl) n c

/-- The first scatter-add, with its operands named. -/
theorem stage_v45 (x0 : FArr S100000x128) (x1 : IArr S2x3200000) (x4 : FArr S128x32) :
    val_main_v45 (F := Ideal) x0 x1 x4 = Ideal.hostScatterAdd scatter_S100000x32_S3300000x1_S3300000x32_1_0_0_1 (val_main_v43 (F := Ideal))
      (val_main_v44 (F := Ideal) x1) (val_main_v42 (F := Ideal) x0 x1 x4) := rfl

/-- The messages of the first round, entry by entry: the gathered rows of the projection times the weights. -/
theorem upd_v42 (x0 : FArr S100000x128) (x1 : IArr S2x3200000) (x4 : FArr S128x32) (j : S3300000x32.Idx) :
    val_main_v42 (F := Ideal) x0 x1 x4 j = Host.gather gather_S100000x32_S3300000x1_S3300000x32_1_0_n_n_0_1_132 (val_main_v32 (F := Ideal) x0 x4) (srcCol x1) j * val_main_v41 (F := Ideal) x1 j := by
  rw [val_main_v42_apply, Ideal.mulf_def]
  unfold val_main_v39
  rw [src_v38]

/-- The hidden table at (n, c). -/
theorem hidden_read (x0 : FArr S100000x128) (x1 : IArr S2x3200000) (x4 : FArr S128x32) (x5 : FArr S32) (n : Fin 100000) (c : Fin 32) :
    val_main_v49 (F := Ideal) x0 x1 x4 x5 (ix2 n c) = hiddenTab x0 x1 x4 x5 n c := by
  rw [val_main_v49_apply, val_main_call1_v0_apply, val_main_call1_cst_apply, val_main_v48_apply, val_main_v47_apply,
    val_main_v46_apply, stage_v45, dst_v44]
  rw [show idx_main_v46 (idx_main_v47 (ix2 n c)) = ix1 c from funext fun a => Fin.ext (by match a with | ⟨0, _⟩ => rfl)]
  simp only [Ideal.ofBits_def, Ideal.ofBits_zero_f32, Ideal.maximumf_def, Ideal.addf_def]
  unfold hiddenTab Cert.Spec.hidden
  refine congrArg (fun t => max t 0) ?_
  exact conv_read (N := 100000) (M := 3300000) (K := 128) (C := 32) hNodes gather_S100000x32_S3300000x1_S3300000x32_1_0_n_n_0_1_132 ⟨rfl, rfl, rfl, rfl, rfl, rfl, rfl⟩
    scatter_S100000x32_S3300000x1_S3300000x32_1_0_0_1 ⟨rfl, rfl, rfl, rfl⟩ (val_main_v43 (F := Ideal)) zero_v43
    (val_main_v32 (F := Ideal) x0 x4) (tab x0) (tab x4) (proj_v32 x0 x4)
    (srcCol x1) (dstCol x1) (weight x1) (val_main_v41 (F := Ideal) x1) (wt_v41 x1)
    (val_main_v42 (F := Ideal) x0 x1 x4) (upd_v42 x0 x1 x4) (vec x5) n c

/-! ## The four heads

Each head projects the hidden table by its own matrix, passes the messages, and adds its bias. -/

/-- A head: the graph convolution of the hidden table with matrix W and bias b. -/
def headTab (x0 : FArr S100000x128) (x1 : IArr S2x3200000) (x4 : FArr S128x32) (x5 : FArr S32) (W : FArr S32x64)
    (b : FArr S64) : Fin 100000 → Fin 64 → EReal :=
  Cert.Spec.conv hNodes (srcCol x1) (dstCol x1) (weight x1) (hiddenTab x0 x1 x4 x5) (tab W) (vec b)

/-- The projection of head mu_c at (n, c): the sum over the 32 hidden features. -/
theorem proj_v50 (x0 : FArr S100000x128) (x1 : IArr S2x3200000) (x4 : FArr S128x32) (x5 : FArr S32) (x6 : FArr S32x64) (n : Fin 100000) (c : Fin 64) :
    val_main_v50 (F := Ideal) x0 x1 x4 x5 x6 (ix2 n c) = Cert.Spec.mm (hiddenTab x0 x1 x4 x5) (tab x6) n c :=
  mm_read (A := 100000) (K := 32) (B := 64) (val_main_v50 (F := Ideal) x0 x1 x4 x5 x6) (val_main_v49 (F := Ideal) x0 x1 x4 x5) x6 lidx_main_v50 ridx_main_v50
    (val_main_v50_apply x0 x1 x4 x5 x6)
    (fun n c k => funext fun a => Fin.ext (by match a with | ⟨0, _⟩ => rfl | ⟨1, _⟩ => rfl))
    (fun n c k => funext fun a => Fin.ext (by match a with | ⟨0, _⟩ => rfl | ⟨1, _⟩ => rfl))
    (hiddenTab x0 x1 x4 x5) (hidden_read x0 x1 x4 x5) n c

theorem stage_v63 (x0 : FArr S100000x128) (x1 : IArr S2x3200000) (x4 : FArr S128x32) (x5 : FArr S32) (x6 : FArr S32x64) :
    val_main_v63 (F := Ideal) x0 x1 x4 x5 x6 = Ideal.hostScatterAdd scatter_S100000x64_S3300000x1_S3300000x64_1_0_0_1 (val_main_v61 (F := Ideal))
      (val_main_v62 (F := Ideal) x1) (val_main_v60 (F := Ideal) x0 x1 x4 x5 x6) := rfl

theorem upd_v60 (x0 : FArr S100000x128) (x1 : IArr S2x3200000) (x4 : FArr S128x32) (x5 : FArr S32) (x6 : FArr S32x64) (j : S3300000x64.Idx) :
    val_main_v60 (F := Ideal) x0 x1 x4 x5 x6 j = Host.gather gather_S100000x64_S3300000x1_S3300000x64_1_0_n_n_0_1_164 (val_main_v50 (F := Ideal) x0 x1 x4 x5 x6) (srcCol x1) j * val_main_v59 (F := Ideal) x1 j := by
  rw [val_main_v60_apply, Ideal.mulf_def]
  unfold val_main_v57
  rw [src_v56]

/-- Head mu_c at (n, l). -/
theorem mu_c_read (x0 : FArr S100000x128) (x1 : IArr S2x3200000) (x4 : FArr S128x32) (x5 : FArr S32) (x6 : FArr S32x64) (x7 : FArr S64) (n : Fin 100000) (l : Fin 64) :
    val_main_v66 (F := Ideal) x0 x1 x4 x5 x6 x7 (ix2 n l) = headTab x0 x1 x4 x5 x6 x7 n l := by
  rw [val_main_v66_apply, val_main_v65_apply, val_main_v64_apply, stage_v63, dst_v62]
  rw [show idx_main_v64 (idx_main_v65 (ix2 n l)) = ix1 l from funext fun a => Fin.ext (by match a with | ⟨0, _⟩ => rfl)]
  simp only [Ideal.addf_def]
  unfold headTab
  exact conv_read (N := 100000) (M := 3300000) (K := 32) (C := 64) hNodes gather_S100000x64_S3300000x1_S3300000x64_1_0_n_n_0_1_164 ⟨rfl, rfl, rfl, rfl, rfl, rfl, rfl⟩
    scatter_S100000x64_S3300000x1_S3300000x64_1_0_0_1 ⟨rfl, rfl, rfl, rfl⟩ (val_main_v61 (F := Ideal)) zero_v61
    (val_main_v50 (F := Ideal) x0 x1 x4 x5 x6) (hiddenTab x0 x1 x4 x5) (tab x6) (proj_v50 x0 x1 x4 x5 x6)
    (srcCol x1) (dstCol x1) (weight x1) (val_main_v59 (F := Ideal) x1) (wt_v59 x1)
    (val_main_v60 (F := Ideal) x0 x1 x4 x5 x6) (upd_v60 x0 x1 x4 x5 x6) (vec x7) n l

/-- The projection of head mu_n at (n, c): the sum over the 32 hidden features. -/
theorem proj_v67 (x0 : FArr S100000x128) (x1 : IArr S2x3200000) (x4 : FArr S128x32) (x5 : FArr S32) (x8 : FArr S32x64) (n : Fin 100000) (c : Fin 64) :
    val_main_v67 (F := Ideal) x0 x1 x4 x5 x8 (ix2 n c) = Cert.Spec.mm (hiddenTab x0 x1 x4 x5) (tab x8) n c :=
  mm_read (A := 100000) (K := 32) (B := 64) (val_main_v67 (F := Ideal) x0 x1 x4 x5 x8) (val_main_v49 (F := Ideal) x0 x1 x4 x5) x8 lidx_main_v67 ridx_main_v67
    (val_main_v67_apply x0 x1 x4 x5 x8)
    (fun n c k => funext fun a => Fin.ext (by match a with | ⟨0, _⟩ => rfl | ⟨1, _⟩ => rfl))
    (fun n c k => funext fun a => Fin.ext (by match a with | ⟨0, _⟩ => rfl | ⟨1, _⟩ => rfl))
    (hiddenTab x0 x1 x4 x5) (hidden_read x0 x1 x4 x5) n c

theorem stage_v80 (x0 : FArr S100000x128) (x1 : IArr S2x3200000) (x4 : FArr S128x32) (x5 : FArr S32) (x8 : FArr S32x64) :
    val_main_v80 (F := Ideal) x0 x1 x4 x5 x8 = Ideal.hostScatterAdd scatter_S100000x64_S3300000x1_S3300000x64_1_0_0_1 (val_main_v78 (F := Ideal))
      (val_main_v79 (F := Ideal) x1) (val_main_v77 (F := Ideal) x0 x1 x4 x5 x8) := rfl

theorem upd_v77 (x0 : FArr S100000x128) (x1 : IArr S2x3200000) (x4 : FArr S128x32) (x5 : FArr S32) (x8 : FArr S32x64) (j : S3300000x64.Idx) :
    val_main_v77 (F := Ideal) x0 x1 x4 x5 x8 j = Host.gather gather_S100000x64_S3300000x1_S3300000x64_1_0_n_n_0_1_164 (val_main_v67 (F := Ideal) x0 x1 x4 x5 x8) (srcCol x1) j * val_main_v76 (F := Ideal) x1 j := by
  rw [val_main_v77_apply, Ideal.mulf_def]
  unfold val_main_v74
  rw [src_v73]

/-- Head mu_n at (n, l). -/
theorem mu_n_read (x0 : FArr S100000x128) (x1 : IArr S2x3200000) (x4 : FArr S128x32) (x5 : FArr S32) (x8 : FArr S32x64) (x9 : FArr S64) (n : Fin 100000) (l : Fin 64) :
    val_main_v83 (F := Ideal) x0 x1 x4 x5 x8 x9 (ix2 n l) = headTab x0 x1 x4 x5 x8 x9 n l := by
  rw [val_main_v83_apply, val_main_v82_apply, val_main_v81_apply, stage_v80, dst_v79]
  rw [show idx_main_v81 (idx_main_v82 (ix2 n l)) = ix1 l from funext fun a => Fin.ext (by match a with | ⟨0, _⟩ => rfl)]
  simp only [Ideal.addf_def]
  unfold headTab
  exact conv_read (N := 100000) (M := 3300000) (K := 32) (C := 64) hNodes gather_S100000x64_S3300000x1_S3300000x64_1_0_n_n_0_1_164 ⟨rfl, rfl, rfl, rfl, rfl, rfl, rfl⟩
    scatter_S100000x64_S3300000x1_S3300000x64_1_0_0_1 ⟨rfl, rfl, rfl, rfl⟩ (val_main_v78 (F := Ideal)) zero_v78
    (val_main_v67 (F := Ideal) x0 x1 x4 x5 x8) (hiddenTab x0 x1 x4 x5) (tab x8) (proj_v67 x0 x1 x4 x5 x8)
    (srcCol x1) (dstCol x1) (weight x1) (val_main_v76 (F := Ideal) x1) (wt_v76 x1)
    (val_main_v77 (F := Ideal) x0 x1 x4 x5 x8) (upd_v77 x0 x1 x4 x5 x8) (vec x9) n l

/-- The projection of head lv_c at (n, c): the sum over the 32 hidden features. -/
theorem proj_v84 (x0 : FArr S100000x128) (x1 : IArr S2x3200000) (x4 : FArr S128x32) (x5 : FArr S32) (x10 : FArr S32x64) (n : Fin 100000) (c : Fin 64) :
    val_main_v84 (F := Ideal) x0 x1 x4 x5 x10 (ix2 n c) = Cert.Spec.mm (hiddenTab x0 x1 x4 x5) (tab x10) n c :=
  mm_read (A := 100000) (K := 32) (B := 64) (val_main_v84 (F := Ideal) x0 x1 x4 x5 x10) (val_main_v49 (F := Ideal) x0 x1 x4 x5) x10 lidx_main_v84 ridx_main_v84
    (val_main_v84_apply x0 x1 x4 x5 x10)
    (fun n c k => funext fun a => Fin.ext (by match a with | ⟨0, _⟩ => rfl | ⟨1, _⟩ => rfl))
    (fun n c k => funext fun a => Fin.ext (by match a with | ⟨0, _⟩ => rfl | ⟨1, _⟩ => rfl))
    (hiddenTab x0 x1 x4 x5) (hidden_read x0 x1 x4 x5) n c

theorem stage_v97 (x0 : FArr S100000x128) (x1 : IArr S2x3200000) (x4 : FArr S128x32) (x5 : FArr S32) (x10 : FArr S32x64) :
    val_main_v97 (F := Ideal) x0 x1 x4 x5 x10 = Ideal.hostScatterAdd scatter_S100000x64_S3300000x1_S3300000x64_1_0_0_1 (val_main_v95 (F := Ideal))
      (val_main_v96 (F := Ideal) x1) (val_main_v94 (F := Ideal) x0 x1 x4 x5 x10) := rfl

theorem upd_v94 (x0 : FArr S100000x128) (x1 : IArr S2x3200000) (x4 : FArr S128x32) (x5 : FArr S32) (x10 : FArr S32x64) (j : S3300000x64.Idx) :
    val_main_v94 (F := Ideal) x0 x1 x4 x5 x10 j = Host.gather gather_S100000x64_S3300000x1_S3300000x64_1_0_n_n_0_1_164 (val_main_v84 (F := Ideal) x0 x1 x4 x5 x10) (srcCol x1) j * val_main_v93 (F := Ideal) x1 j := by
  rw [val_main_v94_apply, Ideal.mulf_def]
  unfold val_main_v91
  rw [src_v90]

/-- Head lv_c at (n, l). -/
theorem lv_c_read (x0 : FArr S100000x128) (x1 : IArr S2x3200000) (x4 : FArr S128x32) (x5 : FArr S32) (x10 : FArr S32x64) (x11 : FArr S64) (n : Fin 100000) (l : Fin 64) :
    val_main_v100 (F := Ideal) x0 x1 x4 x5 x10 x11 (ix2 n l) = headTab x0 x1 x4 x5 x10 x11 n l := by
  rw [val_main_v100_apply, val_main_v99_apply, val_main_v98_apply, stage_v97, dst_v96]
  rw [show idx_main_v98 (idx_main_v99 (ix2 n l)) = ix1 l from funext fun a => Fin.ext (by match a with | ⟨0, _⟩ => rfl)]
  simp only [Ideal.addf_def]
  unfold headTab
  exact conv_read (N := 100000) (M := 3300000) (K := 32) (C := 64) hNodes gather_S100000x64_S3300000x1_S3300000x64_1_0_n_n_0_1_164 ⟨rfl, rfl, rfl, rfl, rfl, rfl, rfl⟩
    scatter_S100000x64_S3300000x1_S3300000x64_1_0_0_1 ⟨rfl, rfl, rfl, rfl⟩ (val_main_v95 (F := Ideal)) zero_v95
    (val_main_v84 (F := Ideal) x0 x1 x4 x5 x10) (hiddenTab x0 x1 x4 x5) (tab x10) (proj_v84 x0 x1 x4 x5 x10)
    (srcCol x1) (dstCol x1) (weight x1) (val_main_v93 (F := Ideal) x1) (wt_v93 x1)
    (val_main_v94 (F := Ideal) x0 x1 x4 x5 x10) (upd_v94 x0 x1 x4 x5 x10) (vec x11) n l

/-- The projection of head lv_n at (n, c): the sum over the 32 hidden features. -/
theorem proj_v101 (x0 : FArr S100000x128) (x1 : IArr S2x3200000) (x4 : FArr S128x32) (x5 : FArr S32) (x12 : FArr S32x64) (n : Fin 100000) (c : Fin 64) :
    val_main_v101 (F := Ideal) x0 x1 x4 x5 x12 (ix2 n c) = Cert.Spec.mm (hiddenTab x0 x1 x4 x5) (tab x12) n c :=
  mm_read (A := 100000) (K := 32) (B := 64) (val_main_v101 (F := Ideal) x0 x1 x4 x5 x12) (val_main_v49 (F := Ideal) x0 x1 x4 x5) x12 lidx_main_v101 ridx_main_v101
    (val_main_v101_apply x0 x1 x4 x5 x12)
    (fun n c k => funext fun a => Fin.ext (by match a with | ⟨0, _⟩ => rfl | ⟨1, _⟩ => rfl))
    (fun n c k => funext fun a => Fin.ext (by match a with | ⟨0, _⟩ => rfl | ⟨1, _⟩ => rfl))
    (hiddenTab x0 x1 x4 x5) (hidden_read x0 x1 x4 x5) n c

theorem stage_v114 (x0 : FArr S100000x128) (x1 : IArr S2x3200000) (x4 : FArr S128x32) (x5 : FArr S32) (x12 : FArr S32x64) :
    val_main_v114 (F := Ideal) x0 x1 x4 x5 x12 = Ideal.hostScatterAdd scatter_S100000x64_S3300000x1_S3300000x64_1_0_0_1 (val_main_v112 (F := Ideal))
      (val_main_v113 (F := Ideal) x1) (val_main_v111 (F := Ideal) x0 x1 x4 x5 x12) := rfl

theorem upd_v111 (x0 : FArr S100000x128) (x1 : IArr S2x3200000) (x4 : FArr S128x32) (x5 : FArr S32) (x12 : FArr S32x64) (j : S3300000x64.Idx) :
    val_main_v111 (F := Ideal) x0 x1 x4 x5 x12 j = Host.gather gather_S100000x64_S3300000x1_S3300000x64_1_0_n_n_0_1_164 (val_main_v101 (F := Ideal) x0 x1 x4 x5 x12) (srcCol x1) j * val_main_v110 (F := Ideal) x1 j := by
  rw [val_main_v111_apply, Ideal.mulf_def]
  unfold val_main_v108
  rw [src_v107]

/-- Head lv_n at (n, l). -/
theorem lv_n_read (x0 : FArr S100000x128) (x1 : IArr S2x3200000) (x4 : FArr S128x32) (x5 : FArr S32) (x12 : FArr S32x64) (x13 : FArr S64) (n : Fin 100000) (l : Fin 64) :
    val_main_v117 (F := Ideal) x0 x1 x4 x5 x12 x13 (ix2 n l) = headTab x0 x1 x4 x5 x12 x13 n l := by
  rw [val_main_v117_apply, val_main_v116_apply, val_main_v115_apply, stage_v114, dst_v113]
  rw [show idx_main_v115 (idx_main_v116 (ix2 n l)) = ix1 l from funext fun a => Fin.ext (by match a with | ⟨0, _⟩ => rfl)]
  simp only [Ideal.addf_def]
  unfold headTab
  exact conv_read (N := 100000) (M := 3300000) (K := 32) (C := 64) hNodes gather_S100000x64_S3300000x1_S3300000x64_1_0_n_n_0_1_164 ⟨rfl, rfl, rfl, rfl, rfl, rfl, rfl⟩
    scatter_S100000x64_S3300000x1_S3300000x64_1_0_0_1 ⟨rfl, rfl, rfl, rfl⟩ (val_main_v112 (F := Ideal)) zero_v112
    (val_main_v101 (F := Ideal) x0 x1 x4 x5 x12) (hiddenTab x0 x1 x4 x5) (tab x12) (proj_v101 x0 x1 x4 x5 x12)
    (srcCol x1) (dstCol x1) (weight x1) (val_main_v110 (F := Ideal) x1) (wt_v110 x1)
    (val_main_v111 (F := Ideal) x0 x1 x4 x5 x12) (upd_v111 x0 x1 x4 x5 x12) (vec x13) n l

/-! ## The latent tables

z = mean + noise · exp (half · log-variance), entry by entry; half is the literal word of the float 0.5, kept as the
word. -/

/-- The literal one half, as the program prints it. -/
def half : EReal := Ideal.ofBits .f32 0x3F000000#32

/-- A latent table, from the matrices and biases of its mean head and its log-variance head and its noise array. -/
def latentTab (x0 : FArr S100000x128) (x1 : IArr S2x3200000) (x4 : FArr S128x32) (x5 : FArr S32)
    (Wmu : FArr S32x64) (bmu : FArr S64) (Wlv : FArr S32x64) (blv : FArr S64) (eps : FArr S100000x64) :
    Fin 100000 → Fin 64 → EReal :=
  Cert.Spec.sample half (headTab x0 x1 x4 x5 Wmu bmu) (headTab x0 x1 x4 x5 Wlv blv) (tab eps)

/-- The latent table of branch c at (n, l). -/
theorem latent_c_read (x0 : FArr S100000x128) (x1 : IArr S2x3200000) (x2 : FArr S100000x64) (x4 : FArr S128x32) (x5 : FArr S32) (x6 : FArr S32x64) (x7 : FArr S64) (x10 : FArr S32x64) (x11 : FArr S64) (n : Fin 100000) (l : Fin 64) :
    val_main_v122 (F := Ideal) x0 x1 x2 x4 x5 x6 x7 x10 x11 (ix2 n l) = latentTab x0 x1 x4 x5 x6 x7 x10 x11 x2 n l := by
  rw [val_main_v122_apply, val_main_v121_apply, val_main_v120_apply, val_main_v119_apply, val_main_v118_apply,
    val_main_cst_22_apply, mu_c_read, lv_c_read]
  simp only [Ideal.ofBits_def, Ideal.addf_def, Ideal.mulf_def, Ideal.hostUnary_exp_def]
  rfl

/-- The latent table of branch n at (n, l). -/
theorem latent_n_read (x0 : FArr S100000x128) (x1 : IArr S2x3200000) (x3 : FArr S100000x64) (x4 : FArr S128x32) (x5 : FArr S32) (x8 : FArr S32x64) (x9 : FArr S64) (x12 : FArr S32x64) (x13 : FArr S64) (n : Fin 100000) (l : Fin 64) :
    val_main_v127 (F := Ideal) x0 x1 x3 x4 x5 x8 x9 x12 x13 (ix2 n l) = latentTab x0 x1 x4 x5 x8 x9 x12 x13 x3 n l := by
  rw [val_main_v127_apply, val_main_v126_apply, val_main_v125_apply, val_main_v124_apply, val_main_v123_apply,
    val_main_cst_23_apply, mu_n_read, lv_n_read]
  simp only [Ideal.ofBits_def, Ideal.addf_def, Ideal.mulf_def, Ideal.hostUnary_exp_def]
  rfl

/-! ## The decoded tables

Two dense layers with tanh: 64 → 32 → 10. -/

/-- A decoded table, from a latent table and the two layers' matrices and biases. -/
def decodedTab (z : Fin 100000 → Fin 64 → EReal) (W1 : FArr S64x32) (b1 : FArr S32) (W2 : FArr S32x10) (b2 : FArr S10) :
    Fin 100000 → Fin 10 → EReal :=
  Cert.Spec.dense (Cert.Spec.dense z (tab W1) (vec b1)) (tab W2) (vec b2)

/-- Branch c, first dense layer at (n, c). -/
theorem dense1_c_read (x0 : FArr S100000x128) (x1 : IArr S2x3200000) (x2 : FArr S100000x64) (x4 : FArr S128x32) (x5 : FArr S32) (x6 : FArr S32x64) (x7 : FArr S64) (x10 : FArr S32x64) (x11 : FArr S64) (x14 : FArr S64x32) (x15 : FArr S32) (n : Fin 100000) (c : Fin 32) :
    val_main_v136 (F := Ideal) x0 x1 x2 x4 x5 x6 x7 x10 x11 x14 x15 (ix2 n c) = Cert.Spec.dense (latentTab x0 x1 x4 x5 x6 x7 x10 x11 x2) (tab x14) (vec x15) n c := by
  rw [val_main_v136_apply, val_main_v135_apply, val_main_v134_apply, val_main_v133_apply,
    mm_read (A := 100000) (K := 64) (B := 32) (val_main_v132 (F := Ideal) x0 x1 x2 x4 x5 x6 x7 x10 x11 x14) (val_main_v122 (F := Ideal) x0 x1 x2 x4 x5 x6 x7 x10 x11) x14 lidx_main_v132 ridx_main_v132
      (val_main_v132_apply x0 x1 x2 x4 x5 x6 x7 x10 x11 x14)
      (fun n c k => funext fun a => Fin.ext (by match a with | ⟨0, _⟩ => rfl | ⟨1, _⟩ => rfl))
      (fun n c k => funext fun a => Fin.ext (by match a with | ⟨0, _⟩ => rfl | ⟨1, _⟩ => rfl))
      (latentTab x0 x1 x4 x5 x6 x7 x10 x11 x2) (latent_c_read x0 x1 x2 x4 x5 x6 x7 x10 x11) n c]
  rw [show idx_main_v133 (idx_main_v134 (ix2 n c)) = ix1 c from funext fun a => Fin.ext (by match a with | ⟨0, _⟩ => rfl)]
  simp only [Ideal.addf_def, Ideal.hostUnary_tanh_def]
  rfl

/-- Branch c, the decoded table at (n, j). -/
theorem decoded_c_read (x0 : FArr S100000x128) (x1 : IArr S2x3200000) (x2 : FArr S100000x64) (x4 : FArr S128x32) (x5 : FArr S32) (x6 : FArr S32x64) (x7 : FArr S64) (x10 : FArr S32x64) (x11 : FArr S64) (x14 : FArr S64x32) (x15 : FArr S32) (x16 : FArr S32x10) (x17 : FArr S10) (n : Fin 100000) (j : Fin 10) :
    val_main_v141 (F := Ideal) x0 x1 x2 x4 x5 x6 x7 x10 x11 x14 x15 x16 x17 (ix2 n j) = decodedTab (latentTab x0 x1 x4 x5 x6 x7 x10 x11 x2) x14 x15 x16 x17 n j := by
  rw [val_main_v141_apply, val_main_v140_apply, val_main_v139_apply, val_main_v138_apply,
    mm_read (A := 100000) (K := 32) (B := 10) (val_main_v137 (F := Ideal) x0 x1 x2 x4 x5 x6 x7 x10 x11 x14 x15 x16) (val_main_v136 (F := Ideal) x0 x1 x2 x4 x5 x6 x7 x10 x11 x14 x15) x16 lidx_main_v137 ridx_main_v137
      (val_main_v137_apply x0 x1 x2 x4 x5 x6 x7 x10 x11 x14 x15 x16)
      (fun n c k => funext fun a => Fin.ext (by match a with | ⟨0, _⟩ => rfl | ⟨1, _⟩ => rfl))
      (fun n c k => funext fun a => Fin.ext (by match a with | ⟨0, _⟩ => rfl | ⟨1, _⟩ => rfl))
      (Cert.Spec.dense (latentTab x0 x1 x4 x5 x6 x7 x10 x11 x2) (tab x14) (vec x15)) (dense1_c_read x0 x1 x2 x4 x5 x6 x7 x10 x11 x14 x15) n j]
  rw [show idx_main_v138 (idx_main_v139 (ix2 n j)) = ix1 j from funext fun a => Fin.ext (by match a with | ⟨0, _⟩ => rfl)]
  simp only [Ideal.addf_def, Ideal.hostUnary_tanh_def]
  rfl

/-- Branch n, first dense layer at (n, c). -/
theorem dense1_n_read (x0 : FArr S100000x128) (x1 : IArr S2x3200000) (x3 : FArr S100000x64) (x4 : FArr S128x32) (x5 : FArr S32) (x8 : FArr S32x64) (x9 : FArr S64) (x12 : FArr S32x64) (x13 : FArr S64) (x18 : FArr S64x32) (x19 : FArr S32) (n : Fin 100000) (c : Fin 32) :
    val_main_v168 (F := Ideal) x0 x1 x3 x4 x5 x8 x9 x12 x13 x18 x19 (ix2 n c) = Cert.Spec.dense (latentTab x0 x1 x4 x5 x8 x9 x12 x13 x3) (tab x18) (vec x19) n c := by
  rw [val_main_v168_apply, val_main_v167_apply, val_main_v166_apply, val_main_v165_apply,
    mm_read (A := 100000) (K := 64) (B := 32) (val_main_v164 (F := Ideal) x0 x1 x3 x4 x5 x8 x9 x12 x13 x18) (val_main_v127 (F := Ideal) x0 x1 x3 x4 x5 x8 x9 x12 x13) x18 lidx_main_v164 ridx_main_v164
      (val_main_v164_apply x0 x1 x3 x4 x5 x8 x9 x12 x13 x18)
      (fun n c k => funext fun a => Fin.ext (by match a with | ⟨0, _⟩ => rfl | ⟨1, _⟩ => rfl))
      (fun n c k => funext fun a => Fin.ext (by match a with | ⟨0, _⟩ => rfl | ⟨1, _⟩ => rfl))
      (latentTab x0 x1 x4 x5 x8 x9 x12 x13 x3) (latent_n_read x0 x1 x3 x4 x5 x8 x9 x12 x13) n c]
  rw [show idx_main_v165 (idx_main_v166 (ix2 n c)) = ix1 c from funext fun a => Fin.ext (by match a with | ⟨0, _⟩ => rfl)]
  simp only [Ideal.addf_def, Ideal.hostUnary_tanh_def]
  rfl

/-- Branch n, the decoded table at (n, j). -/
theorem decoded_n_read (x0 : FArr S100000x128) (x1 : IArr S2x3200000) (x3 : FArr S100000x64) (x4 : FArr S128x32) (x5 : FArr S32) (x8 : FArr S32x64) (x9 : FArr S64) (x12 : FArr S32x64) (x13 : FArr S64) (x18 : FArr S64x32) (x19 : FArr S32) (x20 : FArr S32x10) (x21 : FArr S10) (n : Fin 100000) (j : Fin 10) :
    val_main_v173 (F := Ideal) x0 x1 x3 x4 x5 x8 x9 x12 x13 x18 x19 x20 x21 (ix2 n j) = decodedTab (latentTab x0 x1 x4 x5 x8 x9 x12 x13 x3) x18 x19 x20 x21 n j := by
  rw [val_main_v173_apply, val_main_v172_apply, val_main_v171_apply, val_main_v170_apply,
    mm_read (A := 100000) (K := 32) (B := 10) (val_main_v169 (F := Ideal) x0 x1 x3 x4 x5 x8 x9 x12 x13 x18 x19 x20) (val_main_v168 (F := Ideal) x0 x1 x3 x4 x5 x8 x9 x12 x13 x18 x19) x20 lidx_main_v169 ridx_main_v169
      (val_main_v169_apply x0 x1 x3 x4 x5 x8 x9 x12 x13 x18 x19 x20)
      (fun n c k => funext fun a => Fin.ext (by match a with | ⟨0, _⟩ => rfl | ⟨1, _⟩ => rfl))
      (fun n c k => funext fun a => Fin.ext (by match a with | ⟨0, _⟩ => rfl | ⟨1, _⟩ => rfl))
      (Cert.Spec.dense (latentTab x0 x1 x4 x5 x8 x9 x12 x13 x3) (tab x18) (vec x19)) (dense1_n_read x0 x1 x3 x4 x5 x8 x9 x12 x13 x18 x19) n j]
  rw [show idx_main_v170 (idx_main_v171 (ix2 n j)) = ix1 j from funext fun a => Fin.ext (by match a with | ⟨0, _⟩ => rfl)]
  simp only [Ideal.addf_def, Ideal.hostUnary_tanh_def]
  rfl

/-! ## The edge scores

For edge e the two decoded rows named by its end nodes are gathered, multiplied entry by entry, summed over the 10
columns, and put through the logistic, which the reference spells 1 / (1 + exp (−s)). -/

/-- Branch c, the score of edge e. -/
theorem score_c_read (x0 : FArr S100000x128) (x1 : IArr S2x3200000) (x2 : FArr S100000x64) (x4 : FArr S128x32) (x5 : FArr S32) (x6 : FArr S32x64) (x7 : FArr S64) (x10 : FArr S32x64) (x11 : FArr S64) (x14 : FArr S64x32) (x15 : FArr S32) (x16 : FArr S32x10) (x17 : FArr S10) (e : Fin 3200000) :
    val_main_v163 (F := Ideal) x0 x1 x2 x4 x5 x6 x7 x10 x11 x14 x15 x16 x17 (ix1 e) = Cert.Spec.score hNodes (e0Col x1) (e1Col x1) (decodedTab (latentTab x0 x1 x4 x5 x6 x7 x10 x11 x2) x14 x15 x16 x17) e := by
  rw [val_main_v163_apply, val_main_v162_apply, val_main_cst_30_apply, val_main_v161_apply, val_main_v160_apply,
    val_main_cst_29_apply, val_main_v159_apply, val_main_v158_apply, val_main_v157_apply, val_main_cst_28_apply]
  have hk : ∀ k : Fin 10, (val_main_v156 (F := Ideal) x0 x1 x2 x4 x5 x6 x7 x10 x11 x14 x15 x16 x17) (idx_main_v157 (ix1 e) k)
      = Host.gather gather_S100000x10_S3200000x1_S3200000x10_1_0_n_n_0_1_110 (val_main_v141 (F := Ideal) x0 x1 x2 x4 x5 x6 x7 x10 x11 x14 x15 x16 x17) (e0Col x1) (ix2 e k)
        * Host.gather gather_S100000x10_S3200000x1_S3200000x10_1_0_n_n_0_1_110 (val_main_v141 (F := Ideal) x0 x1 x2 x4 x5 x6 x7 x10 x11 x14 x15 x16 x17) (e1Col x1) (ix2 e k) := fun k => by
    rw [show idx_main_v157 (ix1 e) k = ix2 e k from funext fun a => Fin.ext (by match a with | ⟨0, _⟩ => rfl | ⟨1, _⟩ => rfl), val_main_v156_apply, Ideal.mulf_def]
    unfold val_main_v148 val_main_v155
    rw [e0_v147, e1_v154]
  simp only [hk, Ideal.ofBits_def, Ideal.hostDivf_def, Ideal.addf_def, Ideal.hostUnary_exp_def, Ideal.hostNegf_def,
    Ideal.negf_def]
  exact score_read (N := 100000) (E := 3200000) (C := 10) hNodes gather_S100000x10_S3200000x1_S3200000x10_1_0_n_n_0_1_110 ⟨rfl, rfl, rfl, rfl, rfl, rfl, rfl⟩
    (val_main_v141 (F := Ideal) x0 x1 x2 x4 x5 x6 x7 x10 x11 x14 x15 x16 x17) (decodedTab (latentTab x0 x1 x4 x5 x6 x7 x10 x11 x2) x14 x15 x16 x17) (decoded_c_read x0 x1 x2 x4 x5 x6 x7 x10 x11 x14 x15 x16 x17) (e0Col x1) (e1Col x1) e

/-- Branch n, the score of edge e. -/
theorem score_n_read (x0 : FArr S100000x128) (x1 : IArr S2x3200000) (x3 : FArr S100000x64) (x4 : FArr S128x32) (x5 : FArr S32) (x8 : FArr S32x64) (x9 : FArr S64) (x12 : FArr S32x64) (x13 : FArr S64) (x18 : FArr S64x32) (x19 : FArr S32) (x20 : FArr S32x10) (x21 : FArr S10) (e : Fin 3200000) :
    val_main_v195 (F := Ideal) x0 x1 x3 x4 x5 x8 x9 x12 x13 x18 x19 x20 x21 (ix1 e) = Cert.Spec.score hNodes (e0Col x1) (e1Col x1) (decodedTab (latentTab x0 x1 x4 x5 x8 x9 x12 x13 x3) x18 x19 x20 x21) e := by
  rw [val_main_v195_apply, val_main_v194_apply, val_main_cst_37_apply, val_main_v193_apply, val_main_v192_apply,
    val_main_cst_36_apply, val_main_v191_apply, val_main_v190_apply, val_main_v189_apply, val_main_cst_35_apply]
  have hk : ∀ k : Fin 10, (val_main_v188 (F := Ideal) x0 x1 x3 x4 x5 x8 x9 x12 x13 x18 x19 x20 x21) (idx_main_v189 (ix1 e) k)
      = Host.gather gather_S100000x10_S3200000x1_S3200000x10_1_0_n_n_0_1_110 (val_main_v173 (F := Ideal) x0 x1 x3 x4 x5 x8 x9 x12 x13 x18 x19 x20 x21) (e0Col x1) (ix2 e k)
        * Host.gather gather_S100000x10_S3200000x1_S3200000x10_1_0_n_n_0_1_110 (val_main_v173 (F := Ideal) x0 x1 x3 x4 x5 x8 x9 x12 x13 x18 x19 x20 x21) (e1Col x1) (ix2 e k) := fun k => by
    rw [show idx_main_v189 (ix1 e) k = ix2 e k from funext fun a => Fin.ext (by match a with | ⟨0, _⟩ => rfl | ⟨1, _⟩ => rfl), val_main_v188_apply, Ideal.mulf_def]
    unfold val_main_v180 val_main_v187
    rw [e0_v179, e1_v186]
  simp only [hk, Ideal.ofBits_def, Ideal.hostDivf_def, Ideal.addf_def, Ideal.hostUnary_exp_def, Ideal.hostNegf_def,
    Ideal.negf_def]
  exact score_read (N := 100000) (E := 3200000) (C := 10) hNodes gather_S100000x10_S3200000x1_S3200000x10_1_0_n_n_0_1_110 ⟨rfl, rfl, rfl, rfl, rfl, rfl, rfl⟩
    (val_main_v173 (F := Ideal) x0 x1 x3 x4 x5 x8 x9 x12 x13 x18 x19 x20 x21) (decodedTab (latentTab x0 x1 x4 x5 x8 x9 x12 x13 x3) x18 x19 x20 x21) (decoded_n_read x0 x1 x3 x4 x5 x8 x9 x12 x13 x18 x19 x20 x21) (e0Col x1) (e1Col x1) e

/-! ## Every weight is a real number

dis is, at every node, a choice between the reciprocal square root of max deg 1 and zero: a real number whatever the
degree array holds.  A weight is the product of two entries of dis, read by the two flat gathers at clamped
positions. -/

/-- dis at a node is a real number. -/
theorem dis_real (x1 : IArr S2x3200000) (i : S100000.Idx) : ∃ r : ℝ, val_main_v16 (F := Ideal) x1 i = (r : EReal) := by
  rw [val_main_v16_apply, val_main_call0_v1_apply, val_main_call0_v0_apply, val_main_cst_3_apply, val_main_v15_apply,
    val_main_v14_apply, val_main_v13_apply, val_main_cst_2_apply]
  simp only [Ideal.ofBits_def, Ideal.ofBits_zero_f32, ofBits_one_f32, Ideal.hostUnary_rsqrt_def, Ideal.maximumf_def]
  exact select_real _ _ (rsqrt_max_one_real _)

/-- The weight of message e is a real number. -/
theorem weight_real (x1 : IArr S2x3200000) (e : Fin 3300000) : ∃ r : ℝ, nrmVec x1 (ix1 e) = (r : EReal) := by
  have g23 : val_main_v23 (F := Ideal) x1 (ix1 e) = _ :=
    RowIndex.gather_row1_apply (α := EReal) (N := 100000) (M := 3300000) hNodes gather_S100000_S3300000x1_S3300000_n_0_n_n_0_1_1_wf
      (val_main_v16 (F := Ideal) x1) (val_main_v22 (F := Ideal) x1) e
  have g30 : val_main_v30 (F := Ideal) x1 (ix1 e) = _ :=
    RowIndex.gather_row1_apply (α := EReal) (N := 100000) (M := 3300000) hNodes gather_S100000_S3300000x1_S3300000_n_0_n_n_0_1_1_wf
      (val_main_v16 (F := Ideal) x1) (val_main_v29 (F := Ideal) x1) e
  unfold nrmVec
  rw [val_main_v31_apply, Ideal.mulf_def, g23, g30]
  exact mul_real (dis_real x1 _) (dis_real x1 _)

/-! ## The six results of a run

The run ends with each result buffer at the last stage of its chain; read at an index, these are the functions
above, of the argument arrays as the run found them. -/

section Results
variable (m : (ℓ : Loc nD τ sig) → Buf (Elt Ideal) ℓ) (c : Dev nD)

/-- Result 2, the mean head of branch c. -/
theorem out2_read (n : Fin 100000) (l : Fin 64) :
    (Cert.ReferenceIdeal.Value.res_out2 (F := Ideal) m c : FArr S100000x64) (ix2 n l)
      = headTab (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) n l :=
  (congrFun (val_main_v66_eq (F := Ideal) m c) (ix2 n l)).trans (mu_c_read _ _ _ _ _ _ n l)

/-- Result 3, the mean head of branch n. -/
theorem out3_read (n : Fin 100000) (l : Fin 64) :
    (Cert.ReferenceIdeal.Value.res_out3 (F := Ideal) m c : FArr S100000x64) (ix2 n l)
      = headTab (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) n l :=
  (congrFun (val_main_v83_eq (F := Ideal) m c) (ix2 n l)).trans (mu_n_read _ _ _ _ _ _ n l)

/-- Result 4, the log-variance head of branch c. -/
theorem out4_read (n : Fin 100000) (l : Fin 64) :
    (Cert.ReferenceIdeal.Value.res_out4 (F := Ideal) m c : FArr S100000x64) (ix2 n l)
      = headTab (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg10)) (m ((c.tc : Thread nD τ).loc main_arg11)) n l :=
  (congrFun (val_main_v100_eq (F := Ideal) m c) (ix2 n l)).trans (lv_c_read _ _ _ _ _ _ n l)

/-- Result 5, the log-variance head of branch n. -/
theorem out5_read (n : Fin 100000) (l : Fin 64) :
    (Cert.ReferenceIdeal.Value.res_out5 (F := Ideal) m c : FArr S100000x64) (ix2 n l)
      = headTab (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg12)) (m ((c.tc : Thread nD τ).loc main_arg13)) n l :=
  (congrFun (val_main_v117_eq (F := Ideal) m c) (ix2 n l)).trans (lv_n_read _ _ _ _ _ _ n l)

/-- Result 0, the edge scores of branch c. -/
theorem out0_read (e : Fin 3200000) :
    (Cert.ReferenceIdeal.Value.res_out0 (F := Ideal) m c : FArr S3200000) (ix1 e)
      = Cert.Spec.score hNodes (e0Col (m ((c.tc : Thread nD τ).loc main_arg1))) (e1Col (m ((c.tc : Thread nD τ).loc main_arg1)))
          (decodedTab (latentTab (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg2)))
            (m ((c.tc : Thread nD τ).loc main_arg14)) (m ((c.tc : Thread nD τ).loc main_arg15)) (m ((c.tc : Thread nD τ).loc main_arg16)) (m ((c.tc : Thread nD τ).loc main_arg17))) e :=
  (congrFun (val_main_v163_eq (F := Ideal) m c) (ix1 e)).trans (score_c_read _ _ _ _ _ _ _ _ _ _ _ _ _ e)

/-- Result 1, the edge scores of branch n. -/
theorem out1_read (e : Fin 3200000) :
    (Cert.ReferenceIdeal.Value.res_out1 (F := Ideal) m c : FArr S3200000) (ix1 e)
      = Cert.Spec.score hNodes (e0Col (m ((c.tc : Thread nD τ).loc main_arg1))) (e1Col (m ((c.tc : Thread nD τ).loc main_arg1)))
          (decodedTab (latentTab (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg3)))
            (m ((c.tc : Thread nD τ).loc main_arg18)) (m ((c.tc : Thread nD τ).loc main_arg19)) (m ((c.tc : Thread nD τ).loc main_arg20)) (m ((c.tc : Thread nD τ).loc main_arg21))) e :=
  (congrFun (val_main_v195_eq (F := Ideal) m c) (ix1 e)).trans (score_n_read _ _ _ _ _ _ _ _ _ _ _ _ _ e)

end Results

end Cert.RefValue

end
-- ==== Proof.GraphMatch.lean ====
/-
  One graph, held twice.

  Both programs derive from the edge array the same three things: the column of source indices with a self loop
  appended for every node (negative indices wrapped once), the column of destination indices likewise, and the
  vector of message weights dis (src) · dis (dst), where dis is the reciprocal square root of the in-degree (one where
  the degree is less).  The kernel program computes them once, in its first three stretches of host operations, and
  reads those buffers again before every gather and scatter; the reference recomputes the chains.  The chains are the
  same operations on the same edge array, so each buffer of the kernel program holds the value of the reference's
  stage of the same number.

  The proof goes stretch by stretch.  Each stretch is read as a term over the contents it starts from; the first
  stretch's terms are the reference's stages word for word, and the later stretches' terms become the reference's
  stages once the buffers they read are replaced by the stages those buffers were shown to hold.
-/
import proofs.«157918_j42898133352759_2_alg».proof.Proof.Run
import proofs.«157918_j42898133352759_2_alg».proof.Proof.KHost
import proofs.«157918_j42898133352759_2_alg».proof.Proof.KHost2
import proofs.«157918_j42898133352759_2_alg».proof.Proof.RefValue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

set_option maxHeartbeats 1000000

/-! ### The first stretch: the two index lists, the degree mask and the reciprocal square roots -/

/-- The source indices with one self loop per node appended. -/
theorem h0_v3 (V : Valuation τ sig (Elt Ideal)) :
    (StableHlo.after (hostOps0 (F := Ideal)) V (Proc.devRef .tc main_v3) : IVec S3300000 32)
      = val_main_v3 (F := Ideal) (V (Proc.devRef .tc main_arg1)) := by
  after_results
  rfl

/-- The destination indices with one self loop per node appended. -/
theorem h0_v6 (V : Valuation τ sig (Elt Ideal)) :
    (StableHlo.after (hostOps0 (F := Ideal)) V (Proc.devRef .tc main_v6) : IVec S3300000 32)
      = val_main_v6 (F := Ideal) (V (Proc.devRef .tc main_arg1)) := by
  after_results
  rfl

/-- The mask of the nodes of positive degree. -/
theorem h0_v12 (V : Valuation τ sig (Elt Ideal)) :
    (StableHlo.after (hostOps0 (F := Ideal)) V (Proc.devRef .tc main_v12) : IVec S100000 1)
      = val_main_v12 (F := Ideal) (V (Proc.devRef .tc main_arg1)) := by
  after_results
  unfold val_main_v12 val_main_v10 val_main_v11 val_main_v8 val_main_v9 val_main_v7 val_main_v6 val_main_v5 val_main_v4
    val_main_v0 val_main_cst val_main_cst_0 val_main_cst_1
  rfl

/-- The reciprocal square root of the degree, taken as at least one. -/
theorem h0_v15 (V : Valuation τ sig (Elt Ideal)) :
    (StableHlo.after (hostOps0 (F := Ideal)) V (Proc.devRef .tc main_v15) : FVec Ideal S100000 .f32)
      = val_main_v15 (F := Ideal) (V (Proc.devRef .tc main_arg1)) := by
  after_results
  unfold val_main_v15 val_main_v14 val_main_v13 val_main_v10 val_main_v8 val_main_v9 val_main_v7 val_main_v6 val_main_v5
    val_main_v4 val_main_v0 val_main_cst val_main_cst_0 val_main_cst_2
  rfl

/-- The zero the nodes of degree zero receive. -/
theorem h0_cst_3 (V : Valuation τ sig (Elt Ideal)) :
    (StableHlo.after (hostOps0 (F := Ideal)) V (Proc.devRef .tc main_cst_3) : FVec Ideal S_ .f32)
      = val_main_cst_3 (F := Ideal) := by
  after_results
  rfl

/-! ### The second stretch: zero where the degree is zero -/

/-- The factor of a node: its reciprocal square root where the degree is positive, zero elsewhere. -/
theorem h1_v16 (V : Valuation τ sig (Elt Ideal)) :
    (StableHlo.after (hostOps0_1 (F := Ideal)) V (Proc.devRef .tc main_v16) : FVec Ideal S100000 .f32)
      = select (V (Proc.devRef .tc main_v12) : IVec S100000 1) (V (Proc.devRef .tc main_v15) : FVec Ideal S100000 .f32)
          (broadcastInDim S100000 ![] bcast_S_S100000 (id (V (Proc.devRef .tc main_cst_3) : FVec Ideal S_ .f32))) := by
  after_results
  rfl

/-! ### The third stretch: the weight of a message is the product of the two factors of its end nodes -/

/-- The weights, as a term: each of the two index lists is wrapped (a negative index raised by the number of nodes) and
    laid out as a column — the wrapping written for the source list serves the destination list too —, the node factors
    are gathered at either column, and the two gathered vectors are multiplied. -/
theorem h2_v31 (V : Valuation τ sig (Elt Ideal)) :
    (StableHlo.after (hostOps0_2 (F := Ideal)) V (Proc.devRef .tc main_v31) : FVec Ideal S3300000 .f32)
      = (mulf (F := Ideal) (φ := .f32)
          (Host.gather gather_S100000_S3300000x1_S3300000_n_0_n_n_0_1_1 (V (Proc.devRef .tc main_v16) : FVec Ideal S100000 .f32)
            (srcColOf (V (Proc.devRef .tc main_v3) : IVec S3300000 32)))
          (Host.gather gather_S100000_S3300000x1_S3300000_n_0_n_n_0_1_1 (V (Proc.devRef .tc main_v16) : FVec Ideal S100000 .f32)
            (srcColOf (V (Proc.devRef .tc main_v6) : IVec S3300000 32))) : FVec Ideal S3300000 .f32) := by
  after_results
  rfl

/-! ### The three stretches in a row, from the launch memory -/

variable (m : (ℓ : Loc nD τ sig) → Buf (Elt Ideal) ℓ) (ρ : Dev nD → PrngReg) (c : Dev nD)

/-- The edge array, as launched. -/
abbrev edges : Cert.RefValue.IArr Cert.ReferenceIdeal.S2x3200000 := m ((c : Thread nD τ).loc main_arg1)

/-- The source indices with the self loops appended: the kernel program's buffer is the reference's stage.  The first
    stretch computes it and the two later ones leave it alone. -/
theorem graph_v3 : W3 m ρ c (Proc.devRef .tc main_v3) = val_main_v3 (F := Ideal) (edges m c) :=
  (W3_keep m ρ c main_v3 (by decide)).trans ((W2_keep m ρ c main_v3 (by decide)).trans (h0_v3 (W0 m ρ c)))

/-- The destination indices with the self loops appended. -/
theorem graph_v6 : W3 m ρ c (Proc.devRef .tc main_v6) = val_main_v6 (F := Ideal) (edges m c) :=
  (W3_keep m ρ c main_v6 (by decide)).trans ((W2_keep m ρ c main_v6 (by decide)).trans (h0_v6 (W0 m ρ c)))

/-- After the second stretch the two index lists are still the reference's stages. -/
theorem w2_v3 : W2 m ρ c (Proc.devRef .tc main_v3) = val_main_v3 (F := Ideal) (edges m c) :=
  (W2_keep m ρ c main_v3 (by decide)).trans (h0_v3 (W0 m ρ c))
theorem w2_v6 : W2 m ρ c (Proc.devRef .tc main_v6) = val_main_v6 (F := Ideal) (edges m c) :=
  (W2_keep m ρ c main_v6 (by decide)).trans (h0_v6 (W0 m ρ c))

/-- The node factors after the second stretch are the reference's stage. -/
theorem w2_v16 : W2 m ρ c (Proc.devRef .tc main_v16) = val_main_v16 (F := Ideal) (edges m c) := by
  have h := h1_v16 (StableHlo.after (hostOps0 (F := Ideal)) (W0 m ρ c))
  rw [h0_v12 (W0 m ρ c), h0_v15 (W0 m ρ c), h0_cst_3 (W0 m ρ c)] at h
  refine h.trans ?_
  unfold val_main_v16 val_main_call0_v1 val_main_call0_v0
  rfl

/-- The message weights. -/
theorem graph_v31 : W3 m ρ c (Proc.devRef .tc main_v31) = val_main_v31 (F := Ideal) (edges m c) := by
  have h := h2_v31 (W2 m ρ c)
  rw [w2_v16 m ρ c, w2_v3 m ρ c, w2_v6 m ρ c] at h
  refine h.trans ?_
  unfold val_main_v31 val_main_v23 val_main_v30 val_main_v22 val_main_v29 val_main_v21 val_main_v28 val_main_v18 val_main_v25
    val_main_v17 val_main_v24 val_main_c val_main_c_5 val_main_v20 val_main_v27 val_main_v19 val_main_v26 val_main_c_4
    val_main_c_6 srcColOf
  rfl

/-- The wrapped source column the kernel program's gathers read is the reference's. -/
theorem kSrc_eq : srcColOf (W3 m ρ c (Proc.devRef .tc main_v3)) = Cert.RefValue.srcCol (edges m c) := by
  rw [graph_v3]
  unfold srcColOf Cert.RefValue.srcCol val_main_v38 val_main_v37 val_main_v34 val_main_v33 val_main_c_7 val_main_v36
    val_main_v35 val_main_c_8
  rfl

/-- The destination column the kernel program's scatters read is the reference's. -/
theorem kDst_eq : dstColOf (W3 m ρ c (Proc.devRef .tc main_v6)) = Cert.RefValue.dstCol (edges m c) := by
  rw [graph_v6]
  unfold dstColOf Cert.RefValue.dstCol val_main_v44
  rfl

/-- The weight of message e is the reference's. -/
theorem kNrm_eq : (fun e : Fin 3300000 => (W3 m ρ c (Proc.devRef .tc main_v31) : S3300000.Idx → EReal) (ix1 e))
    = Cert.RefValue.weight (edges m c) := by
  rw [graph_v31]
  rfl

/-- The end-node columns of the edges: the kernel program's chains are the reference's. -/
theorem e0_eq : e0ColOf (edges m c) = Cert.RefValue.e0Col (edges m c) := by
  unfold e0ColOf Cert.RefValue.e0Col val_main_v147 val_main_v146 val_main_v143 val_main_v142 val_main_c_24 val_main_v145
    val_main_v144 val_main_c_25 val_main_v129 val_main_v128
  rfl
theorem e1_eq : e1ColOf (edges m c) = Cert.RefValue.e1Col (edges m c) := by
  unfold e1ColOf Cert.RefValue.e1Col val_main_v154 val_main_v153 val_main_v150 val_main_v149 val_main_c_26 val_main_v152
    val_main_v151 val_main_c_27 val_main_v131 val_main_v130
  rfl

end Cert.KernelIdeal.Hand

end
-- ==== Proof.Finite.lean ====
/-
  From the precondition to "every float input entry is a real number".

  The certificate's precondition is a printed predicate on the twenty-two arguments of the program.  For each of the
  twenty-one float arguments `a` it forms the array of bits `|a i| < +inf` (the absolute value of the entry compared,
  strictly, with the constant whose bit pattern 0x7F800000 is plus infinity), folds that array with bitwise "and"
  starting from 1 down to a single bit, and finally takes the bitwise "and" of the twenty-one bits.  The integer
  argument (the edge list) takes no part.  The precondition says that the resulting bit is 1.

  At the ideal values a float entry is an extended real, the absolute value is `max x (-x)`, and the comparison is
  the strict order of the extended reals.  So the precondition unwinds in three steps:

    * a bitwise "and" of one-bit words is 1 only if both words are 1, so each of the twenty-one bits is 1;
    * a fold by "and" from 1 that ends in 1 met only 1s, so the bit `|a i| < +inf` is 1 at every index `i`;
    * `max x (-x) < ⊤` excludes `x = ⊤` (directly) and `x = ⊥` (through `-⊥ = ⊤`), so `x` is a real number.

  `real_of_all` does the last two steps for an array of any shape; `all_real` does the first and applies it
  twenty-one times.
-/
import proofs.«157918_j42898133352759_2_alg».proof.Pre_finite_inputs
import proofs.«157918_j42898133352759_2_alg».proof.Proof.Gen.Pre_finite_inputs
import proofs.«157918_j42898133352759_2_alg».proof.Proof.Algebra
import Idealize.ShloMosaic.Lib.ReduceAll
import Idealize.ShloMosaic.PureOps.Ideal

namespace Cert.Finite

open Idealize.ShloMosaic Cert.Pre_finite_inputs Cert.Algebra

/-- The shape of a scalar has exactly one index: there is no axis to choose a coordinate on. -/
instance : Subsingleton S_.Idx := ⟨fun a b => funext fun d => d.elim0⟩

/-- The bit pattern 0x7F800000 (sign 0, exponent all ones, fraction 0) denotes plus infinity. -/
theorem ofBits_inf : Ideal.ofBits .f32 0x7F800000#32 = (⊤ : EReal) := by
  simp [Ideal.ofBits, Ideal.ieee]

/-- An extended real whose absolute value `max x (-x)` is strictly below plus infinity is a real number:
    plus infinity fails the test directly, minus infinity fails it through its negation. -/
theorem isReal_of_abs_lt_top (x : EReal) (h : max x (-x) < ⊤) : IsReal x := by
  induction x using EReal.rec with
  | bot => simp at h
  | coe r => exact ⟨r, rfl⟩
  | top => simp at h

/-- One `jnp.all(|a| < +inf)` read back.  If the conjunction, over all entries of `a`, of the bits
    "`|a i|` is strictly below the broadcast constant plus infinity" is 1, then every entry of `a` is a real number. -/
theorem real_of_all {S : Shape} {axes : List (Fin S.rank)} (a : FVec Ideal S .f32)
    (hb : S_.BroadcastsInDim S (![] : Fin 0 → Fin S.rank)) (hr : S.ReducesTo axes S_) (hh : 0 < S_.numel)
    (e : Host.reduce IntOp.andi
          (cmpf .olt (Host.absf a) (broadcastInDim S ![] hb (constant S_ .f32 0x7F800000#32)))
          (constantI S_ 1 1#1) hr hh ValueIdx.ix0 = 1#1) :
    ∀ i, IsReal (a i) := by
  intro i
  have hi := Host.reduce_andi_all _ _ hr hh _ e i
  change Ideal.cmp .olt (max (a i : EReal) (-(a i : EReal))) (Ideal.ofBits .f32 0x7F800000#32) = 1#1 at hi
  rw [ofBits_inf] at hi
  apply isReal_of_abs_lt_top
  by_contra hn
  simp [Ideal.cmp, hn] at hi

/-- The precondition read back in full.  The printed predicate is the conjunction of twenty-one bits, one for each
    float argument (the integer edge list `a1` is not tested), each bit being "every entry has absolute value strictly
    below plus infinity".  If the predicate is 1, each bit is 1, hence every entry of every float argument is a real
    number. -/
theorem all_real [Cert.Pre_finite_inputs.Facts]
    (a0 : FVec Ideal S100000x128 .f32)
    (a1 : IVec S2x3200000 32)
    (a2 : FVec Ideal S100000x64 .f32)
    (a3 : FVec Ideal S100000x64 .f32)
    (a4 : FVec Ideal S128x32 .f32)
    (a5 : FVec Ideal S32 .f32)
    (a6 : FVec Ideal S32x64 .f32)
    (a7 : FVec Ideal S64 .f32)
    (a8 : FVec Ideal S32x64 .f32)
    (a9 : FVec Ideal S64 .f32)
    (a10 : FVec Ideal S32x64 .f32)
    (a11 : FVec Ideal S64 .f32)
    (a12 : FVec Ideal S32x64 .f32)
    (a13 : FVec Ideal S64 .f32)
    (a14 : FVec Ideal S64x32 .f32)
    (a15 : FVec Ideal S32 .f32)
    (a16 : FVec Ideal S32x10 .f32)
    (a17 : FVec Ideal S10 .f32)
    (a18 : FVec Ideal S64x32 .f32)
    (a19 : FVec Ideal S32 .f32)
    (a20 : FVec Ideal S32x10 .f32)
    (a21 : FVec Ideal S10 .f32)
    (h : Cert.Pre_finite_inputs.fn (F := Ideal) a0 a1 a2 a3 a4 a5 a6 a7 a8 a9 a10 a11 a12 a13 a14 a15 a16 a17 a18 a19 a20 a21 = fun _ => 1#1) :
    (∀ i, IsReal (a0 i)) ∧
    (∀ i, IsReal (a2 i)) ∧
    (∀ i, IsReal (a3 i)) ∧
    (∀ i, IsReal (a4 i)) ∧
    (∀ i, IsReal (a5 i)) ∧
    (∀ i, IsReal (a6 i)) ∧
    (∀ i, IsReal (a7 i)) ∧
    (∀ i, IsReal (a8 i)) ∧
    (∀ i, IsReal (a9 i)) ∧
    (∀ i, IsReal (a10 i)) ∧
    (∀ i, IsReal (a11 i)) ∧
    (∀ i, IsReal (a12 i)) ∧
    (∀ i, IsReal (a13 i)) ∧
    (∀ i, IsReal (a14 i)) ∧
    (∀ i, IsReal (a15 i)) ∧
    (∀ i, IsReal (a16 i)) ∧
    (∀ i, IsReal (a17 i)) ∧
    (∀ i, IsReal (a18 i)) ∧
    (∀ i, IsReal (a19 i)) ∧
    (∀ i, IsReal (a20 i)) ∧
    (∀ i, IsReal (a21 i)) := by
  -- the predicate at the one index of its scalar result
  have h0 := congrFun h ValueIdx.ix0
  -- unfold the chain of operations (it is printed in seven pieces) down to the nest of bitwise "and"s
  dsimp only [fn, fn_part1, fn_part2, fn_part3, fn_part4, fn_part5, fn_part6, andi] at h0
  -- a bitwise "and" of two one-bit words is 1 exactly when both are: the nest becomes a conjunction of 21 facts
  simp only [IntOp.andi_eq_one, and_assoc] at h0
  obtain ⟨h_0, h_2, h_3, h_4, h_5, h_6, h_7, h_8, h_9, h_10, h_11, h_12, h_13, h_14, h_15, h_16, h_17, h_18, h_19, h_20, h_21⟩ := h0
  -- each fact is one `jnp.all(|a| < +inf) = 1`, read back by the lemma above
  exact ⟨real_of_all a0 _ _ _ h_0,
    real_of_all a2 _ _ _ h_2,
    real_of_all a3 _ _ _ h_3,
    real_of_all a4 _ _ _ h_4,
    real_of_all a5 _ _ _ h_5,
    real_of_all a6 _ _ _ h_6,
    real_of_all a7 _ _ _ h_7,
    real_of_all a8 _ _ _ h_8,
    real_of_all a9 _ _ _ h_9,
    real_of_all a10 _ _ _ h_10,
    real_of_all a11 _ _ _ h_11,
    real_of_all a12 _ _ _ h_12,
    real_of_all a13 _ _ _ h_13,
    real_of_all a14 _ _ _ h_14,
    real_of_all a15 _ _ _ h_15,
    real_of_all a16 _ _ _ h_16,
    real_of_all a17 _ _ _ h_17,
    real_of_all a18 _ _ _ h_18,
    real_of_all a19 _ _ _ h_19,
    real_of_all a20 _ _ _ h_20,
    real_of_all a21 _ _ _ h_21⟩

end Cert.Finite
-- ==== Proof.WeightsReal.lean ====
/-
  The edge weights of the reference are real numbers.

  From the edge list alone the reference computes, for every node, its in-degree `deg` (a scatter-add of ones), then

      dis = if deg > 0 then 1 / √(max deg 1) else 0 ,

  and, for every edge `e` (self loops included), the weight  nrm e = dis (source of e) · dis (destination of e),
  where the two factors are gathers from `dis` at the edge's end points.

  Nothing has to be known about `deg` to see that `dis` is real at every node: `max d 1 ≥ 1` for every extended real
  `d`, the reciprocal square root of an extended real that is at least 1 is a real number (it is 0 at plus infinity and
  `1 / √r` at a real `r ≥ 1`), and the other branch is the constant 0.  A gathered entry is, by the definition of a
  gather, an entry of the operand, so both factors of a weight are real, and a product of two reals is real.
-/
import proofs.«157918_j42898133352759_2_alg».proof.Proof.RefGen
import proofs.«157918_j42898133352759_2_alg».proof.Proof.Algebra
import proofs.«157918_j42898133352759_2_alg».proof.Proof.LibRowGatherScatter

namespace Cert.WeightsReal

open Idealize.ShloMosaic Cert.ReferenceIdeal Cert.ReferenceIdeal.Read Cert.Algebra

/-- The bit pattern 0x3F800000 (sign 0, biased exponent 127, fraction 0) denotes the number 1. -/
theorem ofBits_one : Ideal.ofBits .f32 0x3F800000#32 = (1 : EReal) := by
  simp [Ideal.ofBits, Ideal.ieee]
  -- what is left is the arithmetic 2^23 * (2^23)⁻¹ = 1 among real numbers seen as extended reals
  norm_cast
  norm_num

/-- The reciprocal square root of an extended real that is at least 1 is a real number: at plus infinity it is 0,
    and at a real `r ≥ 1` it is `1 / √r` (neither of the two exceptional branches, `r < 0` and `r = 0`, is taken). -/
theorem isReal_rsqrt_of_one_le (y : EReal) (h : 1 ≤ y) : IsReal (Ideal.rsqrt y) := by
  induction y using EReal.rec with
  | bot => exact absurd h (not_le.mpr (by rw [← EReal.coe_one]; exact EReal.bot_lt_coe 1))
  | coe r =>
    have hr : (1 : ℝ) ≤ r := by exact_mod_cast h
    rw [Ideal.rsqrt_coe, if_neg (by linarith), if_neg (by linarith)]
    exact ⟨_, rfl⟩
  | top => exact ⟨0, by simp⟩

/-- The inverse square root of the degree, guarded: `if c then 1/√(max d 1) else 0`.  Whatever the bit `c` and whatever
    the extended real `d` are, the result is a real number: `max d 1` is at least 1, and 0 is real. -/
theorem isReal_guarded_rsqrt (c : BitVec 1) (d : EReal) :
    IsReal (Scalar.select c (FloatOps.hostUnary (F := Ideal) (φ := .f32) .rsqrt
        (FloatOps.maximumf (F := Ideal) (φ := .f32) d (FloatOps.ofBits (F := Ideal) .f32 0x3F800000#32)))
      (FloatOps.ofBits (F := Ideal) .f32 0x00000000#32)) := by
  unfold Scalar.select
  split
  · rw [Ideal.hostUnary_rsqrt_def, Ideal.maximumf_def, Ideal.ofBits_def, ofBits_one]
    exact isReal_rsqrt_of_one_le _ (le_max_right _ _)
  · rw [Ideal.ofBits_def, Ideal.ofBits_zero_f32]
    exact isReal_zero

/-- The scaled inverse square root of the in-degree, `dis`, is a real number at every node, whatever the edge list
    is: its value at a node is the guarded reciprocal square root above, of the degree found by the scatter. -/
theorem dis_real (x1 : (⟨S2x3200000, .i32⟩ : BufTy).Contents (Elt Ideal)) (i : S100000.Idx) :
    IsReal (val_main_v16 (F := Ideal) x1 i) := by
  rw [val_main_v16_apply, val_main_v15_apply, val_main_v14_apply, val_main_v13_apply, val_main_cst_2_apply,
    val_main_call0_v1_apply, val_main_call0_v0_apply, val_main_cst_3_apply]
  exact isReal_guarded_rsqrt _ _

/-- THE EDGE WEIGHTS ARE REAL NUMBERS.  The weight of edge `e` is the product of `dis` at the edge's source and `dis` at
    its destination.  Each factor is a gather from `dis`, and a gathered entry is, by the definition of a gather, the
    entry of the operand at some index computed from the start indices; so each factor is a real number, and so is
    the product. -/
theorem weights_real (x1 : (⟨S2x3200000, .i32⟩ : BufTy).Contents (Elt Ideal)) (e : Fin 3300000) :
    IsReal ((val_main_v31 (F := Ideal) x1 : S3300000.Idx → EReal) (ValueIdx.ix1 e)) := by
  rw [val_main_v31_apply, Ideal.mulf_def]
  refine IsReal.mul ?_ ?_
  · unfold val_main_v23 Host.gather
    exact dis_real x1 _
  · unfold val_main_v30 Host.gather
    exact dis_real x1 _

end Cert.WeightsReal
-- ==== Proof.Bridge.lean ====
/-
  The two programs compute the same six arrays.

  At the ideal instance the kernel program ends with, in its result buffers, the four heads  agg (H · W) + b  of the
  hidden table H and the logistic scores of the two decoded tables, written over the graph as the KERNEL program holds
  it; the reference ends with the same expressions over the graph as IT holds it.  The graphs are one graph, the
  argument arrays agree, and under the precondition every input entry is a real number — which is what the one
  rearrangement the kernel makes (the matrix product taken after message passing instead of before it) needs.
-/
import proofs.«157918_j42898133352759_2_alg».proof.Defs
import proofs.«157918_j42898133352759_2_alg».proof.Proof.KChain2
import proofs.«157918_j42898133352759_2_alg».proof.Proof.KChain2Dec
import proofs.«157918_j42898133352759_2_alg».proof.Proof.KChain3
import proofs.«157918_j42898133352759_2_alg».proof.Proof.GraphMatch
import proofs.«157918_j42898133352759_2_alg».proof.Proof.RefValue
import proofs.«157918_j42898133352759_2_alg».proof.Proof.Finite
import proofs.«157918_j42898133352759_2_alg».proof.Proof.WeightsReal
import proofs.«157918_j42898133352759_2_alg».proof.Proof.Gen.Pre_finite_inputs

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Hand
open Cert.Algebra

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- The reference's memory holds the kernel program's argument arrays. -/
def Agree : Prop :=
  m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20)
      ∧ m' ((c.tc : Thread Cert.ReferenceIdeal.nD Cert.ReferenceIdeal.τ).loc Cert.ReferenceIdeal.main_arg21) = m ((c.tc : Thread nD τ).loc main_arg21)

/-- Under the precondition every entry of every float argument of the kernel program is a real number. -/
theorem args_real (hpre : Cert.Pre_KernelIdeal (hPre_finite_inputs := Cert.Pre_finite_inputs.Gen.facts) m) :
    (∀ i, IsReal (m ((c.tc : Thread nD τ).loc main_arg0) i))
      ∧ (∀ i, IsReal (m ((c.tc : Thread nD τ).loc main_arg2) i))
      ∧ (∀ i, IsReal (m ((c.tc : Thread nD τ).loc main_arg3) i))
      ∧ (∀ i, IsReal (m ((c.tc : Thread nD τ).loc main_arg4) i))
      ∧ (∀ i, IsReal (m ((c.tc : Thread nD τ).loc main_arg5) i))
      ∧ (∀ i, IsReal (m ((c.tc : Thread nD τ).loc main_arg6) i))
      ∧ (∀ i, IsReal (m ((c.tc : Thread nD τ).loc main_arg7) i))
      ∧ (∀ i, IsReal (m ((c.tc : Thread nD τ).loc main_arg8) i))
      ∧ (∀ i, IsReal (m ((c.tc : Thread nD τ).loc main_arg9) i))
      ∧ (∀ i, IsReal (m ((c.tc : Thread nD τ).loc main_arg10) i))
      ∧ (∀ i, IsReal (m ((c.tc : Thread nD τ).loc main_arg11) i))
      ∧ (∀ i, IsReal (m ((c.tc : Thread nD τ).loc main_arg12) i))
      ∧ (∀ i, IsReal (m ((c.tc : Thread nD τ).loc main_arg13) i))
      ∧ (∀ i, IsReal (m ((c.tc : Thread nD τ).loc main_arg14) i))
      ∧ (∀ i, IsReal (m ((c.tc : Thread nD τ).loc main_arg15) i))
      ∧ (∀ i, IsReal (m ((c.tc : Thread nD τ).loc main_arg16) i))
      ∧ (∀ i, IsReal (m ((c.tc : Thread nD τ).loc main_arg17) i))
      ∧ (∀ i, IsReal (m ((c.tc : Thread nD τ).loc main_arg18) i))
      ∧ (∀ i, IsReal (m ((c.tc : Thread nD τ).loc main_arg19) i))
      ∧ (∀ i, IsReal (m ((c.tc : Thread nD τ).loc main_arg20) i))
      ∧ (∀ i, IsReal (m ((c.tc : Thread nD τ).loc main_arg21) i)) :=
  @Cert.Finite.all_real Cert.Pre_finite_inputs.Gen.facts
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (hpre c)

/-- Every message weight, as the kernel program holds it, is a real number: it is the reference's weight, a product
    of two guarded reciprocal square roots. -/
theorem weights_real' : ∀ e : Fin 3300000, IsReal (kNrm m ρ c e) := fun e => by
  have h := congrFun (kNrm_eq m ρ c) e
  rw [show kNrm m ρ c e = _ from h]
  exact Cert.WeightsReal.weights_real (edges m c) e

/-- The mean head of branch c: the kernel program's array is the reference's. -/
theorem res_out2_eq (hpre : Cert.Pre_KernelIdeal (hPre_finite_inputs := Cert.Pre_finite_inputs.Gen.facts) m)
    (hag : Agree m m' c) :
    (W13 m ρ c (Proc.devRef .tc main_v71_0) : S100000x64.Idx → EReal) = Cert.ReferenceIdeal.Value.res_out2 (F := Ideal) m' c := by
  obtain ⟨h0, h2, h3, h4, h5, h6, h7, h8, h9, h10, h11, h12, h13, h14, h15, h16, h17, h18, h19, h20, h21⟩ := args_real m c hpre
  obtain ⟨a0, a1, a2, a3, a4, a5, a6, a7, a8, a9, a10, a11, a12, a13, a14, a15, a16, a17, a18, a19, a20, a21⟩ := hag
  funext i
  obtain ⟨n, l, rfl⟩ : ∃ (n : Fin 100000) (l : Fin 64), i = ix2 n l := ⟨i 0, i 1, eq_ix2 i⟩
  rw [k_keep_mu0 m ρ c]
  refine (k_mu_c m ρ c (weights_real' m ρ c) h0 h4 h5 h6 n l).trans ?_
  refine Eq.trans ?_ (Cert.RefValue.out2_read m' c n l).symm
  rw [a0, a1, a4, a5, a6, a7]
  unfold Cert.RefValue.headTab Cert.RefValue.hiddenTab
  rw [← kSrc_eq m ρ c, ← kDst_eq m ρ c, ← kNrm_eq m ρ c]

/-- The mean head of branch n: the kernel program's array is the reference's. -/
theorem res_out3_eq (hpre : Cert.Pre_KernelIdeal (hPre_finite_inputs := Cert.Pre_finite_inputs.Gen.facts) m)
    (hag : Agree m m' c) :
    (W13 m ρ c (Proc.devRef .tc main_v71_1) : S100000x64.Idx → EReal) = Cert.ReferenceIdeal.Value.res_out3 (F := Ideal) m' c := by
  obtain ⟨h0, h2, h3, h4, h5, h6, h7, h8, h9, h10, h11, h12, h13, h14, h15, h16, h17, h18, h19, h20, h21⟩ := args_real m c hpre
  obtain ⟨a0, a1, a2, a3, a4, a5, a6, a7, a8, a9, a10, a11, a12, a13, a14, a15, a16, a17, a18, a19, a20, a21⟩ := hag
  funext i
  obtain ⟨n, l, rfl⟩ : ∃ (n : Fin 100000) (l : Fin 64), i = ix2 n l := ⟨i 0, i 1, eq_ix2 i⟩
  rw [k_keep_mu1 m ρ c]
  refine (k_mu_n m ρ c (weights_real' m ρ c) h0 h4 h5 h8 n l).trans ?_
  refine Eq.trans ?_ (Cert.RefValue.out3_read m' c n l).symm
  rw [a0, a1, a4, a5, a8, a9]
  unfold Cert.RefValue.headTab Cert.RefValue.hiddenTab
  rw [← kSrc_eq m ρ c, ← kDst_eq m ρ c, ← kNrm_eq m ρ c]

/-- The log-variance head of branch c: the kernel program's array is the reference's. -/
theorem res_out4_eq (hpre : Cert.Pre_KernelIdeal (hPre_finite_inputs := Cert.Pre_finite_inputs.Gen.facts) m)
    (hag : Agree m m' c) :
    (W13 m ρ c (Proc.devRef .tc main_v71_2) : S100000x64.Idx → EReal) = Cert.ReferenceIdeal.Value.res_out4 (F := Ideal) m' c := by
  obtain ⟨h0, h2, h3, h4, h5, h6, h7, h8, h9, h10, h11, h12, h13, h14, h15, h16, h17, h18, h19, h20, h21⟩ := args_real m c hpre
  obtain ⟨a0, a1, a2, a3, a4, a5, a6, a7, a8, a9, a10, a11, a12, a13, a14, a15, a16, a17, a18, a19, a20, a21⟩ := hag
  funext i
  obtain ⟨n, l, rfl⟩ : ∃ (n : Fin 100000) (l : Fin 64), i = ix2 n l := ⟨i 0, i 1, eq_ix2 i⟩
  rw [k_keep_mu2 m ρ c]
  refine (k_lv_c m ρ c (weights_real' m ρ c) h0 h4 h5 h10 n l).trans ?_
  refine Eq.trans ?_ (Cert.RefValue.out4_read m' c n l).symm
  rw [a0, a1, a4, a5, a10, a11]
  unfold Cert.RefValue.headTab Cert.RefValue.hiddenTab
  rw [← kSrc_eq m ρ c, ← kDst_eq m ρ c, ← kNrm_eq m ρ c]

/-- The log-variance head of branch n: the kernel program's array is the reference's. -/
theorem res_out5_eq (hpre : Cert.Pre_KernelIdeal (hPre_finite_inputs := Cert.Pre_finite_inputs.Gen.facts) m)
    (hag : Agree m m' c) :
    (W13 m ρ c (Proc.devRef .tc main_v71_3) : S100000x64.Idx → EReal) = Cert.ReferenceIdeal.Value.res_out5 (F := Ideal) m' c := by
  obtain ⟨h0, h2, h3, h4, h5, h6, h7, h8, h9, h10, h11, h12, h13, h14, h15, h16, h17, h18, h19, h20, h21⟩ := args_real m c hpre
  obtain ⟨a0, a1, a2, a3, a4, a5, a6, a7, a8, a9, a10, a11, a12, a13, a14, a15, a16, a17, a18, a19, a20, a21⟩ := hag
  funext i
  obtain ⟨n, l, rfl⟩ : ∃ (n : Fin 100000) (l : Fin 64), i = ix2 n l := ⟨i 0, i 1, eq_ix2 i⟩
  rw [k_keep_mu3 m ρ c]
  refine (k_lv_n m ρ c (weights_real' m ρ c) h0 h4 h5 h12 n l).trans ?_
  refine Eq.trans ?_ (Cert.RefValue.out5_read m' c n l).symm
  rw [a0, a1, a4, a5, a12, a13]
  unfold Cert.RefValue.headTab Cert.RefValue.hiddenTab
  rw [← kSrc_eq m ρ c, ← kDst_eq m ρ c, ← kNrm_eq m ρ c]

/-- The edge scores of branch c: the kernel program's array is the reference's. -/
theorem res_out0_eq (hpre : Cert.Pre_KernelIdeal (hPre_finite_inputs := Cert.Pre_finite_inputs.Gen.facts) m)
    (hag : Agree m m' c) :
    (W13 m ρ c (Proc.devRef .tc main_v92) : S3200000.Idx → EReal) = Cert.ReferenceIdeal.Value.res_out0 (F := Ideal) m' c := by
  obtain ⟨h0, h2, h3, h4, h5, h6, h7, h8, h9, h10, h11, h12, h13, h14, h15, h16, h17, h18, h19, h20, h21⟩ := args_real m c hpre
  obtain ⟨a0, a1, a2, a3, a4, a5, a6, a7, a8, a9, a10, a11, a12, a13, a14, a15, a16, a17, a18, a19, a20, a21⟩ := hag
  funext i
  obtain ⟨e, rfl⟩ : ∃ e : Fin 3200000, i = ix1 e := ⟨i 0, eq_ix1 i⟩
  refine (k_score_c m ρ c e).trans ?_
  refine Eq.trans ?_ (Cert.RefValue.out0_read m' c e).symm
  rw [a0, a1, a2, a4, a5, a6, a7, a10, a11, a14, a15, a16, a17]
  rw [← e0_eq m c, ← e1_eq m c]
  refine congrArg (fun d => Cert.Spec.score _ _ _ d e) ?_
  funext n j
  refine (k_dec_c m ρ c (weights_real' m ρ c) h0 h4 h5 h6 h10 n j).trans ?_
  unfold Cert.RefValue.decodedTab Cert.RefValue.latentTab Cert.RefValue.headTab Cert.RefValue.hiddenTab Cert.RefValue.half
  rw [← kSrc_eq m ρ c, ← kDst_eq m ρ c, ← kNrm_eq m ρ c]

/-- The edge scores of branch n: the kernel program's array is the reference's. -/
theorem res_out1_eq (hpre : Cert.Pre_KernelIdeal (hPre_finite_inputs := Cert.Pre_finite_inputs.Gen.facts) m)
    (hag : Agree m m' c) :
    (W13 m ρ c (Proc.devRef .tc main_v93) : S3200000.Idx → EReal) = Cert.ReferenceIdeal.Value.res_out1 (F := Ideal) m' c := by
  obtain ⟨h0, h2, h3, h4, h5, h6, h7, h8, h9, h10, h11, h12, h13, h14, h15, h16, h17, h18, h19, h20, h21⟩ := args_real m c hpre
  obtain ⟨a0, a1, a2, a3, a4, a5, a6, a7, a8, a9, a10, a11, a12, a13, a14, a15, a16, a17, a18, a19, a20, a21⟩ := hag
  funext i
  obtain ⟨e, rfl⟩ : ∃ e : Fin 3200000, i = ix1 e := ⟨i 0, eq_ix1 i⟩
  refine (k_score_n m ρ c e).trans ?_
  refine Eq.trans ?_ (Cert.RefValue.out1_read m' c e).symm
  rw [a0, a1, a3, a4, a5, a8, a9, a12, a13, a18, a19, a20, a21]
  rw [← e0_eq m c, ← e1_eq m c]
  refine congrArg (fun d => Cert.Spec.score _ _ _ d e) ?_
  funext n j
  refine (k_dec_n m ρ c (weights_real' m ρ c) h0 h4 h5 h8 h12 n j).trans ?_
  unfold Cert.RefValue.decodedTab Cert.RefValue.latentTab Cert.RefValue.headTab Cert.RefValue.hiddenTab Cert.RefValue.half
  rw [← kSrc_eq m ρ c, ← kDst_eq m ρ c, ← kNrm_eq m ρ c]

end Cert.Bridge

end
-- ==== Proof.lean ====
/-
  A graph network on 100000 nodes and 3200000 edges — two rounds of message passing with symmetric degree
  normalisation, a reparameterised sample, a two-layer tanh decoder and a logistic score per edge — computed by a
  program of five kernel regions among host gathers and scatter-adds, against its plain reference.

  The frames: every region's body loads whole blocks, computes, and stores whole blocks, so each region runs from the
  contents it is entered at to the same contents with its output arrays rewritten; the host stretches run by
  themselves; no item writes an argument array.  The reference has no kernel: its run is its operations in order.
  The ideal pass rewrote nothing, so the idealisation is the program's own text read over the extended reals.

  The values: over the extended reals both programs compute, per node, the hidden table
  H = relu (agg (x · W_shared) + b_shared) and four heads; the reference computes a head as  agg (H · W) + b,  the
  kernel program as  (agg H) · W + b  with the four W side by side.  These agree because message passing is a finite
  sum with real weights and all inputs are real under the precondition, so the product distributes over it.  The
  sample, the decoder and the edge scores are the same expressions on both sides, the graph is the same graph, and a
  change of float format is the identity.
-/
import proofs.«157918_j42898133352759_2_alg».proof.Defs
import proofs.«157918_j42898133352759_2_alg».proof.Proof.Gen.Kernel
import proofs.«157918_j42898133352759_2_alg».proof.Proof.Gen.KernelIdeal
import proofs.«157918_j42898133352759_2_alg».proof.Proof.Gen.ReferenceIdeal
import proofs.«157918_j42898133352759_2_alg».proof.Proof.Gen.Pre_finite_inputs
import proofs.«157918_j42898133352759_2_alg».proof.Proof.RefGen
import proofs.«157918_j42898133352759_2_alg».proof.Proof.Run
import proofs.«157918_j42898133352759_2_alg».proof.Proof.KRun
import proofs.«157918_j42898133352759_2_alg».proof.Proof.Bridge

set_option maxRecDepth 16384

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealised kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2) (Cert.ReferenceIdeal.Value.run (F := Ideal) m ρ)

/-- The ideal pass rewrote nothing. -/
theorem preserves : Cert.preserves_Kernel_KernelIdeal := trivial

open Cert.KernelIdeal Cert.KernelIdeal.Gen Cert.KernelIdeal.Hand in
/-- From memories agreeing on the arguments both idealised programs run and end with the same six arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W13 m ρ c (Proc.devRef .tc main_v92),
    fun c => W13 m ρ c (Proc.devRef .tc main_v93),
    fun c => W13 m ρ c (Proc.devRef .tc main_v71_0),
    fun c => W13 m ρ c (Proc.devRef .tc main_v71_1),
    fun c => W13 m ρ c (Proc.devRef .tc main_v71_2),
    fun c => W13 m ρ c (Proc.devRef .tc main_v71_3), ?_, ?_⟩
  · refine (θ_run _ _ _).mono (fun r h c => ?_) (run_all m ρ)
    exact ⟨h c _ (mem_uc main_v92 (by decide)), h c _ (mem_uc main_v93 (by decide)), h c _ (mem_uc main_v71_0 (by decide)), h c _ (mem_uc main_v71_1 (by decide)), h c _ (mem_uc main_v71_2 (by decide)), h c _ (mem_uc main_v71_3 (by decide)),
      (h c _ (mem_uc main_arg0 (by decide))).trans (keep_all m ρ c main_arg0 (by decide)).1,
      (h c _ (mem_uc main_arg1 (by decide))).trans (keep_all m ρ c main_arg1 (by decide)).1,
      (h c _ (mem_uc main_arg2 (by decide))).trans (keep_all m ρ c main_arg2 (by decide)).1,
      (h c _ (mem_uc main_arg3 (by decide))).trans (keep_all m ρ c main_arg3 (by decide)).1,
      (h c _ (mem_uc main_arg4 (by decide))).trans (keep_all m ρ c main_arg4 (by decide)).1,
      (h c _ (mem_uc main_arg5 (by decide))).trans (keep_all m ρ c main_arg5 (by decide)).1,
      (h c _ (mem_uc main_arg6 (by decide))).trans (keep_all m ρ c main_arg6 (by decide)).1,
      (h c _ (mem_uc main_arg7 (by decide))).trans (keep_all m ρ c main_arg7 (by decide)).1,
      (h c _ (mem_uc main_arg8 (by decide))).trans (keep_all m ρ c main_arg8 (by decide)).1,
      (h c _ (mem_uc main_arg9 (by decide))).trans (keep_all m ρ c main_arg9 (by decide)).1,
      (h c _ (mem_uc main_arg10 (by decide))).trans (keep_all m ρ c main_arg10 (by decide)).1,
      (h c _ (mem_uc main_arg11 (by decide))).trans (keep_all m ρ c main_arg11 (by decide)).1,
      (h c _ (mem_uc main_arg12 (by decide))).trans (keep_all m ρ c main_arg12 (by decide)).1,
      (h c _ (mem_uc main_arg13 (by decide))).trans (keep_all m ρ c main_arg13 (by decide)).1,
      (h c _ (mem_uc main_arg14 (by decide))).trans (keep_all m ρ c main_arg14 (by decide)).1,
      (h c _ (mem_uc main_arg15 (by decide))).trans (keep_all m ρ c main_arg15 (by decide)).1,
      (h c _ (mem_uc main_arg16 (by decide))).trans (keep_all m ρ c main_arg16 (by decide)).1,
      (h c _ (mem_uc main_arg17 (by decide))).trans (keep_all m ρ c main_arg17 (by decide)).1,
      (h c _ (mem_uc main_arg18 (by decide))).trans (keep_all m ρ c main_arg18 (by decide)).1,
      (h c _ (mem_uc main_arg19 (by decide))).trans (keep_all m ρ c main_arg19 (by decide)).1,
      (h c _ (mem_uc main_arg20 (by decide))).trans (keep_all m ρ c main_arg20 (by decide)).1,
      (h c _ (mem_uc main_arg21 (by decide))).trans (keep_all m ρ c main_arg21 (by decide)).1⟩
  · refine (θ_run _ _ _).mono (fun r h c => ?_) (Cert.ReferenceIdeal.Value.run (F := Ideal) m' ρ')
    obtain ⟨r0, r1, r2, r3, r4, r5, hargs⟩ := h c
    exact ⟨r0.trans (Cert.Bridge.res_out0_eq m ρ m' c hpre (hagree c)).symm,
      r1.trans (Cert.Bridge.res_out1_eq m ρ m' c hpre (hagree c)).symm,
      r2.trans (Cert.Bridge.res_out2_eq m ρ m' c hpre (hagree c)).symm,
      r3.trans (Cert.Bridge.res_out3_eq m ρ m' c hpre (hagree c)).symm,
      r4.trans (Cert.Bridge.res_out4_eq m ρ m' c hpre (hagree c)).symm,
      r5.trans (Cert.Bridge.res_out5_eq m ρ m' c hpre (hagree c)).symm, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
